-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v132)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2 .f32) (main_v33 : IVec S_ 1) : IVec S_ 1 :=
  let main_v34 : FVec F S2 .f32 := Host.absf main_arg8
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg5 : FVec F S4x128x128 .f32) (main_arg6 : FVec F S4x128 .f32) (main_arg7 : FVec F S128x2 .f32) (main_arg8 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4x128x128 .f32 := Host.absf main_arg5
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg6
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S128x2 .f32 := Host.absf main_arg7
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x600000 32) (main_arg2 : FVec F S600000 .f32) (main_arg3 : FVec F S128x128 .f32) (main_arg4 : FVec F S128 .f32) (main_arg5 : FVec F S4x128x128 .f32) (main_arg6 : FVec F S4x128 .f32) (main_arg7 : FVec F S128x2 .f32) (main_arg8 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x2 : Shape := ⟨2, ![128, 2]⟩
abbrev S2 : Shape := ⟨1, ![2]⟩
abbrev S50000 : Shape := ⟨1, ![50000]⟩
abbrev S1x600000 : Shape := ⟨2, ![1, 600000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩
abbrev S1x128x128 : Shape := ⟨3, ![1, 128, 128]⟩
abbrev S1x2 : Shape := ⟨2, ![1, 2]⟩
abbrev S5000x2 : Shape := ⟨2, ![5000, 2]⟩

abbrev nBuf : Space → Nat
  | .hbm => 171
  | .vmem => 64
  | .smem => 0
  | _ => 0

abbrev hbmTy0_0 (i : Nat) : BufTy := match i % 128 with
  | 0 => ⟨S50000x128, .f32⟩
  | 1 => ⟨S2x600000, .i32⟩
  | 2 => ⟨S600000, .f32⟩
  | 3 => ⟨S128x128, .f32⟩
  | 4 => ⟨S128, .f32⟩
  | 5 => ⟨S4x128x128, .f32⟩
  | 6 => ⟨S4x128, .f32⟩
  | 7 => ⟨S128x2, .f32⟩
  | 8 => ⟨S2, .f32⟩
  | 9 => ⟨S50000, .i32⟩
  | 10 => ⟨S1x600000, .i32⟩
  | 11 => ⟨S600000, .i32⟩
  | 12 => ⟨S650000, .i32⟩
  | 13 => ⟨S1x600000, .i32⟩
  | 14 => ⟨S600000, .i32⟩
  | 15 => ⟨S650000, .i32⟩
  | 16 => ⟨S_, .f32⟩
  | 17 => ⟨S50000, .f32⟩
  | 18 => ⟨S650000, .f32⟩
  | 19 => ⟨S_, .f32⟩
  | 20 => ⟨S50000, .f32⟩
  | 21 => ⟨S650000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .i1⟩
  | 29 => ⟨S_, .f32⟩
  | 30 => ⟨S_, .f32⟩
  | 31 => ⟨S50000, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S650000, .i32⟩
  | 40 => ⟨S650000, .i1⟩
  | 41 => ⟨S_, .i32⟩
  | 42 => ⟨S650000, .i32⟩
  | 43 => ⟨S650000, .i32⟩
  | 44 => ⟨S650000, .i32⟩
  | 45 => ⟨S650000x1, .i32⟩
  | 46 => ⟨S650000, .f32⟩
  | 47 => ⟨S650000, .f32⟩
  | 48 => ⟨S_, .i32⟩
  | 49 => ⟨S650000, .i32⟩
  | 50 => ⟨S650000, .i1⟩
  | 51 => ⟨S_, .i32⟩
  | 52 => ⟨S650000, .i32⟩
  | 53 => ⟨S650000, .i32⟩
  | 54 => ⟨S650000, .i32⟩
  | 55 => ⟨S650000x1, .i32⟩
  | 56 => ⟨S650000, .f32⟩
  | 57 => ⟨S650000, .f32⟩
  | 58 => ⟨S50000x128, .f32⟩
  | 59 => ⟨S_, .i32⟩
  | 60 => ⟨S650000, .i32⟩
  | 61 => ⟨S650000, .i1⟩
  | 62 => ⟨S_, .i32⟩
  | 63 => ⟨S650000, .i32⟩
  | 64 => ⟨S650000, .i32⟩
  | 65 => ⟨S650000, .i32⟩
  | 66 => ⟨S650000x1, .i32⟩
  | 67 => ⟨S650000x128, .f32⟩
  | 68 => ⟨S650000x1, .f32⟩
  | 69 => ⟨S650000x128, .f32⟩
  | 70 => ⟨S650000x128, .f32⟩
  | 71 => ⟨S_, .f32⟩
  | 72 => ⟨S50000x128, .f32⟩
  | 73 => ⟨S650000x1, .i32⟩
  | 74 => ⟨S50000x128, .f32⟩
  | 75 => ⟨S1x128, .f32⟩
  | 76 => ⟨S50000x128, .f32⟩
  | 77 => ⟨S1x128x128, .f32⟩
  | 78 => ⟨S128x128, .f32⟩
  | 79 => ⟨S50000x128, .f32⟩
  | 80 => ⟨S_, .i32⟩
  | 81 => ⟨S650000, .i32⟩
  | 82 => ⟨S650000, .i1⟩
  | 83 => ⟨S_, .i32⟩
  | 84 => ⟨S650000, .i32⟩
  | 85 => ⟨S650000, .i32⟩
  | 86 => ⟨S650000, .i32⟩
  | 87 => ⟨S650000x1, .i32⟩
  | 88 => ⟨S650000x128, .f32⟩
  | 89 => ⟨S650000x1, .f32⟩
  | 90 => ⟨S650000x128, .f32⟩
  | 91 => ⟨S650000x128, .f32⟩
  | 92 => ⟨S_, .f32⟩
  | 93 => ⟨S50000x128, .f32⟩
  | 94 => ⟨S650000x1, .i32⟩
  | 95 => ⟨S50000x128, .f32⟩
  | 96 => ⟨S1x128, .f32⟩
  | 97 => ⟨S128, .f32⟩
  | 98 => ⟨S1x128, .f32⟩
  | 99 => ⟨S50000x128, .f32⟩
  | 100 => ⟨S1x128x128, .f32⟩
  | 101 => ⟨S128x128, .f32⟩
  | 102 => ⟨S50000x128, .f32⟩
  | 103 => ⟨S_, .i32⟩
  | 104 => ⟨S650000, .i32⟩
  | 105 => ⟨S650000, .i1⟩
  | 106 => ⟨S_, .i32⟩
  | 107 => ⟨S650000, .i32⟩
  | 108 => ⟨S650000, .i32⟩
  | 109 => ⟨S650000, .i32⟩
  | 110 => ⟨S650000x1, .i32⟩
  | 111 => ⟨S650000x128, .f32⟩
  | 112 => ⟨S650000x1, .f32⟩
  | 113 => ⟨S650000x128, .f32⟩
  | 114 => ⟨S650000x128, .f32⟩
  | 115 => ⟨S_, .f32⟩
  | 116 => ⟨S50000x128, .f32⟩
  | 117 => ⟨S650000x1, .i32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S1x128x128, .f32⟩
  | 124 => ⟨S128x128, .f32⟩
  | 125 => ⟨S50000x128, .f32⟩
  | 126 => ⟨S_, .i32⟩
  | 127 => ⟨S650000, .i32⟩
  | _ => ⟨S50000x128, .f32⟩

abbrev hbmTy0_1 (i : Nat) : BufTy := match i % 128 with
  | 0 => ⟨S650000, .i1⟩
  | 1 => ⟨S_, .i32⟩
  | 2 => ⟨S650000, .i32⟩
  | 3 => ⟨S650000, .i32⟩
  | 4 => ⟨S650000, .i32⟩
  | 5 => ⟨S650000x1, .i32⟩
  | 6 => ⟨S650000x128, .f32⟩
  | 7 => ⟨S650000x1, .f32⟩
  | 8 => ⟨S650000x128, .f32⟩
  | 9 => ⟨S650000x128, .f32⟩
  | 10 => ⟨S_, .f32⟩
  | 11 => ⟨S50000x128, .f32⟩
  | 12 => ⟨S650000x1, .i32⟩
  | 13 => ⟨S50000x128, .f32⟩
  | 14 => ⟨S1x128, .f32⟩
  | 15 => ⟨S128, .f32⟩
  | 16 => ⟨S1x128, .f32⟩
  | 17 => ⟨S50000x128, .f32⟩
  | 18 => ⟨S1x128x128, .f32⟩
  | 19 => ⟨S128x128, .f32⟩
  | 20 => ⟨S50000x128, .f32⟩
  | 21 => ⟨S_, .i32⟩
  | 22 => ⟨S650000, .i32⟩
  | 23 => ⟨S650000, .i1⟩
  | 24 => ⟨S_, .i32⟩
  | 25 => ⟨S650000, .i32⟩
  | 26 => ⟨S650000, .i32⟩
  | 27 => ⟨S650000, .i32⟩
  | 28 => ⟨S650000x1, .i32⟩
  | 29 => ⟨S650000x128, .f32⟩
  | 30 => ⟨S650000x1, .f32⟩
  | 31 => ⟨S650000x128, .f32⟩
  | 32 => ⟨S650000x128, .f32⟩
  | 33 => ⟨S_, .f32⟩
  | 34 => ⟨S50000x128, .f32⟩
  | 35 => ⟨S650000x1, .i32⟩
  | 36 => ⟨S50000x128, .f32⟩
  | 37 => ⟨S1x128, .f32⟩
  | 38 => ⟨S128, .f32⟩
  | 39 => ⟨S1x128, .f32⟩
  | 40 => ⟨S50000x128, .f32⟩
  | 41 => ⟨S1x2, .f32⟩
  | 42 => ⟨S1x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S128x2, .f32⟩
  | .local _ .vmem, ⟨61, _⟩ => ⟨S1x2, .f32⟩
  | .local _ .vmem, ⟨62, _⟩ => ⟨S1x2, .f32⟩
  | .local _ .vmem, ⟨63, _⟩ => ⟨S1x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_c_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_14 : Ref sig .tc := ⟨.hbm, 103, rfl⟩
abbrev main_v74 : Ref sig .tc := ⟨.hbm, 104, rfl⟩
abbrev main_v75 : Ref sig .tc := ⟨.hbm, 105, rfl⟩
abbrev main_c_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_16 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_17 : Ref sig .tc := ⟨.hbm, 126, rfl⟩
abbrev main_v94 : Ref sig .tc := ⟨.hbm, 127, rfl⟩
abbrev main_v95 : Ref sig .tc := ⟨.hbm, 128, rfl⟩
abbrev main_c_18 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_19 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_c_20 : Ref sig .tc := ⟨.hbm, 149, rfl⟩
abbrev main_v114 : Ref sig .tc := ⟨.hbm, 150, rfl⟩
abbrev main_v115 : Ref sig .tc := ⟨.hbm, 151, rfl⟩
abbrev main_c_21 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_cst_22 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc5_stg3_0 : Ref sig .tc := ⟨.vmem, 32, rfl⟩
abbrev cc5_stg3_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg2_1 : Ref sig .tc := ⟨.vmem, 43, rfl⟩
abbrev cc7_stg3_0 : Ref sig .tc := ⟨.vmem, 44, rfl⟩
abbrev cc7_stg3_1 : Ref sig .tc := ⟨.vmem, 45, rfl⟩
abbrev cc8_stg0_0 : Ref sig .tc := ⟨.vmem, 46, rfl⟩
abbrev cc8_stg0_1 : Ref sig .tc := ⟨.vmem, 47, rfl⟩
abbrev cc8_stg1_0 : Ref sig .tc := ⟨.vmem, 48, rfl⟩
abbrev cc8_stg2_0 : Ref sig .tc := ⟨.vmem, 49, rfl⟩
abbrev cc8_stg2_1 : Ref sig .tc := ⟨.vmem, 50, rfl⟩
abbrev cc9_stg0_0 : Ref sig .tc := ⟨.vmem, 51, rfl⟩
abbrev cc9_stg0_1 : Ref sig .tc := ⟨.vmem, 52, rfl⟩
abbrev cc9_stg1_0 : Ref sig .tc := ⟨.vmem, 53, rfl⟩
abbrev cc9_stg2_0 : Ref sig .tc := ⟨.vmem, 54, rfl⟩
abbrev cc9_stg2_1 : Ref sig .tc := ⟨.vmem, 55, rfl⟩
abbrev cc9_stg3_0 : Ref sig .tc := ⟨.vmem, 56, rfl⟩
abbrev cc9_stg3_1 : Ref sig .tc := ⟨.vmem, 57, rfl⟩
abbrev cc10_stg0_0 : Ref sig .tc := ⟨.vmem, 58, rfl⟩
abbrev cc10_stg0_1 : Ref sig .tc := ⟨.vmem, 59, rfl⟩
abbrev cc10_stg1_0 : Ref sig .tc := ⟨.vmem, 60, rfl⟩
abbrev cc10_stg2_0 : Ref sig .tc := ⟨.vmem, 61, rfl⟩
abbrev cc10_stg3_0 : Ref sig .tc := ⟨.vmem, 62, rfl⟩
abbrev cc10_scratch0 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc5_sem3_0 : DmaSem sig := 32
abbrev cc5_sem3_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem2_1 : DmaSem sig := 43
abbrev cc7_sem3_0 : DmaSem sig := 44
abbrev cc7_sem3_1 : DmaSem sig := 45
abbrev cc8_sem0_0 : DmaSem sig := 46
abbrev cc8_sem0_1 : DmaSem sig := 47
abbrev cc8_sem1_0 : DmaSem sig := 48
abbrev cc8_sem2_0 : DmaSem sig := 49
abbrev cc8_sem2_1 : DmaSem sig := 50
abbrev cc9_sem0_0 : DmaSem sig := 51
abbrev cc9_sem0_1 : DmaSem sig := 52
abbrev cc9_sem1_0 : DmaSem sig := 53
abbrev cc9_sem2_0 : DmaSem sig := 54
abbrev cc9_sem2_1 : DmaSem sig := 55
abbrev cc9_sem3_0 : DmaSem sig := 56
abbrev cc9_sem3_1 : DmaSem sig := 57
abbrev cc10_sem0_0 : DmaSem sig := 58
abbrev cc10_sem0_1 : DmaSem sig := 59
abbrev cc10_sem1_0 : DmaSem sig := 60
abbrev cc10_sem2_0 : DmaSem sig := 61
abbrev cc10_sem3_0 : DmaSem sig := 62

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S5000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![10], ![false]⟩

def k10_cond2 (i : grid10.Coords) : BitVec 1 :=
  let arg0 : BitVec 32 := BitVec.ofNat 32 (i 0).val
  let c9_i32 : BitVec 32 := 9#32
  let v16 : BitVec 1 := Scalar.cmpi .eq arg0 c9_i32
  let v17 : BitVec 32 := Scalar.extui v16
  let c0_i32_9 : BitVec 32 := 0#32
  let v18 : BitVec 1 := Scalar.cmpi .ne v17 c0_i32_9
  v18

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x2 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x2 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x2 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  slices_S4x128x128_S1x128x128_0_0_0 : S4x128x128.Slices ![0, 0, 0] S1x128x128
  shapeCasts_S1x128x128_S128x128 : S1x128x128.ShapeCasts S128x128
  shapeCasts_S128x128_S128x128 : S128x128.ShapeCasts S128x128
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  shapeCasts_S2_S1x2 : S2.ShapeCasts S1x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S128x2_S128x2_0_0 : ∀ a, (![0, 0] : Fin 2 → Nat) a + S128x2.size a ≤ S128x2.size a
  h_S128x2 : 0 < S128x2.numel
  reduces_S5000x2_S2 : S5000x2.Reduces [0] S2
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S50000x128.size a
  hwx8_2 : ∀ i : grid8.Coords, EltTy.bits .f32 = 32 ∨ (Rect.block (s := S50000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S50000x128.size a
  hwx9_2 : ∀ i : grid9.Coords, EltTy.bits .f32 = 32 ∨ (Rect.block (s := S50000x128) S5000x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S50000x128.size a
  hwx9_3 : ∀ i : grid9.Coords, EltTy.bits .f32 = 32 ∨ (Rect.block (s := S50000x128) S5000x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x2.size a ≤ S128x2.size a
  hwx10_1 : ∀ i : grid10.Coords, EltTy.bits .f32 = 32 ∨ (Rect.block (s := S128x2) S128x2.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x2.size a ≤ S1x2.size a
  hwx10_2 : ∀ i : grid10.Coords, EltTy.bits .f32 = 32 ∨ (Rect.block (s := S1x2) S1x2.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x2.size a ≤ S1x2.size a
  hwx10_3 : ∀ i : grid10.Coords, EltTy.bits .f32 = 32 ∨ (Rect.block (s := S1x2) S1x2.size (cc10_transform_3 i) (hinb10_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v70) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v70) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v86) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v70) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v90) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v90) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v92) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v93) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v106) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v109) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v90) S5000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v110) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v110) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v112) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v113) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v126) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v129) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v110) S5000x128.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v130) S5000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v130) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg7) S128x2.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v131) S1x2.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v132) S1x2.size cc10_transform_3 reads10_3 true true 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev idle10 : Fin 4 → grid10.Coords → Bool := fun | 0 => fun _ => false | 1 => fun _ => false | 2 => fun _ => false | 3 => fun i => !(k10_cond2 i == 1#1) | ⟨_ + 4, h⟩ => absurd h (Nat.not_lt.2 (Nat.le_add_left _ _))

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x2 : Shape := ⟨2, ![128, 2]⟩
abbrev S2 : Shape := ⟨1, ![2]⟩
abbrev S50000 : Shape := ⟨1, ![50000]⟩
abbrev S1x600000 : Shape := ⟨2, ![1, 600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S1x128x128 : Shape := ⟨3, ![1, 128, 128]⟩
abbrev S50000x2 : Shape := ⟨2, ![50000, 2]⟩
abbrev S1x2 : Shape := ⟨2, ![1, 2]⟩

abbrev nBuf : Space → Nat
  | .hbm => 203
  | .vmem => 0
  | .smem => 0
  | _ => 0

abbrev hbmTy0_0 (i : Nat) : BufTy := match i % 128 with
  | 0 => ⟨S50000x128, .f32⟩
  | 1 => ⟨S2x600000, .i32⟩
  | 2 => ⟨S600000, .f32⟩
  | 3 => ⟨S128x128, .f32⟩
  | 4 => ⟨S128, .f32⟩
  | 5 => ⟨S4x128x128, .f32⟩
  | 6 => ⟨S4x128, .f32⟩
  | 7 => ⟨S128x2, .f32⟩
  | 8 => ⟨S2, .f32⟩
  | 9 => ⟨S50000, .i32⟩
  | 10 => ⟨S1x600000, .i32⟩
  | 11 => ⟨S600000, .i32⟩
  | 12 => ⟨S650000, .i32⟩
  | 13 => ⟨S1x600000, .i32⟩
  | 14 => ⟨S600000, .i32⟩
  | 15 => ⟨S650000, .i32⟩
  | 16 => ⟨S_, .f32⟩
  | 17 => ⟨S50000, .f32⟩
  | 18 => ⟨S650000, .f32⟩
  | 19 => ⟨S_, .f32⟩
  | 20 => ⟨S50000, .f32⟩
  | 21 => ⟨S650000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .i1⟩
  | 29 => ⟨S_, .f32⟩
  | 30 => ⟨S_, .f32⟩
  | 31 => ⟨S50000, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S650000, .i32⟩
  | 40 => ⟨S650000, .i1⟩
  | 41 => ⟨S_, .i32⟩
  | 42 => ⟨S650000, .i32⟩
  | 43 => ⟨S650000, .i32⟩
  | 44 => ⟨S650000, .i32⟩
  | 45 => ⟨S650000x1, .i32⟩
  | 46 => ⟨S650000, .f32⟩
  | 47 => ⟨S650000, .f32⟩
  | 48 => ⟨S_, .i32⟩
  | 49 => ⟨S650000, .i32⟩
  | 50 => ⟨S650000, .i1⟩
  | 51 => ⟨S_, .i32⟩
  | 52 => ⟨S650000, .i32⟩
  | 53 => ⟨S650000, .i32⟩
  | 54 => ⟨S650000, .i32⟩
  | 55 => ⟨S650000x1, .i32⟩
  | 56 => ⟨S650000, .f32⟩
  | 57 => ⟨S650000, .f32⟩
  | 58 => ⟨S50000x128, .f32⟩
  | 59 => ⟨S_, .i32⟩
  | 60 => ⟨S650000, .i32⟩
  | 61 => ⟨S650000, .i1⟩
  | 62 => ⟨S_, .i32⟩
  | 63 => ⟨S650000, .i32⟩
  | 64 => ⟨S650000, .i32⟩
  | 65 => ⟨S650000, .i32⟩
  | 66 => ⟨S650000x1, .i32⟩
  | 67 => ⟨S650000x128, .f32⟩
  | 68 => ⟨S650000x1, .f32⟩
  | 69 => ⟨S650000x128, .f32⟩
  | 70 => ⟨S650000x128, .f32⟩
  | 71 => ⟨S_, .f32⟩
  | 72 => ⟨S50000x128, .f32⟩
  | 73 => ⟨S650000x1, .i32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S1x128x128, .f32⟩
  | 82 => ⟨S128x128, .f32⟩
  | 83 => ⟨S1x128, .f32⟩
  | 84 => ⟨S128, .f32⟩
  | 85 => ⟨S50000x128, .f32⟩
  | 86 => ⟨S_, .i32⟩
  | 87 => ⟨S650000, .i32⟩
  | 88 => ⟨S650000, .i1⟩
  | 89 => ⟨S_, .i32⟩
  | 90 => ⟨S650000, .i32⟩
  | 91 => ⟨S650000, .i32⟩
  | 92 => ⟨S650000, .i32⟩
  | 93 => ⟨S650000x1, .i32⟩
  | 94 => ⟨S650000x128, .f32⟩
  | 95 => ⟨S650000x1, .f32⟩
  | 96 => ⟨S650000x128, .f32⟩
  | 97 => ⟨S650000x128, .f32⟩
  | 98 => ⟨S_, .f32⟩
  | 99 => ⟨S50000x128, .f32⟩
  | 100 => ⟨S650000x1, .i32⟩
  | 101 => ⟨S50000x128, .f32⟩
  | 102 => ⟨S1x128, .f32⟩
  | 103 => ⟨S50000x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S1x128x128, .f32⟩
  | 110 => ⟨S128x128, .f32⟩
  | 111 => ⟨S1x128, .f32⟩
  | 112 => ⟨S128, .f32⟩
  | 113 => ⟨S50000x128, .f32⟩
  | 114 => ⟨S_, .i32⟩
  | 115 => ⟨S650000, .i32⟩
  | 116 => ⟨S650000, .i1⟩
  | 117 => ⟨S_, .i32⟩
  | 118 => ⟨S650000, .i32⟩
  | 119 => ⟨S650000, .i32⟩
  | 120 => ⟨S650000, .i32⟩
  | 121 => ⟨S650000x1, .i32⟩
  | 122 => ⟨S650000x128, .f32⟩
  | 123 => ⟨S650000x1, .f32⟩
  | 124 => ⟨S650000x128, .f32⟩
  | 125 => ⟨S650000x128, .f32⟩
  | 126 => ⟨S_, .f32⟩
  | 127 => ⟨S50000x128, .f32⟩
  | _ => ⟨S50000x128, .f32⟩

abbrev hbmTy0_1 (i : Nat) : BufTy := match i % 128 with
  | 0 => ⟨S650000x1, .i32⟩
  | 1 => ⟨S50000x128, .f32⟩
  | 2 => ⟨S1x128, .f32⟩
  | 3 => ⟨S50000x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S1x128x128, .f32⟩
  | 10 => ⟨S128x128, .f32⟩
  | 11 => ⟨S1x128, .f32⟩
  | 12 => ⟨S128, .f32⟩
  | 13 => ⟨S50000x128, .f32⟩
  | 14 => ⟨S_, .i32⟩
  | 15 => ⟨S650000, .i32⟩
  | 16 => ⟨S650000, .i1⟩
  | 17 => ⟨S_, .i32⟩
  | 18 => ⟨S650000, .i32⟩
  | 19 => ⟨S650000, .i32⟩
  | 20 => ⟨S650000, .i32⟩
  | 21 => ⟨S650000x1, .i32⟩
  | 22 => ⟨S650000x128, .f32⟩
  | 23 => ⟨S650000x1, .f32⟩
  | 24 => ⟨S650000x128, .f32⟩
  | 25 => ⟨S650000x128, .f32⟩
  | 26 => ⟨S_, .f32⟩
  | 27 => ⟨S50000x128, .f32⟩
  | 28 => ⟨S650000x1, .i32⟩
  | 29 => ⟨S50000x128, .f32⟩
  | 30 => ⟨S1x128, .f32⟩
  | 31 => ⟨S50000x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S1x128x128, .f32⟩
  | 38 => ⟨S128x128, .f32⟩
  | 39 => ⟨S1x128, .f32⟩
  | 40 => ⟨S128, .f32⟩
  | 41 => ⟨S50000x128, .f32⟩
  | 42 => ⟨S_, .i32⟩
  | 43 => ⟨S650000, .i32⟩
  | 44 => ⟨S650000, .i1⟩
  | 45 => ⟨S_, .i32⟩
  | 46 => ⟨S650000, .i32⟩
  | 47 => ⟨S650000, .i32⟩
  | 48 => ⟨S650000, .i32⟩
  | 49 => ⟨S650000x1, .i32⟩
  | 50 => ⟨S650000x128, .f32⟩
  | 51 => ⟨S650000x1, .f32⟩
  | 52 => ⟨S650000x128, .f32⟩
  | 53 => ⟨S650000x128, .f32⟩
  | 54 => ⟨S_, .f32⟩
  | 55 => ⟨S50000x128, .f32⟩
  | 56 => ⟨S650000x1, .i32⟩
  | 57 => ⟨S50000x128, .f32⟩
  | 58 => ⟨S1x128, .f32⟩
  | 59 => ⟨S50000x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S50000x2, .f32⟩
  | 66 => ⟨S1x2, .f32⟩
  | 67 => ⟨S50000x2, .f32⟩
  | 68 => ⟨S50000x2, .f32⟩
  | 69 => ⟨S_, .f32⟩
  | 70 => ⟨S2, .f32⟩
  | 71 => ⟨S1x2, .f32⟩
  | 72 => ⟨S_, .f32⟩
  | 73 => ⟨S1x2, .f32⟩
  | 74 => ⟨S1x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call2_cst : Ref sig .tc := ⟨.hbm, 78, rfl⟩
abbrev main_call2_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_c_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_call3_cst : Ref sig .tc := ⟨.hbm, 106, rfl⟩
abbrev main_call3_v0 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_14 : Ref sig .tc := ⟨.hbm, 114, rfl⟩
abbrev main_v81 : Ref sig .tc := ⟨.hbm, 115, rfl⟩
abbrev main_v82 : Ref sig .tc := ⟨.hbm, 116, rfl⟩
abbrev main_c_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_16 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_call4_cst : Ref sig .tc := ⟨.hbm, 134, rfl⟩
abbrev main_call4_v0 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_c_17 : Ref sig .tc := ⟨.hbm, 142, rfl⟩
abbrev main_v104 : Ref sig .tc := ⟨.hbm, 143, rfl⟩
abbrev main_v105 : Ref sig .tc := ⟨.hbm, 144, rfl⟩
abbrev main_c_18 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_19 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_call5_cst : Ref sig .tc := ⟨.hbm, 162, rfl⟩
abbrev main_call5_v0 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_c_20 : Ref sig .tc := ⟨.hbm, 170, rfl⟩
abbrev main_v127 : Ref sig .tc := ⟨.hbm, 171, rfl⟩
abbrev main_v128 : Ref sig .tc := ⟨.hbm, 172, rfl⟩
abbrev main_c_21 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_22 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_call6_cst : Ref sig .tc := ⟨.hbm, 190, rfl⟩
abbrev main_call6_v0 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_cst_23 : Ref sig .tc := ⟨.hbm, 197, rfl⟩
abbrev main_v149 : Ref sig .tc := ⟨.hbm, 198, rfl⟩
abbrev main_v150 : Ref sig .tc := ⟨.hbm, 199, rfl⟩
abbrev main_cst_24 : Ref sig .tc := ⟨.hbm, 200, rfl⟩
abbrev main_v151 : Ref sig .tc := ⟨.hbm, 201, rfl⟩
abbrev main_v152 : Ref sig .tc := ⟨.hbm, 202, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S2_d0 : S50000x2.ReducesTo [0] S2
  h_S_ : 0 < S_.numel
  bcast_S_S1x2 : S_.BroadcastsInDim S1x2 (![] : Fin 0 → Fin S1x2.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x2_S50000x2_1_0_0_1_n_n_wf : DotDims.WF S50000x128 S128x2 S50000x2 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.K.Reg0.lean ====
/-
  Region 0: one dense layer's product. Each of the ten grid points takes a block of 5000 rows of the
  activations and the whole 128 x 128 weight, and leaves the block's product in the output's block. What is
  shown here: at every point the input buffers hold their blocks of the arrays as the region found them, the body
  turns them into the output's block, and nothing else of the core's state is touched.
-/
import proofs.«180772_j89300960018653_1_alg».proof.Proof.Gen.Kernel.Launch
import proofs.«180772_j89300960018653_1_alg».proof.Proof.Gen.Kernel.Skeleton
import proofs.«180772_j89300960018653_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents on every core when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' buffer holds the point's block of rows whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's buffer is filled at the first point and keeps the weight: its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole buffers: what the body loads, and where it stores. -/
abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0

/-- The output buffer after the body: the product of the rows' block with the weight, stored whole. -/
def out0_2 (x0 : Vec F S5000x128 .f32) (x1 : Vec F S128x128 .f32) : Vec F S5000x128 .f32 :=
  View.canon [⟨r0_x, k0_pay1 (View.ld x0 r0_x) (View.ld x1 r0_w)⟩]

/-- The one store covers the buffer. -/
theorem cover0_2 (p0 : Vec F S5000x128 .f32) (y : S5000x128.Idx) :
    ∃ pc ∈ ([⟨r0_x, p0⟩] : List (View.Piece (Elt F) S5000x128 .f32)), y ∈ pc.1.set :=
  View.cover_of_tiled [⟨r0_x, p0⟩] S5000x128.size (by rfl) y

set_option maxHeartbeats 1000000 in
/-- The body on whole buffers, the inputs' at `x0`, … and the output's at anything, leaves the inputs as they were and
    the output at the block it computes. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as the region finds them; after the body at point `t` every input
    buffer at its block and the output's at the block the body computes; the invariant is the untouched rest of the
    core's state; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1: the first layer's bias and rectifier. Each of the ten grid points takes a block of 5000 aggregated
  rows and the bias row, and leaves max (row + bias, 0) in the output's block. What is
  shown here: at every point the input buffers hold their blocks of the arrays as the region found them, the body
  turns them into the output's block, and nothing else of the core's state is touched.
-/
import proofs.«180772_j89300960018653_1_alg».proof.Proof.Gen.Kernel.Launch
import proofs.«180772_j89300960018653_1_alg».proof.Proof.Gen.Kernel.Skeleton
import proofs.«180772_j89300960018653_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents on every core when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregated rows' buffer holds the point's block whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row's buffer is filled at the first point and keeps the row: its block never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole buffers: what the body loads, and where it stores. -/
abbrev r1_x : Rect S5000x128 := Rect.unit (s := S5000x128) ![0, 0] S5000x128.size inb_S5000x128_S5000x128_0_0
abbrev r1_b : Rect S1x128 := Rect.unit (s := S1x128) ![0, 0] S1x128.size inb_S1x128_S1x128_0_0

/-- The output buffer after the body: the rectified sum of the block and the bias row, stored whole. -/
def out1_2 (x0 : Vec F S5000x128 .f32) (x1 : Vec F S1x128 .f32) : Vec F S5000x128 .f32 :=
  View.canon [⟨r1_x, k1_pay1 (View.ld x1 r1_b) (View.ld x0 r1_x)⟩]

/-- The one store covers the buffer. -/
theorem cover1_2 (p0 : Vec F S5000x128 .f32) (y : S5000x128.Idx) :
    ∃ pc ∈ ([⟨r1_x, p0⟩] : List (View.Piece (Elt F) S5000x128 .f32)), y ∈ pc.1.set :=
  View.cover_of_tiled [⟨r1_x, p0⟩] S5000x128.size (by rfl) y

set_option maxHeartbeats 1000000 in
/-- The body on whole buffers, the inputs' at `x0`, … and the output's at anything, leaves the inputs as they were and
    the output at the block it computes. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data on core `c`: the arrays as the region finds them; after the body at point `t` every input
    buffer at its block and the output's at the block the body computes; the invariant is the untouched rest of the
    core's state; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  Region 2: one dense layer's product. Each of the ten grid points takes a block of 5000 rows of the
  activations and the whole 128 x 128 weight, and leaves the block's product in the output's block. What is
  shown here: at every point the input buffers hold their blocks of the arrays as the region found them, the body
  turns them into the output's block, and nothing else of the core's state is touched.
-/
import proofs.«180772_j89300960018653_1_alg».proof.Proof.Gen.Kernel.Launch
import proofs.«180772_j89300960018653_1_alg».proof.Proof.Gen.Kernel.Skeleton
import proofs.«180772_j89300960018653_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents on every core when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows' buffer holds the point's block of rows whether or not it was fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight's buffer is filled at the first point and keeps the weight: its block never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole buffers: what the body loads, and where it stores. -/
abbrev r2_x : Rect S5000x128 := Rect.unit (s := S5000x128) ![0, 0] S5000x128.size inb_S5000x128_S5000x128_0_0
abbrev r2_w : Rect S128x128 := Rect.unit (s := S128x128) ![0, 0] S128x128.size inb_S128x128_S128x128_0_0

/-- The output buffer after the body: the product of the rows' block with the weight, stored whole. -/
def out2_2 (x0 : Vec F S5000x128 .f32) (x1 : Vec F S128x128 .f32) : Vec F S5000x128 .f32 :=
  View.canon [⟨r2_x, k2_pay1 (View.ld x0 r2_x) (View.ld x1 r2_w)⟩]

/-- The one store covers the buffer. -/
theorem cover2_2 (p0 : Vec F S5000x128 .f32) (y : S5000x128.Idx) :
    ∃ pc ∈ ([⟨r2_x, p0⟩] : List (View.Piece (Elt F) S5000x128 .f32)), y ∈ pc.1.set :=
  View.cover_of_tiled [⟨r2_x, p0⟩] S5000x128.size (by rfl) y

set_option maxHeartbeats 1000000 in
/-- The body on whole buffers, the inputs' at `x0`, … and the output's at anything, leaves the inputs as they were and
    the output at the block it computes. -/
theorem sound_kernel2 (c : Dev nD) (E : Set ℕ) (i : grid2.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The region's proof data on core `c`: the arrays as the region finds them; after the body at point `t` every input
    buffer at its block and the output's at the block the body computes; the invariant is the untouched rest of the
    core's state; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/-
  Region 3: a residual layer's bias, skip connection and rectifier. Each of the ten grid points takes a block of
  5000 aggregated rows, the bias row and the same block of the previous activations, and leaves
  max ((row + bias) + previous, 0) in the output's block. What is
  shown here: at every point the input buffers hold their blocks of the arrays as the region found them, the body
  turns them into the output's block, and nothing else of the core's state is touched.
-/
import proofs.«180772_j89300960018653_1_alg».proof.Proof.Gen.Kernel.Launch
import proofs.«180772_j89300960018653_1_alg».proof.Proof.Gen.Kernel.Skeleton
import proofs.«180772_j89300960018653_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents on every core when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The aggregated rows' buffer holds the point's block whether or not it was fetched there. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The bias row's buffer is filled at the first point and keeps the row: its block never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The residual's buffer holds the point's block of the previous layer's activations. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole buffers: what the body loads, and where it stores. -/
abbrev r3_x : Rect S5000x128 := Rect.unit (s := S5000x128) ![0, 0] S5000x128.size inb_S5000x128_S5000x128_0_0
abbrev r3_b : Rect S1x128 := Rect.unit (s := S1x128) ![0, 0] S1x128.size inb_S1x128_S1x128_0_0
abbrev r3_r : Rect S5000x128 := Rect.unit (s := S5000x128) ![0, 0] S5000x128.size inb_S5000x128_S5000x128_0_0

/-- The output buffer after the body: the rectified sum of the block, the bias row and the residual block, stored whole. -/
def out3_3 (x0 : Vec F S5000x128 .f32) (x1 : Vec F S1x128 .f32) (x2 : Vec F S5000x128 .f32) : Vec F S5000x128 .f32 :=
  View.canon [⟨r3_x, k3_pay1 (View.ld x1 r3_b) (View.ld x0 r3_x) (View.ld x2 r3_r)⟩]

/-- The one store covers the buffer. -/
theorem cover3_3 (p0 : Vec F S5000x128 .f32) (y : S5000x128.Idx) :
    ∃ pc ∈ ([⟨r3_x, p0⟩] : List (View.Piece (Elt F) S5000x128 .f32)), y ∈ pc.1.set :=
  View.cover_of_tiled [⟨r3_x, p0⟩] S5000x128.size (by rfl) y

set_option maxHeartbeats 1000000 in
/-- The body on whole buffers, the inputs' at `x0`, … and the output's at anything, leaves the inputs as they were and
    the output at the block it computes. -/
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S5000x128 .f32) (harg4 : arg4.IsWhole)
    (x0 : Vec F S5000x128 .f32) (x1 : Vec F S1x128 .f32) (x2 : Vec F S5000x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__bias_relu_residual_kernel i arg1 harg1 arg2 harg2 arg3 harg3 arg4 harg4) K := by
  simp only [cc3__bias_relu_residual_kernel_eq_skeleton]; unfold cc3__bias_relu_residual_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The region's proof data on core `c`: the arrays as the region finds them; after the body at point `t` every input
    buffer at its block and the output's at the block the body computes; the invariant is the untouched rest of the
    core's state; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/-
  Region 4: one dense layer's product. Each of the ten grid points takes a block of 5000 rows of the
  activations and the whole 128 x 128 weight, and leaves the block's product in the output's block. What is
  shown here: at every point the input buffers hold their blocks of the arrays as the region found them, the body
  turns them into the output's block, and nothing else of the core's state is touched.
-/
import proofs.«180772_j89300960018653_1_alg».proof.Proof.Gen.Kernel.Launch
import proofs.«180772_j89300960018653_1_alg».proof.Proof.Gen.Kernel.Skeleton
import proofs.«180772_j89300960018653_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents on every core when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The rows' buffer holds the point's block of rows whether or not it was fetched there. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight's buffer is filled at the first point and keeps the weight: its block never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole buffers: what the body loads, and where it stores. -/
abbrev r4_x : Rect S5000x128 := Rect.unit (s := S5000x128) ![0, 0] S5000x128.size inb_S5000x128_S5000x128_0_0
abbrev r4_w : Rect S128x128 := Rect.unit (s := S128x128) ![0, 0] S128x128.size inb_S128x128_S128x128_0_0

/-- The output buffer after the body: the product of the rows' block with the weight, stored whole. -/
def out4_2 (x0 : Vec F S5000x128 .f32) (x1 : Vec F S128x128 .f32) : Vec F S5000x128 .f32 :=
  View.canon [⟨r4_x, k4_pay1 (View.ld x0 r4_x) (View.ld x1 r4_w)⟩]

/-- The one store covers the buffer. -/
theorem cover4_2 (p0 : Vec F S5000x128 .f32) (y : S5000x128.Idx) :
    ∃ pc ∈ ([⟨r4_x, p0⟩] : List (View.Piece (Elt F) S5000x128 .f32)), y ∈ pc.1.set :=
  View.cover_of_tiled [⟨r4_x, p0⟩] S5000x128.size (by rfl) y

set_option maxHeartbeats 1000000 in
/-- The body on whole buffers, the inputs' at `x0`, … and the output's at anything, leaves the inputs as they were and
    the output at the block it computes. -/
theorem sound_kernel4 (c : Dev nD) (E : Set ℕ) (i : grid4.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The region's proof data on core `c`: the arrays as the region finds them; after the body at point `t` every input
    buffer at its block and the output's at the block the body computes; the invariant is the untouched rest of the
    core's state; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the input buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
/-
  Region 5: a residual layer's bias, skip connection and rectifier. Each of the ten grid points takes a block of
  5000 aggregated rows, the bias row and the same block of the previous activations, and leaves
  max ((row + bias) + previous, 0) in the output's block. What is
  shown here: at every point the input buffers hold their blocks of the arrays as the region found them, the body
  turns them into the output's block, and nothing else of the core's state is touched.
-/
import proofs.«180772_j89300960018653_1_alg».proof.Proof.Gen.Kernel.Launch
import proofs.«180772_j89300960018653_1_alg».proof.Proof.Gen.Kernel.Skeleton
import proofs.«180772_j89300960018653_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents on every core when the region is entered
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The aggregated rows' buffer holds the point's block whether or not it was fetched there. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The bias row's buffer is filled at the first point and keeps the row: its block never moves. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The residual's buffer holds the point's block of the previous layer's activations. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole buffers: what the body loads, and where it stores. -/
abbrev r5_x : Rect S5000x128 := Rect.unit (s := S5000x128) ![0, 0] S5000x128.size inb_S5000x128_S5000x128_0_0
abbrev r5_b : Rect S1x128 := Rect.unit (s := S1x128) ![0, 0] S1x128.size inb_S1x128_S1x128_0_0
abbrev r5_r : Rect S5000x128 := Rect.unit (s := S5000x128) ![0, 0] S5000x128.size inb_S5000x128_S5000x128_0_0

/-- The output buffer after the body: the rectified sum of the block, the bias row and the residual block, stored whole. -/
def out5_3 (x0 : Vec F S5000x128 .f32) (x1 : Vec F S1x128 .f32) (x2 : Vec F S5000x128 .f32) : Vec F S5000x128 .f32 :=
  View.canon [⟨r5_x, k5_pay1 (View.ld x1 r5_b) (View.ld x0 r5_x) (View.ld x2 r5_r)⟩]

/-- The one store covers the buffer. -/
theorem cover5_3 (p0 : Vec F S5000x128 .f32) (y : S5000x128.Idx) :
    ∃ pc ∈ ([⟨r5_x, p0⟩] : List (View.Piece (Elt F) S5000x128 .f32)), y ∈ pc.1.set :=
  View.cover_of_tiled [⟨r5_x, p0⟩] S5000x128.size (by rfl) y

set_option maxHeartbeats 1000000 in
/-- The body on whole buffers, the inputs' at `x0`, … and the output's at anything, leaves the inputs as they were and
    the output at the block it computes. -/
theorem sound_kernel5 (c : Dev nD) (E : Set ℕ) (i : grid5.Coords)
    (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S5000x128 .f32) (harg4 : arg4.IsWhole)
    (x0 : Vec F S5000x128 .f32) (x1 : Vec F S1x128 .f32) (x2 : Vec F S5000x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__bias_relu_residual_kernel i arg1 harg1 arg2 harg2 arg3 harg3 arg4 harg4) K := by
  simp only [cc5__bias_relu_residual_kernel_eq_skeleton]; unfold cc5__bias_relu_residual_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The region's proof data on core `c`: the arrays as the region finds them; after the body at point `t` every input
    buffer at its block and the output's at the block the body computes; the invariant is the untouched rest of the
    core's state; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the input buffers hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
/-
  Region 6: one dense layer's product. Each of the ten grid points takes a block of 5000 rows of the
  activations and the whole 128 x 128 weight, and leaves the block's product in the output's block. What is
  shown here: at every point the input buffers hold their blocks of the arrays as the region found them, the body
  turns them into the output's block, and nothing else of the core's state is touched.
-/
import proofs.«180772_j89300960018653_1_alg».proof.Proof.Gen.Kernel.Launch
import proofs.«180772_j89300960018653_1_alg».proof.Proof.Gen.Kernel.Skeleton
import proofs.«180772_j89300960018653_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents on every core when the region is entered
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The rows' buffer holds the point's block of rows whether or not it was fetched there. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weight's buffer is filled at the first point and keeps the weight: its block never moves. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The whole buffers: what the body loads, and where it stores. -/
abbrev r6_x : Rect S5000x128 := Rect.unit (s := S5000x128) ![0, 0] S5000x128.size inb_S5000x128_S5000x128_0_0
abbrev r6_w : Rect S128x128 := Rect.unit (s := S128x128) ![0, 0] S128x128.size inb_S128x128_S128x128_0_0

/-- The output buffer after the body: the product of the rows' block with the weight, stored whole. -/
def out6_2 (x0 : Vec F S5000x128 .f32) (x1 : Vec F S128x128 .f32) : Vec F S5000x128 .f32 :=
  View.canon [⟨r6_x, k6_pay1 (View.ld x0 r6_x) (View.ld x1 r6_w)⟩]

/-- The one store covers the buffer. -/
theorem cover6_2 (p0 : Vec F S5000x128 .f32) (y : S5000x128.Idx) :
    ∃ pc ∈ ([⟨r6_x, p0⟩] : List (View.Piece (Elt F) S5000x128 .f32)), y ∈ pc.1.set :=
  View.cover_of_tiled [⟨r6_x, p0⟩] S5000x128.size (by rfl) y

set_option maxHeartbeats 1000000 in
/-- The body on whole buffers, the inputs' at `x0`, … and the output's at anything, leaves the inputs as they were and
    the output at the block it computes. -/
theorem sound_kernel6 (c : Dev nD) (E : Set ℕ) (i : grid6.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-- The region's proof data on core `c`: the arrays as the region finds them; after the body at point `t` every input
    buffer at its block and the output's at the block the body computes; the invariant is the untouched rest of the
    core's state; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the input buffers hold their blocks, so the body's triple applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Reg7.lean ====
/-
  Region 7: a residual layer's bias, skip connection and rectifier. Each of the ten grid points takes a block of
  5000 aggregated rows, the bias row and the same block of the previous activations, and leaves
  max ((row + bias) + previous, 0) in the output's block. What is
  shown here: at every point the input buffers hold their blocks of the arrays as the region found them, the body
  turns them into the output's block, and nothing else of the core's state is touched.
-/
import proofs.«180772_j89300960018653_1_alg».proof.Proof.Gen.Kernel.Launch
import proofs.«180772_j89300960018653_1_alg».proof.Proof.Gen.Kernel.Skeleton
import proofs.«180772_j89300960018653_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents on every core when the region is entered
variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The aggregated rows' buffer holds the point's block whether or not it was fetched there. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The bias row's buffer is filled at the first point and keeps the row: its block never moves. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The residual's buffer holds the point's block of the previous layer's activations. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The whole buffers: what the body loads, and where it stores. -/
abbrev r7_x : Rect S5000x128 := Rect.unit (s := S5000x128) ![0, 0] S5000x128.size inb_S5000x128_S5000x128_0_0
abbrev r7_b : Rect S1x128 := Rect.unit (s := S1x128) ![0, 0] S1x128.size inb_S1x128_S1x128_0_0
abbrev r7_r : Rect S5000x128 := Rect.unit (s := S5000x128) ![0, 0] S5000x128.size inb_S5000x128_S5000x128_0_0

/-- The output buffer after the body: the rectified sum of the block, the bias row and the residual block, stored whole. -/
def out7_3 (x0 : Vec F S5000x128 .f32) (x1 : Vec F S1x128 .f32) (x2 : Vec F S5000x128 .f32) : Vec F S5000x128 .f32 :=
  View.canon [⟨r7_x, k7_pay1 (View.ld x1 r7_b) (View.ld x0 r7_x) (View.ld x2 r7_r)⟩]

/-- The one store covers the buffer. -/
theorem cover7_3 (p0 : Vec F S5000x128 .f32) (y : S5000x128.Idx) :
    ∃ pc ∈ ([⟨r7_x, p0⟩] : List (View.Piece (Elt F) S5000x128 .f32)), y ∈ pc.1.set :=
  View.cover_of_tiled [⟨r7_x, p0⟩] S5000x128.size (by rfl) y

set_option maxHeartbeats 1000000 in
/-- The body on whole buffers, the inputs' at `x0`, … and the output's at anything, leaves the inputs as they were and
    the output at the block it computes. -/
theorem sound_kernel7 (c : Dev nD) (E : Set ℕ) (i : grid7.Coords)
    (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S5000x128 .f32) (harg4 : arg4.IsWhole)
    (x0 : Vec F S5000x128 .f32) (x1 : Vec F S1x128 .f32) (x2 : Vec F S5000x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2)) -∗ K ⟨⟩))
      ⊢ wp frame (wpE (defs₀ (F := F)) Variants.none c none) E (cc7__bias_relu_residual_kernel i arg1 harg1 arg2 harg2 arg3 harg3 arg4 harg4) K := by
  simp only [cc7__bias_relu_residual_kernel_eq_skeleton]; unfold cc7__bias_relu_residual_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-- The region's proof data on core `c`: the arrays as the region finds them; after the body at point `t` every input
    buffer at its block and the output's at the block the body computes; the invariant is the untouched rest of the
    core's state; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the input buffers hold their blocks, so the body's triple applies; the invariant and
    what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Reg8.lean ====
/-
  Region 8: one dense layer's product. Each of the ten grid points takes a block of 5000 rows of the
  activations and the whole 128 x 128 weight, and leaves the block's product in the output's block. What is
  shown here: at every point the input buffers hold their blocks of the arrays as the region found them, the body
  turns them into the output's block, and nothing else of the core's state is touched.
-/
import proofs.«180772_j89300960018653_1_alg».proof.Proof.Gen.Kernel.Launch
import proofs.«180772_j89300960018653_1_alg».proof.Proof.Gen.Kernel.Skeleton
import proofs.«180772_j89300960018653_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents on every core when the region is entered
variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The rows' buffer holds the point's block of rows whether or not it was fetched there. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The weight's buffer is filled at the first point and keeps the weight: its block never moves. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The whole buffers: what the body loads, and where it stores. -/
abbrev r8_x : Rect S5000x128 := Rect.unit (s := S5000x128) ![0, 0] S5000x128.size inb_S5000x128_S5000x128_0_0
abbrev r8_w : Rect S128x128 := Rect.unit (s := S128x128) ![0, 0] S128x128.size inb_S128x128_S128x128_0_0

/-- The output buffer after the body: the product of the rows' block with the weight, stored whole. -/
def out8_2 (x0 : Vec F S5000x128 .f32) (x1 : Vec F S128x128 .f32) : Vec F S5000x128 .f32 :=
  View.canon [⟨r8_x, k8_pay1 (View.ld x0 r8_x) (View.ld x1 r8_w)⟩]

/-- The one store covers the buffer. -/
theorem cover8_2 (p0 : Vec F S5000x128 .f32) (y : S5000x128.Idx) :
    ∃ pc ∈ ([⟨r8_x, p0⟩] : List (View.Piece (Elt F) S5000x128 .f32)), y ∈ pc.1.set :=
  View.cover_of_tiled [⟨r8_x, p0⟩] S5000x128.size (by rfl) y

set_option maxHeartbeats 1000000 in
/-- The body on whole buffers, the inputs' at `x0`, … and the output's at anything, leaves the inputs as they were and
    the output at the block it computes. -/
theorem sound_kernel8 (c : Dev nD) (E : Set ℕ) (i : grid8.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out8_2 x0 x1)) -∗ K ⟨⟩))
      ⊢ wp frame (wpE (defs₀ (F := F)) Variants.none c none) E (cc8__matmul_kernel i arg1 harg1 arg2 harg2 arg3 harg3) K := by
  simp only [cc8__matmul_kernel_eq_skeleton]; unfold cc8__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-- The region's proof data on core `c`: the arrays as the region finds them; after the body at point `t` every input
    buffer at its block and the output's at the block the body computes; the invariant is the untouched rest of the
    core's state; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the input buffers hold their blocks, so the body's triple applies; the invariant and
    what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Reg9.lean ====
/-
  Region 9: a residual layer's bias, skip connection and rectifier. Each of the ten grid points takes a block of
  5000 aggregated rows, the bias row and the same block of the previous activations, and leaves
  max ((row + bias) + previous, 0) in the output's block. What is
  shown here: at every point the input buffers hold their blocks of the arrays as the region found them, the body
  turns them into the output's block, and nothing else of the core's state is touched.
-/
import proofs.«180772_j89300960018653_1_alg».proof.Proof.Gen.Kernel.Launch
import proofs.«180772_j89300960018653_1_alg».proof.Proof.Gen.Kernel.Skeleton
import proofs.«180772_j89300960018653_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents on every core when the region is entered
variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The aggregated rows' buffer holds the point's block whether or not it was fetched there. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The bias row's buffer is filled at the first point and keeps the row: its block never moves. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The residual's buffer holds the point's block of the previous layer's activations. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The whole buffers: what the body loads, and where it stores. -/
abbrev r9_x : Rect S5000x128 := Rect.unit (s := S5000x128) ![0, 0] S5000x128.size inb_S5000x128_S5000x128_0_0
abbrev r9_b : Rect S1x128 := Rect.unit (s := S1x128) ![0, 0] S1x128.size inb_S1x128_S1x128_0_0
abbrev r9_r : Rect S5000x128 := Rect.unit (s := S5000x128) ![0, 0] S5000x128.size inb_S5000x128_S5000x128_0_0

/-- The output buffer after the body: the rectified sum of the block, the bias row and the residual block, stored whole. -/
def out9_3 (x0 : Vec F S5000x128 .f32) (x1 : Vec F S1x128 .f32) (x2 : Vec F S5000x128 .f32) : Vec F S5000x128 .f32 :=
  View.canon [⟨r9_x, k9_pay1 (View.ld x1 r9_b) (View.ld x0 r9_x) (View.ld x2 r9_r)⟩]

/-- The one store covers the buffer. -/
theorem cover9_3 (p0 : Vec F S5000x128 .f32) (y : S5000x128.Idx) :
    ∃ pc ∈ ([⟨r9_x, p0⟩] : List (View.Piece (Elt F) S5000x128 .f32)), y ∈ pc.1.set :=
  View.cover_of_tiled [⟨r9_x, p0⟩] S5000x128.size (by rfl) y

set_option maxHeartbeats 1000000 in
/-- The body on whole buffers, the inputs' at `x0`, … and the output's at anything, leaves the inputs as they were and
    the output at the block it computes. -/
theorem sound_kernel9 (c : Dev nD) (E : Set ℕ) (i : grid9.Coords)
    (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S5000x128 .f32) (harg4 : arg4.IsWhole)
    (x0 : Vec F S5000x128 .f32) (x1 : Vec F S1x128 .f32) (x2 : Vec F S5000x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out9_3 x0 x1 x2)) -∗ K ⟨⟩))
      ⊢ wp frame (wpE (defs₀ (F := F)) Variants.none c none) E (cc9__bias_relu_residual_kernel i arg1 harg1 arg2 harg2 arg3 harg3 arg4 harg4) K := by
  simp only [cc9__bias_relu_residual_kernel_eq_skeleton]; unfold cc9__bias_relu_residual_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-- The region's proof data on core `c`: the arrays as the region finds them; after the body at point `t` every input
    buffer at its block and the output's at the block the body computes; the invariant is the untouched rest of the
    core's state; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the input buffers hold their blocks, so the body's triple applies; the invariant and
    what the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.FinalBase.lean ====
import proofs.«180772_j89300960018653_1_alg».proof.Proof.Gen.Kernel.Launch
import proofs.«180772_j89300960018653_1_alg».proof.Proof.Gen.Kernel.Skeleton
import proofs.«180772_j89300960018653_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The last region: the mean over all rows of `x · Wfc`, accumulated block by block

The body runs at ten points. At the first it clears a one-row accumulator; at every point it adds to the
accumulator the column sums of the product of the point's 5000 rows of `x` with `Wfc`; at the last it writes
`accumulator * s + bias` to the output (`s` the float nearest 1/50000). So there are three control cases: the first point (A), the
points strictly between (B), the last point (C). -/

variable (V : (c : Dev nD) → (b : Ref sig .tc) → Buf (Elt F) ((c : Thread nD τ).loc b))

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, fetched there or not: where it is not
    fetched its block index has not moved. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! ## The body's two branch conditions, in closed form over the grid -/

/-- "This is the first point": the condition under which the accumulator is cleared. -/
abbrev cond10_0 (i : grid10.Coords) : Prop := (Scalar.cmpi .ne (Scalar.extui (Scalar.cmpi .eq (BitVec.ofNat 32 (i 0).val) 0#32)) 0#32) = 1#1
theorem hcond10_0 : ∀ t : Fin cfg10.N, cond10_0 (grid10.coords t) ↔ t.val % 10 = 0 :=
  (by decide +kernel : ∀ t : Fin grid10.N, cond10_0 (grid10.coords t) ↔ t.val % 10 = 0)

/-- "This is the last point": the condition under which the output is written. -/
abbrev cond10_1 (i : grid10.Coords) : Prop := k10_cond2 i = 1#1
theorem hcond10_1 : ∀ t : Fin cfg10.N, cond10_1 (grid10.coords t) ↔ t.val % 10 = 9 :=
  (by decide +kernel : ∀ t : Fin grid10.N, cond10_1 (grid10.coords t) ↔ t.val % 10 = 9)

/-- The three inputs are never idle; the output is idle, and not written back, at every point but the last. -/
theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel
theorem idleAt10_3 : ∀ t : Fin cfg10.N, ¬cond10_1 (grid10.coords t) → cfg10.idle 3 (grid10.coords t) = true := by decide +kernel
theorem noFlush10_3 : ∀ t : Fin cfg10.N, ¬cond10_1 (grid10.coords t) → (cfg10.win 3).flush t = false := by decide +kernel
theorem liveAt10_3 : ∀ t : Fin cfg10.N, cond10_1 (grid10.coords t) → cfg10.idle 3 (grid10.coords t) = false := by decide +kernel

/-! ## The memrefs the body is called with -/

abbrev ms10_0 (t : Fin cfg10.N) : Memref sig .tc .vmem S5000x128 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S128x2 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1x2 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x2 .f32 := win10_3.stage (cfg10.slots t 3)
abbrev hs10_3 (t : Fin cfg10.N) : (ms10_3 t).IsWhole := hstage10_3 ((cfg10.slots t 3).cast nbuf10_3)
/-- The accumulator: a whole scoped buffer of the kernel's own, passed beside the windows. -/
abbrev scM10 : Memref sig .tc .vmem S1x2 .f32 := Memref.whole cc10_scratch0
/-- The views through which the accumulator's and the output buffer's contents are stated. -/
abbrev VS10 : View sig .tc .vmem S1x2 .f32 := scM10.view
abbrev VO10 : View sig .tc .vmem S1x2 .f32 := (Memref.whole cc10_stg3_0 : Memref sig .tc .vmem S1x2 .f32).view

end Cert.Kernel.Hand

end
-- ==== Proof.K.FinalRunA.lean ====
import proofs.«180772_j89300960018653_1_alg».proof.Proof.K.FinalBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three runs

Each states the body on whole buffers together with the list of pieces its stores make, last store first:
the three inputs are handed back as they were; an output the case does not store into is handed back as found. -/

set_option maxHeartbeats 1000000 in
/-- CASE A, the first point: the accumulator, found at anything, is cleared and then receives the block's column sums. -/
noncomputable def kernelRun10_A (c : Dev nD) (i : grid10.Coords) (arg1 : Memref sig .tc .vmem S5000x128 .f32) (harg1 : arg1.IsWhole) (arg2 : Memref sig .tc .vmem S128x2 .f32) (harg2 : arg2.IsWhole) (arg3 : Memref sig .tc .vmem S1x2 .f32) (harg3 : arg3.IsWhole) (arg4 : Memref sig .tc .vmem S1x2 .f32) (harg4 : arg4.IsWhole) (arg5 : Memref sig .tc .vmem S1x2 .f32) (harg5 : arg5.IsWhole) (hc0 : cond10_0 i) (hc1 : ¬cond10_1 i)
    (x0 : Vec F S5000x128 .f32) (w0 : Vec F S128x2 .f32) (b0 : Vec F S1x2 .f32) :
    { LS0 : List (View.Piece (Elt F) S1x2 .f32) //
      ∀ (xi : Vec F S1x2 .f32) (E : Set ℕ) (K : PUnit → sProp 𝕄),
        iprop(owns (c : Thread nD τ) arg1 fullShare x0 ∗ owns (c : Thread nD τ) arg2 fullShare w0 ∗ owns (c : Thread nD τ) arg3 fullShare b0 ∗ owns (c : Thread nD τ) arg4 fullShare xi ∗ (∃ d, owns (c : Thread nD τ) arg5 fullShare d)
            ∗ (iprop(owns (c : Thread nD τ) arg1 fullShare x0 ∗ owns (c : Thread nD τ) arg2 fullShare w0 ∗ owns (c : Thread nD τ) arg3 fullShare b0 ∗ owns (c : Thread nD τ) arg4 fullShare xi ∗ (∃ f, arg5.view.loc (c : Thread nD τ) ↦[arg5.view.set]{fullShare} arg5.view.writes (Elt F) f LS0)) -∗ K ⟨⟩))
          ⊢ wp frame (wpE (defs₀ (F := F)) Variants.none c none) E (cc10__final_kernel i arg1 harg1 arg2 harg2 arg3 harg3 arg4 harg4 arg5 harg5) K } := by
  refine ⟨?_, fun xi E K => ?run⟩
  case run =>
    simp only [cc10__final_kernel_eq_skeleton]; unfold cc10__final_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Hand

end
-- ==== Proof.K.FinalRunB.lean ====
import proofs.«180772_j89300960018653_1_alg».proof.Proof.K.FinalBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B, a point strictly between the first and the last: the accumulator, found at `xs0`, receives the block's column sums. -/
noncomputable def kernelRun10_B (c : Dev nD) (i : grid10.Coords) (arg1 : Memref sig .tc .vmem S5000x128 .f32) (harg1 : arg1.IsWhole) (arg2 : Memref sig .tc .vmem S128x2 .f32) (harg2 : arg2.IsWhole) (arg3 : Memref sig .tc .vmem S1x2 .f32) (harg3 : arg3.IsWhole) (arg4 : Memref sig .tc .vmem S1x2 .f32) (harg4 : arg4.IsWhole) (arg5 : Memref sig .tc .vmem S1x2 .f32) (harg5 : arg5.IsWhole) (hc0 : ¬cond10_0 i) (hc1 : ¬cond10_1 i)
    (x0 : Vec F S5000x128 .f32) (w0 : Vec F S128x2 .f32) (b0 : Vec F S1x2 .f32) (xs0 : Vec F S1x2 .f32) :
    { LS0 : List (View.Piece (Elt F) S1x2 .f32) //
      ∀ (xi : Vec F S1x2 .f32) (E : Set ℕ) (K : PUnit → sProp 𝕄),
        iprop(owns (c : Thread nD τ) arg1 fullShare x0 ∗ owns (c : Thread nD τ) arg2 fullShare w0 ∗ owns (c : Thread nD τ) arg3 fullShare b0 ∗ owns (c : Thread nD τ) arg4 fullShare xi ∗ owns (c : Thread nD τ) arg5 fullShare xs0
            ∗ (iprop(owns (c : Thread nD τ) arg1 fullShare x0 ∗ owns (c : Thread nD τ) arg2 fullShare w0 ∗ owns (c : Thread nD τ) arg3 fullShare b0 ∗ owns (c : Thread nD τ) arg4 fullShare xi ∗ (∃ f, arg5.view.loc (c : Thread nD τ) ↦[arg5.view.set]{fullShare} arg5.view.writes (Elt F) f LS0)) -∗ K ⟨⟩))
          ⊢ wp frame (wpE (defs₀ (F := F)) Variants.none c none) E (cc10__final_kernel i arg1 harg1 arg2 harg2 arg3 harg3 arg4 harg4 arg5 harg5) K } := by
  refine ⟨?_, fun xi E K => ?run⟩
  case run =>
    simp only [cc10__final_kernel_eq_skeleton]; unfold cc10__final_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Hand

end
-- ==== Proof.K.FinalRunC.lean ====
import proofs.«180772_j89300960018653_1_alg».proof.Proof.K.FinalBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE C, the last point: the accumulator, found at `xs0`, receives the block's column sums, and the output buffer,
    found at anything, receives the scaled total plus the bias. -/
noncomputable def kernelRun10_C (c : Dev nD) (i : grid10.Coords) (arg1 : Memref sig .tc .vmem S5000x128 .f32) (harg1 : arg1.IsWhole) (arg2 : Memref sig .tc .vmem S128x2 .f32) (harg2 : arg2.IsWhole) (arg3 : Memref sig .tc .vmem S1x2 .f32) (harg3 : arg3.IsWhole) (arg4 : Memref sig .tc .vmem S1x2 .f32) (harg4 : arg4.IsWhole) (arg5 : Memref sig .tc .vmem S1x2 .f32) (harg5 : arg5.IsWhole) (hc0 : ¬cond10_0 i) (hc1 : cond10_1 i)
    (x0 : Vec F S5000x128 .f32) (w0 : Vec F S128x2 .f32) (b0 : Vec F S1x2 .f32) (xs0 : Vec F S1x2 .f32) :
    Σ' (L3 : List (View.Piece (Elt F) S1x2 .f32)), { LS0 : List (View.Piece (Elt F) S1x2 .f32) //
      ∀ (E : Set ℕ) (K : PUnit → sProp 𝕄),
        iprop(owns (c : Thread nD τ) arg1 fullShare x0 ∗ owns (c : Thread nD τ) arg2 fullShare w0 ∗ owns (c : Thread nD τ) arg3 fullShare b0 ∗ (∃ d, owns (c : Thread nD τ) arg4 fullShare d) ∗ owns (c : Thread nD τ) arg5 fullShare xs0
            ∗ (iprop(owns (c : Thread nD τ) arg1 fullShare x0 ∗ owns (c : Thread nD τ) arg2 fullShare w0 ∗ owns (c : Thread nD τ) arg3 fullShare b0 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc10__final_kernel i arg1 harg1 arg2 harg2 arg3 harg3 arg4 harg4 arg5 harg5) K } := by
  refine ⟨?_, ?_, fun E K => ?run⟩
  case run =>
    simp only [cc10__final_kernel_eq_skeleton]; unfold cc10__final_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Hand

end
-- ==== Proof.K.Final.lean ====
import proofs.«180772_j89300960018653_1_alg».proof.Proof.K.FinalRunA
import proofs.«180772_j89300960018653_1_alg».proof.Proof.K.FinalRunB
import proofs.«180772_j89300960018653_1_alg».proof.Proof.K.FinalRunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The last region's proof data and body obligation

What the accumulator holds after each point is a fold of the body's arithmetic over the points' blocks of `x`
(`accAfter`); the output buffer receives, at the last point, `accumulator * s + bias` (`s` the float nearest 1/50000). The region's
invariant carries the accumulator at that fold between points. -/

variable (V : (c : Dev nD) → (b : Ref sig .tc) → Buf (Elt F) ((c : Thread nD τ).loc b))

theorem hz2 : (![0, 0] : Fin 2 → Nat) = fun _ => 0 := funext fun a => by fin_cases a <;> rfl

/-! ## What each case's stores leave -/

/-- The pieces each case stores into the accumulator cover it (its last store is of the whole buffer). -/
theorem scover10_A (c : Dev nD) (i : grid10.Coords) (arg1 : Memref sig .tc .vmem S5000x128 .f32) (harg1 : arg1.IsWhole) (arg2 : Memref sig .tc .vmem S128x2 .f32) (harg2 : arg2.IsWhole) (arg3 : Memref sig .tc .vmem S1x2 .f32) (harg3 : arg3.IsWhole) (arg4 : Memref sig .tc .vmem S1x2 .f32) (harg4 : arg4.IsWhole) (arg5 : Memref sig .tc .vmem S1x2 .f32) (harg5 : arg5.IsWhole) (hc0 : cond10_0 i) (hc1 : ¬cond10_1 i) (x0 : Vec F S5000x128 .f32) (w0 : Vec F S128x2 .f32) (b0 : Vec F S1x2 .f32) (y : S1x2.Idx) :
    ∃ pc ∈ (kernelRun10_A c i arg1 harg1 arg2 harg2 arg3 harg3 arg4 harg4 arg5 harg5 hc0 hc1 x0 w0 b0).1, y ∈ pc.1.set :=
  View.cover_of_tiledL (kernelRun10_A c i arg1 harg1 arg2 harg2 arg3 harg3 arg4 harg4 arg5 harg5 hc0 hc1 x0 w0 b0).1 S1x2.size (by sl_kernel_rfl) y
theorem scover10_B (c : Dev nD) (i : grid10.Coords) (arg1 : Memref sig .tc .vmem S5000x128 .f32) (harg1 : arg1.IsWhole) (arg2 : Memref sig .tc .vmem S128x2 .f32) (harg2 : arg2.IsWhole) (arg3 : Memref sig .tc .vmem S1x2 .f32) (harg3 : arg3.IsWhole) (arg4 : Memref sig .tc .vmem S1x2 .f32) (harg4 : arg4.IsWhole) (arg5 : Memref sig .tc .vmem S1x2 .f32) (harg5 : arg5.IsWhole) (hc0 : ¬cond10_0 i) (hc1 : ¬cond10_1 i) (x0 : Vec F S5000x128 .f32) (w0 : Vec F S128x2 .f32) (b0 : Vec F S1x2 .f32) (xs0 : Vec F S1x2 .f32) (y : S1x2.Idx) :
    ∃ pc ∈ (kernelRun10_B c i arg1 harg1 arg2 harg2 arg3 harg3 arg4 harg4 arg5 harg5 hc0 hc1 x0 w0 b0 xs0).1, y ∈ pc.1.set :=
  View.cover_of_tiledL (kernelRun10_B c i arg1 harg1 arg2 harg2 arg3 harg3 arg4 harg4 arg5 harg5 hc0 hc1 x0 w0 b0 xs0).1 S1x2.size (by sl_kernel_rfl) y
theorem scover10_C (c : Dev nD) (i : grid10.Coords) (arg1 : Memref sig .tc .vmem S5000x128 .f32) (harg1 : arg1.IsWhole) (arg2 : Memref sig .tc .vmem S128x2 .f32) (harg2 : arg2.IsWhole) (arg3 : Memref sig .tc .vmem S1x2 .f32) (harg3 : arg3.IsWhole) (arg4 : Memref sig .tc .vmem S1x2 .f32) (harg4 : arg4.IsWhole) (arg5 : Memref sig .tc .vmem S1x2 .f32) (harg5 : arg5.IsWhole) (hc0 : ¬cond10_0 i) (hc1 : cond10_1 i) (x0 : Vec F S5000x128 .f32) (w0 : Vec F S128x2 .f32) (b0 : Vec F S1x2 .f32) (xs0 : Vec F S1x2 .f32) (y : S1x2.Idx) :
    ∃ pc ∈ (kernelRun10_C c i arg1 harg1 arg2 harg2 arg3 harg3 arg4 harg4 arg5 harg5 hc0 hc1 x0 w0 b0 xs0).2.1, y ∈ pc.1.set :=
  View.cover_of_tiledL (kernelRun10_C c i arg1 harg1 arg2 harg2 arg3 harg3 arg4 harg4 arg5 harg5 hc0 hc1 x0 w0 b0 xs0).2.1 S1x2.size (by sl_kernel_rfl) y
/-- and the last case's one store into the output buffer covers that. -/
theorem cover10_C (c : Dev nD) (i : grid10.Coords) (arg1 : Memref sig .tc .vmem S5000x128 .f32) (harg1 : arg1.IsWhole) (arg2 : Memref sig .tc .vmem S128x2 .f32) (harg2 : arg2.IsWhole) (arg3 : Memref sig .tc .vmem S1x2 .f32) (harg3 : arg3.IsWhole) (arg4 : Memref sig .tc .vmem S1x2 .f32) (harg4 : arg4.IsWhole) (arg5 : Memref sig .tc .vmem S1x2 .f32) (harg5 : arg5.IsWhole) (hc0 : ¬cond10_0 i) (hc1 : cond10_1 i) (x0 : Vec F S5000x128 .f32) (w0 : Vec F S128x2 .f32) (b0 : Vec F S1x2 .f32) (xs0 : Vec F S1x2 .f32) (y : S1x2.Idx) :
    ∃ pc ∈ (kernelRun10_C c i arg1 harg1 arg2 harg2 arg3 harg3 arg4 harg4 arg5 harg5 hc0 hc1 x0 w0 b0 xs0).1, y ∈ pc.1.set :=
  View.cover_of_tiledL (kernelRun10_C c i arg1 harg1 arg2 harg2 arg3 harg3 arg4 harg4 arg5 harg5 hc0 hc1 x0 w0 b0 xs0).1 S1x2.size (by sl_kernel_rfl) y

/-- At the first point the accumulator ends at the block's column sums added to the cleared accumulator. -/
theorem canon10_A (c : Dev nD) (i : grid10.Coords) (arg1 : Memref sig .tc .vmem S5000x128 .f32) (harg1 : arg1.IsWhole) (arg2 : Memref sig .tc .vmem S128x2 .f32) (harg2 : arg2.IsWhole) (arg3 : Memref sig .tc .vmem S1x2 .f32) (harg3 : arg3.IsWhole) (arg4 : Memref sig .tc .vmem S1x2 .f32) (harg4 : arg4.IsWhole) (arg5 : Memref sig .tc .vmem S1x2 .f32) (harg5 : arg5.IsWhole) (hc0 : cond10_0 i) (hc1 : ¬cond10_1 i) (x0 : Vec F S5000x128 .f32) (w0 : Vec F S128x2 .f32) (b0 : Vec F S1x2 .f32) :
    View.canon (kernelRun10_A c i arg1 harg1 arg2 harg2 arg3 harg3 arg4 harg4 arg5 harg5 hc0 hc1 x0 w0 b0).1 = k10_pay2 x0 w0 k10_pay1 := by
  unfold kernelRun10_A
  dsimp only
  sl_unfold_words
  rw [View.canon_cons_unit_zero (S := S1x2) hz2, View.readCov_unit_zero (S := S1x2) _ hz2]
  simp only [View.readAt_eq_ld, harg1.read_unread, harg2.read_unread, View.ld_unit_zero (S := S5000x128) hz2, View.ld_unit_zero (S := S128x2) hz2]

/-- At a later point it ends at the block's column sums added to what it held. -/
theorem canon10_B (c : Dev nD) (i : grid10.Coords) (arg1 : Memref sig .tc .vmem S5000x128 .f32) (harg1 : arg1.IsWhole) (arg2 : Memref sig .tc .vmem S128x2 .f32) (harg2 : arg2.IsWhole) (arg3 : Memref sig .tc .vmem S1x2 .f32) (harg3 : arg3.IsWhole) (arg4 : Memref sig .tc .vmem S1x2 .f32) (harg4 : arg4.IsWhole) (arg5 : Memref sig .tc .vmem S1x2 .f32) (harg5 : arg5.IsWhole) (hc0 : ¬cond10_0 i) (hc1 : ¬cond10_1 i) (x0 : Vec F S5000x128 .f32) (w0 : Vec F S128x2 .f32) (b0 : Vec F S1x2 .f32) (xs0 : Vec F S1x2 .f32) :
    View.canon (kernelRun10_B c i arg1 harg1 arg2 harg2 arg3 harg3 arg4 harg4 arg5 harg5 hc0 hc1 x0 w0 b0 xs0).1 = k10_pay2 x0 w0 xs0 := by
  unfold kernelRun10_B
  dsimp only
  sl_unfold_words
  rw [View.canon_unit_zero (S := S1x2) hz2]
  simp only [View.readAt_eq_ld, harg1.read_unread, harg2.read_unread, harg5.read_unread, View.ld_unit_zero (S := S5000x128) hz2, View.ld_unit_zero (S := S128x2) hz2, View.ld_unit_zero (S := S1x2) hz2]

theorem scanon10_C (c : Dev nD) (i : grid10.Coords) (arg1 : Memref sig .tc .vmem S5000x128 .f32) (harg1 : arg1.IsWhole) (arg2 : Memref sig .tc .vmem S128x2 .f32) (harg2 : arg2.IsWhole) (arg3 : Memref sig .tc .vmem S1x2 .f32) (harg3 : arg3.IsWhole) (arg4 : Memref sig .tc .vmem S1x2 .f32) (harg4 : arg4.IsWhole) (arg5 : Memref sig .tc .vmem S1x2 .f32) (harg5 : arg5.IsWhole) (hc0 : ¬cond10_0 i) (hc1 : cond10_1 i) (x0 : Vec F S5000x128 .f32) (w0 : Vec F S128x2 .f32) (b0 : Vec F S1x2 .f32) (xs0 : Vec F S1x2 .f32) :
    View.canon (kernelRun10_C c i arg1 harg1 arg2 harg2 arg3 harg3 arg4 harg4 arg5 harg5 hc0 hc1 x0 w0 b0 xs0).2.1 = k10_pay2 x0 w0 xs0 := by
  unfold kernelRun10_C
  dsimp only
  sl_unfold_words
  rw [View.canon_unit_zero (S := S1x2) hz2]
  simp only [View.readAt_eq_ld, harg1.read_unread, harg2.read_unread, harg5.read_unread, View.ld_unit_zero (S := S5000x128) hz2, View.ld_unit_zero (S := S128x2) hz2, View.ld_unit_zero (S := S1x2) hz2]

/-- At the last point the output buffer ends at the scaled accumulator plus the bias. -/
theorem canon10_C (c : Dev nD) (i : grid10.Coords) (arg1 : Memref sig .tc .vmem S5000x128 .f32) (harg1 : arg1.IsWhole) (arg2 : Memref sig .tc .vmem S128x2 .f32) (harg2 : arg2.IsWhole) (arg3 : Memref sig .tc .vmem S1x2 .f32) (harg3 : arg3.IsWhole) (arg4 : Memref sig .tc .vmem S1x2 .f32) (harg4 : arg4.IsWhole) (arg5 : Memref sig .tc .vmem S1x2 .f32) (harg5 : arg5.IsWhole) (hc0 : ¬cond10_0 i) (hc1 : cond10_1 i) (x0 : Vec F S5000x128 .f32) (w0 : Vec F S128x2 .f32) (b0 : Vec F S1x2 .f32) (xs0 : Vec F S1x2 .f32) :
    View.canon (kernelRun10_C c i arg1 harg1 arg2 harg2 arg3 harg3 arg4 harg4 arg5 harg5 hc0 hc1 x0 w0 b0 xs0).1 = k10_pay3 (k10_pay2 x0 w0 xs0) b0 := by
  unfold kernelRun10_C
  dsimp only
  sl_unfold_words
  rw [View.canon_unit_zero (S := S1x2) hz2, View.readCov_unit_zero (S := S1x2) _ hz2]
  simp only [View.readAt_eq_ld, harg1.read_unread, harg2.read_unread, harg3.read_unread, harg5.read_unread, View.ld_unit_zero (S := S5000x128) hz2, View.ld_unit_zero (S := S128x2) hz2, View.ld_unit_zero (S := S1x2) hz2]

/-! ## The accumulator after each point -/

/-- Point `n` of the grid (taken mod 10, so that it is total in `n`). -/
def pt10 (n : ℕ) : Fin cfg10.N := ⟨n % 10, lt_of_lt_of_eq (Nat.mod_lt n (by decide)) N_10.symm⟩
theorem pt10_mk (n : ℕ) (hn : n < cfg10.N) : pt10 n = ⟨n, hn⟩ := Fin.ext (Nat.mod_eq_of_lt (lt_of_lt_of_eq hn N_10))
theorem pt10_val (t : Fin cfg10.N) : pt10 t.val = t := pt10_mk t.val t.isLt

/-- THE ACCUMULATION: what the accumulator holds after point `n` — the column sums of block 0's product added to the
    cleared accumulator, then each later block's added in turn. -/
def accAfter (c : Dev nD) : ℕ → Vec F S1x2 .f32
  | 0 => k10_pay2 (iblk10 V c 0 (pt10 0)) (iblk10 V c 1 (pt10 0)) k10_pay1
  | n + 1 => k10_pay2 (iblk10 V c 0 (pt10 (n + 1))) (iblk10 V c 1 (pt10 (n + 1))) (accAfter c n)

theorem accAfter_zero (c : Dev nD) :
    accAfter V c 0 = k10_pay2 (iblk10 V c 0 (pt10 0)) (iblk10 V c 1 (pt10 0)) k10_pay1 := by rw [accAfter]
theorem accAfter_succ (c : Dev nD) (n : ℕ) :
    accAfter V c (n + 1) = k10_pay2 (iblk10 V c 0 (pt10 (n + 1))) (iblk10 V c 1 (pt10 (n + 1))) (accAfter V c n) := by rw [accAfter]

theorem accAfter_at_first (c : Dev nD) (t : Fin cfg10.N) (h0 : t.val = 0) :
    accAfter V c t.val = k10_pay2 (iblk10 V c 0 t) (iblk10 V c 1 t) k10_pay1 := by
  have e : pt10 0 = t := by rw [← h0]; exact pt10_val t
  rw [h0, accAfter_zero, e]

theorem accAfter_at_pos (c : Dev nD) (t : Fin cfg10.N) (h0 : t.val ≠ 0) :
    accAfter V c t.val = k10_pay2 (iblk10 V c 0 t) (iblk10 V c 1 t) (accAfter V c (t.val - 1)) := by
  obtain ⟨n, hn⟩ := t
  cases n with
  | zero => exact absurd rfl h0
  | succ n =>
    dsimp only
    rw [accAfter_succ, pt10_mk (n + 1) hn, Nat.add_sub_cancel]

/-- What the last point stores into the output buffer, from the accumulator and the bias block. -/
def out10_3 (acc b : Vec F S1x2 .f32) : Vec F S1x2 .f32 := k10_pay3 acc b

/-! ## The invariant -/

/-- The region's invariant before point `n`: before the first point what the launch hands it (every scoped buffer that
    is no staging buffer at anything, the generator register at some state); afterwards the same with the accumulator
    at `accAfter (n - 1)`. -/
def Phi10 (c : Dev nD) : ℕ → sProp 𝕄
  | 0 => Pipeline.ΦA spec10 c
  | n + 1 => iprop(iprop(owns (c : Thread nD τ) scM10 fullShare (accAfter V c n)
      ∗ Pipeline.scopedRestBut (Ix := Unit) (Name := ℕ) (U := UR sig nD τ) (Lvl := ℕ) (Val := Elt F) spec10 c [cc10_scratch0]) ∗ (∃ r, prngReg c r))

theorem Phi10_succ (c : Dev nD) (n : ℕ) :
    Phi10 V c (n + 1) = iprop(iprop(owns (c : Thread nD τ) scM10 fullShare (accAfter V c n)
      ∗ Pipeline.scopedRestBut (Ix := Unit) (Name := ℕ) (U := UR sig nD τ) (Lvl := ℕ) (Val := Elt F) spec10 c [cc10_scratch0]) ∗ (∃ r, prngReg c r)) := rfl

theorem Phi10_pos (c : Dev nD) (n : ℕ) (hz : n ≠ 0) :
    Phi10 V c n = iprop(iprop(owns (c : Thread nD τ) scM10 fullShare (accAfter V c (n - 1))
      ∗ Pipeline.scopedRestBut (Ix := Unit) (Name := ℕ) (U := UR sig nD τ) (Lvl := ℕ) (Val := Elt F) spec10 c [cc10_scratch0]) ∗ (∃ r, prngReg c r)) := by
  cases n with
  | zero => exact absurd rfl hz
  | succ n => rfl

/-- What the launch hands the region, with the accumulator taken out of the scoped rest as a memref owned at something. -/
theorem PhiA10_eq (c : Dev nD) :
    (Pipeline.ΦA spec10 c : sProp 𝕄)
      = iprop(iprop((∃ d, owns (c : Thread nD τ) scM10 fullShare d)
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10, owns_whole]; try rfl

/-! ## The proof data -/

/-- The proof data of the region on core `c`: the arrays as the region finds them; after the body each input's buffer at
    its block, the output's at the scaled accumulator plus the bias (consulted at the last point only: elsewhere the
    window is idle); the invariant `Phi10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (accAfter V c t.val) (iblk10 V c 2 t)
  Φ t := Phi10 V c t.val
  q _ := fullShare
  owed _ := 0

theorem A_eq10 (c : Dev nD) (w : Fin cfg10.W) : (dat10 V c).A w = V c (Pipeline.arrRef spec10 w) := by
  dsimp only [dat10]

theorem Phi10_first (c : Dev nD) : (dat10 V c).Φ 0 = Pipeline.ΦA spec10 c := rfl

theorem Phi10_castSucc (c : Dev nD) (t : Fin cfg10.N) : (dat10 V c).Φ t.castSucc = Phi10 V c t.val := by
  dsimp only [dat10]; simp only [Fin.coe_castSucc]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) :
    (dat10 V c).after 3 t = out10_3 (accAfter V c t.val) (iblk10 V c 2 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-- After any point but the first the invariant gives back what the launch handed: the accumulator's contents are forgotten. -/
theorem Phi10_out (c : Dev nD) (t : Fin (cfg10.N + 1)) (ht : t.val ≠ 0) : (dat10 V c).Φ t ⊢ (Pipeline.ΦA spec10 c : sProp 𝕄) := by
  rw [show (dat10 V c).Φ t = Phi10 V c t.val from rfl, Phi10_pos V c _ ht, PhiA10_eq]
  iintro ⟨⟨HS0, HR⟩, Hg⟩
  isplitl [HS0 HR]
  · isplitl [HS0]
    · iexists _; iexact HS0
    iexact HR
  iexact Hg

theorem Phi10_last (c : Dev nD) : (dat10 V c).Φ (Fin.last cfg10.N) ⊢ (Pipeline.ΦA spec10 c : sProp 𝕄) :=
  Phi10_out V c _ (by rw [Fin.val_last]; have : cfg10.N = 10 := N_10; omega)

theorem Phi10_zero (c : Dev nD) (n : ℕ) (hz : n = 0) : Phi10 V c n = Pipeline.ΦA spec10 c := by
  subst hz; rfl

/-! ## The body obligation -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t)

set_option maxHeartbeats 4800000 in
/-- The body at any point: the inputs' buffers hold their blocks; the closed forms of the two conditions say which of
    the three cases the point is in; the invariant hands the body the accumulator (at anything before the first point,
    at the fold so far afterwards) and takes it back at the fold through this point; at every point but the last the
    output buffer is handed back as found, at the last it holds the scaled accumulator plus the bias. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).owesAt () t.succ = (dat10 V c).owesAt () t.castSucc from rfl]
  rw [show (dat10 V c).Φ t.succ = Phi10 V c (t.val + 1) from rfl, Phi10_succ]
  have hN : t.val < 10 := lt_of_lt_of_eq t.isLt (show cfg10.N = 10 from N_10)
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  rw [show (dat10 V c).leavesExact 2 t = owns (c : Thread nD τ) (ms10_2 t) fullShare ((dat10 V c).after 2 t) from by
    unfold Dat.leavesExact; rw [liveAt10_2 t], after10_2]
  rw [Phi10_castSucc V c t]
  by_cases h1 : t.val % 10 = 9
  · have h0 : ¬t.val % 10 = 0 := by omega
    have hz : t.val ≠ 0 := by omega
    rw [show (dat10 V c).leavesExact 3 t = owns (c : Thread nD τ) (ms10_3 t) fullShare ((dat10 V c).after 3 t) from by
      unfold Dat.leavesExact; rw [liveAt10_3 t ((hcond10_1 t).mpr h1)], after10_3]
    unfold out10_3
    rw [accAfter_at_pos V c t hz, Phi10_pos V c _ hz]
    iintro ⟨⟨⟨HS0, HR⟩, Hg⟩, Ho, ⟨%d0, H0⟩, ⟨%d1, H1⟩, ⟨%d2, H2⟩, ⟨%d3, H3⟩⟩
    iapply ((kernelRun10_C c (grid10.coords t) _ _ _ _ _ _ _ _ _ _ (fun h => h0 ((hcond10_0 t).mp h)) ((hcond10_1 t).mpr h1) (iblk10 V c 0 t) (iblk10 V c 1 t) (iblk10 V c 2 t) (accAfter V c (t.val - 1))).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact (View.read_writes_eq_canon _ _ _ (scover10_C c _ _ _ _ _ _ _ _ _ _ _ _ _ _ _ _ _)).trans (scanon10_C c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact (View.read_writes_eq_canon _ _ _ (cover10_C c _ _ _ _ _ _ _ _ _ _ _ _ _ _ _ _ _)).trans (canon10_C c _ _ _ _ _ _ _ _ _ _ _ _ _ _ _ _ _)
  · rw [Dat.leavesExact_idle (dat10 V c) 3 t (idleAt10_3 t (fun h => h1 ((hcond10_1 t).mp h))) (noFlush10_3 t (fun h => h1 ((hcond10_1 t).mp h)))]
    by_cases h0 : t.val % 10 = 0
    · have hz : t.val = 0 := by omega
      rw [accAfter_at_first V c t hz, Phi10_zero V c _ hz, PhiA10_eq]
      iintro ⟨⟨⟨HS0, HR⟩, Hg⟩, Ho, ⟨%d0, H0⟩, ⟨%d1, H1⟩, ⟨%d2, H2⟩, ⟨%d3, H3⟩⟩
      iapply ((kernelRun10_A c (grid10.coords t) _ _ _ _ _ _ _ _ _ _ ((hcond10_0 t).mpr h0) (fun h => h1 ((hcond10_1 t).mp h)) (iblk10 V c 0 t) (iblk10 V c 1 t) (iblk10 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact (View.read_writes_eq_canon _ _ _ (scover10_A c _ _ _ _ _ _ _ _ _ _ _ _ _ _ _ _)).trans (canon10_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · have hz : t.val ≠ 0 := by omega
      rw [accAfter_at_pos V c t hz, Phi10_pos V c _ hz]
      iintro ⟨⟨⟨HS0, HR⟩, Hg⟩, Ho, ⟨%d0, H0⟩, ⟨%d1, H1⟩, ⟨%d2, H2⟩, ⟨%d3, H3⟩⟩
      iapply ((kernelRun10_B c (grid10.coords t) _ _ _ _ _ _ _ _ _ _ (fun h => h0 ((hcond10_0 t).mp h)) (fun h => h1 ((hcond10_1 t).mp h)) (iblk10 V c 0 t) (iblk10 V c 1 t) (iblk10 V c 2 t) (accAfter V c (t.val - 1))).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact (View.read_writes_eq_canon _ _ _ (scover10_B c _ _ _ _ _ _ _ _ _ _ _ _ _ _ _ _ _)).trans (canon10_B c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.Run.lean ====
/-
  The whole program as a run. Between two items of @main (a stretch of host operations, or a kernel region) every
  unscoped buffer of a core holds known contents: the launch memory, then what each host stretch computes from what
  it finds, then, after a region, the region's output array at what its ten write-backs leave and every other buffer as
  the region found it. Each region is entered from the contents before it and left at the contents after it, so the
  regions chain, every execution of the program terminates without a fault, the argument arrays end as launched, and
  the result array ends at what the last region leaves.
-/
import proofs.«180772_j89300960018653_1_alg».proof.Proof.K.Reg0
import proofs.«180772_j89300960018653_1_alg».proof.Proof.K.Reg1
import proofs.«180772_j89300960018653_1_alg».proof.Proof.K.Reg2
import proofs.«180772_j89300960018653_1_alg».proof.Proof.K.Reg3
import proofs.«180772_j89300960018653_1_alg».proof.Proof.K.Reg4
import proofs.«180772_j89300960018653_1_alg».proof.Proof.K.Reg5
import proofs.«180772_j89300960018653_1_alg».proof.Proof.K.Reg6
import proofs.«180772_j89300960018653_1_alg».proof.Proof.K.Reg7
import proofs.«180772_j89300960018653_1_alg».proof.Proof.K.Reg8
import proofs.«180772_j89300960018653_1_alg».proof.Proof.K.Reg9
import proofs.«180772_j89300960018653_1_alg».proof.Proof.K.Final
import proofs.«180772_j89300960018653_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take. -/
abbrev atRefs (W : Dev nD → Valuation τ sig (Elt F)) : (c : Dev nD) → (b : Ref sig .tc) → Buf (Elt F) ((c : Thread nD τ).loc b) := fun c b => W c b

abbrev 𝒱n : Variants := Variants.none
abbrev Ln : GSem nD τ sig → Finset Unit := fun _ => ∅
abbrev lvn : GSem nD τ sig → Unit → ℕ := fun _ _ => 0
/-- What rides beside the buffers between @main's items: the generator register at some state, and nothing owed. -/
abbrev Rst (c : Dev nD) : sProp 𝕄 := iprop((∃ r, prngReg c r) ∗ ∃ W, owes (c : Thread nD τ) (0 : CellTallies nD τ sig Unit) W)

/-- Replacing an entry by what a replaced copy holds there is the replaced copy. -/
theorem upd_step {α : Type} [DecidableEq α] {β : α → Type} {f g : (a : α) → β a} (h : f = g) (a : α) (x : β a) :
    Function.update f a (Function.update g a x a) = Function.update g a x := by subst h; rw [Function.update_self]

/-! ## The buffers' contents between items -/

/-- After region 0: its output array holds what the write-backs leave, every other buffer is as the region found it. -/
def W6 (c : Dev nD) : Valuation τ sig (Elt F) :=
  Function.update (V5 m c) main_v35 ((dat0 (atRefs (V5 m)) c).arrAt 2 cfg0.N)
/-- After the host stretch that follows it. -/
def W7 (c : Dev nD) : Valuation τ sig (Elt F) := StableHlo.after hostOps1 (W6 m c)

set_option maxHeartbeats 1000000 in
theorem hF0 (c : Dev nD) : ∀ w : Fin 3, (dat0 (atRefs (V5 m)) c).arrAt w cfg0.N = W6 m c (Pipeline.arrRef spec0 w)
  | 0 => ((dat0 (atRefs (V5 m)) c).arrAt_in 0 rfl _).trans ((A_eq0 (atRefs (V5 m)) c 0).trans (Function.update_of_ne (StableHlo.devRef_ne_of_ne (by decide)) _ _).symm)
  | 1 => ((dat0 (atRefs (V5 m)) c).arrAt_in 1 rfl _).trans ((A_eq0 (atRefs (V5 m)) c 1).trans (Function.update_of_ne (StableHlo.devRef_ne_of_ne (by decide)) _ _).symm)
  | 2 => by unfold W6; exact Eq.symm (Function.update_self (α := DevRef τ sig) (main_v35 : DevRef τ sig) _ _)
  | ⟨_ + 3, h⟩ => absurd h (Nat.not_lt.2 (Nat.le_add_left _ _))

theorem hrest0 (c : Dev nD) : ∀ b : Ref sig .tc, b ∉ Finset.univ.image (Pipeline.arrRef spec0) → atRefs (W6 m) c b = atRefs (V5 m) c b :=
  fun b hb => Function.update_of_ne (StableHlo.devRef_ne_of_ne fun e => hb (Finset.mem_image.mpr ⟨(2 : Fin 3), Finset.mem_univ _, e.symm⟩)) _ _

/-- After region 1: its output array holds what the write-backs leave, every other buffer is as the region found it. -/
def W8 (c : Dev nD) : Valuation τ sig (Elt F) :=
  Function.update (W7 m c) main_v50 ((dat1 (atRefs (W7 m)) c).arrAt 2 cfg1.N)
/-- After the host stretch that follows it. -/
def W9 (c : Dev nD) : Valuation τ sig (Elt F) := StableHlo.after hostOps2 (W8 m c)

set_option maxHeartbeats 1000000 in
theorem hF1 (c : Dev nD) : ∀ w : Fin 3, (dat1 (atRefs (W7 m)) c).arrAt w cfg1.N = W8 m c (Pipeline.arrRef spec1 w)
  | 0 => ((dat1 (atRefs (W7 m)) c).arrAt_in 0 rfl _).trans ((A_eq1 (atRefs (W7 m)) c 0).trans (Function.update_of_ne (StableHlo.devRef_ne_of_ne (by decide)) _ _).symm)
  | 1 => ((dat1 (atRefs (W7 m)) c).arrAt_in 1 rfl _).trans ((A_eq1 (atRefs (W7 m)) c 1).trans (Function.update_of_ne (StableHlo.devRef_ne_of_ne (by decide)) _ _).symm)
  | 2 => by unfold W8; exact Eq.symm (Function.update_self (α := DevRef τ sig) (main_v50 : DevRef τ sig) _ _)
  | ⟨_ + 3, h⟩ => absurd h (Nat.not_lt.2 (Nat.le_add_left _ _))

theorem hrest1 (c : Dev nD) : ∀ b : Ref sig .tc, b ∉ Finset.univ.image (Pipeline.arrRef spec1) → atRefs (W8 m) c b = atRefs (W7 m) c b :=
  fun b hb => Function.update_of_ne (StableHlo.devRef_ne_of_ne fun e => hb (Finset.mem_image.mpr ⟨(2 : Fin 3), Finset.mem_univ _, e.symm⟩)) _ _

/-- After region 2: its output array holds what the write-backs leave, every other buffer is as the region found it. -/
def W10 (c : Dev nD) : Valuation τ sig (Elt F) :=
  Function.update (W9 m c) main_v53 ((dat2 (atRefs (W9 m)) c).arrAt 2 cfg2.N)
/-- After the host stretch that follows it. -/
def W11 (c : Dev nD) : Valuation τ sig (Elt F) := StableHlo.after hostOps3 (W10 m c)

set_option maxHeartbeats 1000000 in
theorem hF2 (c : Dev nD) : ∀ w : Fin 3, (dat2 (atRefs (W9 m)) c).arrAt w cfg2.N = W10 m c (Pipeline.arrRef spec2 w)
  | 0 => ((dat2 (atRefs (W9 m)) c).arrAt_in 0 rfl _).trans ((A_eq2 (atRefs (W9 m)) c 0).trans (Function.update_of_ne (StableHlo.devRef_ne_of_ne (by decide)) _ _).symm)
  | 1 => ((dat2 (atRefs (W9 m)) c).arrAt_in 1 rfl _).trans ((A_eq2 (atRefs (W9 m)) c 1).trans (Function.update_of_ne (StableHlo.devRef_ne_of_ne (by decide)) _ _).symm)
  | 2 => by unfold W10; exact Eq.symm (Function.update_self (α := DevRef τ sig) (main_v53 : DevRef τ sig) _ _)
  | ⟨_ + 3, h⟩ => absurd h (Nat.not_lt.2 (Nat.le_add_left _ _))

theorem hrest2 (c : Dev nD) : ∀ b : Ref sig .tc, b ∉ Finset.univ.image (Pipeline.arrRef spec2) → atRefs (W10 m) c b = atRefs (W9 m) c b :=
  fun b hb => Function.update_of_ne (StableHlo.devRef_ne_of_ne fun e => hb (Finset.mem_image.mpr ⟨(2 : Fin 3), Finset.mem_univ _, e.symm⟩)) _ _

/-- After region 3: its output array holds what the write-backs leave, every other buffer is as the region found it. -/
def W12 (c : Dev nD) : Valuation τ sig (Elt F) :=
  Function.update (W11 m c) main_v70 ((dat3 (atRefs (W11 m)) c).arrAt 3 cfg3.N)
/-- After the host stretch that follows it. -/
def W13 (c : Dev nD) : Valuation τ sig (Elt F) := StableHlo.after hostOps4 (W12 m c)

set_option maxHeartbeats 1000000 in
theorem hF3 (c : Dev nD) : ∀ w : Fin 4, (dat3 (atRefs (W11 m)) c).arrAt w cfg3.N = W12 m c (Pipeline.arrRef spec3 w)
  | 0 => ((dat3 (atRefs (W11 m)) c).arrAt_in 0 rfl _).trans ((A_eq3 (atRefs (W11 m)) c 0).trans (Function.update_of_ne (StableHlo.devRef_ne_of_ne (by decide)) _ _).symm)
  | 1 => ((dat3 (atRefs (W11 m)) c).arrAt_in 1 rfl _).trans ((A_eq3 (atRefs (W11 m)) c 1).trans (Function.update_of_ne (StableHlo.devRef_ne_of_ne (by decide)) _ _).symm)
  | 2 => ((dat3 (atRefs (W11 m)) c).arrAt_in 2 rfl _).trans ((A_eq3 (atRefs (W11 m)) c 2).trans (Function.update_of_ne (StableHlo.devRef_ne_of_ne (by decide)) _ _).symm)
  | 3 => by unfold W12; exact Eq.symm (Function.update_self (α := DevRef τ sig) (main_v70 : DevRef τ sig) _ _)
  | ⟨_ + 4, h⟩ => absurd h (Nat.not_lt.2 (Nat.le_add_left _ _))

theorem hrest3 (c : Dev nD) : ∀ b : Ref sig .tc, b ∉ Finset.univ.image (Pipeline.arrRef spec3) → atRefs (W12 m) c b = atRefs (W11 m) c b :=
  fun b hb => Function.update_of_ne (StableHlo.devRef_ne_of_ne fun e => hb (Finset.mem_image.mpr ⟨(3 : Fin 4), Finset.mem_univ _, e.symm⟩)) _ _

/-- After region 4: its output array holds what the write-backs leave, every other buffer is as the region found it. -/
def W14 (c : Dev nD) : Valuation τ sig (Elt F) :=
  Function.update (W13 m c) main_v73 ((dat4 (atRefs (W13 m)) c).arrAt 2 cfg4.N)
/-- After the host stretch that follows it. -/
def W15 (c : Dev nD) : Valuation τ sig (Elt F) := StableHlo.after hostOps5 (W14 m c)

set_option maxHeartbeats 1000000 in
theorem hF4 (c : Dev nD) : ∀ w : Fin 3, (dat4 (atRefs (W13 m)) c).arrAt w cfg4.N = W14 m c (Pipeline.arrRef spec4 w)
  | 0 => ((dat4 (atRefs (W13 m)) c).arrAt_in 0 rfl _).trans ((A_eq4 (atRefs (W13 m)) c 0).trans (Function.update_of_ne (StableHlo.devRef_ne_of_ne (by decide)) _ _).symm)
  | 1 => ((dat4 (atRefs (W13 m)) c).arrAt_in 1 rfl _).trans ((A_eq4 (atRefs (W13 m)) c 1).trans (Function.update_of_ne (StableHlo.devRef_ne_of_ne (by decide)) _ _).symm)
  | 2 => by unfold W14; exact Eq.symm (Function.update_self (α := DevRef τ sig) (main_v73 : DevRef τ sig) _ _)
  | ⟨_ + 3, h⟩ => absurd h (Nat.not_lt.2 (Nat.le_add_left _ _))

theorem hrest4 (c : Dev nD) : ∀ b : Ref sig .tc, b ∉ Finset.univ.image (Pipeline.arrRef spec4) → atRefs (W14 m) c b = atRefs (W13 m) c b :=
  fun b hb => Function.update_of_ne (StableHlo.devRef_ne_of_ne fun e => hb (Finset.mem_image.mpr ⟨(2 : Fin 3), Finset.mem_univ _, e.symm⟩)) _ _

/-- After region 5: its output array holds what the write-backs leave, every other buffer is as the region found it. -/
def W16 (c : Dev nD) : Valuation τ sig (Elt F) :=
  Function.update (W15 m c) main_v90 ((dat5 (atRefs (W15 m)) c).arrAt 3 cfg5.N)
/-- After the host stretch that follows it. -/
def W17 (c : Dev nD) : Valuation τ sig (Elt F) := StableHlo.after hostOps6 (W16 m c)

set_option maxHeartbeats 1000000 in
theorem hF5 (c : Dev nD) : ∀ w : Fin 4, (dat5 (atRefs (W15 m)) c).arrAt w cfg5.N = W16 m c (Pipeline.arrRef spec5 w)
  | 0 => ((dat5 (atRefs (W15 m)) c).arrAt_in 0 rfl _).trans ((A_eq5 (atRefs (W15 m)) c 0).trans (Function.update_of_ne (StableHlo.devRef_ne_of_ne (by decide)) _ _).symm)
  | 1 => ((dat5 (atRefs (W15 m)) c).arrAt_in 1 rfl _).trans ((A_eq5 (atRefs (W15 m)) c 1).trans (Function.update_of_ne (StableHlo.devRef_ne_of_ne (by decide)) _ _).symm)
  | 2 => ((dat5 (atRefs (W15 m)) c).arrAt_in 2 rfl _).trans ((A_eq5 (atRefs (W15 m)) c 2).trans (Function.update_of_ne (StableHlo.devRef_ne_of_ne (by decide)) _ _).symm)
  | 3 => by unfold W16; exact Eq.symm (Function.update_self (α := DevRef τ sig) (main_v90 : DevRef τ sig) _ _)
  | ⟨_ + 4, h⟩ => absurd h (Nat.not_lt.2 (Nat.le_add_left _ _))

theorem hrest5 (c : Dev nD) : ∀ b : Ref sig .tc, b ∉ Finset.univ.image (Pipeline.arrRef spec5) → atRefs (W16 m) c b = atRefs (W15 m) c b :=
  fun b hb => Function.update_of_ne (StableHlo.devRef_ne_of_ne fun e => hb (Finset.mem_image.mpr ⟨(3 : Fin 4), Finset.mem_univ _, e.symm⟩)) _ _

/-- After region 6: its output array holds what the write-backs leave, every other buffer is as the region found it. -/
def W18 (c : Dev nD) : Valuation τ sig (Elt F) :=
  Function.update (W17 m c) main_v93 ((dat6 (atRefs (W17 m)) c).arrAt 2 cfg6.N)
/-- After the host stretch that follows it. -/
def W19 (c : Dev nD) : Valuation τ sig (Elt F) := StableHlo.after hostOps7 (W18 m c)

set_option maxHeartbeats 1000000 in
theorem hF6 (c : Dev nD) : ∀ w : Fin 3, (dat6 (atRefs (W17 m)) c).arrAt w cfg6.N = W18 m c (Pipeline.arrRef spec6 w)
  | 0 => ((dat6 (atRefs (W17 m)) c).arrAt_in 0 rfl _).trans ((A_eq6 (atRefs (W17 m)) c 0).trans (Function.update_of_ne (StableHlo.devRef_ne_of_ne (by decide)) _ _).symm)
  | 1 => ((dat6 (atRefs (W17 m)) c).arrAt_in 1 rfl _).trans ((A_eq6 (atRefs (W17 m)) c 1).trans (Function.update_of_ne (StableHlo.devRef_ne_of_ne (by decide)) _ _).symm)
  | 2 => by unfold W18; exact Eq.symm (Function.update_self (α := DevRef τ sig) (main_v93 : DevRef τ sig) _ _)
  | ⟨_ + 3, h⟩ => absurd h (Nat.not_lt.2 (Nat.le_add_left _ _))

theorem hrest6 (c : Dev nD) : ∀ b : Ref sig .tc, b ∉ Finset.univ.image (Pipeline.arrRef spec6) → atRefs (W18 m) c b = atRefs (W17 m) c b :=
  fun b hb => Function.update_of_ne (StableHlo.devRef_ne_of_ne fun e => hb (Finset.mem_image.mpr ⟨(2 : Fin 3), Finset.mem_univ _, e.symm⟩)) _ _

/-- After region 7: its output array holds what the write-backs leave, every other buffer is as the region found it. -/
def W20 (c : Dev nD) : Valuation τ sig (Elt F) :=
  Function.update (W19 m c) main_v110 ((dat7 (atRefs (W19 m)) c).arrAt 3 cfg7.N)
/-- After the host stretch that follows it. -/
def W21 (c : Dev nD) : Valuation τ sig (Elt F) := StableHlo.after hostOps8 (W20 m c)

set_option maxHeartbeats 1000000 in
theorem hF7 (c : Dev nD) : ∀ w : Fin 4, (dat7 (atRefs (W19 m)) c).arrAt w cfg7.N = W20 m c (Pipeline.arrRef spec7 w)
  | 0 => ((dat7 (atRefs (W19 m)) c).arrAt_in 0 rfl _).trans ((A_eq7 (atRefs (W19 m)) c 0).trans (Function.update_of_ne (StableHlo.devRef_ne_of_ne (by decide)) _ _).symm)
  | 1 => ((dat7 (atRefs (W19 m)) c).arrAt_in 1 rfl _).trans ((A_eq7 (atRefs (W19 m)) c 1).trans (Function.update_of_ne (StableHlo.devRef_ne_of_ne (by decide)) _ _).symm)
  | 2 => ((dat7 (atRefs (W19 m)) c).arrAt_in 2 rfl _).trans ((A_eq7 (atRefs (W19 m)) c 2).trans (Function.update_of_ne (StableHlo.devRef_ne_of_ne (by decide)) _ _).symm)
  | 3 => by unfold W20; exact Eq.symm (Function.update_self (α := DevRef τ sig) (main_v110 : DevRef τ sig) _ _)
  | ⟨_ + 4, h⟩ => absurd h (Nat.not_lt.2 (Nat.le_add_left _ _))

theorem hrest7 (c : Dev nD) : ∀ b : Ref sig .tc, b ∉ Finset.univ.image (Pipeline.arrRef spec7) → atRefs (W20 m) c b = atRefs (W19 m) c b :=
  fun b hb => Function.update_of_ne (StableHlo.devRef_ne_of_ne fun e => hb (Finset.mem_image.mpr ⟨(3 : Fin 4), Finset.mem_univ _, e.symm⟩)) _ _

/-- After region 8: its output array holds what the write-backs leave, every other buffer is as the region found it. -/
def W22 (c : Dev nD) : Valuation τ sig (Elt F) :=
  Function.update (W21 m c) main_v113 ((dat8 (atRefs (W21 m)) c).arrAt 2 cfg8.N)
/-- After the host stretch that follows it. -/
def W23 (c : Dev nD) : Valuation τ sig (Elt F) := StableHlo.after hostOps9 (W22 m c)

set_option maxHeartbeats 1000000 in
theorem hF8 (c : Dev nD) : ∀ w : Fin 3, (dat8 (atRefs (W21 m)) c).arrAt w cfg8.N = W22 m c (Pipeline.arrRef spec8 w)
  | 0 => ((dat8 (atRefs (W21 m)) c).arrAt_in 0 rfl _).trans ((A_eq8 (atRefs (W21 m)) c 0).trans (Function.update_of_ne (StableHlo.devRef_ne_of_ne (by decide)) _ _).symm)
  | 1 => ((dat8 (atRefs (W21 m)) c).arrAt_in 1 rfl _).trans ((A_eq8 (atRefs (W21 m)) c 1).trans (Function.update_of_ne (StableHlo.devRef_ne_of_ne (by decide)) _ _).symm)
  | 2 => by unfold W22; exact Eq.symm (Function.update_self (α := DevRef τ sig) (main_v113 : DevRef τ sig) _ _)
  | ⟨_ + 3, h⟩ => absurd h (Nat.not_lt.2 (Nat.le_add_left _ _))

theorem hrest8 (c : Dev nD) : ∀ b : Ref sig .tc, b ∉ Finset.univ.image (Pipeline.arrRef spec8) → atRefs (W22 m) c b = atRefs (W21 m) c b :=
  fun b hb => Function.update_of_ne (StableHlo.devRef_ne_of_ne fun e => hb (Finset.mem_image.mpr ⟨(2 : Fin 3), Finset.mem_univ _, e.symm⟩)) _ _

/-- After region 9: its output array holds what the write-backs leave, every other buffer is as the region found it. -/
def W24 (c : Dev nD) : Valuation τ sig (Elt F) :=
  Function.update (W23 m c) main_v130 ((dat9 (atRefs (W23 m)) c).arrAt 3 cfg9.N)
/-- After the host stretch that follows it. -/
def W25 (c : Dev nD) : Valuation τ sig (Elt F) := StableHlo.after hostOps10 (W24 m c)

set_option maxHeartbeats 1000000 in
theorem hF9 (c : Dev nD) : ∀ w : Fin 4, (dat9 (atRefs (W23 m)) c).arrAt w cfg9.N = W24 m c (Pipeline.arrRef spec9 w)
  | 0 => ((dat9 (atRefs (W23 m)) c).arrAt_in 0 rfl _).trans ((A_eq9 (atRefs (W23 m)) c 0).trans (Function.update_of_ne (StableHlo.devRef_ne_of_ne (by decide)) _ _).symm)
  | 1 => ((dat9 (atRefs (W23 m)) c).arrAt_in 1 rfl _).trans ((A_eq9 (atRefs (W23 m)) c 1).trans (Function.update_of_ne (StableHlo.devRef_ne_of_ne (by decide)) _ _).symm)
  | 2 => ((dat9 (atRefs (W23 m)) c).arrAt_in 2 rfl _).trans ((A_eq9 (atRefs (W23 m)) c 2).trans (Function.update_of_ne (StableHlo.devRef_ne_of_ne (by decide)) _ _).symm)
  | 3 => by unfold W24; exact Eq.symm (Function.update_self (α := DevRef τ sig) (main_v130 : DevRef τ sig) _ _)
  | ⟨_ + 4, h⟩ => absurd h (Nat.not_lt.2 (Nat.le_add_left _ _))

theorem hrest9 (c : Dev nD) : ∀ b : Ref sig .tc, b ∉ Finset.univ.image (Pipeline.arrRef spec9) → atRefs (W24 m) c b = atRefs (W23 m) c b :=
  fun b hb => Function.update_of_ne (StableHlo.devRef_ne_of_ne fun e => hb (Finset.mem_image.mpr ⟨(3 : Fin 4), Finset.mem_univ _, e.symm⟩)) _ _

/-- After region 10: its output array holds what the write-backs leave, every other buffer is as the region found it. -/
def W26 (c : Dev nD) : Valuation τ sig (Elt F) :=
  Function.update (W25 m c) main_v132 ((dat10 (atRefs (W25 m)) c).arrAt 3 cfg10.N)

set_option maxHeartbeats 1000000 in
theorem hF10 (c : Dev nD) : ∀ w : Fin 4, (dat10 (atRefs (W25 m)) c).arrAt w cfg10.N = W26 m c (Pipeline.arrRef spec10 w)
  | 0 => ((dat10 (atRefs (W25 m)) c).arrAt_in 0 rfl _).trans ((A_eq10 (atRefs (W25 m)) c 0).trans (Function.update_of_ne (StableHlo.devRef_ne_of_ne (by decide)) _ _).symm)
  | 1 => ((dat10 (atRefs (W25 m)) c).arrAt_in 1 rfl _).trans ((A_eq10 (atRefs (W25 m)) c 1).trans (Function.update_of_ne (StableHlo.devRef_ne_of_ne (by decide)) _ _).symm)
  | 2 => ((dat10 (atRefs (W25 m)) c).arrAt_in 2 rfl _).trans ((A_eq10 (atRefs (W25 m)) c 2).trans (Function.update_of_ne (StableHlo.devRef_ne_of_ne (by decide)) _ _).symm)
  | 3 => by unfold W26; exact Eq.symm (Function.update_self (α := DevRef τ sig) (main_v132 : DevRef τ sig) _ _)
  | ⟨_ + 4, h⟩ => absurd h (Nat.not_lt.2 (Nat.le_add_left _ _))

theorem hrest10 (c : Dev nD) : ∀ b : Ref sig .tc, b ∉ Finset.univ.image (Pipeline.arrRef spec10) → atRefs (W26 m) c b = atRefs (W25 m) c b :=
  fun b hb => Function.update_of_ne (StableHlo.devRef_ne_of_ne fun e => hb (Finset.mem_image.mpr ⟨(3 : Fin 4), Finset.mem_univ _, e.symm⟩)) _ _

/-! ## Every region's proof data, each at the contents its region is entered from -/

def pdats : (p : Fin 11) → (c : Dev nD) → Dat τ (Elt F) Unit ℕ (UR sig nD τ) ℕ (cfgs p) c
  | ⟨0, _⟩ => fun c => dat0 (atRefs (V5 m)) c
  | ⟨1, _⟩ => fun c => dat1 (atRefs (W7 m)) c
  | ⟨2, _⟩ => fun c => dat2 (atRefs (W9 m)) c
  | ⟨3, _⟩ => fun c => dat3 (atRefs (W11 m)) c
  | ⟨4, _⟩ => fun c => dat4 (atRefs (W13 m)) c
  | ⟨5, _⟩ => fun c => dat5 (atRefs (W15 m)) c
  | ⟨6, _⟩ => fun c => dat6 (atRefs (W17 m)) c
  | ⟨7, _⟩ => fun c => dat7 (atRefs (W19 m)) c
  | ⟨8, _⟩ => fun c => dat8 (atRefs (W21 m)) c
  | ⟨9, _⟩ => fun c => dat9 (atRefs (W23 m)) c
  | ⟨10, _⟩ => fun c => dat10 (atRefs (W25 m)) c
  | ⟨_ + 11, h⟩ => absurd h (Nat.not_lt.2 (Nat.le_add_left _ _))

/-! ## The regions as segments -/

set_option backward.isDefEq.respectTransparency.types false in
/-- Region 0 over the thread state: entered with every unscoped buffer at its contents before the region, left with them
    at the contents after it. Its arrays are split out of the unscoped buffers and put back at what the write-backs
    leave; the generator register goes into the invariant and comes back; nothing is owed. -/
def reg0 : Pipeline.RegionSeg (pcfgs (F := F)) adm (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (atRefs (V5 m)) c).loose
  hwaits := Pipeline.hwaits_of_owed_zero _ _ _ _ Ln lvn 0 fun _ _ => rfl
  pre c := iprop(StableHlo.held (c : Thread nD τ) (Pipeline.ucRefs τ sig) (V5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec0 c (atRefs (V5 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (V5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (V5 m) c) (atRefs (W6 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at its contents before the region, left with them
    at the contents after it. Its arrays are split out of the unscoped buffers and put back at what the write-backs
    leave; the generator register goes into the invariant and comes back; nothing is owed. -/
def reg1 : Pipeline.RegionSeg (pcfgs (F := F)) adm (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (atRefs (W7 m)) c).loose
  hwaits := Pipeline.hwaits_of_owed_zero _ _ _ _ Ln lvn 1 fun _ _ => rfl
  pre c := iprop(StableHlo.held (c : Thread nD τ) (Pipeline.ucRefs τ sig) (W7 m c) ∗ Rst c)
  post c := iprop(StableHlo.held (c : Thread nD τ) (Pipeline.ucRefs τ sig) (W8 m c) ∗ Rst c)
  X c := iprop(∃ r, prngReg c r)
  Y c := iprop(∃ r, prngReg c r)
  Z c := Pipeline.unscopedRest (Ix := Unit) (Name := ℕ) (U := UR sig nD τ) (Lvl := ℕ) spec1 c (atRefs (W7 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atRefs (W7 m) c) (atRefs (W8 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at its contents before the region, left with them
    at the contents after it. Its arrays are split out of the unscoped buffers and put back at what the write-backs
    leave; the generator register goes into the invariant and comes back; nothing is owed. -/
def reg2 : Pipeline.RegionSeg (pcfgs (F := F)) adm (pdats m) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (atRefs (W9 m)) c).loose
  hwaits := Pipeline.hwaits_of_owed_zero _ _ _ _ Ln lvn 2 fun _ _ => rfl
  pre c := iprop(StableHlo.held (c : Thread nD τ) (Pipeline.ucRefs τ sig) (W9 m c) ∗ Rst c)
  post c := iprop(StableHlo.held (c : Thread nD τ) (Pipeline.ucRefs τ sig) (W10 m c) ∗ Rst c)
  X c := iprop(∃ r, prngReg c r)
  Y c := iprop(∃ r, prngReg c r)
  Z c := Pipeline.unscopedRest (Ix := Unit) (Name := ℕ) (U := UR sig nD τ) (Lvl := ℕ) spec2 c (atRefs (W9 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (W9 m) c) (atRefs (W10 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at its contents before the region, left with them
    at the contents after it. Its arrays are split out of the unscoped buffers and put back at what the write-backs
    leave; the generator register goes into the invariant and comes back; nothing is owed. -/
def reg3 : Pipeline.RegionSeg (pcfgs (F := F)) adm (pdats m) () defs₀ 𝒱n Ln lvn 3 where
  win := launch3.win.to₀
  block_pos := launch3.block_pos
  stage_whole := launch3.stage_whole
  K := PEmpty
  osem k := k.elim
  ho := Pipeline.OwnSemFacts.none _
  hbody c := (body_obligation3 (atRefs (W11 m)) c).loose
  hwaits := Pipeline.hwaits_of_owed_zero _ _ _ _ Ln lvn 3 fun _ _ => rfl
  pre c := iprop(StableHlo.held (c : Thread nD τ) (Pipeline.ucRefs τ sig) (W11 m c) ∗ Rst c)
  post c := iprop(StableHlo.held (c : Thread nD τ) (Pipeline.ucRefs τ sig) (W12 m c) ∗ Rst c)
  X c := iprop(∃ r, prngReg c r)
  Y c := iprop(∃ r, prngReg c r)
  Z c := Pipeline.unscopedRest (Ix := Unit) (Name := ℕ) (U := UR sig nD τ) (Lvl := ℕ) spec3 c (atRefs (W11 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atRefs (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atRefs (W11 m) c) (atRefs (W12 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at its contents before the region, left with them
    at the contents after it. Its arrays are split out of the unscoped buffers and put back at what the write-backs
    leave; the generator register goes into the invariant and comes back; nothing is owed. -/
def reg4 : Pipeline.RegionSeg (pcfgs (F := F)) adm (pdats m) () defs₀ 𝒱n Ln lvn 4 where
  win := launch4.win.to₀
  block_pos := launch4.block_pos
  stage_whole := launch4.stage_whole
  K := PEmpty
  osem k := k.elim
  ho := Pipeline.OwnSemFacts.none _
  hbody c := (body_obligation4 (atRefs (W13 m)) c).loose
  hwaits := Pipeline.hwaits_of_owed_zero _ _ _ _ Ln lvn 4 fun _ _ => rfl
  pre c := iprop(StableHlo.held (c : Thread nD τ) (Pipeline.ucRefs τ sig) (W13 m c) ∗ Rst c)
  post c := iprop(StableHlo.held (c : Thread nD τ) (Pipeline.ucRefs τ sig) (W14 m c) ∗ Rst c)
  X c := iprop(∃ r, prngReg c r)
  Y c := iprop(∃ r, prngReg c r)
  Z c := Pipeline.unscopedRest (Ix := Unit) (Name := ℕ) (U := UR sig nD τ) (Lvl := ℕ) spec4 c (atRefs (W13 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atRefs (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    rw [show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atRefs (W13 m) c) (atRefs (W14 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at its contents before the region, left with them
    at the contents after it. Its arrays are split out of the unscoped buffers and put back at what the write-backs
    leave; the generator register goes into the invariant and comes back; nothing is owed. -/
def reg5 : Pipeline.RegionSeg (pcfgs (F := F)) adm (pdats m) () defs₀ 𝒱n Ln lvn 5 where
  win := launch5.win.to₀
  block_pos := launch5.block_pos
  stage_whole := launch5.stage_whole
  K := PEmpty
  osem k := k.elim
  ho := Pipeline.OwnSemFacts.none _
  hbody c := (body_obligation5 (atRefs (W15 m)) c).loose
  hwaits := Pipeline.hwaits_of_owed_zero _ _ _ _ Ln lvn 5 fun _ _ => rfl
  pre c := iprop(StableHlo.held (c : Thread nD τ) (Pipeline.ucRefs τ sig) (W15 m c) ∗ Rst c)
  post c := iprop(StableHlo.held (c : Thread nD τ) (Pipeline.ucRefs τ sig) (W16 m c) ∗ Rst c)
  X c := iprop(∃ r, prngReg c r)
  Y c := iprop(∃ r, prngReg c r)
  Z c := Pipeline.unscopedRest (Ix := Unit) (Name := ℕ) (U := UR sig nD τ) (Lvl := ℕ) spec5 c (atRefs (W15 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atRefs (W15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none]
    rw [show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atRefs (W15 m) c) (atRefs (W16 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered with every unscoped buffer at its contents before the region, left with them
    at the contents after it. Its arrays are split out of the unscoped buffers and put back at what the write-backs
    leave; the generator register goes into the invariant and comes back; nothing is owed. -/
def reg6 : Pipeline.RegionSeg (pcfgs (F := F)) adm (pdats m) () defs₀ 𝒱n Ln lvn 6 where
  win := launch6.win.to₀
  block_pos := launch6.block_pos
  stage_whole := launch6.stage_whole
  K := PEmpty
  osem k := k.elim
  ho := Pipeline.OwnSemFacts.none _
  hbody c := (body_obligation6 (atRefs (W17 m)) c).loose
  hwaits := Pipeline.hwaits_of_owed_zero _ _ _ _ Ln lvn 6 fun _ _ => rfl
  pre c := iprop(StableHlo.held (c : Thread nD τ) (Pipeline.ucRefs τ sig) (W17 m c) ∗ Rst c)
  post c := iprop(StableHlo.held (c : Thread nD τ) (Pipeline.ucRefs τ sig) (W18 m c) ∗ Rst c)
  X c := iprop(∃ r, prngReg c r)
  Y c := iprop(∃ r, prngReg c r)
  Z c := Pipeline.unscopedRest (Ix := Unit) (Name := ℕ) (U := UR sig nD τ) (Lvl := ℕ) spec6 c (atRefs (W17 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (atRefs (W17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none]
    rw [show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atRefs (W17 m) c) (atRefs (W18 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered with every unscoped buffer at its contents before the region, left with them
    at the contents after it. Its arrays are split out of the unscoped buffers and put back at what the write-backs
    leave; the generator register goes into the invariant and comes back; nothing is owed. -/
def reg7 : Pipeline.RegionSeg (pcfgs (F := F)) adm (pdats m) () defs₀ 𝒱n Ln lvn 7 where
  win := launch7.win.to₀
  block_pos := launch7.block_pos
  stage_whole := launch7.stage_whole
  K := PEmpty
  osem k := k.elim
  ho := Pipeline.OwnSemFacts.none _
  hbody c := (body_obligation7 (atRefs (W19 m)) c).loose
  hwaits := Pipeline.hwaits_of_owed_zero _ _ _ _ Ln lvn 7 fun _ _ => rfl
  pre c := iprop(StableHlo.held (c : Thread nD τ) (Pipeline.ucRefs τ sig) (W19 m c) ∗ Rst c)
  post c := iprop(StableHlo.held (c : Thread nD τ) (Pipeline.ucRefs τ sig) (W20 m c) ∗ Rst c)
  X c := iprop(∃ r, prngReg c r)
  Y c := iprop(∃ r, prngReg c r)
  Z c := Pipeline.unscopedRest (Ix := Unit) (Name := ℕ) (U := UR sig nD τ) (Lvl := ℕ) spec7 c (atRefs (W19 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (atRefs (W19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none]
    rw [show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atRefs (W19 m) c) (atRefs (W20 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered with every unscoped buffer at its contents before the region, left with them
    at the contents after it. Its arrays are split out of the unscoped buffers and put back at what the write-backs
    leave; the generator register goes into the invariant and comes back; nothing is owed. -/
def reg8 : Pipeline.RegionSeg (pcfgs (F := F)) adm (pdats m) () defs₀ 𝒱n Ln lvn 8 where
  win := launch8.win.to₀
  block_pos := launch8.block_pos
  stage_whole := launch8.stage_whole
  K := PEmpty
  osem k := k.elim
  ho := Pipeline.OwnSemFacts.none _
  hbody c := (body_obligation8 (atRefs (W21 m)) c).loose
  hwaits := Pipeline.hwaits_of_owed_zero _ _ _ _ Ln lvn 8 fun _ _ => rfl
  pre c := iprop(StableHlo.held (c : Thread nD τ) (Pipeline.ucRefs τ sig) (W21 m c) ∗ Rst c)
  post c := iprop(StableHlo.held (c : Thread nD τ) (Pipeline.ucRefs τ sig) (W22 m c) ∗ Rst c)
  X c := iprop(∃ r, prngReg c r)
  Y c := iprop(∃ r, prngReg c r)
  Z c := Pipeline.unscopedRest (Ix := Unit) (Name := ℕ) (U := UR sig nD τ) (Lvl := ℕ) spec8 c (atRefs (W21 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (atRefs (W21 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none]
    rw [show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (atRefs (W21 m) c) (atRefs (W22 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered with every unscoped buffer at its contents before the region, left with them
    at the contents after it. Its arrays are split out of the unscoped buffers and put back at what the write-backs
    leave; the generator register goes into the invariant and comes back; nothing is owed. -/
def reg9 : Pipeline.RegionSeg (pcfgs (F := F)) adm (pdats m) () defs₀ 𝒱n Ln lvn 9 where
  win := launch9.win.to₀
  block_pos := launch9.block_pos
  stage_whole := launch9.stage_whole
  K := PEmpty
  osem k := k.elim
  ho := Pipeline.OwnSemFacts.none _
  hbody c := (body_obligation9 (atRefs (W23 m)) c).loose
  hwaits := Pipeline.hwaits_of_owed_zero _ _ _ _ Ln lvn 9 fun _ _ => rfl
  pre c := iprop(StableHlo.held (c : Thread nD τ) (Pipeline.ucRefs τ sig) (W23 m c) ∗ Rst c)
  post c := iprop(StableHlo.held (c : Thread nD τ) (Pipeline.ucRefs τ sig) (W24 m c) ∗ Rst c)
  X c := iprop(∃ r, prngReg c r)
  Y c := iprop(∃ r, prngReg c r)
  Z c := Pipeline.unscopedRest (Ix := Unit) (Name := ℕ) (U := UR sig nD τ) (Lvl := ℕ) spec9 c (atRefs (W23 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (atRefs (W23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none]
    rw [show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (atRefs (W23 m) c) (atRefs (W24 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered with every unscoped buffer at its contents before the region, left with them
    at the contents after it. Its arrays are split out of the unscoped buffers and put back at what the write-backs
    leave; the generator register goes into the invariant and comes back; nothing is owed. -/
def reg10 : Pipeline.RegionSeg (pcfgs (F := F)) adm (pdats m) () defs₀ 𝒱n Ln lvn 10 where
  win := launch10.win.to₀
  block_pos := launch10.block_pos
  stage_whole := launch10.stage_whole
  K := PEmpty
  osem k := k.elim
  ho := Pipeline.OwnSemFacts.none _
  hbody c := (body_obligation10 (atRefs (W25 m)) c).loose
  hwaits := Pipeline.hwaits_of_owed_zero _ _ _ _ Ln lvn 10 fun _ _ => rfl
  pre c := iprop(StableHlo.held (c : Thread nD τ) (Pipeline.ucRefs τ sig) (W25 m c) ∗ Rst c)
  post c := iprop(StableHlo.held (c : Thread nD τ) (Pipeline.ucRefs τ sig) (W26 m c) ∗ Rst c)
  X c := iprop(∃ r, prngReg c r)
  Y c := iprop(∃ r, prngReg c r)
  Z c := Pipeline.unscopedRest (Ix := Unit) (Name := ℕ) (U := UR sig nD τ) (Lvl := ℕ) spec10 c (atRefs (W25 m) c)
  hentry c := by
    rw [Pipeline.ownSems0_none]
    have hsplit := Pipeline.arrays_of_unscopedBufs (p := 10) (pcfgs (F := F)) adm (pdats m) launch10.win launch10.arr_whole c
      ((pdats m 10 c).share_full fun _ => rfl) (atRefs (W25 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from Phi10_first (atRefs (W25 m)) c]; unfold Pipeline.ΦA
    iintro ⟨Hp, -, Hr⟩
    isplitl [Hr]; · iexact Hr
    iexact Hp
  hout c := by
    rw [Pipeline.ownSems0_none]
    refine (Phi10_last (atRefs (W25 m)) c).trans ?_; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (atRefs (W25 m) c) (atRefs (W26 m) c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-! ## What the regions leave, as the generated valuations ask for it -/

/-- The contents the regions leave, indexed as the generated valuations read them: after item J−1 the buffer `r` holds
    what the chain above says (only the eleven output arrays are ever read). -/
def outs : Outs (F := F) := fun J r c => match J with
  | 6 => W6 m c r
  | 8 => W8 m c r
  | 10 => W10 m c r
  | 12 => W12 m c r
  | 14 => W14 m c r
  | 16 => W16 m c r
  | 18 => W18 m c r
  | 20 => W20 m c r
  | 22 => W22 m c r
  | 24 => W24 m c r
  | 26 => W26 m c r
  | _ => m ((c : Thread nD τ).loc r)

theorem V6_eq (c : Dev nD) : V6 m (outs m) c = W6 m c := upd_step (rfl) (main_v35 : DevRef τ sig) _
theorem V7_eq (c : Dev nD) : V7 m (outs m) c = W7 m c := congrArg (StableHlo.after hostOps1) (V6_eq m c)
theorem V8_eq (c : Dev nD) : V8 m (outs m) c = W8 m c := upd_step (V7_eq m c) (main_v50 : DevRef τ sig) _
theorem V9_eq (c : Dev nD) : V9 m (outs m) c = W9 m c := congrArg (StableHlo.after hostOps2) (V8_eq m c)
theorem V10_eq (c : Dev nD) : V10 m (outs m) c = W10 m c := upd_step (V9_eq m c) (main_v53 : DevRef τ sig) _
theorem V11_eq (c : Dev nD) : V11 m (outs m) c = W11 m c := congrArg (StableHlo.after hostOps3) (V10_eq m c)
theorem V12_eq (c : Dev nD) : V12 m (outs m) c = W12 m c := upd_step (V11_eq m c) (main_v70 : DevRef τ sig) _
theorem V13_eq (c : Dev nD) : V13 m (outs m) c = W13 m c := congrArg (StableHlo.after hostOps4) (V12_eq m c)
theorem V14_eq (c : Dev nD) : V14 m (outs m) c = W14 m c := upd_step (V13_eq m c) (main_v73 : DevRef τ sig) _
theorem V15_eq (c : Dev nD) : V15 m (outs m) c = W15 m c := congrArg (StableHlo.after hostOps5) (V14_eq m c)
theorem V16_eq (c : Dev nD) : V16 m (outs m) c = W16 m c := upd_step (V15_eq m c) (main_v90 : DevRef τ sig) _
theorem V17_eq (c : Dev nD) : V17 m (outs m) c = W17 m c := congrArg (StableHlo.after hostOps6) (V16_eq m c)
theorem V18_eq (c : Dev nD) : V18 m (outs m) c = W18 m c := upd_step (V17_eq m c) (main_v93 : DevRef τ sig) _
theorem V19_eq (c : Dev nD) : V19 m (outs m) c = W19 m c := congrArg (StableHlo.after hostOps7) (V18_eq m c)
theorem V20_eq (c : Dev nD) : V20 m (outs m) c = W20 m c := upd_step (V19_eq m c) (main_v110 : DevRef τ sig) _
theorem V21_eq (c : Dev nD) : V21 m (outs m) c = W21 m c := congrArg (StableHlo.after hostOps8) (V20_eq m c)
theorem V22_eq (c : Dev nD) : V22 m (outs m) c = W22 m c := upd_step (V21_eq m c) (main_v113 : DevRef τ sig) _
theorem V23_eq (c : Dev nD) : V23 m (outs m) c = W23 m c := congrArg (StableHlo.after hostOps9) (V22_eq m c)
theorem V24_eq (c : Dev nD) : V24 m (outs m) c = W24 m c := upd_step (V23_eq m c) (main_v130 : DevRef τ sig) _
theorem V25_eq (c : Dev nD) : V25 m (outs m) c = W25 m c := congrArg (StableHlo.after hostOps10) (V24_eq m c)
theorem V26_eq (c : Dev nD) : V26 m (outs m) c = W26 m c := upd_step (V25_eq m c) (main_v132 : DevRef τ sig) _

/-! ## The run -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts Ln lvn)
      ⊢ (|={Set.univ}=> bigSep Finset.univ (Rst (F := F)) : sProp 𝕄) := by
  refine Pipeline.initEach Ln lvn fun c => ?_
  iintro ⟨⟨-, HO, -, Hp, -⟩, -⟩
  imodintro
  isplitl [Hp]; · iexists _; iexact Hp
  iexists ∅; iexact HO

theorem hE11 (c : Dev nD) : Rst (F := F) c ⊢ (iprop(∃ W, owes (c : Thread nD τ) (0 : CellTallies nD τ sig Unit) W) : sProp 𝕄) := by
  iintro ⟨-, HO⟩; iexact HO

set_option backward.isDefEq.respectTransparency.types false in
set_option maxHeartbeats 2000000 in
/-- Every weakly fair execution of @main terminates without a fault and leaves the argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond m emb₁ () 𝒱n Ln lvn (fun _ _ => rfl) ρ (outs m) (pdats m) 0 (fun _ => iprop(emp))
    (initOf (Pipeline.cells cfgs cellOf_inj) (Pipeline.launchToks cfgs cellOf_inj)) hu₀ (fun _ => Rst) (hE0 ρ) hE11
    (reg0 m) (fun c => by rw [show V5 m c = V5 m c from rfl]; exact .rfl) (fun c => by rw [V6_eq m c]; exact .rfl)
    (reg1 m) (fun c => by rw [V7_eq m c]; exact .rfl) (fun c => by rw [V8_eq m c]; exact .rfl)
    (reg2 m) (fun c => by rw [V9_eq m c]; exact .rfl) (fun c => by rw [V10_eq m c]; exact .rfl)
    (reg3 m) (fun c => by rw [V11_eq m c]; exact .rfl) (fun c => by rw [V12_eq m c]; exact .rfl)
    (reg4 m) (fun c => by rw [V13_eq m c]; exact .rfl) (fun c => by rw [V14_eq m c]; exact .rfl)
    (reg5 m) (fun c => by rw [V15_eq m c]; exact .rfl) (fun c => by rw [V16_eq m c]; exact .rfl)
    (reg6 m) (fun c => by rw [V17_eq m c]; exact .rfl) (fun c => by rw [V18_eq m c]; exact .rfl)
    (reg7 m) (fun c => by rw [V19_eq m c]; exact .rfl) (fun c => by rw [V20_eq m c]; exact .rfl)
    (reg8 m) (fun c => by rw [V21_eq m c]; exact .rfl) (fun c => by rw [V22_eq m c]; exact .rfl)
    (reg9 m) (fun c => by rw [V23_eq m c]; exact .rfl) (fun c => by rw [V24_eq m c]; exact .rfl)
    (reg10 m) (fun c => by rw [V25_eq m c]; exact .rfl) (fun c => by rw [V26_eq m c]; exact .rfl)

end Cert.Kernel.Hand

end
-- ==== Proof.KI.Reg0.lean ====
/-
  Region 0: one dense layer's product. Each of the ten grid points takes a block of 5000 rows of the
  activations and the whole 128 x 128 weight, and leaves the block's product in the output's block. What is
  shown here: at every point the input buffers hold their blocks of the arrays as the region found them, the body
  turns them into the output's block, and nothing else of the core's state is touched.
-/
import proofs.«180772_j89300960018653_1_alg».proof.Proof.Gen.KernelIdeal.Launch
import proofs.«180772_j89300960018653_1_alg».proof.Proof.Gen.KernelIdeal.Skeleton
import proofs.«180772_j89300960018653_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents on every core when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' buffer holds the point's block of rows whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's buffer is filled at the first point and keeps the weight: its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole buffers: what the body loads, and where it stores. -/
abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0

/-- The output buffer after the body: the product of the rows' block with the weight, stored whole. -/
def out0_2 (x0 : Vec F S5000x128 .f32) (x1 : Vec F S128x128 .f32) : Vec F S5000x128 .f32 :=
  View.canon [⟨r0_x, k0_pay1 (View.ld x0 r0_x) (View.ld x1 r0_w)⟩]

/-- The one store covers the buffer. -/
theorem cover0_2 (p0 : Vec F S5000x128 .f32) (y : S5000x128.Idx) :
    ∃ pc ∈ ([⟨r0_x, p0⟩] : List (View.Piece (Elt F) S5000x128 .f32)), y ∈ pc.1.set :=
  View.cover_of_tiled [⟨r0_x, p0⟩] S5000x128.size (by rfl) y

set_option maxHeartbeats 1000000 in
/-- The body on whole buffers, the inputs' at `x0`, … and the output's at anything, leaves the inputs as they were and
    the output at the block it computes. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as the region finds them; after the body at point `t` every input
    buffer at its block and the output's at the block the body computes; the invariant is the untouched rest of the
    core's state; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1: the first layer's bias and rectifier. Each of the ten grid points takes a block of 5000 aggregated
  rows and the bias row, and leaves max (row + bias, 0) in the output's block. What is
  shown here: at every point the input buffers hold their blocks of the arrays as the region found them, the body
  turns them into the output's block, and nothing else of the core's state is touched.
-/
import proofs.«180772_j89300960018653_1_alg».proof.Proof.Gen.KernelIdeal.Launch
import proofs.«180772_j89300960018653_1_alg».proof.Proof.Gen.KernelIdeal.Skeleton
import proofs.«180772_j89300960018653_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents on every core when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregated rows' buffer holds the point's block whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row's buffer is filled at the first point and keeps the row: its block never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole buffers: what the body loads, and where it stores. -/
abbrev r1_x : Rect S5000x128 := Rect.unit (s := S5000x128) ![0, 0] S5000x128.size inb_S5000x128_S5000x128_0_0
abbrev r1_b : Rect S1x128 := Rect.unit (s := S1x128) ![0, 0] S1x128.size inb_S1x128_S1x128_0_0

/-- The output buffer after the body: the rectified sum of the block and the bias row, stored whole. -/
def out1_2 (x0 : Vec F S5000x128 .f32) (x1 : Vec F S1x128 .f32) : Vec F S5000x128 .f32 :=
  View.canon [⟨r1_x, k1_pay1 (View.ld x1 r1_b) (View.ld x0 r1_x)⟩]

/-- The one store covers the buffer. -/
theorem cover1_2 (p0 : Vec F S5000x128 .f32) (y : S5000x128.Idx) :
    ∃ pc ∈ ([⟨r1_x, p0⟩] : List (View.Piece (Elt F) S5000x128 .f32)), y ∈ pc.1.set :=
  View.cover_of_tiled [⟨r1_x, p0⟩] S5000x128.size (by rfl) y

set_option maxHeartbeats 1000000 in
/-- The body on whole buffers, the inputs' at `x0`, … and the output's at anything, leaves the inputs as they were and
    the output at the block it computes. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data on core `c`: the arrays as the region finds them; after the body at point `t` every input
    buffer at its block and the output's at the block the body computes; the invariant is the untouched rest of the
    core's state; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2: one dense layer's product. Each of the ten grid points takes a block of 5000 rows of the
  activations and the whole 128 x 128 weight, and leaves the block's product in the output's block. What is
  shown here: at every point the input buffers hold their blocks of the arrays as the region found them, the body
  turns them into the output's block, and nothing else of the core's state is touched.
-/
import proofs.«180772_j89300960018653_1_alg».proof.Proof.Gen.KernelIdeal.Launch
import proofs.«180772_j89300960018653_1_alg».proof.Proof.Gen.KernelIdeal.Skeleton
import proofs.«180772_j89300960018653_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents on every core when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows' buffer holds the point's block of rows whether or not it was fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight's buffer is filled at the first point and keeps the weight: its block never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole buffers: what the body loads, and where it stores. -/
abbrev r2_x : Rect S5000x128 := Rect.unit (s := S5000x128) ![0, 0] S5000x128.size inb_S5000x128_S5000x128_0_0
abbrev r2_w : Rect S128x128 := Rect.unit (s := S128x128) ![0, 0] S128x128.size inb_S128x128_S128x128_0_0

/-- The output buffer after the body: the product of the rows' block with the weight, stored whole. -/
def out2_2 (x0 : Vec F S5000x128 .f32) (x1 : Vec F S128x128 .f32) : Vec F S5000x128 .f32 :=
  View.canon [⟨r2_x, k2_pay1 (View.ld x0 r2_x) (View.ld x1 r2_w)⟩]

/-- The one store covers the buffer. -/
theorem cover2_2 (p0 : Vec F S5000x128 .f32) (y : S5000x128.Idx) :
    ∃ pc ∈ ([⟨r2_x, p0⟩] : List (View.Piece (Elt F) S5000x128 .f32)), y ∈ pc.1.set :=
  View.cover_of_tiled [⟨r2_x, p0⟩] S5000x128.size (by rfl) y

set_option maxHeartbeats 1000000 in
/-- The body on whole buffers, the inputs' at `x0`, … and the output's at anything, leaves the inputs as they were and
    the output at the block it computes. -/
theorem sound_kernel2 (c : Dev nD) (E : Set ℕ) (i : grid2.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The region's proof data on core `c`: the arrays as the region finds them; after the body at point `t` every input
    buffer at its block and the output's at the block the body computes; the invariant is the untouched rest of the
    core's state; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3: a residual layer's bias, skip connection and rectifier. Each of the ten grid points takes a block of
  5000 aggregated rows, the bias row and the same block of the previous activations, and leaves
  max ((row + bias) + previous, 0) in the output's block. What is
  shown here: at every point the input buffers hold their blocks of the arrays as the region found them, the body
  turns them into the output's block, and nothing else of the core's state is touched.
-/
import proofs.«180772_j89300960018653_1_alg».proof.Proof.Gen.KernelIdeal.Launch
import proofs.«180772_j89300960018653_1_alg».proof.Proof.Gen.KernelIdeal.Skeleton
import proofs.«180772_j89300960018653_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents on every core when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The aggregated rows' buffer holds the point's block whether or not it was fetched there. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The bias row's buffer is filled at the first point and keeps the row: its block never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The residual's buffer holds the point's block of the previous layer's activations. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole buffers: what the body loads, and where it stores. -/
abbrev r3_x : Rect S5000x128 := Rect.unit (s := S5000x128) ![0, 0] S5000x128.size inb_S5000x128_S5000x128_0_0
abbrev r3_b : Rect S1x128 := Rect.unit (s := S1x128) ![0, 0] S1x128.size inb_S1x128_S1x128_0_0
abbrev r3_r : Rect S5000x128 := Rect.unit (s := S5000x128) ![0, 0] S5000x128.size inb_S5000x128_S5000x128_0_0

/-- The output buffer after the body: the rectified sum of the block, the bias row and the residual block, stored whole. -/
def out3_3 (x0 : Vec F S5000x128 .f32) (x1 : Vec F S1x128 .f32) (x2 : Vec F S5000x128 .f32) : Vec F S5000x128 .f32 :=
  View.canon [⟨r3_x, k3_pay1 (View.ld x1 r3_b) (View.ld x0 r3_x) (View.ld x2 r3_r)⟩]

/-- The one store covers the buffer. -/
theorem cover3_3 (p0 : Vec F S5000x128 .f32) (y : S5000x128.Idx) :
    ∃ pc ∈ ([⟨r3_x, p0⟩] : List (View.Piece (Elt F) S5000x128 .f32)), y ∈ pc.1.set :=
  View.cover_of_tiled [⟨r3_x, p0⟩] S5000x128.size (by rfl) y

set_option maxHeartbeats 1000000 in
/-- The body on whole buffers, the inputs' at `x0`, … and the output's at anything, leaves the inputs as they were and
    the output at the block it computes. -/
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S5000x128 .f32) (harg4 : arg4.IsWhole)
    (x0 : Vec F S5000x128 .f32) (x1 : Vec F S1x128 .f32) (x2 : Vec F S5000x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__bias_relu_residual_kernel i arg1 harg1 arg2 harg2 arg3 harg3 arg4 harg4) K := by
  simp only [cc3__bias_relu_residual_kernel_eq_skeleton]; unfold cc3__bias_relu_residual_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The region's proof data on core `c`: the arrays as the region finds them; after the body at point `t` every input
    buffer at its block and the output's at the block the body computes; the invariant is the untouched rest of the
    core's state; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  Region 4: one dense layer's product. Each of the ten grid points takes a block of 5000 rows of the
  activations and the whole 128 x 128 weight, and leaves the block's product in the output's block. What is
  shown here: at every point the input buffers hold their blocks of the arrays as the region found them, the body
  turns them into the output's block, and nothing else of the core's state is touched.
-/
import proofs.«180772_j89300960018653_1_alg».proof.Proof.Gen.KernelIdeal.Launch
import proofs.«180772_j89300960018653_1_alg».proof.Proof.Gen.KernelIdeal.Skeleton
import proofs.«180772_j89300960018653_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents on every core when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The rows' buffer holds the point's block of rows whether or not it was fetched there. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight's buffer is filled at the first point and keeps the weight: its block never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole buffers: what the body loads, and where it stores. -/
abbrev r4_x : Rect S5000x128 := Rect.unit (s := S5000x128) ![0, 0] S5000x128.size inb_S5000x128_S5000x128_0_0
abbrev r4_w : Rect S128x128 := Rect.unit (s := S128x128) ![0, 0] S128x128.size inb_S128x128_S128x128_0_0

/-- The output buffer after the body: the product of the rows' block with the weight, stored whole. -/
def out4_2 (x0 : Vec F S5000x128 .f32) (x1 : Vec F S128x128 .f32) : Vec F S5000x128 .f32 :=
  View.canon [⟨r4_x, k4_pay1 (View.ld x0 r4_x) (View.ld x1 r4_w)⟩]

/-- The one store covers the buffer. -/
theorem cover4_2 (p0 : Vec F S5000x128 .f32) (y : S5000x128.Idx) :
    ∃ pc ∈ ([⟨r4_x, p0⟩] : List (View.Piece (Elt F) S5000x128 .f32)), y ∈ pc.1.set :=
  View.cover_of_tiled [⟨r4_x, p0⟩] S5000x128.size (by rfl) y

set_option maxHeartbeats 1000000 in
/-- The body on whole buffers, the inputs' at `x0`, … and the output's at anything, leaves the inputs as they were and
    the output at the block it computes. -/
theorem sound_kernel4 (c : Dev nD) (E : Set ℕ) (i : grid4.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The region's proof data on core `c`: the arrays as the region finds them; after the body at point `t` every input
    buffer at its block and the output's at the block the body computes; the invariant is the untouched rest of the
    core's state; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the input buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
/-
  Region 5: a residual layer's bias, skip connection and rectifier. Each of the ten grid points takes a block of
  5000 aggregated rows, the bias row and the same block of the previous activations, and leaves
  max ((row + bias) + previous, 0) in the output's block. What is
  shown here: at every point the input buffers hold their blocks of the arrays as the region found them, the body
  turns them into the output's block, and nothing else of the core's state is touched.
-/
import proofs.«180772_j89300960018653_1_alg».proof.Proof.Gen.KernelIdeal.Launch
import proofs.«180772_j89300960018653_1_alg».proof.Proof.Gen.KernelIdeal.Skeleton
import proofs.«180772_j89300960018653_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents on every core when the region is entered
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The aggregated rows' buffer holds the point's block whether or not it was fetched there. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The bias row's buffer is filled at the first point and keeps the row: its block never moves. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The residual's buffer holds the point's block of the previous layer's activations. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole buffers: what the body loads, and where it stores. -/
abbrev r5_x : Rect S5000x128 := Rect.unit (s := S5000x128) ![0, 0] S5000x128.size inb_S5000x128_S5000x128_0_0
abbrev r5_b : Rect S1x128 := Rect.unit (s := S1x128) ![0, 0] S1x128.size inb_S1x128_S1x128_0_0
abbrev r5_r : Rect S5000x128 := Rect.unit (s := S5000x128) ![0, 0] S5000x128.size inb_S5000x128_S5000x128_0_0

/-- The output buffer after the body: the rectified sum of the block, the bias row and the residual block, stored whole. -/
def out5_3 (x0 : Vec F S5000x128 .f32) (x1 : Vec F S1x128 .f32) (x2 : Vec F S5000x128 .f32) : Vec F S5000x128 .f32 :=
  View.canon [⟨r5_x, k5_pay1 (View.ld x1 r5_b) (View.ld x0 r5_x) (View.ld x2 r5_r)⟩]

/-- The one store covers the buffer. -/
theorem cover5_3 (p0 : Vec F S5000x128 .f32) (y : S5000x128.Idx) :
    ∃ pc ∈ ([⟨r5_x, p0⟩] : List (View.Piece (Elt F) S5000x128 .f32)), y ∈ pc.1.set :=
  View.cover_of_tiled [⟨r5_x, p0⟩] S5000x128.size (by rfl) y

set_option maxHeartbeats 1000000 in
/-- The body on whole buffers, the inputs' at `x0`, … and the output's at anything, leaves the inputs as they were and
    the output at the block it computes. -/
theorem sound_kernel5 (c : Dev nD) (E : Set ℕ) (i : grid5.Coords)
    (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S5000x128 .f32) (harg4 : arg4.IsWhole)
    (x0 : Vec F S5000x128 .f32) (x1 : Vec F S1x128 .f32) (x2 : Vec F S5000x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__bias_relu_residual_kernel i arg1 harg1 arg2 harg2 arg3 harg3 arg4 harg4) K := by
  simp only [cc5__bias_relu_residual_kernel_eq_skeleton]; unfold cc5__bias_relu_residual_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The region's proof data on core `c`: the arrays as the region finds them; after the body at point `t` every input
    buffer at its block and the output's at the block the body computes; the invariant is the untouched rest of the
    core's state; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the input buffers hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
/-
  Region 6: one dense layer's product. Each of the ten grid points takes a block of 5000 rows of the
  activations and the whole 128 x 128 weight, and leaves the block's product in the output's block. What is
  shown here: at every point the input buffers hold their blocks of the arrays as the region found them, the body
  turns them into the output's block, and nothing else of the core's state is touched.
-/
import proofs.«180772_j89300960018653_1_alg».proof.Proof.Gen.KernelIdeal.Launch
import proofs.«180772_j89300960018653_1_alg».proof.Proof.Gen.KernelIdeal.Skeleton
import proofs.«180772_j89300960018653_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents on every core when the region is entered
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The rows' buffer holds the point's block of rows whether or not it was fetched there. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weight's buffer is filled at the first point and keeps the weight: its block never moves. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The whole buffers: what the body loads, and where it stores. -/
abbrev r6_x : Rect S5000x128 := Rect.unit (s := S5000x128) ![0, 0] S5000x128.size inb_S5000x128_S5000x128_0_0
abbrev r6_w : Rect S128x128 := Rect.unit (s := S128x128) ![0, 0] S128x128.size inb_S128x128_S128x128_0_0

/-- The output buffer after the body: the product of the rows' block with the weight, stored whole. -/
def out6_2 (x0 : Vec F S5000x128 .f32) (x1 : Vec F S128x128 .f32) : Vec F S5000x128 .f32 :=
  View.canon [⟨r6_x, k6_pay1 (View.ld x0 r6_x) (View.ld x1 r6_w)⟩]

/-- The one store covers the buffer. -/
theorem cover6_2 (p0 : Vec F S5000x128 .f32) (y : S5000x128.Idx) :
    ∃ pc ∈ ([⟨r6_x, p0⟩] : List (View.Piece (Elt F) S5000x128 .f32)), y ∈ pc.1.set :=
  View.cover_of_tiled [⟨r6_x, p0⟩] S5000x128.size (by rfl) y

set_option maxHeartbeats 1000000 in
/-- The body on whole buffers, the inputs' at `x0`, … and the output's at anything, leaves the inputs as they were and
    the output at the block it computes. -/
theorem sound_kernel6 (c : Dev nD) (E : Set ℕ) (i : grid6.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-- The region's proof data on core `c`: the arrays as the region finds them; after the body at point `t` every input
    buffer at its block and the output's at the block the body computes; the invariant is the untouched rest of the
    core's state; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the input buffers hold their blocks, so the body's triple applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg7.lean ====
/-
  Region 7: a residual layer's bias, skip connection and rectifier. Each of the ten grid points takes a block of
  5000 aggregated rows, the bias row and the same block of the previous activations, and leaves
  max ((row + bias) + previous, 0) in the output's block. What is
  shown here: at every point the input buffers hold their blocks of the arrays as the region found them, the body
  turns them into the output's block, and nothing else of the core's state is touched.
-/
import proofs.«180772_j89300960018653_1_alg».proof.Proof.Gen.KernelIdeal.Launch
import proofs.«180772_j89300960018653_1_alg».proof.Proof.Gen.KernelIdeal.Skeleton
import proofs.«180772_j89300960018653_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents on every core when the region is entered
variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The aggregated rows' buffer holds the point's block whether or not it was fetched there. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The bias row's buffer is filled at the first point and keeps the row: its block never moves. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The residual's buffer holds the point's block of the previous layer's activations. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The whole buffers: what the body loads, and where it stores. -/
abbrev r7_x : Rect S5000x128 := Rect.unit (s := S5000x128) ![0, 0] S5000x128.size inb_S5000x128_S5000x128_0_0
abbrev r7_b : Rect S1x128 := Rect.unit (s := S1x128) ![0, 0] S1x128.size inb_S1x128_S1x128_0_0
abbrev r7_r : Rect S5000x128 := Rect.unit (s := S5000x128) ![0, 0] S5000x128.size inb_S5000x128_S5000x128_0_0

/-- The output buffer after the body: the rectified sum of the block, the bias row and the residual block, stored whole. -/
def out7_3 (x0 : Vec F S5000x128 .f32) (x1 : Vec F S1x128 .f32) (x2 : Vec F S5000x128 .f32) : Vec F S5000x128 .f32 :=
  View.canon [⟨r7_x, k7_pay1 (View.ld x1 r7_b) (View.ld x0 r7_x) (View.ld x2 r7_r)⟩]

/-- The one store covers the buffer. -/
theorem cover7_3 (p0 : Vec F S5000x128 .f32) (y : S5000x128.Idx) :
    ∃ pc ∈ ([⟨r7_x, p0⟩] : List (View.Piece (Elt F) S5000x128 .f32)), y ∈ pc.1.set :=
  View.cover_of_tiled [⟨r7_x, p0⟩] S5000x128.size (by rfl) y

set_option maxHeartbeats 1000000 in
/-- The body on whole buffers, the inputs' at `x0`, … and the output's at anything, leaves the inputs as they were and
    the output at the block it computes. -/
theorem sound_kernel7 (c : Dev nD) (E : Set ℕ) (i : grid7.Coords)
    (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S5000x128 .f32) (harg4 : arg4.IsWhole)
    (x0 : Vec F S5000x128 .f32) (x1 : Vec F S1x128 .f32) (x2 : Vec F S5000x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2)) -∗ K ⟨⟩))
      ⊢ wp frame (wpE (defs₀ (F := F)) Variants.none c none) E (cc7__bias_relu_residual_kernel i arg1 harg1 arg2 harg2 arg3 harg3 arg4 harg4) K := by
  simp only [cc7__bias_relu_residual_kernel_eq_skeleton]; unfold cc7__bias_relu_residual_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-- The region's proof data on core `c`: the arrays as the region finds them; after the body at point `t` every input
    buffer at its block and the output's at the block the body computes; the invariant is the untouched rest of the
    core's state; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the input buffers hold their blocks, so the body's triple applies; the invariant and
    what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Reg8.lean ====
/-
  Region 8: one dense layer's product. Each of the ten grid points takes a block of 5000 rows of the
  activations and the whole 128 x 128 weight, and leaves the block's product in the output's block. What is
  shown here: at every point the input buffers hold their blocks of the arrays as the region found them, the body
  turns them into the output's block, and nothing else of the core's state is touched.
-/
import proofs.«180772_j89300960018653_1_alg».proof.Proof.Gen.KernelIdeal.Launch
import proofs.«180772_j89300960018653_1_alg».proof.Proof.Gen.KernelIdeal.Skeleton
import proofs.«180772_j89300960018653_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents on every core when the region is entered
variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The rows' buffer holds the point's block of rows whether or not it was fetched there. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The weight's buffer is filled at the first point and keeps the weight: its block never moves. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The whole buffers: what the body loads, and where it stores. -/
abbrev r8_x : Rect S5000x128 := Rect.unit (s := S5000x128) ![0, 0] S5000x128.size inb_S5000x128_S5000x128_0_0
abbrev r8_w : Rect S128x128 := Rect.unit (s := S128x128) ![0, 0] S128x128.size inb_S128x128_S128x128_0_0

/-- The output buffer after the body: the product of the rows' block with the weight, stored whole. -/
def out8_2 (x0 : Vec F S5000x128 .f32) (x1 : Vec F S128x128 .f32) : Vec F S5000x128 .f32 :=
  View.canon [⟨r8_x, k8_pay1 (View.ld x0 r8_x) (View.ld x1 r8_w)⟩]

/-- The one store covers the buffer. -/
theorem cover8_2 (p0 : Vec F S5000x128 .f32) (y : S5000x128.Idx) :
    ∃ pc ∈ ([⟨r8_x, p0⟩] : List (View.Piece (Elt F) S5000x128 .f32)), y ∈ pc.1.set :=
  View.cover_of_tiled [⟨r8_x, p0⟩] S5000x128.size (by rfl) y

set_option maxHeartbeats 1000000 in
/-- The body on whole buffers, the inputs' at `x0`, … and the output's at anything, leaves the inputs as they were and
    the output at the block it computes. -/
theorem sound_kernel8 (c : Dev nD) (E : Set ℕ) (i : grid8.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out8_2 x0 x1)) -∗ K ⟨⟩))
      ⊢ wp frame (wpE (defs₀ (F := F)) Variants.none c none) E (cc8__matmul_kernel i arg1 harg1 arg2 harg2 arg3 harg3) K := by
  simp only [cc8__matmul_kernel_eq_skeleton]; unfold cc8__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-- The region's proof data on core `c`: the arrays as the region finds them; after the body at point `t` every input
    buffer at its block and the output's at the block the body computes; the invariant is the untouched rest of the
    core's state; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the input buffers hold their blocks, so the body's triple applies; the invariant and
    what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Reg9.lean ====
/-
  Region 9: a residual layer's bias, skip connection and rectifier. Each of the ten grid points takes a block of
  5000 aggregated rows, the bias row and the same block of the previous activations, and leaves
  max ((row + bias) + previous, 0) in the output's block. What is
  shown here: at every point the input buffers hold their blocks of the arrays as the region found them, the body
  turns them into the output's block, and nothing else of the core's state is touched.
-/
import proofs.«180772_j89300960018653_1_alg».proof.Proof.Gen.KernelIdeal.Launch
import proofs.«180772_j89300960018653_1_alg».proof.Proof.Gen.KernelIdeal.Skeleton
import proofs.«180772_j89300960018653_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents on every core when the region is entered
variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The aggregated rows' buffer holds the point's block whether or not it was fetched there. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The bias row's buffer is filled at the first point and keeps the row: its block never moves. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The residual's buffer holds the point's block of the previous layer's activations. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The whole buffers: what the body loads, and where it stores. -/
abbrev r9_x : Rect S5000x128 := Rect.unit (s := S5000x128) ![0, 0] S5000x128.size inb_S5000x128_S5000x128_0_0
abbrev r9_b : Rect S1x128 := Rect.unit (s := S1x128) ![0, 0] S1x128.size inb_S1x128_S1x128_0_0
abbrev r9_r : Rect S5000x128 := Rect.unit (s := S5000x128) ![0, 0] S5000x128.size inb_S5000x128_S5000x128_0_0

/-- The output buffer after the body: the rectified sum of the block, the bias row and the residual block, stored whole. -/
def out9_3 (x0 : Vec F S5000x128 .f32) (x1 : Vec F S1x128 .f32) (x2 : Vec F S5000x128 .f32) : Vec F S5000x128 .f32 :=
  View.canon [⟨r9_x, k9_pay1 (View.ld x1 r9_b) (View.ld x0 r9_x) (View.ld x2 r9_r)⟩]

/-- The one store covers the buffer. -/
theorem cover9_3 (p0 : Vec F S5000x128 .f32) (y : S5000x128.Idx) :
    ∃ pc ∈ ([⟨r9_x, p0⟩] : List (View.Piece (Elt F) S5000x128 .f32)), y ∈ pc.1.set :=
  View.cover_of_tiled [⟨r9_x, p0⟩] S5000x128.size (by rfl) y

set_option maxHeartbeats 1000000 in
/-- The body on whole buffers, the inputs' at `x0`, … and the output's at anything, leaves the inputs as they were and
    the output at the block it computes. -/
theorem sound_kernel9 (c : Dev nD) (E : Set ℕ) (i : grid9.Coords)
    (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S5000x128 .f32) (harg4 : arg4.IsWhole)
    (x0 : Vec F S5000x128 .f32) (x1 : Vec F S1x128 .f32) (x2 : Vec F S5000x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out9_3 x0 x1 x2)) -∗ K ⟨⟩))
      ⊢ wp frame (wpE (defs₀ (F := F)) Variants.none c none) E (cc9__bias_relu_residual_kernel i arg1 harg1 arg2 harg2 arg3 harg3 arg4 harg4) K := by
  simp only [cc9__bias_relu_residual_kernel_eq_skeleton]; unfold cc9__bias_relu_residual_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-- The region's proof data on core `c`: the arrays as the region finds them; after the body at point `t` every input
    buffer at its block and the output's at the block the body computes; the invariant is the untouched rest of the
    core's state; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the input buffers hold their blocks, so the body's triple applies; the invariant and
    what the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.FinalBase.lean ====
import proofs.«180772_j89300960018653_1_alg».proof.Proof.Gen.KernelIdeal.Launch
import proofs.«180772_j89300960018653_1_alg».proof.Proof.Gen.KernelIdeal.Skeleton
import proofs.«180772_j89300960018653_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The last region: the mean over all rows of `x · Wfc`, accumulated block by block

The body runs at ten points. At the first it clears a one-row accumulator; at every point it adds to the
accumulator the column sums of the product of the point's 5000 rows of `x` with `Wfc`; at the last it writes
`accumulator * (1/50000) + bias` to the output. So there are three control cases: the first point (A), the
points strictly between (B), the last point (C). -/

variable (V : (c : Dev nD) → (b : Ref sig .tc) → Buf (Elt F) ((c : Thread nD τ).loc b))

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, fetched there or not: where it is not
    fetched its block index has not moved. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! ## The body's two branch conditions, in closed form over the grid -/

/-- "This is the first point": the condition under which the accumulator is cleared. -/
abbrev cond10_0 (i : grid10.Coords) : Prop := (Scalar.cmpi .ne (Scalar.extui (Scalar.cmpi .eq (BitVec.ofNat 32 (i 0).val) 0#32)) 0#32) = 1#1
theorem hcond10_0 : ∀ t : Fin cfg10.N, cond10_0 (grid10.coords t) ↔ t.val % 10 = 0 :=
  (by decide +kernel : ∀ t : Fin grid10.N, cond10_0 (grid10.coords t) ↔ t.val % 10 = 0)

/-- "This is the last point": the condition under which the output is written. -/
abbrev cond10_1 (i : grid10.Coords) : Prop := k10_cond2 i = 1#1
theorem hcond10_1 : ∀ t : Fin cfg10.N, cond10_1 (grid10.coords t) ↔ t.val % 10 = 9 :=
  (by decide +kernel : ∀ t : Fin grid10.N, cond10_1 (grid10.coords t) ↔ t.val % 10 = 9)

/-- The three inputs are never idle; the output is idle, and not written back, at every point but the last. -/
theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel
theorem idleAt10_3 : ∀ t : Fin cfg10.N, ¬cond10_1 (grid10.coords t) → cfg10.idle 3 (grid10.coords t) = true := by decide +kernel
theorem noFlush10_3 : ∀ t : Fin cfg10.N, ¬cond10_1 (grid10.coords t) → (cfg10.win 3).flush t = false := by decide +kernel
theorem liveAt10_3 : ∀ t : Fin cfg10.N, cond10_1 (grid10.coords t) → cfg10.idle 3 (grid10.coords t) = false := by decide +kernel

/-! ## The memrefs the body is called with -/

abbrev ms10_0 (t : Fin cfg10.N) : Memref sig .tc .vmem S5000x128 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S128x2 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1x2 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x2 .f32 := win10_3.stage (cfg10.slots t 3)
abbrev hs10_3 (t : Fin cfg10.N) : (ms10_3 t).IsWhole := hstage10_3 ((cfg10.slots t 3).cast nbuf10_3)
/-- The accumulator: a whole scoped buffer of the kernel's own, passed beside the windows. -/
abbrev scM10 : Memref sig .tc .vmem S1x2 .f32 := Memref.whole cc10_scratch0
/-- The views through which the accumulator's and the output buffer's contents are stated. -/
abbrev VS10 : View sig .tc .vmem S1x2 .f32 := scM10.view
abbrev VO10 : View sig .tc .vmem S1x2 .f32 := (Memref.whole cc10_stg3_0 : Memref sig .tc .vmem S1x2 .f32).view

end Cert.KernelIdeal.Hand

end
-- ==== Proof.KI.FinalRunA.lean ====
import proofs.«180772_j89300960018653_1_alg».proof.Proof.KI.FinalBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's three runs

Each states the body on whole buffers together with the list of pieces its stores make, last store first:
the three inputs are handed back as they were; an output the case does not store into is handed back as found. -/

set_option maxHeartbeats 1000000 in
/-- CASE A, the first point: the accumulator, found at anything, is cleared and then receives the block's column sums. -/
noncomputable def kernelRun10_A (c : Dev nD) (i : grid10.Coords) (arg1 : Memref sig .tc .vmem S5000x128 .f32) (harg1 : arg1.IsWhole) (arg2 : Memref sig .tc .vmem S128x2 .f32) (harg2 : arg2.IsWhole) (arg3 : Memref sig .tc .vmem S1x2 .f32) (harg3 : arg3.IsWhole) (arg4 : Memref sig .tc .vmem S1x2 .f32) (harg4 : arg4.IsWhole) (arg5 : Memref sig .tc .vmem S1x2 .f32) (harg5 : arg5.IsWhole) (hc0 : cond10_0 i) (hc1 : ¬cond10_1 i)
    (x0 : Vec F S5000x128 .f32) (w0 : Vec F S128x2 .f32) (b0 : Vec F S1x2 .f32) :
    { LS0 : List (View.Piece (Elt F) S1x2 .f32) //
      ∀ (xi : Vec F S1x2 .f32) (E : Set ℕ) (K : PUnit → sProp 𝕄),
        iprop(owns (c : Thread nD τ) arg1 fullShare x0 ∗ owns (c : Thread nD τ) arg2 fullShare w0 ∗ owns (c : Thread nD τ) arg3 fullShare b0 ∗ owns (c : Thread nD τ) arg4 fullShare xi ∗ (∃ d, owns (c : Thread nD τ) arg5 fullShare d)
            ∗ (iprop(owns (c : Thread nD τ) arg1 fullShare x0 ∗ owns (c : Thread nD τ) arg2 fullShare w0 ∗ owns (c : Thread nD τ) arg3 fullShare b0 ∗ owns (c : Thread nD τ) arg4 fullShare xi ∗ (∃ f, arg5.view.loc (c : Thread nD τ) ↦[arg5.view.set]{fullShare} arg5.view.writes (Elt F) f LS0)) -∗ K ⟨⟩))
          ⊢ wp frame (wpE (defs₀ (F := F)) Variants.none c none) E (cc10__final_kernel i arg1 harg1 arg2 harg2 arg3 harg3 arg4 harg4 arg5 harg5) K } := by
  refine ⟨?_, fun xi E K => ?run⟩
  case run =>
    simp only [cc10__final_kernel_eq_skeleton]; unfold cc10__final_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Hand

end
-- ==== Proof.KI.FinalRunB.lean ====
import proofs.«180772_j89300960018653_1_alg».proof.Proof.KI.FinalBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- CASE B, a point strictly between the first and the last: the accumulator, found at `xs0`, receives the block's column sums. -/
noncomputable def kernelRun10_B (c : Dev nD) (i : grid10.Coords) (arg1 : Memref sig .tc .vmem S5000x128 .f32) (harg1 : arg1.IsWhole) (arg2 : Memref sig .tc .vmem S128x2 .f32) (harg2 : arg2.IsWhole) (arg3 : Memref sig .tc .vmem S1x2 .f32) (harg3 : arg3.IsWhole) (arg4 : Memref sig .tc .vmem S1x2 .f32) (harg4 : arg4.IsWhole) (arg5 : Memref sig .tc .vmem S1x2 .f32) (harg5 : arg5.IsWhole) (hc0 : ¬cond10_0 i) (hc1 : ¬cond10_1 i)
    (x0 : Vec F S5000x128 .f32) (w0 : Vec F S128x2 .f32) (b0 : Vec F S1x2 .f32) (xs0 : Vec F S1x2 .f32) :
    { LS0 : List (View.Piece (Elt F) S1x2 .f32) //
      ∀ (xi : Vec F S1x2 .f32) (E : Set ℕ) (K : PUnit → sProp 𝕄),
        iprop(owns (c : Thread nD τ) arg1 fullShare x0 ∗ owns (c : Thread nD τ) arg2 fullShare w0 ∗ owns (c : Thread nD τ) arg3 fullShare b0 ∗ owns (c : Thread nD τ) arg4 fullShare xi ∗ owns (c : Thread nD τ) arg5 fullShare xs0
            ∗ (iprop(owns (c : Thread nD τ) arg1 fullShare x0 ∗ owns (c : Thread nD τ) arg2 fullShare w0 ∗ owns (c : Thread nD τ) arg3 fullShare b0 ∗ owns (c : Thread nD τ) arg4 fullShare xi ∗ (∃ f, arg5.view.loc (c : Thread nD τ) ↦[arg5.view.set]{fullShare} arg5.view.writes (Elt F) f LS0)) -∗ K ⟨⟩))
          ⊢ wp frame (wpE (defs₀ (F := F)) Variants.none c none) E (cc10__final_kernel i arg1 harg1 arg2 harg2 arg3 harg3 arg4 harg4 arg5 harg5) K } := by
  refine ⟨?_, fun xi E K => ?run⟩
  case run =>
    simp only [cc10__final_kernel_eq_skeleton]; unfold cc10__final_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Hand

end
-- ==== Proof.KI.FinalRunC.lean ====
import proofs.«180772_j89300960018653_1_alg».proof.Proof.KI.FinalBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- CASE C, the last point: the accumulator, found at `xs0`, receives the block's column sums, and the output buffer,
    found at anything, receives the scaled total plus the bias. -/
noncomputable def kernelRun10_C (c : Dev nD) (i : grid10.Coords) (arg1 : Memref sig .tc .vmem S5000x128 .f32) (harg1 : arg1.IsWhole) (arg2 : Memref sig .tc .vmem S128x2 .f32) (harg2 : arg2.IsWhole) (arg3 : Memref sig .tc .vmem S1x2 .f32) (harg3 : arg3.IsWhole) (arg4 : Memref sig .tc .vmem S1x2 .f32) (harg4 : arg4.IsWhole) (arg5 : Memref sig .tc .vmem S1x2 .f32) (harg5 : arg5.IsWhole) (hc0 : ¬cond10_0 i) (hc1 : cond10_1 i)
    (x0 : Vec F S5000x128 .f32) (w0 : Vec F S128x2 .f32) (b0 : Vec F S1x2 .f32) (xs0 : Vec F S1x2 .f32) :
    Σ' (L3 : List (View.Piece (Elt F) S1x2 .f32)), { LS0 : List (View.Piece (Elt F) S1x2 .f32) //
      ∀ (E : Set ℕ) (K : PUnit → sProp 𝕄),
        iprop(owns (c : Thread nD τ) arg1 fullShare x0 ∗ owns (c : Thread nD τ) arg2 fullShare w0 ∗ owns (c : Thread nD τ) arg3 fullShare b0 ∗ (∃ d, owns (c : Thread nD τ) arg4 fullShare d) ∗ owns (c : Thread nD τ) arg5 fullShare xs0
            ∗ (iprop(owns (c : Thread nD τ) arg1 fullShare x0 ∗ owns (c : Thread nD τ) arg2 fullShare w0 ∗ owns (c : Thread nD τ) arg3 fullShare b0 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc10__final_kernel i arg1 harg1 arg2 harg2 arg3 harg3 arg4 harg4 arg5 harg5) K } := by
  refine ⟨?_, ?_, fun E K => ?run⟩
  case run =>
    simp only [cc10__final_kernel_eq_skeleton]; unfold cc10__final_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Hand

end
-- ==== Proof.KI.Final.lean ====
import proofs.«180772_j89300960018653_1_alg».proof.Proof.KI.FinalRunA
import proofs.«180772_j89300960018653_1_alg».proof.Proof.KI.FinalRunB
import proofs.«180772_j89300960018653_1_alg».proof.Proof.KI.FinalRunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The last region's proof data and body obligation

What the accumulator holds after each point is a fold of the body's arithmetic over the points' blocks of `x`
(`accAfter`); the output buffer receives, at the last point, `accumulator * (1/50000) + bias`. The region's
invariant carries the accumulator at that fold between points. -/

variable (V : (c : Dev nD) → (b : Ref sig .tc) → Buf (Elt F) ((c : Thread nD τ).loc b))

theorem hz2 : (![0, 0] : Fin 2 → Nat) = fun _ => 0 := funext fun a => by fin_cases a <;> rfl

/-! ## What each case's stores leave -/

/-- The pieces each case stores into the accumulator cover it (its last store is of the whole buffer). -/
theorem scover10_A (c : Dev nD) (i : grid10.Coords) (arg1 : Memref sig .tc .vmem S5000x128 .f32) (harg1 : arg1.IsWhole) (arg2 : Memref sig .tc .vmem S128x2 .f32) (harg2 : arg2.IsWhole) (arg3 : Memref sig .tc .vmem S1x2 .f32) (harg3 : arg3.IsWhole) (arg4 : Memref sig .tc .vmem S1x2 .f32) (harg4 : arg4.IsWhole) (arg5 : Memref sig .tc .vmem S1x2 .f32) (harg5 : arg5.IsWhole) (hc0 : cond10_0 i) (hc1 : ¬cond10_1 i) (x0 : Vec F S5000x128 .f32) (w0 : Vec F S128x2 .f32) (b0 : Vec F S1x2 .f32) (y : S1x2.Idx) :
    ∃ pc ∈ (kernelRun10_A c i arg1 harg1 arg2 harg2 arg3 harg3 arg4 harg4 arg5 harg5 hc0 hc1 x0 w0 b0).1, y ∈ pc.1.set :=
  View.cover_of_tiledL (kernelRun10_A c i arg1 harg1 arg2 harg2 arg3 harg3 arg4 harg4 arg5 harg5 hc0 hc1 x0 w0 b0).1 S1x2.size (by sl_kernel_rfl) y
theorem scover10_B (c : Dev nD) (i : grid10.Coords) (arg1 : Memref sig .tc .vmem S5000x128 .f32) (harg1 : arg1.IsWhole) (arg2 : Memref sig .tc .vmem S128x2 .f32) (harg2 : arg2.IsWhole) (arg3 : Memref sig .tc .vmem S1x2 .f32) (harg3 : arg3.IsWhole) (arg4 : Memref sig .tc .vmem S1x2 .f32) (harg4 : arg4.IsWhole) (arg5 : Memref sig .tc .vmem S1x2 .f32) (harg5 : arg5.IsWhole) (hc0 : ¬cond10_0 i) (hc1 : ¬cond10_1 i) (x0 : Vec F S5000x128 .f32) (w0 : Vec F S128x2 .f32) (b0 : Vec F S1x2 .f32) (xs0 : Vec F S1x2 .f32) (y : S1x2.Idx) :
    ∃ pc ∈ (kernelRun10_B c i arg1 harg1 arg2 harg2 arg3 harg3 arg4 harg4 arg5 harg5 hc0 hc1 x0 w0 b0 xs0).1, y ∈ pc.1.set :=
  View.cover_of_tiledL (kernelRun10_B c i arg1 harg1 arg2 harg2 arg3 harg3 arg4 harg4 arg5 harg5 hc0 hc1 x0 w0 b0 xs0).1 S1x2.size (by sl_kernel_rfl) y
theorem scover10_C (c : Dev nD) (i : grid10.Coords) (arg1 : Memref sig .tc .vmem S5000x128 .f32) (harg1 : arg1.IsWhole) (arg2 : Memref sig .tc .vmem S128x2 .f32) (harg2 : arg2.IsWhole) (arg3 : Memref sig .tc .vmem S1x2 .f32) (harg3 : arg3.IsWhole) (arg4 : Memref sig .tc .vmem S1x2 .f32) (harg4 : arg4.IsWhole) (arg5 : Memref sig .tc .vmem S1x2 .f32) (harg5 : arg5.IsWhole) (hc0 : ¬cond10_0 i) (hc1 : cond10_1 i) (x0 : Vec F S5000x128 .f32) (w0 : Vec F S128x2 .f32) (b0 : Vec F S1x2 .f32) (xs0 : Vec F S1x2 .f32) (y : S1x2.Idx) :
    ∃ pc ∈ (kernelRun10_C c i arg1 harg1 arg2 harg2 arg3 harg3 arg4 harg4 arg5 harg5 hc0 hc1 x0 w0 b0 xs0).2.1, y ∈ pc.1.set :=
  View.cover_of_tiledL (kernelRun10_C c i arg1 harg1 arg2 harg2 arg3 harg3 arg4 harg4 arg5 harg5 hc0 hc1 x0 w0 b0 xs0).2.1 S1x2.size (by sl_kernel_rfl) y
/-- and the last case's one store into the output buffer covers that. -/
theorem cover10_C (c : Dev nD) (i : grid10.Coords) (arg1 : Memref sig .tc .vmem S5000x128 .f32) (harg1 : arg1.IsWhole) (arg2 : Memref sig .tc .vmem S128x2 .f32) (harg2 : arg2.IsWhole) (arg3 : Memref sig .tc .vmem S1x2 .f32) (harg3 : arg3.IsWhole) (arg4 : Memref sig .tc .vmem S1x2 .f32) (harg4 : arg4.IsWhole) (arg5 : Memref sig .tc .vmem S1x2 .f32) (harg5 : arg5.IsWhole) (hc0 : ¬cond10_0 i) (hc1 : cond10_1 i) (x0 : Vec F S5000x128 .f32) (w0 : Vec F S128x2 .f32) (b0 : Vec F S1x2 .f32) (xs0 : Vec F S1x2 .f32) (y : S1x2.Idx) :
    ∃ pc ∈ (kernelRun10_C c i arg1 harg1 arg2 harg2 arg3 harg3 arg4 harg4 arg5 harg5 hc0 hc1 x0 w0 b0 xs0).1, y ∈ pc.1.set :=
  View.cover_of_tiledL (kernelRun10_C c i arg1 harg1 arg2 harg2 arg3 harg3 arg4 harg4 arg5 harg5 hc0 hc1 x0 w0 b0 xs0).1 S1x2.size (by sl_kernel_rfl) y

/-- At the first point the accumulator ends at the block's column sums added to the cleared accumulator. -/
theorem canon10_A (c : Dev nD) (i : grid10.Coords) (arg1 : Memref sig .tc .vmem S5000x128 .f32) (harg1 : arg1.IsWhole) (arg2 : Memref sig .tc .vmem S128x2 .f32) (harg2 : arg2.IsWhole) (arg3 : Memref sig .tc .vmem S1x2 .f32) (harg3 : arg3.IsWhole) (arg4 : Memref sig .tc .vmem S1x2 .f32) (harg4 : arg4.IsWhole) (arg5 : Memref sig .tc .vmem S1x2 .f32) (harg5 : arg5.IsWhole) (hc0 : cond10_0 i) (hc1 : ¬cond10_1 i) (x0 : Vec F S5000x128 .f32) (w0 : Vec F S128x2 .f32) (b0 : Vec F S1x2 .f32) :
    View.canon (kernelRun10_A c i arg1 harg1 arg2 harg2 arg3 harg3 arg4 harg4 arg5 harg5 hc0 hc1 x0 w0 b0).1 = k10_pay2 x0 w0 k10_pay1 := by
  unfold kernelRun10_A
  dsimp only
  sl_unfold_words
  rw [View.canon_cons_unit_zero (S := S1x2) hz2, View.readCov_unit_zero (S := S1x2) _ hz2]
  simp only [View.readAt_eq_ld, harg1.read_unread, harg2.read_unread, View.ld_unit_zero (S := S5000x128) hz2, View.ld_unit_zero (S := S128x2) hz2]

/-- At a later point it ends at the block's column sums added to what it held. -/
theorem canon10_B (c : Dev nD) (i : grid10.Coords) (arg1 : Memref sig .tc .vmem S5000x128 .f32) (harg1 : arg1.IsWhole) (arg2 : Memref sig .tc .vmem S128x2 .f32) (harg2 : arg2.IsWhole) (arg3 : Memref sig .tc .vmem S1x2 .f32) (harg3 : arg3.IsWhole) (arg4 : Memref sig .tc .vmem S1x2 .f32) (harg4 : arg4.IsWhole) (arg5 : Memref sig .tc .vmem S1x2 .f32) (harg5 : arg5.IsWhole) (hc0 : ¬cond10_0 i) (hc1 : ¬cond10_1 i) (x0 : Vec F S5000x128 .f32) (w0 : Vec F S128x2 .f32) (b0 : Vec F S1x2 .f32) (xs0 : Vec F S1x2 .f32) :
    View.canon (kernelRun10_B c i arg1 harg1 arg2 harg2 arg3 harg3 arg4 harg4 arg5 harg5 hc0 hc1 x0 w0 b0 xs0).1 = k10_pay2 x0 w0 xs0 := by
  unfold kernelRun10_B
  dsimp only
  sl_unfold_words
  rw [View.canon_unit_zero (S := S1x2) hz2]
  simp only [View.readAt_eq_ld, harg1.read_unread, harg2.read_unread, harg5.read_unread, View.ld_unit_zero (S := S5000x128) hz2, View.ld_unit_zero (S := S128x2) hz2, View.ld_unit_zero (S := S1x2) hz2]

theorem scanon10_C (c : Dev nD) (i : grid10.Coords) (arg1 : Memref sig .tc .vmem S5000x128 .f32) (harg1 : arg1.IsWhole) (arg2 : Memref sig .tc .vmem S128x2 .f32) (harg2 : arg2.IsWhole) (arg3 : Memref sig .tc .vmem S1x2 .f32) (harg3 : arg3.IsWhole) (arg4 : Memref sig .tc .vmem S1x2 .f32) (harg4 : arg4.IsWhole) (arg5 : Memref sig .tc .vmem S1x2 .f32) (harg5 : arg5.IsWhole) (hc0 : ¬cond10_0 i) (hc1 : cond10_1 i) (x0 : Vec F S5000x128 .f32) (w0 : Vec F S128x2 .f32) (b0 : Vec F S1x2 .f32) (xs0 : Vec F S1x2 .f32) :
    View.canon (kernelRun10_C c i arg1 harg1 arg2 harg2 arg3 harg3 arg4 harg4 arg5 harg5 hc0 hc1 x0 w0 b0 xs0).2.1 = k10_pay2 x0 w0 xs0 := by
  unfold kernelRun10_C
  dsimp only
  sl_unfold_words
  rw [View.canon_unit_zero (S := S1x2) hz2]
  simp only [View.readAt_eq_ld, harg1.read_unread, harg2.read_unread, harg5.read_unread, View.ld_unit_zero (S := S5000x128) hz2, View.ld_unit_zero (S := S128x2) hz2, View.ld_unit_zero (S := S1x2) hz2]

/-- At the last point the output buffer ends at the scaled accumulator plus the bias. -/
theorem canon10_C (c : Dev nD) (i : grid10.Coords) (arg1 : Memref sig .tc .vmem S5000x128 .f32) (harg1 : arg1.IsWhole) (arg2 : Memref sig .tc .vmem S128x2 .f32) (harg2 : arg2.IsWhole) (arg3 : Memref sig .tc .vmem S1x2 .f32) (harg3 : arg3.IsWhole) (arg4 : Memref sig .tc .vmem S1x2 .f32) (harg4 : arg4.IsWhole) (arg5 : Memref sig .tc .vmem S1x2 .f32) (harg5 : arg5.IsWhole) (hc0 : ¬cond10_0 i) (hc1 : cond10_1 i) (x0 : Vec F S5000x128 .f32) (w0 : Vec F S128x2 .f32) (b0 : Vec F S1x2 .f32) (xs0 : Vec F S1x2 .f32) :
    View.canon (kernelRun10_C c i arg1 harg1 arg2 harg2 arg3 harg3 arg4 harg4 arg5 harg5 hc0 hc1 x0 w0 b0 xs0).1 = k10_pay3 (k10_pay2 x0 w0 xs0) b0 := by
  unfold kernelRun10_C
  dsimp only
  sl_unfold_words
  rw [View.canon_unit_zero (S := S1x2) hz2, View.readCov_unit_zero (S := S1x2) _ hz2]
  simp only [View.readAt_eq_ld, harg1.read_unread, harg2.read_unread, harg3.read_unread, harg5.read_unread, View.ld_unit_zero (S := S5000x128) hz2, View.ld_unit_zero (S := S128x2) hz2, View.ld_unit_zero (S := S1x2) hz2]

/-! ## The accumulator after each point -/

/-- Point `n` of the grid (taken mod 10, so that it is total in `n`). -/
def pt10 (n : ℕ) : Fin cfg10.N := ⟨n % 10, lt_of_lt_of_eq (Nat.mod_lt n (by decide)) N_10.symm⟩
theorem pt10_mk (n : ℕ) (hn : n < cfg10.N) : pt10 n = ⟨n, hn⟩ := Fin.ext (Nat.mod_eq_of_lt (lt_of_lt_of_eq hn N_10))
theorem pt10_val (t : Fin cfg10.N) : pt10 t.val = t := pt10_mk t.val t.isLt

/-- THE ACCUMULATION: what the accumulator holds after point `n` — the column sums of block 0's product added to the
    cleared accumulator, then each later block's added in turn. -/
def accAfter (c : Dev nD) : ℕ → Vec F S1x2 .f32
  | 0 => k10_pay2 (iblk10 V c 0 (pt10 0)) (iblk10 V c 1 (pt10 0)) k10_pay1
  | n + 1 => k10_pay2 (iblk10 V c 0 (pt10 (n + 1))) (iblk10 V c 1 (pt10 (n + 1))) (accAfter c n)

theorem accAfter_zero (c : Dev nD) :
    accAfter V c 0 = k10_pay2 (iblk10 V c 0 (pt10 0)) (iblk10 V c 1 (pt10 0)) k10_pay1 := by rw [accAfter]
theorem accAfter_succ (c : Dev nD) (n : ℕ) :
    accAfter V c (n + 1) = k10_pay2 (iblk10 V c 0 (pt10 (n + 1))) (iblk10 V c 1 (pt10 (n + 1))) (accAfter V c n) := by rw [accAfter]

theorem accAfter_at_first (c : Dev nD) (t : Fin cfg10.N) (h0 : t.val = 0) :
    accAfter V c t.val = k10_pay2 (iblk10 V c 0 t) (iblk10 V c 1 t) k10_pay1 := by
  have e : pt10 0 = t := by rw [← h0]; exact pt10_val t
  rw [h0, accAfter_zero, e]

theorem accAfter_at_pos (c : Dev nD) (t : Fin cfg10.N) (h0 : t.val ≠ 0) :
    accAfter V c t.val = k10_pay2 (iblk10 V c 0 t) (iblk10 V c 1 t) (accAfter V c (t.val - 1)) := by
  obtain ⟨n, hn⟩ := t
  cases n with
  | zero => exact absurd rfl h0
  | succ n =>
    dsimp only
    rw [accAfter_succ, pt10_mk (n + 1) hn, Nat.add_sub_cancel]

/-- What the last point stores into the output buffer, from the accumulator and the bias block. -/
def out10_3 (acc b : Vec F S1x2 .f32) : Vec F S1x2 .f32 := k10_pay3 acc b

/-! ## The invariant -/

/-- The region's invariant before point `n`: before the first point what the launch hands it (every scoped buffer that
    is no staging buffer at anything, the generator register at some state); afterwards the same with the accumulator
    at `accAfter (n - 1)`. -/
def Phi10 (c : Dev nD) : ℕ → sProp 𝕄
  | 0 => Pipeline.ΦA spec10 c
  | n + 1 => iprop(iprop(owns (c : Thread nD τ) scM10 fullShare (accAfter V c n)
      ∗ Pipeline.scopedRestBut (Ix := Unit) (Name := ℕ) (U := UR sig nD τ) (Lvl := ℕ) (Val := Elt F) spec10 c [cc10_scratch0]) ∗ (∃ r, prngReg c r))

theorem Phi10_succ (c : Dev nD) (n : ℕ) :
    Phi10 V c (n + 1) = iprop(iprop(owns (c : Thread nD τ) scM10 fullShare (accAfter V c n)
      ∗ Pipeline.scopedRestBut (Ix := Unit) (Name := ℕ) (U := UR sig nD τ) (Lvl := ℕ) (Val := Elt F) spec10 c [cc10_scratch0]) ∗ (∃ r, prngReg c r)) := rfl

theorem Phi10_pos (c : Dev nD) (n : ℕ) (hz : n ≠ 0) :
    Phi10 V c n = iprop(iprop(owns (c : Thread nD τ) scM10 fullShare (accAfter V c (n - 1))
      ∗ Pipeline.scopedRestBut (Ix := Unit) (Name := ℕ) (U := UR sig nD τ) (Lvl := ℕ) (Val := Elt F) spec10 c [cc10_scratch0]) ∗ (∃ r, prngReg c r)) := by
  cases n with
  | zero => exact absurd rfl hz
  | succ n => rfl

/-- What the launch hands the region, with the accumulator taken out of the scoped rest as a memref owned at something. -/
theorem PhiA10_eq (c : Dev nD) :
    (Pipeline.ΦA spec10 c : sProp 𝕄)
      = iprop(iprop((∃ d, owns (c : Thread nD τ) scM10 fullShare d)
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10, owns_whole]; try rfl

/-! ## The proof data -/

/-- The proof data of the region on core `c`: the arrays as the region finds them; after the body each input's buffer at
    its block, the output's at the scaled accumulator plus the bias (consulted at the last point only: elsewhere the
    window is idle); the invariant `Phi10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (accAfter V c t.val) (iblk10 V c 2 t)
  Φ t := Phi10 V c t.val
  q _ := fullShare
  owed _ := 0

theorem A_eq10 (c : Dev nD) (w : Fin cfg10.W) : (dat10 V c).A w = V c (Pipeline.arrRef spec10 w) := by
  dsimp only [dat10]

theorem Phi10_first (c : Dev nD) : (dat10 V c).Φ 0 = Pipeline.ΦA spec10 c := rfl

theorem Phi10_castSucc (c : Dev nD) (t : Fin cfg10.N) : (dat10 V c).Φ t.castSucc = Phi10 V c t.val := by
  dsimp only [dat10]; simp only [Fin.coe_castSucc]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) :
    (dat10 V c).after 3 t = out10_3 (accAfter V c t.val) (iblk10 V c 2 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-- After any point but the first the invariant gives back what the launch handed: the accumulator's contents are forgotten. -/
theorem Phi10_out (c : Dev nD) (t : Fin (cfg10.N + 1)) (ht : t.val ≠ 0) : (dat10 V c).Φ t ⊢ (Pipeline.ΦA spec10 c : sProp 𝕄) := by
  rw [show (dat10 V c).Φ t = Phi10 V c t.val from rfl, Phi10_pos V c _ ht, PhiA10_eq]
  iintro ⟨⟨HS0, HR⟩, Hg⟩
  isplitl [HS0 HR]
  · isplitl [HS0]
    · iexists _; iexact HS0
    iexact HR
  iexact Hg

theorem Phi10_last (c : Dev nD) : (dat10 V c).Φ (Fin.last cfg10.N) ⊢ (Pipeline.ΦA spec10 c : sProp 𝕄) :=
  Phi10_out V c _ (by rw [Fin.val_last]; have : cfg10.N = 10 := N_10; omega)

theorem Phi10_zero (c : Dev nD) (n : ℕ) (hz : n = 0) : Phi10 V c n = Pipeline.ΦA spec10 c := by
  subst hz; rfl

/-! ## The body obligation -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t)

set_option maxHeartbeats 4800000 in
/-- The body at any point: the inputs' buffers hold their blocks; the closed forms of the two conditions say which of
    the three cases the point is in; the invariant hands the body the accumulator (at anything before the first point,
    at the fold so far afterwards) and takes it back at the fold through this point; at every point but the last the
    output buffer is handed back as found, at the last it holds the scaled accumulator plus the bias. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).owesAt () t.succ = (dat10 V c).owesAt () t.castSucc from rfl]
  rw [show (dat10 V c).Φ t.succ = Phi10 V c (t.val + 1) from rfl, Phi10_succ]
  have hN : t.val < 10 := lt_of_lt_of_eq t.isLt (show cfg10.N = 10 from N_10)
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  rw [show (dat10 V c).leavesExact 2 t = owns (c : Thread nD τ) (ms10_2 t) fullShare ((dat10 V c).after 2 t) from by
    unfold Dat.leavesExact; rw [liveAt10_2 t], after10_2]
  rw [Phi10_castSucc V c t]
  by_cases h1 : t.val % 10 = 9
  · have h0 : ¬t.val % 10 = 0 := by omega
    have hz : t.val ≠ 0 := by omega
    rw [show (dat10 V c).leavesExact 3 t = owns (c : Thread nD τ) (ms10_3 t) fullShare ((dat10 V c).after 3 t) from by
      unfold Dat.leavesExact; rw [liveAt10_3 t ((hcond10_1 t).mpr h1)], after10_3]
    unfold out10_3
    rw [accAfter_at_pos V c t hz, Phi10_pos V c _ hz]
    iintro ⟨⟨⟨HS0, HR⟩, Hg⟩, Ho, ⟨%d0, H0⟩, ⟨%d1, H1⟩, ⟨%d2, H2⟩, ⟨%d3, H3⟩⟩
    iapply ((kernelRun10_C c (grid10.coords t) _ _ _ _ _ _ _ _ _ _ (fun h => h0 ((hcond10_0 t).mp h)) ((hcond10_1 t).mpr h1) (iblk10 V c 0 t) (iblk10 V c 1 t) (iblk10 V c 2 t) (accAfter V c (t.val - 1))).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact (View.read_writes_eq_canon _ _ _ (scover10_C c _ _ _ _ _ _ _ _ _ _ _ _ _ _ _ _ _)).trans (scanon10_C c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact (View.read_writes_eq_canon _ _ _ (cover10_C c _ _ _ _ _ _ _ _ _ _ _ _ _ _ _ _ _)).trans (canon10_C c _ _ _ _ _ _ _ _ _ _ _ _ _ _ _ _ _)
  · rw [Dat.leavesExact_idle (dat10 V c) 3 t (idleAt10_3 t (fun h => h1 ((hcond10_1 t).mp h))) (noFlush10_3 t (fun h => h1 ((hcond10_1 t).mp h)))]
    by_cases h0 : t.val % 10 = 0
    · have hz : t.val = 0 := by omega
      rw [accAfter_at_first V c t hz, Phi10_zero V c _ hz, PhiA10_eq]
      iintro ⟨⟨⟨HS0, HR⟩, Hg⟩, Ho, ⟨%d0, H0⟩, ⟨%d1, H1⟩, ⟨%d2, H2⟩, ⟨%d3, H3⟩⟩
      iapply ((kernelRun10_A c (grid10.coords t) _ _ _ _ _ _ _ _ _ _ ((hcond10_0 t).mpr h0) (fun h => h1 ((hcond10_1 t).mp h)) (iblk10 V c 0 t) (iblk10 V c 1 t) (iblk10 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact (View.read_writes_eq_canon _ _ _ (scover10_A c _ _ _ _ _ _ _ _ _ _ _ _ _ _ _ _)).trans (canon10_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · have hz : t.val ≠ 0 := by omega
      rw [accAfter_at_pos V c t hz, Phi10_pos V c _ hz]
      iintro ⟨⟨⟨HS0, HR⟩, Hg⟩, Ho, ⟨%d0, H0⟩, ⟨%d1, H1⟩, ⟨%d2, H2⟩, ⟨%d3, H3⟩⟩
      iapply ((kernelRun10_B c (grid10.coords t) _ _ _ _ _ _ _ _ _ _ (fun h => h0 ((hcond10_0 t).mp h)) (fun h => h1 ((hcond10_1 t).mp h)) (iblk10 V c 0 t) (iblk10 V c 1 t) (iblk10 V c 2 t) (accAfter V c (t.val - 1))).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact (View.read_writes_eq_canon _ _ _ (scover10_B c _ _ _ _ _ _ _ _ _ _ _ _ _ _ _ _ _)).trans (canon10_B c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.RegionsValue.lean ====
/-
  The whole program's run, with the result array read beside the arguments.

  Between two items of the program every unscoped buffer of a core is held at a known contents: the launch
  memory, then what each host stretch computes from what is there, then, after a region, the same with the
  region's output array replaced by what the region leaves in it.  After the last item the result array is
  therefore held at what the last region leaves (the last replacement is at the result array itself), and each
  argument array, which no item writes, at its launch contents.  Given one record per region that carries the
  core's state from the contents before the region to the contents after it, every weakly fair execution
  terminates, and its final memory holds exactly these contents in the result and in the nine arguments.
-/
import proofs.«180772_j89300960018653_1_alg».proof.Proof.Gen.KernelIdeal.Regions

set_option maxRecDepth 1452

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

variable (m : (ℓ : Loc nD τ sig) → Buf (Elt F) ℓ)

/-- The last valuation at the result array: what the last region leaves there. -/
theorem V26_main_v132 (outs : Outs (F := F)) (c : Dev nD) : V26 m outs c main_v132 = outs 26 main_v132 c := by
  simp only [V26, Function.update_self]

set_option backward.isDefEq.respectTransparency.types false in
/-- For any user algebra, level assignment, launch dues and ghost resources, any rest states `E` the launch makes on
    every core at once (`hE0`) and that end owing nothing (`hE11`), any contents the regions leave (`outs`) and any proof
    data: given, per region K, a segment record entered from the thread state before it and left at the one after it
    (`RK`, `hpreK`, `hpostK`), every weakly fair execution of @main from memory `m` with zero counters terminates, and every
    final memory holds the result array `main_v132` at what the last region leaves in it and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 11) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 12 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE11 : ∀ c : Dev nD, E 11 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V13 m outs c) ∗ E 4 c) ⊢ R4.pre c)
    (hpost4 : ∀ c : Dev nD, R4.post c ⊢ iprop(StableHlo.held (c : Thread nD τ) (Pipeline.ucRefs τ sig) (V14 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V17 m outs c) ∗ E 6 c) ⊢ R6.pre c)
    (hpost6 : ∀ c : Dev nD, R6.post c ⊢ iprop(StableHlo.held (c : Thread nD τ) (Pipeline.ucRefs τ sig) (V18 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V19 m outs c) ∗ E 7 c) ⊢ R7.pre c)
    (hpost7 : ∀ c : Dev nD, R7.post c ⊢ iprop(StableHlo.held (c : Thread nD τ) (Pipeline.ucRefs τ sig) (V20 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V21 m outs c) ∗ E 8 c) ⊢ R8.pre c)
    (hpost8 : ∀ c : Dev nD, R8.post c ⊢ iprop(StableHlo.held (c : Thread nD τ) (Pipeline.ucRefs τ sig) (V22 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V23 m outs c) ∗ E 9 c) ⊢ R9.pre c)
    (hpost9 : ∀ c : Dev nD, R9.post c ⊢ iprop(StableHlo.held (c : Thread nD τ) (Pipeline.ucRefs τ sig) (V24 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V25 m outs c) ∗ E 10 c) ⊢ R10.pre c)
    (hpost10 : ∀ c : Dev nD, R10.post c ⊢ iprop(StableHlo.held (c : Thread nD τ) (Pipeline.ucRefs τ sig) (V26 m outs c) ∗ E 11 c)) :
    θ_run defs (onTc (τ := τ) (main (F := F))) ⟨m, fun _ => 0, ρ⟩ (fun r => ∀ c : Dev nD,
      r.2.mem ((c.tc : Thread nD τ).loc main_v132) = outs 26 main_v132 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10)
    (fun c Q => by
      rewrite [main_chain c, Seg.run_eq_chain,
        show (segs m outs 𝒱₀ L lv E ι pdats R0 R1 R2 R3 R4 R5 R6 R7 R8 R9 R10 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V26 m outs c))
    (hch := fun c => ⟨.rfl, .rfl, .rfl, .rfl, .rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, (hpost10 c).trans (sep_mono .rfl (hE11 c))⟩)
    (hinit := ?_) (QY := fun c s => s.mem ((c.tc : Thread nD τ).loc main_v132) = outs 26 main_v132 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V26 m outs c) s') $$ [Hh HSI]
    · isplitl [Hh] <;> iassumption
    icases Hr with ⟨%h, HSI⟩
    imodintro
    isplitr
    · ipureintro
      exact ⟨(h (Proc.devRef .tc main_v132) (Finset.mem_filter.mpr ⟨StableHlo.devRef_mem_tcRefs main_v132, by decide⟩)).trans (V26_main_v132 m outs c),
        (h (Proc.devRef .tc main_arg0) (Finset.mem_filter.mpr ⟨StableHlo.devRef_mem_tcRefs main_arg0, by decide⟩)).trans (V26_main_arg0 m outs c),
        (h (Proc.devRef .tc main_arg1) (Finset.mem_filter.mpr ⟨StableHlo.devRef_mem_tcRefs main_arg1, by decide⟩)).trans (V26_main_arg1 m outs c),
        (h (Proc.devRef .tc main_arg2) (Finset.mem_filter.mpr ⟨StableHlo.devRef_mem_tcRefs main_arg2, by decide⟩)).trans (V26_main_arg2 m outs c),
        (h (Proc.devRef .tc main_arg3) (Finset.mem_filter.mpr ⟨StableHlo.devRef_mem_tcRefs main_arg3, by decide⟩)).trans (V26_main_arg3 m outs c),
        (h (Proc.devRef .tc main_arg4) (Finset.mem_filter.mpr ⟨StableHlo.devRef_mem_tcRefs main_arg4, by decide⟩)).trans (V26_main_arg4 m outs c),
        (h (Proc.devRef .tc main_arg5) (Finset.mem_filter.mpr ⟨StableHlo.devRef_mem_tcRefs main_arg5, by decide⟩)).trans (V26_main_arg5 m outs c),
        (h (Proc.devRef .tc main_arg6) (Finset.mem_filter.mpr ⟨StableHlo.devRef_mem_tcRefs main_arg6, by decide⟩)).trans (V26_main_arg6 m outs c),
        (h (Proc.devRef .tc main_arg7) (Finset.mem_filter.mpr ⟨StableHlo.devRef_mem_tcRefs main_arg7, by decide⟩)).trans (V26_main_arg7 m outs c),
        (h (Proc.devRef .tc main_arg8) (Finset.mem_filter.mpr ⟨StableHlo.devRef_mem_tcRefs main_arg8, by decide⟩)).trans (V26_main_arg8 m outs c)⟩
    · iexact HSI

end Cert.KernelIdeal.Hand

end
-- ==== Proof.KI.Run.lean ====
/-
  The whole program as a run. Between two items of @main (a stretch of host operations, or a kernel region) every
  unscoped buffer of a core holds known contents: the launch memory, then what each host stretch computes from what
  it finds, then, after a region, the region's output array at what its ten write-backs leave and every other buffer as
  the region found it. Each region is entered from the contents before it and left at the contents after it, so the
  regions chain, every execution of the program terminates without a fault, the argument arrays end as launched, and
  the result array ends at what the last region leaves.
-/
import proofs.«180772_j89300960018653_1_alg».proof.Proof.KI.Reg0
import proofs.«180772_j89300960018653_1_alg».proof.Proof.KI.Reg1
import proofs.«180772_j89300960018653_1_alg».proof.Proof.KI.Reg2
import proofs.«180772_j89300960018653_1_alg».proof.Proof.KI.Reg3
import proofs.«180772_j89300960018653_1_alg».proof.Proof.KI.Reg4
import proofs.«180772_j89300960018653_1_alg».proof.Proof.KI.Reg5
import proofs.«180772_j89300960018653_1_alg».proof.Proof.KI.Reg6
import proofs.«180772_j89300960018653_1_alg».proof.Proof.KI.Reg7
import proofs.«180772_j89300960018653_1_alg».proof.Proof.KI.Reg8
import proofs.«180772_j89300960018653_1_alg».proof.Proof.KI.Reg9
import proofs.«180772_j89300960018653_1_alg».proof.Proof.KI.Final
import proofs.«180772_j89300960018653_1_alg».proof.Proof.KI.RegionsValue
import proofs.«180772_j89300960018653_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- A valuation read at the TensorCore's references: what a region's proof data take. -/
abbrev atRefs (W : Dev nD → Valuation τ sig (Elt F)) : (c : Dev nD) → (b : Ref sig .tc) → Buf (Elt F) ((c : Thread nD τ).loc b) := fun c b => W c b

abbrev 𝒱n : Variants := Variants.none
abbrev Ln : GSem nD τ sig → Finset Unit := fun _ => ∅
abbrev lvn : GSem nD τ sig → Unit → ℕ := fun _ _ => 0
/-- What rides beside the buffers between @main's items: the generator register at some state, and nothing owed. -/
abbrev Rst (c : Dev nD) : sProp 𝕄 := iprop((∃ r, prngReg c r) ∗ ∃ W, owes (c : Thread nD τ) (0 : CellTallies nD τ sig Unit) W)

/-- Replacing an entry by what a replaced copy holds there is the replaced copy. -/
theorem upd_step {α : Type} [DecidableEq α] {β : α → Type} {f g : (a : α) → β a} (h : f = g) (a : α) (x : β a) :
    Function.update f a (Function.update g a x a) = Function.update g a x := by subst h; rw [Function.update_self]

/-! ## The buffers' contents between items -/

/-- After region 0: its output array holds what the write-backs leave, every other buffer is as the region found it. -/
def W6 (c : Dev nD) : Valuation τ sig (Elt F) :=
  Function.update (V5 m c) main_v35 ((dat0 (atRefs (V5 m)) c).arrAt 2 cfg0.N)
/-- After the host stretch that follows it. -/
def W7 (c : Dev nD) : Valuation τ sig (Elt F) := StableHlo.after hostOps1 (W6 m c)

set_option maxHeartbeats 1000000 in
theorem hF0 (c : Dev nD) : ∀ w : Fin 3, (dat0 (atRefs (V5 m)) c).arrAt w cfg0.N = W6 m c (Pipeline.arrRef spec0 w)
  | 0 => ((dat0 (atRefs (V5 m)) c).arrAt_in 0 rfl _).trans ((A_eq0 (atRefs (V5 m)) c 0).trans (Function.update_of_ne (StableHlo.devRef_ne_of_ne (by decide)) _ _).symm)
  | 1 => ((dat0 (atRefs (V5 m)) c).arrAt_in 1 rfl _).trans ((A_eq0 (atRefs (V5 m)) c 1).trans (Function.update_of_ne (StableHlo.devRef_ne_of_ne (by decide)) _ _).symm)
  | 2 => by unfold W6; exact Eq.symm (Function.update_self (α := DevRef τ sig) (main_v35 : DevRef τ sig) _ _)
  | ⟨_ + 3, h⟩ => absurd h (Nat.not_lt.2 (Nat.le_add_left _ _))

theorem hrest0 (c : Dev nD) : ∀ b : Ref sig .tc, b ∉ Finset.univ.image (Pipeline.arrRef spec0) → atRefs (W6 m) c b = atRefs (V5 m) c b :=
  fun b hb => Function.update_of_ne (StableHlo.devRef_ne_of_ne fun e => hb (Finset.mem_image.mpr ⟨(2 : Fin 3), Finset.mem_univ _, e.symm⟩)) _ _

/-- After region 1: its output array holds what the write-backs leave, every other buffer is as the region found it. -/
def W8 (c : Dev nD) : Valuation τ sig (Elt F) :=
  Function.update (W7 m c) main_v50 ((dat1 (atRefs (W7 m)) c).arrAt 2 cfg1.N)
/-- After the host stretch that follows it. -/
def W9 (c : Dev nD) : Valuation τ sig (Elt F) := StableHlo.after hostOps2 (W8 m c)

set_option maxHeartbeats 1000000 in
theorem hF1 (c : Dev nD) : ∀ w : Fin 3, (dat1 (atRefs (W7 m)) c).arrAt w cfg1.N = W8 m c (Pipeline.arrRef spec1 w)
  | 0 => ((dat1 (atRefs (W7 m)) c).arrAt_in 0 rfl _).trans ((A_eq1 (atRefs (W7 m)) c 0).trans (Function.update_of_ne (StableHlo.devRef_ne_of_ne (by decide)) _ _).symm)
  | 1 => ((dat1 (atRefs (W7 m)) c).arrAt_in 1 rfl _).trans ((A_eq1 (atRefs (W7 m)) c 1).trans (Function.update_of_ne (StableHlo.devRef_ne_of_ne (by decide)) _ _).symm)
  | 2 => by unfold W8; exact Eq.symm (Function.update_self (α := DevRef τ sig) (main_v50 : DevRef τ sig) _ _)
  | ⟨_ + 3, h⟩ => absurd h (Nat.not_lt.2 (Nat.le_add_left _ _))

theorem hrest1 (c : Dev nD) : ∀ b : Ref sig .tc, b ∉ Finset.univ.image (Pipeline.arrRef spec1) → atRefs (W8 m) c b = atRefs (W7 m) c b :=
  fun b hb => Function.update_of_ne (StableHlo.devRef_ne_of_ne fun e => hb (Finset.mem_image.mpr ⟨(2 : Fin 3), Finset.mem_univ _, e.symm⟩)) _ _

/-- After region 2: its output array holds what the write-backs leave, every other buffer is as the region found it. -/
def W10 (c : Dev nD) : Valuation τ sig (Elt F) :=
  Function.update (W9 m c) main_v53 ((dat2 (atRefs (W9 m)) c).arrAt 2 cfg2.N)
/-- After the host stretch that follows it. -/
def W11 (c : Dev nD) : Valuation τ sig (Elt F) := StableHlo.after hostOps3 (W10 m c)

set_option maxHeartbeats 1000000 in
theorem hF2 (c : Dev nD) : ∀ w : Fin 3, (dat2 (atRefs (W9 m)) c).arrAt w cfg2.N = W10 m c (Pipeline.arrRef spec2 w)
  | 0 => ((dat2 (atRefs (W9 m)) c).arrAt_in 0 rfl _).trans ((A_eq2 (atRefs (W9 m)) c 0).trans (Function.update_of_ne (StableHlo.devRef_ne_of_ne (by decide)) _ _).symm)
  | 1 => ((dat2 (atRefs (W9 m)) c).arrAt_in 1 rfl _).trans ((A_eq2 (atRefs (W9 m)) c 1).trans (Function.update_of_ne (StableHlo.devRef_ne_of_ne (by decide)) _ _).symm)
  | 2 => by unfold W10; exact Eq.symm (Function.update_self (α := DevRef τ sig) (main_v53 : DevRef τ sig) _ _)
  | ⟨_ + 3, h⟩ => absurd h (Nat.not_lt.2 (Nat.le_add_left _ _))

theorem hrest2 (c : Dev nD) : ∀ b : Ref sig .tc, b ∉ Finset.univ.image (Pipeline.arrRef spec2) → atRefs (W10 m) c b = atRefs (W9 m) c b :=
  fun b hb => Function.update_of_ne (StableHlo.devRef_ne_of_ne fun e => hb (Finset.mem_image.mpr ⟨(2 : Fin 3), Finset.mem_univ _, e.symm⟩)) _ _

/-- After region 3: its output array holds what the write-backs leave, every other buffer is as the region found it. -/
def W12 (c : Dev nD) : Valuation τ sig (Elt F) :=
  Function.update (W11 m c) main_v70 ((dat3 (atRefs (W11 m)) c).arrAt 3 cfg3.N)
/-- After the host stretch that follows it. -/
def W13 (c : Dev nD) : Valuation τ sig (Elt F) := StableHlo.after hostOps4 (W12 m c)

set_option maxHeartbeats 1000000 in
theorem hF3 (c : Dev nD) : ∀ w : Fin 4, (dat3 (atRefs (W11 m)) c).arrAt w cfg3.N = W12 m c (Pipeline.arrRef spec3 w)
  | 0 => ((dat3 (atRefs (W11 m)) c).arrAt_in 0 rfl _).trans ((A_eq3 (atRefs (W11 m)) c 0).trans (Function.update_of_ne (StableHlo.devRef_ne_of_ne (by decide)) _ _).symm)
  | 1 => ((dat3 (atRefs (W11 m)) c).arrAt_in 1 rfl _).trans ((A_eq3 (atRefs (W11 m)) c 1).trans (Function.update_of_ne (StableHlo.devRef_ne_of_ne (by decide)) _ _).symm)
  | 2 => ((dat3 (atRefs (W11 m)) c).arrAt_in 2 rfl _).trans ((A_eq3 (atRefs (W11 m)) c 2).trans (Function.update_of_ne (StableHlo.devRef_ne_of_ne (by decide)) _ _).symm)
  | 3 => by unfold W12; exact Eq.symm (Function.update_self (α := DevRef τ sig) (main_v70 : DevRef τ sig) _ _)
  | ⟨_ + 4, h⟩ => absurd h (Nat.not_lt.2 (Nat.le_add_left _ _))

theorem hrest3 (c : Dev nD) : ∀ b : Ref sig .tc, b ∉ Finset.univ.image (Pipeline.arrRef spec3) → atRefs (W12 m) c b = atRefs (W11 m) c b :=
  fun b hb => Function.update_of_ne (StableHlo.devRef_ne_of_ne fun e => hb (Finset.mem_image.mpr ⟨(3 : Fin 4), Finset.mem_univ _, e.symm⟩)) _ _

/-- After region 4: its output array holds what the write-backs leave, every other buffer is as the region found it. -/
def W14 (c : Dev nD) : Valuation τ sig (Elt F) :=
  Function.update (W13 m c) main_v73 ((dat4 (atRefs (W13 m)) c).arrAt 2 cfg4.N)
/-- After the host stretch that follows it. -/
def W15 (c : Dev nD) : Valuation τ sig (Elt F) := StableHlo.after hostOps5 (W14 m c)

set_option maxHeartbeats 1000000 in
theorem hF4 (c : Dev nD) : ∀ w : Fin 3, (dat4 (atRefs (W13 m)) c).arrAt w cfg4.N = W14 m c (Pipeline.arrRef spec4 w)
  | 0 => ((dat4 (atRefs (W13 m)) c).arrAt_in 0 rfl _).trans ((A_eq4 (atRefs (W13 m)) c 0).trans (Function.update_of_ne (StableHlo.devRef_ne_of_ne (by decide)) _ _).symm)
  | 1 => ((dat4 (atRefs (W13 m)) c).arrAt_in 1 rfl _).trans ((A_eq4 (atRefs (W13 m)) c 1).trans (Function.update_of_ne (StableHlo.devRef_ne_of_ne (by decide)) _ _).symm)
  | 2 => by unfold W14; exact Eq.symm (Function.update_self (α := DevRef τ sig) (main_v73 : DevRef τ sig) _ _)
  | ⟨_ + 3, h⟩ => absurd h (Nat.not_lt.2 (Nat.le_add_left _ _))

theorem hrest4 (c : Dev nD) : ∀ b : Ref sig .tc, b ∉ Finset.univ.image (Pipeline.arrRef spec4) → atRefs (W14 m) c b = atRefs (W13 m) c b :=
  fun b hb => Function.update_of_ne (StableHlo.devRef_ne_of_ne fun e => hb (Finset.mem_image.mpr ⟨(2 : Fin 3), Finset.mem_univ _, e.symm⟩)) _ _

/-- After region 5: its output array holds what the write-backs leave, every other buffer is as the region found it. -/
def W16 (c : Dev nD) : Valuation τ sig (Elt F) :=
  Function.update (W15 m c) main_v90 ((dat5 (atRefs (W15 m)) c).arrAt 3 cfg5.N)
/-- After the host stretch that follows it. -/
def W17 (c : Dev nD) : Valuation τ sig (Elt F) := StableHlo.after hostOps6 (W16 m c)

set_option maxHeartbeats 1000000 in
theorem hF5 (c : Dev nD) : ∀ w : Fin 4, (dat5 (atRefs (W15 m)) c).arrAt w cfg5.N = W16 m c (Pipeline.arrRef spec5 w)
  | 0 => ((dat5 (atRefs (W15 m)) c).arrAt_in 0 rfl _).trans ((A_eq5 (atRefs (W15 m)) c 0).trans (Function.update_of_ne (StableHlo.devRef_ne_of_ne (by decide)) _ _).symm)
  | 1 => ((dat5 (atRefs (W15 m)) c).arrAt_in 1 rfl _).trans ((A_eq5 (atRefs (W15 m)) c 1).trans (Function.update_of_ne (StableHlo.devRef_ne_of_ne (by decide)) _ _).symm)
  | 2 => ((dat5 (atRefs (W15 m)) c).arrAt_in 2 rfl _).trans ((A_eq5 (atRefs (W15 m)) c 2).trans (Function.update_of_ne (StableHlo.devRef_ne_of_ne (by decide)) _ _).symm)
  | 3 => by unfold W16; exact Eq.symm (Function.update_self (α := DevRef τ sig) (main_v90 : DevRef τ sig) _ _)
  | ⟨_ + 4, h⟩ => absurd h (Nat.not_lt.2 (Nat.le_add_left _ _))

theorem hrest5 (c : Dev nD) : ∀ b : Ref sig .tc, b ∉ Finset.univ.image (Pipeline.arrRef spec5) → atRefs (W16 m) c b = atRefs (W15 m) c b :=
  fun b hb => Function.update_of_ne (StableHlo.devRef_ne_of_ne fun e => hb (Finset.mem_image.mpr ⟨(3 : Fin 4), Finset.mem_univ _, e.symm⟩)) _ _

/-- After region 6: its output array holds what the write-backs leave, every other buffer is as the region found it. -/
def W18 (c : Dev nD) : Valuation τ sig (Elt F) :=
  Function.update (W17 m c) main_v93 ((dat6 (atRefs (W17 m)) c).arrAt 2 cfg6.N)
/-- After the host stretch that follows it. -/
def W19 (c : Dev nD) : Valuation τ sig (Elt F) := StableHlo.after hostOps7 (W18 m c)

set_option maxHeartbeats 1000000 in
theorem hF6 (c : Dev nD) : ∀ w : Fin 3, (dat6 (atRefs (W17 m)) c).arrAt w cfg6.N = W18 m c (Pipeline.arrRef spec6 w)
  | 0 => ((dat6 (atRefs (W17 m)) c).arrAt_in 0 rfl _).trans ((A_eq6 (atRefs (W17 m)) c 0).trans (Function.update_of_ne (StableHlo.devRef_ne_of_ne (by decide)) _ _).symm)
  | 1 => ((dat6 (atRefs (W17 m)) c).arrAt_in 1 rfl _).trans ((A_eq6 (atRefs (W17 m)) c 1).trans (Function.update_of_ne (StableHlo.devRef_ne_of_ne (by decide)) _ _).symm)
  | 2 => by unfold W18; exact Eq.symm (Function.update_self (α := DevRef τ sig) (main_v93 : DevRef τ sig) _ _)
  | ⟨_ + 3, h⟩ => absurd h (Nat.not_lt.2 (Nat.le_add_left _ _))

theorem hrest6 (c : Dev nD) : ∀ b : Ref sig .tc, b ∉ Finset.univ.image (Pipeline.arrRef spec6) → atRefs (W18 m) c b = atRefs (W17 m) c b :=
  fun b hb => Function.update_of_ne (StableHlo.devRef_ne_of_ne fun e => hb (Finset.mem_image.mpr ⟨(2 : Fin 3), Finset.mem_univ _, e.symm⟩)) _ _

/-- After region 7: its output array holds what the write-backs leave, every other buffer is as the region found it. -/
def W20 (c : Dev nD) : Valuation τ sig (Elt F) :=
  Function.update (W19 m c) main_v110 ((dat7 (atRefs (W19 m)) c).arrAt 3 cfg7.N)
/-- After the host stretch that follows it. -/
def W21 (c : Dev nD) : Valuation τ sig (Elt F) := StableHlo.after hostOps8 (W20 m c)

set_option maxHeartbeats 1000000 in
theorem hF7 (c : Dev nD) : ∀ w : Fin 4, (dat7 (atRefs (W19 m)) c).arrAt w cfg7.N = W20 m c (Pipeline.arrRef spec7 w)
  | 0 => ((dat7 (atRefs (W19 m)) c).arrAt_in 0 rfl _).trans ((A_eq7 (atRefs (W19 m)) c 0).trans (Function.update_of_ne (StableHlo.devRef_ne_of_ne (by decide)) _ _).symm)
  | 1 => ((dat7 (atRefs (W19 m)) c).arrAt_in 1 rfl _).trans ((A_eq7 (atRefs (W19 m)) c 1).trans (Function.update_of_ne (StableHlo.devRef_ne_of_ne (by decide)) _ _).symm)
  | 2 => ((dat7 (atRefs (W19 m)) c).arrAt_in 2 rfl _).trans ((A_eq7 (atRefs (W19 m)) c 2).trans (Function.update_of_ne (StableHlo.devRef_ne_of_ne (by decide)) _ _).symm)
  | 3 => by unfold W20; exact Eq.symm (Function.update_self (α := DevRef τ sig) (main_v110 : DevRef τ sig) _ _)
  | ⟨_ + 4, h⟩ => absurd h (Nat.not_lt.2 (Nat.le_add_left _ _))

theorem hrest7 (c : Dev nD) : ∀ b : Ref sig .tc, b ∉ Finset.univ.image (Pipeline.arrRef spec7) → atRefs (W20 m) c b = atRefs (W19 m) c b :=
  fun b hb => Function.update_of_ne (StableHlo.devRef_ne_of_ne fun e => hb (Finset.mem_image.mpr ⟨(3 : Fin 4), Finset.mem_univ _, e.symm⟩)) _ _

/-- After region 8: its output array holds what the write-backs leave, every other buffer is as the region found it. -/
def W22 (c : Dev nD) : Valuation τ sig (Elt F) :=
  Function.update (W21 m c) main_v113 ((dat8 (atRefs (W21 m)) c).arrAt 2 cfg8.N)
/-- After the host stretch that follows it. -/
def W23 (c : Dev nD) : Valuation τ sig (Elt F) := StableHlo.after hostOps9 (W22 m c)

set_option maxHeartbeats 1000000 in
theorem hF8 (c : Dev nD) : ∀ w : Fin 3, (dat8 (atRefs (W21 m)) c).arrAt w cfg8.N = W22 m c (Pipeline.arrRef spec8 w)
  | 0 => ((dat8 (atRefs (W21 m)) c).arrAt_in 0 rfl _).trans ((A_eq8 (atRefs (W21 m)) c 0).trans (Function.update_of_ne (StableHlo.devRef_ne_of_ne (by decide)) _ _).symm)
  | 1 => ((dat8 (atRefs (W21 m)) c).arrAt_in 1 rfl _).trans ((A_eq8 (atRefs (W21 m)) c 1).trans (Function.update_of_ne (StableHlo.devRef_ne_of_ne (by decide)) _ _).symm)
  | 2 => by unfold W22; exact Eq.symm (Function.update_self (α := DevRef τ sig) (main_v113 : DevRef τ sig) _ _)
  | ⟨_ + 3, h⟩ => absurd h (Nat.not_lt.2 (Nat.le_add_left _ _))

theorem hrest8 (c : Dev nD) : ∀ b : Ref sig .tc, b ∉ Finset.univ.image (Pipeline.arrRef spec8) → atRefs (W22 m) c b = atRefs (W21 m) c b :=
  fun b hb => Function.update_of_ne (StableHlo.devRef_ne_of_ne fun e => hb (Finset.mem_image.mpr ⟨(2 : Fin 3), Finset.mem_univ _, e.symm⟩)) _ _

/-- After region 9: its output array holds what the write-backs leave, every other buffer is as the region found it. -/
def W24 (c : Dev nD) : Valuation τ sig (Elt F) :=
  Function.update (W23 m c) main_v130 ((dat9 (atRefs (W23 m)) c).arrAt 3 cfg9.N)
/-- After the host stretch that follows it. -/
def W25 (c : Dev nD) : Valuation τ sig (Elt F) := StableHlo.after hostOps10 (W24 m c)

set_option maxHeartbeats 1000000 in
theorem hF9 (c : Dev nD) : ∀ w : Fin 4, (dat9 (atRefs (W23 m)) c).arrAt w cfg9.N = W24 m c (Pipeline.arrRef spec9 w)
  | 0 => ((dat9 (atRefs (W23 m)) c).arrAt_in 0 rfl _).trans ((A_eq9 (atRefs (W23 m)) c 0).trans (Function.update_of_ne (StableHlo.devRef_ne_of_ne (by decide)) _ _).symm)
  | 1 => ((dat9 (atRefs (W23 m)) c).arrAt_in 1 rfl _).trans ((A_eq9 (atRefs (W23 m)) c 1).trans (Function.update_of_ne (StableHlo.devRef_ne_of_ne (by decide)) _ _).symm)
  | 2 => ((dat9 (atRefs (W23 m)) c).arrAt_in 2 rfl _).trans ((A_eq9 (atRefs (W23 m)) c 2).trans (Function.update_of_ne (StableHlo.devRef_ne_of_ne (by decide)) _ _).symm)
  | 3 => by unfold W24; exact Eq.symm (Function.update_self (α := DevRef τ sig) (main_v130 : DevRef τ sig) _ _)
  | ⟨_ + 4, h⟩ => absurd h (Nat.not_lt.2 (Nat.le_add_left _ _))

theorem hrest9 (c : Dev nD) : ∀ b : Ref sig .tc, b ∉ Finset.univ.image (Pipeline.arrRef spec9) → atRefs (W24 m) c b = atRefs (W23 m) c b :=
  fun b hb => Function.update_of_ne (StableHlo.devRef_ne_of_ne fun e => hb (Finset.mem_image.mpr ⟨(3 : Fin 4), Finset.mem_univ _, e.symm⟩)) _ _

/-- After region 10: its output array holds what the write-backs leave, every other buffer is as the region found it. -/
def W26 (c : Dev nD) : Valuation τ sig (Elt F) :=
  Function.update (W25 m c) main_v132 ((dat10 (atRefs (W25 m)) c).arrAt 3 cfg10.N)

set_option maxHeartbeats 1000000 in
theorem hF10 (c : Dev nD) : ∀ w : Fin 4, (dat10 (atRefs (W25 m)) c).arrAt w cfg10.N = W26 m c (Pipeline.arrRef spec10 w)
  | 0 => ((dat10 (atRefs (W25 m)) c).arrAt_in 0 rfl _).trans ((A_eq10 (atRefs (W25 m)) c 0).trans (Function.update_of_ne (StableHlo.devRef_ne_of_ne (by decide)) _ _).symm)
  | 1 => ((dat10 (atRefs (W25 m)) c).arrAt_in 1 rfl _).trans ((A_eq10 (atRefs (W25 m)) c 1).trans (Function.update_of_ne (StableHlo.devRef_ne_of_ne (by decide)) _ _).symm)
  | 2 => ((dat10 (atRefs (W25 m)) c).arrAt_in 2 rfl _).trans ((A_eq10 (atRefs (W25 m)) c 2).trans (Function.update_of_ne (StableHlo.devRef_ne_of_ne (by decide)) _ _).symm)
  | 3 => by unfold W26; exact Eq.symm (Function.update_self (α := DevRef τ sig) (main_v132 : DevRef τ sig) _ _)
  | ⟨_ + 4, h⟩ => absurd h (Nat.not_lt.2 (Nat.le_add_left _ _))

theorem hrest10 (c : Dev nD) : ∀ b : Ref sig .tc, b ∉ Finset.univ.image (Pipeline.arrRef spec10) → atRefs (W26 m) c b = atRefs (W25 m) c b :=
  fun b hb => Function.update_of_ne (StableHlo.devRef_ne_of_ne fun e => hb (Finset.mem_image.mpr ⟨(3 : Fin 4), Finset.mem_univ _, e.symm⟩)) _ _

/-! ## Every region's proof data, each at the contents its region is entered from -/

def pdats : (p : Fin 11) → (c : Dev nD) → Dat τ (Elt F) Unit ℕ (UR sig nD τ) ℕ (cfgs p) c
  | ⟨0, _⟩ => fun c => dat0 (atRefs (V5 m)) c
  | ⟨1, _⟩ => fun c => dat1 (atRefs (W7 m)) c
  | ⟨2, _⟩ => fun c => dat2 (atRefs (W9 m)) c
  | ⟨3, _⟩ => fun c => dat3 (atRefs (W11 m)) c
  | ⟨4, _⟩ => fun c => dat4 (atRefs (W13 m)) c
  | ⟨5, _⟩ => fun c => dat5 (atRefs (W15 m)) c
  | ⟨6, _⟩ => fun c => dat6 (atRefs (W17 m)) c
  | ⟨7, _⟩ => fun c => dat7 (atRefs (W19 m)) c
  | ⟨8, _⟩ => fun c => dat8 (atRefs (W21 m)) c
  | ⟨9, _⟩ => fun c => dat9 (atRefs (W23 m)) c
  | ⟨10, _⟩ => fun c => dat10 (atRefs (W25 m)) c
  | ⟨_ + 11, h⟩ => absurd h (Nat.not_lt.2 (Nat.le_add_left _ _))

/-! ## The regions as segments -/

set_option backward.isDefEq.respectTransparency.types false in
/-- Region 0 over the thread state: entered with every unscoped buffer at its contents before the region, left with them
    at the contents after it. Its arrays are split out of the unscoped buffers and put back at what the write-backs
    leave; the generator register goes into the invariant and comes back; nothing is owed. -/
def reg0 : Pipeline.RegionSeg (pcfgs (F := F)) adm (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (atRefs (V5 m)) c).loose
  hwaits := Pipeline.hwaits_of_owed_zero _ _ _ _ Ln lvn 0 fun _ _ => rfl
  pre c := iprop(StableHlo.held (c : Thread nD τ) (Pipeline.ucRefs τ sig) (V5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec0 c (atRefs (V5 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (V5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (V5 m) c) (atRefs (W6 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at its contents before the region, left with them
    at the contents after it. Its arrays are split out of the unscoped buffers and put back at what the write-backs
    leave; the generator register goes into the invariant and comes back; nothing is owed. -/
def reg1 : Pipeline.RegionSeg (pcfgs (F := F)) adm (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (atRefs (W7 m)) c).loose
  hwaits := Pipeline.hwaits_of_owed_zero _ _ _ _ Ln lvn 1 fun _ _ => rfl
  pre c := iprop(StableHlo.held (c : Thread nD τ) (Pipeline.ucRefs τ sig) (W7 m c) ∗ Rst c)
  post c := iprop(StableHlo.held (c : Thread nD τ) (Pipeline.ucRefs τ sig) (W8 m c) ∗ Rst c)
  X c := iprop(∃ r, prngReg c r)
  Y c := iprop(∃ r, prngReg c r)
  Z c := Pipeline.unscopedRest (Ix := Unit) (Name := ℕ) (U := UR sig nD τ) (Lvl := ℕ) spec1 c (atRefs (W7 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atRefs (W7 m) c) (atRefs (W8 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at its contents before the region, left with them
    at the contents after it. Its arrays are split out of the unscoped buffers and put back at what the write-backs
    leave; the generator register goes into the invariant and comes back; nothing is owed. -/
def reg2 : Pipeline.RegionSeg (pcfgs (F := F)) adm (pdats m) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (atRefs (W9 m)) c).loose
  hwaits := Pipeline.hwaits_of_owed_zero _ _ _ _ Ln lvn 2 fun _ _ => rfl
  pre c := iprop(StableHlo.held (c : Thread nD τ) (Pipeline.ucRefs τ sig) (W9 m c) ∗ Rst c)
  post c := iprop(StableHlo.held (c : Thread nD τ) (Pipeline.ucRefs τ sig) (W10 m c) ∗ Rst c)
  X c := iprop(∃ r, prngReg c r)
  Y c := iprop(∃ r, prngReg c r)
  Z c := Pipeline.unscopedRest (Ix := Unit) (Name := ℕ) (U := UR sig nD τ) (Lvl := ℕ) spec2 c (atRefs (W9 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (W9 m) c) (atRefs (W10 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at its contents before the region, left with them
    at the contents after it. Its arrays are split out of the unscoped buffers and put back at what the write-backs
    leave; the generator register goes into the invariant and comes back; nothing is owed. -/
def reg3 : Pipeline.RegionSeg (pcfgs (F := F)) adm (pdats m) () defs₀ 𝒱n Ln lvn 3 where
  win := launch3.win.to₀
  block_pos := launch3.block_pos
  stage_whole := launch3.stage_whole
  K := PEmpty
  osem k := k.elim
  ho := Pipeline.OwnSemFacts.none _
  hbody c := (body_obligation3 (atRefs (W11 m)) c).loose
  hwaits := Pipeline.hwaits_of_owed_zero _ _ _ _ Ln lvn 3 fun _ _ => rfl
  pre c := iprop(StableHlo.held (c : Thread nD τ) (Pipeline.ucRefs τ sig) (W11 m c) ∗ Rst c)
  post c := iprop(StableHlo.held (c : Thread nD τ) (Pipeline.ucRefs τ sig) (W12 m c) ∗ Rst c)
  X c := iprop(∃ r, prngReg c r)
  Y c := iprop(∃ r, prngReg c r)
  Z c := Pipeline.unscopedRest (Ix := Unit) (Name := ℕ) (U := UR sig nD τ) (Lvl := ℕ) spec3 c (atRefs (W11 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atRefs (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atRefs (W11 m) c) (atRefs (W12 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at its contents before the region, left with them
    at the contents after it. Its arrays are split out of the unscoped buffers and put back at what the write-backs
    leave; the generator register goes into the invariant and comes back; nothing is owed. -/
def reg4 : Pipeline.RegionSeg (pcfgs (F := F)) adm (pdats m) () defs₀ 𝒱n Ln lvn 4 where
  win := launch4.win.to₀
  block_pos := launch4.block_pos
  stage_whole := launch4.stage_whole
  K := PEmpty
  osem k := k.elim
  ho := Pipeline.OwnSemFacts.none _
  hbody c := (body_obligation4 (atRefs (W13 m)) c).loose
  hwaits := Pipeline.hwaits_of_owed_zero _ _ _ _ Ln lvn 4 fun _ _ => rfl
  pre c := iprop(StableHlo.held (c : Thread nD τ) (Pipeline.ucRefs τ sig) (W13 m c) ∗ Rst c)
  post c := iprop(StableHlo.held (c : Thread nD τ) (Pipeline.ucRefs τ sig) (W14 m c) ∗ Rst c)
  X c := iprop(∃ r, prngReg c r)
  Y c := iprop(∃ r, prngReg c r)
  Z c := Pipeline.unscopedRest (Ix := Unit) (Name := ℕ) (U := UR sig nD τ) (Lvl := ℕ) spec4 c (atRefs (W13 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atRefs (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    rw [show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atRefs (W13 m) c) (atRefs (W14 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at its contents before the region, left with them
    at the contents after it. Its arrays are split out of the unscoped buffers and put back at what the write-backs
    leave; the generator register goes into the invariant and comes back; nothing is owed. -/
def reg5 : Pipeline.RegionSeg (pcfgs (F := F)) adm (pdats m) () defs₀ 𝒱n Ln lvn 5 where
  win := launch5.win.to₀
  block_pos := launch5.block_pos
  stage_whole := launch5.stage_whole
  K := PEmpty
  osem k := k.elim
  ho := Pipeline.OwnSemFacts.none _
  hbody c := (body_obligation5 (atRefs (W15 m)) c).loose
  hwaits := Pipeline.hwaits_of_owed_zero _ _ _ _ Ln lvn 5 fun _ _ => rfl
  pre c := iprop(StableHlo.held (c : Thread nD τ) (Pipeline.ucRefs τ sig) (W15 m c) ∗ Rst c)
  post c := iprop(StableHlo.held (c : Thread nD τ) (Pipeline.ucRefs τ sig) (W16 m c) ∗ Rst c)
  X c := iprop(∃ r, prngReg c r)
  Y c := iprop(∃ r, prngReg c r)
  Z c := Pipeline.unscopedRest (Ix := Unit) (Name := ℕ) (U := UR sig nD τ) (Lvl := ℕ) spec5 c (atRefs (W15 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atRefs (W15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none]
    rw [show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atRefs (W15 m) c) (atRefs (W16 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered with every unscoped buffer at its contents before the region, left with them
    at the contents after it. Its arrays are split out of the unscoped buffers and put back at what the write-backs
    leave; the generator register goes into the invariant and comes back; nothing is owed. -/
def reg6 : Pipeline.RegionSeg (pcfgs (F := F)) adm (pdats m) () defs₀ 𝒱n Ln lvn 6 where
  win := launch6.win.to₀
  block_pos := launch6.block_pos
  stage_whole := launch6.stage_whole
  K := PEmpty
  osem k := k.elim
  ho := Pipeline.OwnSemFacts.none _
  hbody c := (body_obligation6 (atRefs (W17 m)) c).loose
  hwaits := Pipeline.hwaits_of_owed_zero _ _ _ _ Ln lvn 6 fun _ _ => rfl
  pre c := iprop(StableHlo.held (c : Thread nD τ) (Pipeline.ucRefs τ sig) (W17 m c) ∗ Rst c)
  post c := iprop(StableHlo.held (c : Thread nD τ) (Pipeline.ucRefs τ sig) (W18 m c) ∗ Rst c)
  X c := iprop(∃ r, prngReg c r)
  Y c := iprop(∃ r, prngReg c r)
  Z c := Pipeline.unscopedRest (Ix := Unit) (Name := ℕ) (U := UR sig nD τ) (Lvl := ℕ) spec6 c (atRefs (W17 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (atRefs (W17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none]
    rw [show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atRefs (W17 m) c) (atRefs (W18 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered with every unscoped buffer at its contents before the region, left with them
    at the contents after it. Its arrays are split out of the unscoped buffers and put back at what the write-backs
    leave; the generator register goes into the invariant and comes back; nothing is owed. -/
def reg7 : Pipeline.RegionSeg (pcfgs (F := F)) adm (pdats m) () defs₀ 𝒱n Ln lvn 7 where
  win := launch7.win.to₀
  block_pos := launch7.block_pos
  stage_whole := launch7.stage_whole
  K := PEmpty
  osem k := k.elim
  ho := Pipeline.OwnSemFacts.none _
  hbody c := (body_obligation7 (atRefs (W19 m)) c).loose
  hwaits := Pipeline.hwaits_of_owed_zero _ _ _ _ Ln lvn 7 fun _ _ => rfl
  pre c := iprop(StableHlo.held (c : Thread nD τ) (Pipeline.ucRefs τ sig) (W19 m c) ∗ Rst c)
  post c := iprop(StableHlo.held (c : Thread nD τ) (Pipeline.ucRefs τ sig) (W20 m c) ∗ Rst c)
  X c := iprop(∃ r, prngReg c r)
  Y c := iprop(∃ r, prngReg c r)
  Z c := Pipeline.unscopedRest (Ix := Unit) (Name := ℕ) (U := UR sig nD τ) (Lvl := ℕ) spec7 c (atRefs (W19 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (atRefs (W19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none]
    rw [show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atRefs (W19 m) c) (atRefs (W20 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered with every unscoped buffer at its contents before the region, left with them
    at the contents after it. Its arrays are split out of the unscoped buffers and put back at what the write-backs
    leave; the generator register goes into the invariant and comes back; nothing is owed. -/
def reg8 : Pipeline.RegionSeg (pcfgs (F := F)) adm (pdats m) () defs₀ 𝒱n Ln lvn 8 where
  win := launch8.win.to₀
  block_pos := launch8.block_pos
  stage_whole := launch8.stage_whole
  K := PEmpty
  osem k := k.elim
  ho := Pipeline.OwnSemFacts.none _
  hbody c := (body_obligation8 (atRefs (W21 m)) c).loose
  hwaits := Pipeline.hwaits_of_owed_zero _ _ _ _ Ln lvn 8 fun _ _ => rfl
  pre c := iprop(StableHlo.held (c : Thread nD τ) (Pipeline.ucRefs τ sig) (W21 m c) ∗ Rst c)
  post c := iprop(StableHlo.held (c : Thread nD τ) (Pipeline.ucRefs τ sig) (W22 m c) ∗ Rst c)
  X c := iprop(∃ r, prngReg c r)
  Y c := iprop(∃ r, prngReg c r)
  Z c := Pipeline.unscopedRest (Ix := Unit) (Name := ℕ) (U := UR sig nD τ) (Lvl := ℕ) spec8 c (atRefs (W21 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (atRefs (W21 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none]
    rw [show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (atRefs (W21 m) c) (atRefs (W22 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered with every unscoped buffer at its contents before the region, left with them
    at the contents after it. Its arrays are split out of the unscoped buffers and put back at what the write-backs
    leave; the generator register goes into the invariant and comes back; nothing is owed. -/
def reg9 : Pipeline.RegionSeg (pcfgs (F := F)) adm (pdats m) () defs₀ 𝒱n Ln lvn 9 where
  win := launch9.win.to₀
  block_pos := launch9.block_pos
  stage_whole := launch9.stage_whole
  K := PEmpty
  osem k := k.elim
  ho := Pipeline.OwnSemFacts.none _
  hbody c := (body_obligation9 (atRefs (W23 m)) c).loose
  hwaits := Pipeline.hwaits_of_owed_zero _ _ _ _ Ln lvn 9 fun _ _ => rfl
  pre c := iprop(StableHlo.held (c : Thread nD τ) (Pipeline.ucRefs τ sig) (W23 m c) ∗ Rst c)
  post c := iprop(StableHlo.held (c : Thread nD τ) (Pipeline.ucRefs τ sig) (W24 m c) ∗ Rst c)
  X c := iprop(∃ r, prngReg c r)
  Y c := iprop(∃ r, prngReg c r)
  Z c := Pipeline.unscopedRest (Ix := Unit) (Name := ℕ) (U := UR sig nD τ) (Lvl := ℕ) spec9 c (atRefs (W23 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (atRefs (W23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none]
    rw [show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (atRefs (W23 m) c) (atRefs (W24 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered with every unscoped buffer at its contents before the region, left with them
    at the contents after it. Its arrays are split out of the unscoped buffers and put back at what the write-backs
    leave; the generator register goes into the invariant and comes back; nothing is owed. -/
def reg10 : Pipeline.RegionSeg (pcfgs (F := F)) adm (pdats m) () defs₀ 𝒱n Ln lvn 10 where
  win := launch10.win.to₀
  block_pos := launch10.block_pos
  stage_whole := launch10.stage_whole
  K := PEmpty
  osem k := k.elim
  ho := Pipeline.OwnSemFacts.none _
  hbody c := (body_obligation10 (atRefs (W25 m)) c).loose
  hwaits := Pipeline.hwaits_of_owed_zero _ _ _ _ Ln lvn 10 fun _ _ => rfl
  pre c := iprop(StableHlo.held (c : Thread nD τ) (Pipeline.ucRefs τ sig) (W25 m c) ∗ Rst c)
  post c := iprop(StableHlo.held (c : Thread nD τ) (Pipeline.ucRefs τ sig) (W26 m c) ∗ Rst c)
  X c := iprop(∃ r, prngReg c r)
  Y c := iprop(∃ r, prngReg c r)
  Z c := Pipeline.unscopedRest (Ix := Unit) (Name := ℕ) (U := UR sig nD τ) (Lvl := ℕ) spec10 c (atRefs (W25 m) c)
  hentry c := by
    rw [Pipeline.ownSems0_none]
    have hsplit := Pipeline.arrays_of_unscopedBufs (p := 10) (pcfgs (F := F)) adm (pdats m) launch10.win launch10.arr_whole c
      ((pdats m 10 c).share_full fun _ => rfl) (atRefs (W25 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from Phi10_first (atRefs (W25 m)) c]; unfold Pipeline.ΦA
    iintro ⟨Hp, -, Hr⟩
    isplitl [Hr]; · iexact Hr
    iexact Hp
  hout c := by
    rw [Pipeline.ownSems0_none]
    refine (Phi10_last (atRefs (W25 m)) c).trans ?_; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (atRefs (W25 m) c) (atRefs (W26 m) c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-! ## What the regions leave, as the generated valuations ask for it -/

/-- The contents the regions leave, indexed as the generated valuations read them: after item J−1 the buffer `r` holds
    what the chain above says (only the eleven output arrays are ever read). -/
def outs : Outs (F := F) := fun J r c => match J with
  | 6 => W6 m c r
  | 8 => W8 m c r
  | 10 => W10 m c r
  | 12 => W12 m c r
  | 14 => W14 m c r
  | 16 => W16 m c r
  | 18 => W18 m c r
  | 20 => W20 m c r
  | 22 => W22 m c r
  | 24 => W24 m c r
  | 26 => W26 m c r
  | _ => m ((c : Thread nD τ).loc r)

theorem V6_eq (c : Dev nD) : V6 m (outs m) c = W6 m c := upd_step (rfl) (main_v35 : DevRef τ sig) _
theorem V7_eq (c : Dev nD) : V7 m (outs m) c = W7 m c := congrArg (StableHlo.after hostOps1) (V6_eq m c)
theorem V8_eq (c : Dev nD) : V8 m (outs m) c = W8 m c := upd_step (V7_eq m c) (main_v50 : DevRef τ sig) _
theorem V9_eq (c : Dev nD) : V9 m (outs m) c = W9 m c := congrArg (StableHlo.after hostOps2) (V8_eq m c)
theorem V10_eq (c : Dev nD) : V10 m (outs m) c = W10 m c := upd_step (V9_eq m c) (main_v53 : DevRef τ sig) _
theorem V11_eq (c : Dev nD) : V11 m (outs m) c = W11 m c := congrArg (StableHlo.after hostOps3) (V10_eq m c)
theorem V12_eq (c : Dev nD) : V12 m (outs m) c = W12 m c := upd_step (V11_eq m c) (main_v70 : DevRef τ sig) _
theorem V13_eq (c : Dev nD) : V13 m (outs m) c = W13 m c := congrArg (StableHlo.after hostOps4) (V12_eq m c)
theorem V14_eq (c : Dev nD) : V14 m (outs m) c = W14 m c := upd_step (V13_eq m c) (main_v73 : DevRef τ sig) _
theorem V15_eq (c : Dev nD) : V15 m (outs m) c = W15 m c := congrArg (StableHlo.after hostOps5) (V14_eq m c)
theorem V16_eq (c : Dev nD) : V16 m (outs m) c = W16 m c := upd_step (V15_eq m c) (main_v90 : DevRef τ sig) _
theorem V17_eq (c : Dev nD) : V17 m (outs m) c = W17 m c := congrArg (StableHlo.after hostOps6) (V16_eq m c)
theorem V18_eq (c : Dev nD) : V18 m (outs m) c = W18 m c := upd_step (V17_eq m c) (main_v93 : DevRef τ sig) _
theorem V19_eq (c : Dev nD) : V19 m (outs m) c = W19 m c := congrArg (StableHlo.after hostOps7) (V18_eq m c)
theorem V20_eq (c : Dev nD) : V20 m (outs m) c = W20 m c := upd_step (V19_eq m c) (main_v110 : DevRef τ sig) _
theorem V21_eq (c : Dev nD) : V21 m (outs m) c = W21 m c := congrArg (StableHlo.after hostOps8) (V20_eq m c)
theorem V22_eq (c : Dev nD) : V22 m (outs m) c = W22 m c := upd_step (V21_eq m c) (main_v113 : DevRef τ sig) _
theorem V23_eq (c : Dev nD) : V23 m (outs m) c = W23 m c := congrArg (StableHlo.after hostOps9) (V22_eq m c)
theorem V24_eq (c : Dev nD) : V24 m (outs m) c = W24 m c := upd_step (V23_eq m c) (main_v130 : DevRef τ sig) _
theorem V25_eq (c : Dev nD) : V25 m (outs m) c = W25 m c := congrArg (StableHlo.after hostOps10) (V24_eq m c)
theorem V26_eq (c : Dev nD) : V26 m (outs m) c = W26 m c := upd_step (V25_eq m c) (main_v132 : DevRef τ sig) _

/-! ## The run -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts Ln lvn)
      ⊢ (|={Set.univ}=> bigSep Finset.univ (Rst (F := F)) : sProp 𝕄) := by
  refine Pipeline.initEach Ln lvn fun c => ?_
  iintro ⟨⟨-, HO, -, Hp, -⟩, -⟩
  imodintro
  isplitl [Hp]; · iexists _; iexact Hp
  iexists ∅; iexact HO

theorem hE11 (c : Dev nD) : Rst (F := F) c ⊢ (iprop(∃ W, owes (c : Thread nD τ) (0 : CellTallies nD τ sig Unit) W) : sProp 𝕄) := by
  iintro ⟨-, HO⟩; iexact HO

set_option backward.isDefEq.respectTransparency.types false in
set_option maxHeartbeats 2000000 in
/-- Every weakly fair execution of @main terminates without a fault and leaves the argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond m emb₁ () 𝒱n Ln lvn (fun _ _ => rfl) ρ (outs m) (pdats m) 0 (fun _ => iprop(emp))
    (initOf (Pipeline.cells cfgs cellOf_inj) (Pipeline.launchToks cfgs cellOf_inj)) hu₀ (fun _ => Rst) (hE0 ρ) hE11
    (reg0 m) (fun c => by rw [show V5 m c = V5 m c from rfl]; exact .rfl) (fun c => by rw [V6_eq m c]; exact .rfl)
    (reg1 m) (fun c => by rw [V7_eq m c]; exact .rfl) (fun c => by rw [V8_eq m c]; exact .rfl)
    (reg2 m) (fun c => by rw [V9_eq m c]; exact .rfl) (fun c => by rw [V10_eq m c]; exact .rfl)
    (reg3 m) (fun c => by rw [V11_eq m c]; exact .rfl) (fun c => by rw [V12_eq m c]; exact .rfl)
    (reg4 m) (fun c => by rw [V13_eq m c]; exact .rfl) (fun c => by rw [V14_eq m c]; exact .rfl)
    (reg5 m) (fun c => by rw [V15_eq m c]; exact .rfl) (fun c => by rw [V16_eq m c]; exact .rfl)
    (reg6 m) (fun c => by rw [V17_eq m c]; exact .rfl) (fun c => by rw [V18_eq m c]; exact .rfl)
    (reg7 m) (fun c => by rw [V19_eq m c]; exact .rfl) (fun c => by rw [V20_eq m c]; exact .rfl)
    (reg8 m) (fun c => by rw [V21_eq m c]; exact .rfl) (fun c => by rw [V22_eq m c]; exact .rfl)
    (reg9 m) (fun c => by rw [V23_eq m c]; exact .rfl) (fun c => by rw [V24_eq m c]; exact .rfl)
    (reg10 m) (fun c => by rw [V25_eq m c]; exact .rfl) (fun c => by rw [V26_eq m c]; exact .rfl)

set_option backward.isDefEq.respectTransparency.types false in
set_option maxHeartbeats 2000000 in
/-- Every weakly fair execution of @main terminates without a fault, leaves the result array at what the last region
    leaves, and the argument arrays as launched. -/
theorem run (ρ : Dev nD → PrngReg) : θ_run defs (onTc (τ := τ) (main (F := F))) ⟨m, fun _ => 0, ρ⟩ (fun r => ∀ c : Dev nD,
      r.2.mem ((c.tc : Thread nD τ).loc main_v132) = outs m 26 main_v132 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_cond m emb₁ () 𝒱n Ln lvn (fun _ _ => rfl) ρ (outs m) (pdats m) 0 (fun _ => iprop(emp))
    (initOf (Pipeline.cells cfgs cellOf_inj) (Pipeline.launchToks cfgs cellOf_inj)) hu₀ (fun _ => Rst) (hE0 ρ) hE11
    (reg0 m) (fun c => by rw [show V5 m c = V5 m c from rfl]; exact .rfl) (fun c => by rw [V6_eq m c]; exact .rfl)
    (reg1 m) (fun c => by rw [V7_eq m c]; exact .rfl) (fun c => by rw [V8_eq m c]; exact .rfl)
    (reg2 m) (fun c => by rw [V9_eq m c]; exact .rfl) (fun c => by rw [V10_eq m c]; exact .rfl)
    (reg3 m) (fun c => by rw [V11_eq m c]; exact .rfl) (fun c => by rw [V12_eq m c]; exact .rfl)
    (reg4 m) (fun c => by rw [V13_eq m c]; exact .rfl) (fun c => by rw [V14_eq m c]; exact .rfl)
    (reg5 m) (fun c => by rw [V15_eq m c]; exact .rfl) (fun c => by rw [V16_eq m c]; exact .rfl)
    (reg6 m) (fun c => by rw [V17_eq m c]; exact .rfl) (fun c => by rw [V18_eq m c]; exact .rfl)
    (reg7 m) (fun c => by rw [V19_eq m c]; exact .rfl) (fun c => by rw [V20_eq m c]; exact .rfl)
    (reg8 m) (fun c => by rw [V21_eq m c]; exact .rfl) (fun c => by rw [V22_eq m c]; exact .rfl)
    (reg9 m) (fun c => by rw [V23_eq m c]; exact .rfl) (fun c => by rw [V24_eq m c]; exact .rfl)
    (reg10 m) (fun c => by rw [V25_eq m c]; exact .rfl) (fun c => by rw [V26_eq m c]; exact .rfl)

end Cert.KernelIdeal.Hand

end
-- ==== Proof.KI.PayloadAt.lean ====
/-
  The arithmetic of the ten plain kernels, read one element at a time on the extended reals.

  A matmul kernel rounds its two operands to bf16 (the identity on extended reals) and contracts a
  [5000,128] block with a [128,128] weight into a zero accumulator: entry (p, q) of the block's result
  is the sum over k of x(p, k) * w(k, q).  A bias kernel adds row 0 of a [1,128] array to every row of
  the block and takes the maximum with zero; a residual kernel adds a second block before the maximum.
-/
import proofs.«180772_j89300960018653_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand.PayloadAt

open Cert.KernelIdeal Cert.KernelIdeal.Gen Idealize.ShloMosaic Idealize.ShloMosaic.ValueIdx

/-- The operand indices of the block contraction at output index i and contraction index c: the
    left operand is read at (i 0, c), the right one at (c, i 1). -/
theorem lhs_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
theorem rhs_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
theorem rhs_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block contraction at (p, q): the sum over the shared axis of the products. -/
theorem matmul_at (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_0 _ _
      | ⟨1, _⟩ => exact (lhs_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhs_0 _ _).trans hk
      | ⟨1, _⟩ => exact rhs_1 _ _)
  rw [el, er]

/-- Region 0's matmul at (p, q). -/
theorem k0_pay1_at (x : Vec Ideal S5000x128 .f32) (w : Vec Ideal S128x128 .f32) (p : Fin 5000) (q : Fin 128) :
    Gen.k0_pay1 (F := Ideal) x w (ix2 p q) = ∑ k : Fin 128, x (ix2 p k) * w (ix2 k q) := by
  unfold Gen.k0_pay1
  exact matmul_at _ _ p q

/-- The later matmul kernels cast each operand to its own shape first: the same sum. -/
theorem k2_pay1_at (x : Vec Ideal S5000x128 .f32) (w : Vec Ideal S128x128 .f32) (p : Fin 5000) (q : Fin 128) :
    Gen.k2_pay1 (F := Ideal) x w (ix2 p q) = ∑ k : Fin 128, x (ix2 p k) * w (ix2 k q) := by
  unfold Gen.k2_pay1
  simp only [shapeCast_self]
  exact matmul_at _ _ p q
theorem k4_pay1_at (x : Vec Ideal S5000x128 .f32) (w : Vec Ideal S128x128 .f32) (p : Fin 5000) (q : Fin 128) :
    Gen.k4_pay1 (F := Ideal) x w (ix2 p q) = ∑ k : Fin 128, x (ix2 p k) * w (ix2 k q) := by
  unfold Gen.k4_pay1
  simp only [shapeCast_self]
  exact matmul_at _ _ p q
theorem k6_pay1_at (x : Vec Ideal S5000x128 .f32) (w : Vec Ideal S128x128 .f32) (p : Fin 5000) (q : Fin 128) :
    Gen.k6_pay1 (F := Ideal) x w (ix2 p q) = ∑ k : Fin 128, x (ix2 p k) * w (ix2 k q) := by
  unfold Gen.k6_pay1
  simp only [shapeCast_self]
  exact matmul_at _ _ p q
theorem k8_pay1_at (x : Vec Ideal S5000x128 .f32) (w : Vec Ideal S128x128 .f32) (p : Fin 5000) (q : Fin 128) :
    Gen.k8_pay1 (F := Ideal) x w (ix2 p q) = ∑ k : Fin 128, x (ix2 p k) * w (ix2 k q) := by
  unfold Gen.k8_pay1
  simp only [shapeCast_self]
  exact matmul_at _ _ p q

/-- Bias and relu at (p, q): the block's entry plus the bias row's entry q, then the maximum with zero. -/
theorem k1_pay1_at (b : Vec Ideal S1x128 .f32) (x : Vec Ideal S5000x128 .f32) (p : Fin 5000) (q : Fin 128) :
    Gen.k1_pay1 (F := Ideal) b x (ix2 p q) = max (x (ix2 p q) + b (ix2 (0 : Fin 1) q)) 0 := by
  unfold Gen.k1_pay1
  simp only [shapeCast_self]
  rw [maximumf_apply, addf_apply, broadcast_apply, broadcastTo_1b_ab_apply]
  exact congrArg (max _) Ideal.ofBits_zero_f32

/-- Bias, residual and relu at (p, q): the block's entry plus the bias row's entry q, plus the residual
    block's entry, then the maximum with zero. -/
theorem k3_pay1_at (b : Vec Ideal S1x128 .f32) (x res : Vec Ideal S5000x128 .f32) (p : Fin 5000) (q : Fin 128) :
    Gen.k3_pay1 (F := Ideal) b x res (ix2 p q) = max ((x (ix2 p q) + b (ix2 (0 : Fin 1) q)) + res (ix2 p q)) 0 := by
  unfold Gen.k3_pay1
  simp only [shapeCast_self]
  rw [maximumf_apply, addf_apply, addf_apply, broadcast_apply, broadcastTo_1b_ab_apply]
  exact congrArg (max _) Ideal.ofBits_zero_f32
theorem k5_pay1_at (b : Vec Ideal S1x128 .f32) (x res : Vec Ideal S5000x128 .f32) (p : Fin 5000) (q : Fin 128) :
    Gen.k5_pay1 (F := Ideal) b x res (ix2 p q) = max ((x (ix2 p q) + b (ix2 (0 : Fin 1) q)) + res (ix2 p q)) 0 := by
  unfold Gen.k5_pay1
  simp only [shapeCast_self]
  rw [maximumf_apply, addf_apply, addf_apply, broadcast_apply, broadcastTo_1b_ab_apply]
  exact congrArg (max _) Ideal.ofBits_zero_f32
theorem k7_pay1_at (b : Vec Ideal S1x128 .f32) (x res : Vec Ideal S5000x128 .f32) (p : Fin 5000) (q : Fin 128) :
    Gen.k7_pay1 (F := Ideal) b x res (ix2 p q) = max ((x (ix2 p q) + b (ix2 (0 : Fin 1) q)) + res (ix2 p q)) 0 := by
  unfold Gen.k7_pay1
  simp only [shapeCast_self]
  rw [maximumf_apply, addf_apply, addf_apply, broadcast_apply, broadcastTo_1b_ab_apply]
  exact congrArg (max _) Ideal.ofBits_zero_f32
theorem k9_pay1_at (b : Vec Ideal S1x128 .f32) (x res : Vec Ideal S5000x128 .f32) (p : Fin 5000) (q : Fin 128) :
    Gen.k9_pay1 (F := Ideal) b x res (ix2 p q) = max ((x (ix2 p q) + b (ix2 (0 : Fin 1) q)) + res (ix2 p q)) 0 := by
  unfold Gen.k9_pay1
  simp only [shapeCast_self]
  rw [maximumf_apply, addf_apply, addf_apply, broadcast_apply, broadcastTo_1b_ab_apply]
  exact congrArg (max _) Ideal.ofBits_zero_f32

end Cert.KernelIdeal.Hand.PayloadAt

end
-- ==== Proof.Bridge.Layers.lean ====
/-
  The three kinds of layer of the network, as functions of whole arrays on the extended reals.

  dense X W        : entry (r, q) is the sum over k of X(r, k) * W(k, q);
  biasRelu A b     : entry (r, q) is max (A(r, q) + b(0, q)) 0, b a one-row array;
  biasResRelu A b R: entry (r, q) is max ((A(r, q) + b(0, q)) + R(r, q)) 0.
-/
import Idealize.ShloMosaic.PureOps.Ideal
import Idealize.ShloMosaic.Lib.ValueIdx

noncomputable section

namespace Cert.Bridge

open Idealize.ShloMosaic Idealize.ShloMosaic.ValueIdx

/-- The node-feature arrays' shape, a weight's and a bias row's. -/
abbrev SN : Shape := ⟨2, ![50000, 128]⟩
abbrev SW : Shape := ⟨2, ![128, 128]⟩
abbrev SB : Shape := ⟨2, ![1, 128]⟩

/-- Rows of X times W. -/
def dense (X : SN.Idx → EReal) (W : SW.Idx → EReal) : SN.Idx → EReal :=
  fun i => ∑ k : Fin 128, X (ix2 (n0 := 50000) (n1 := 128) (i 0) k) * W (ix2 (n0 := 128) (n1 := 128) k (i 1))

/-- Add the bias row to every row, then clamp below at zero. -/
def biasRelu (A : SN.Idx → EReal) (b : SB.Idx → EReal) : SN.Idx → EReal :=
  fun i => max (A i + b (ix2 (n0 := 1) (n1 := 128) 0 (i 1))) 0

/-- The same with a residual array added before the clamp. -/
def biasResRelu (A : SN.Idx → EReal) (b : SB.Idx → EReal) (R : SN.Idx → EReal) : SN.Idx → EReal :=
  fun i => max ((A i + b (ix2 (n0 := 1) (n1 := 128) 0 (i 1))) + R i) 0

end Cert.Bridge

end
-- ==== Proof.KI.Value0.lean ====
/-
  Region 0, read whole: after its ten points the output array holds the dense layer of the two arrays
  the region found.  Point t takes rows 5000 t .. 5000 t + 4999 of the activations and the whole weight and
  writes the same rows of the product; row r of the output is therefore written by point r / 5000, and what
  is written there is the sum over k of X(r, k) * W(k, q).
-/
import proofs.«180772_j89300960018653_1_alg».proof.Proof.KI.Reg0
import proofs.«180772_j89300960018653_1_alg».proof.Proof.KI.PayloadAt
import proofs.«180772_j89300960018653_1_alg».proof.Proof.Bridge.Layers
import Idealize.ShloMosaic.Lib.Pipeline.Value

set_option maxRecDepth 16384

noncomputable section

namespace Cert.KernelIdeal.Hand

open Cert.KernelIdeal Cert.KernelIdeal.Gen Cert.Bridge
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets0 : (![0, 0] : Fin 2 → Nat) = fun _ => 0 := funext fun a => by fin_cases a <;> rfl

/-- One block: when x holds rows 5000 b .. 5000 b + 4999 of X and w holds W, the block's product at j is
    the dense layer at row 5000 b + j 0, column j 1. -/
theorem block_dense0 (X : S50000x128.Idx → EReal) (W : S128x128.Idx → EReal)
    (x : Vec Ideal S5000x128 .f32) (w : Vec Ideal S128x128 .f32) (b : ℕ)
    (hx : ∀ (p : Fin 5000) (k : Fin 128) (i : S50000x128.Idx), (i 0).val = b * 5000 + 1 * p.val → (i 1).val = k.val → x (ix2 p k) = X i)
    (hw : ∀ (k q : Fin 128), w (ix2 k q) = W (ix2 k q))
    (j : S5000x128.Idx) (i : S50000x128.Idx) (hi0 : (i 0).val = b * 5000 + 1 * (j 0).val) (hi1 : (i 1).val = (j 1).val) :
    Gen.k0_pay1 (F := Ideal) x w j = dense X W i := by
  obtain ⟨p, q, rfl⟩ : ∃ (p : Fin 5000) (q : Fin 128), j = ix2 p q := ⟨j 0, j 1, eq_ix2 j⟩
  rw [PayloadAt.k0_pay1_at]
  unfold dense
  refine Finset.sum_congr rfl fun k _ => ?_
  rw [hx p k (ix2 (n0 := 50000) (n1 := 128) (i 0) k) hi0 rfl, hw k q]
  have e : (i 1 : Fin 128) = q := Fin.ext hi1
  rw [e]

/-- The printed index maps over the grid: the rows' window moves with the output's, the weight's stays. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the ten row blocks is some point's. -/
theorem idx_onto0 : ∀ (q0 : Fin 10), ∃ t : Fin cfg0.N, win0_2.index t = ![q0.val, 0] :=
  (by decide +kernel : ∀ (q0 : Fin 10), ∃ t : Fin grid0.N, win0_2.index t = ![q0.val, 0])

/-- What point t writes back is block t of the dense layer of the arrays the region found. -/
theorem flushed0_eq (c : Dev nD) (t : Fin cfg0.N) :
    (dat0 V c).flushed 2 t = ((cfg0.win 2).blk t).view.read (Elt Ideal) (dense (V c main_arg0) (V c main_arg3)) := by
  show (cfg0.win 2).cut (grid0.coords t) ((dat0 V c).after 2 t) = _
  rw [after0_2]
  unfold out0_2
  rw [View.canon_unit_zero zero_offsets0]
  simp only [View.ld_unit_zero (S := S5000x128) zero_offsets0, View.ld_unit_zero (S := S128x128) zero_offsets0]
  obtain ⟨e0, e1, e2, e3, e4⟩ := idx_facts0 t
  funext j
  refine block_dense0 (V c main_arg0) (V c main_arg3) (iblk0 V c 0 t) (iblk0 V c 1 t) (win0_2.index t (0 : Fin 2)) ?_ ?_ j
    (((cfg0.win 2).blk t).view.emb j) rfl ?_
  · intro p k i hi0 hi1
    unfold iblk0
    rw [View.read_apply]
    show V c main_arg0 (((cfg0.win 0).blk t).view.emb (ix2 p k)) = V c main_arg0 i
    refine congrArg _ (funext fun a => Fin.ext ?_)
    match a with
    | ⟨0, _⟩ => show win0_0.index t (0 : Fin 2) * 5000 + 1 * p.val = (i 0).val; rw [hi0, e0]
    | ⟨1, _⟩ => show win0_0.index t (1 : Fin 2) * 128 + 1 * k.val = (i 1).val; rw [hi1, e1]; omega
  · intro k q
    unfold iblk0
    rw [View.read_apply]
    show V c main_arg3 (((cfg0.win 1).blk t).view.emb (ix2 k q)) = V c main_arg3 (ix2 k q)
    refine congrArg _ (funext fun a => Fin.ext ?_)
    match a with
    | ⟨0, _⟩ => show win0_1.index t (0 : Fin 2) * 128 + 1 * k.val = k.val; rw [e2]; omega
    | ⟨1, _⟩ => show win0_1.index t (1 : Fin 2) * 128 + 1 * q.val = q.val; rw [e3]; omega
  · show win0_2.index t (1 : Fin 2) * 128 + 1 * (j 1).val = (j 1).val
    rw [e4]; omega

/-- An index of the output array is in point t's block iff each coordinate is in the block's range. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v35).slice (win0_2.rect t)).set ↔ _
  rw [View.set_slice_whole, Rect.mem_set_unit]
  exact Iff.rfl

/-- Row r is written by the point whose block index is r / 5000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the dense layer of the activations and the weight it found. -/
theorem value0 (c : Dev nD) : (dat0 V c).arrAt 2 cfg0.N = dense (V c main_arg0) (V c main_arg3) :=
  (dat0 V c).arrAt_eq_of_cover 2 (dense (V c main_arg0) (V c main_arg3)) (fun t _ => flushed0_eq V c t) cover0

end Cert.KernelIdeal.Hand

end
-- ==== Proof.KI.Value1.lean ====
/-
  Region 1, read whole: after its ten points the output array holds, at (r, q), the maximum with zero of
  the aggregated array's entry plus entry q of the bias row.  Point t takes rows 5000 t .. 5000 t + 4999 and
  the whole bias row and writes the same rows of the result; row r is written by point r / 5000.
-/
import proofs.«180772_j89300960018653_1_alg».proof.Proof.KI.Reg1
import proofs.«180772_j89300960018653_1_alg».proof.Proof.KI.PayloadAt
import proofs.«180772_j89300960018653_1_alg».proof.Proof.Bridge.Layers
import Idealize.ShloMosaic.Lib.Pipeline.Value

set_option maxRecDepth 16384

noncomputable section

namespace Cert.KernelIdeal.Hand

open Cert.KernelIdeal Cert.KernelIdeal.Gen Cert.Bridge
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets1 : (![0, 0] : Fin 2 → Nat) = fun _ => 0 := funext fun a => by fin_cases a <;> rfl

/-- One block: when x holds rows 5000 b .. 5000 b + 4999 of A and bb holds the bias row B, the block's
    result at j is the layer at row 5000 b + j 0, column j 1. -/
theorem block_biasRelu1 (A : S50000x128.Idx → EReal) (B : S1x128.Idx → EReal)
    (x : Vec Ideal S5000x128 .f32) (bb : Vec Ideal S1x128 .f32) (b : ℕ)
    (hx : ∀ (p : Fin 5000) (q : Fin 128) (i : S50000x128.Idx), (i 0).val = b * 5000 + 1 * p.val → (i 1).val = q.val → x (ix2 p q) = A i)
    (hb : ∀ (q : Fin 128), bb (ix2 (0 : Fin 1) q) = B (ix2 (0 : Fin 1) q))
    (j : S5000x128.Idx) (i : S50000x128.Idx) (hi0 : (i 0).val = b * 5000 + 1 * (j 0).val) (hi1 : (i 1).val = (j 1).val) :
    Gen.k1_pay1 (F := Ideal) bb x j = biasRelu A B i := by
  obtain ⟨p, q, rfl⟩ : ∃ (p : Fin 5000) (q : Fin 128), j = ix2 p q := ⟨j 0, j 1, eq_ix2 j⟩
  rw [PayloadAt.k1_pay1_at]
  unfold biasRelu
  rw [hx p q i hi0 hi1, hb q]
  have e : (i 1 : Fin 128) = q := Fin.ext hi1
  rw [e]

/-- The printed index maps over the grid: the rows' window moves with the output's, the bias row's stays. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every one of the ten row blocks is some point's. -/
theorem idx_onto1 : ∀ (q0 : Fin 10), ∃ t : Fin cfg1.N, win1_2.index t = ![q0.val, 0] :=
  (by decide +kernel : ∀ (q0 : Fin 10), ∃ t : Fin grid1.N, win1_2.index t = ![q0.val, 0])

/-- What point t writes back is block t of the layer of the arrays the region found. -/
theorem flushed1_eq (c : Dev nD) (t : Fin cfg1.N) :
    (dat1 V c).flushed 2 t = ((cfg1.win 2).blk t).view.read (Elt Ideal) (biasRelu (V c main_v48) (V c main_v49)) := by
  show (cfg1.win 2).cut (grid1.coords t) ((dat1 V c).after 2 t) = _
  rw [after1_2]
  unfold out1_2
  rw [View.canon_unit_zero zero_offsets1]
  simp only [View.ld_unit_zero (S := S5000x128) zero_offsets1, View.ld_unit_zero (S := S1x128) zero_offsets1]
  obtain ⟨e0, e1, e2, e3, e4⟩ := idx_facts1 t
  funext j
  refine block_biasRelu1 (V c main_v48) (V c main_v49) (iblk1 V c 0 t) (iblk1 V c 1 t) (win1_2.index t (0 : Fin 2)) ?_ ?_ j
    (((cfg1.win 2).blk t).view.emb j) rfl ?_
  · intro p q i hi0 hi1
    unfold iblk1
    rw [View.read_apply]
    show V c main_v48 (((cfg1.win 0).blk t).view.emb (ix2 p q)) = V c main_v48 i
    refine congrArg _ (funext fun a => Fin.ext ?_)
    match a with
    | ⟨0, _⟩ => show win1_0.index t (0 : Fin 2) * 5000 + 1 * p.val = (i 0).val; rw [hi0, e0]
    | ⟨1, _⟩ => show win1_0.index t (1 : Fin 2) * 128 + 1 * q.val = (i 1).val; rw [hi1, e1]; omega
  · intro q
    unfold iblk1
    rw [View.read_apply]
    show V c main_v49 (((cfg1.win 1).blk t).view.emb (ix2 (0 : Fin 1) q)) = V c main_v49 (ix2 (0 : Fin 1) q)
    refine congrArg _ (funext fun a => Fin.ext ?_)
    match a with
    | ⟨0, _⟩ => show win1_1.index t (0 : Fin 2) * 1 + 1 * 0 = 0; rw [e2]
    | ⟨1, _⟩ => show win1_1.index t (1 : Fin 2) * 128 + 1 * q.val = q.val; rw [e3]; omega
  · show win1_2.index t (1 : Fin 2) * 128 + 1 * (j 1).val = (j 1).val
    rw [e4]; omega

/-- An index of the output array is in point t's block iff each coordinate is in the block's range. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v50).slice (win1_2.rect t)).set ↔ _
  rw [View.set_slice_whole, Rect.mem_set_unit]
  exact Iff.rfl

/-- Row r is written by the point whose block index is r / 5000. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region: bias and clamp of the aggregated array it found. -/
theorem value1 (c : Dev nD) : (dat1 V c).arrAt 2 cfg1.N = biasRelu (V c main_v48) (V c main_v49) :=
  (dat1 V c).arrAt_eq_of_cover 2 (biasRelu (V c main_v48) (V c main_v49)) (fun t _ => flushed1_eq V c t) cover1

end Cert.KernelIdeal.Hand

end
-- ==== Proof.KI.Value2.lean ====
/-
  Region 2, read whole: after its ten points the output array holds the dense layer of the two arrays
  the region found.  Point t takes rows 5000 t .. 5000 t + 4999 of the activations and the whole weight and
  writes the same rows of the product; row r of the output is therefore written by point r / 5000, and what
  is written there is the sum over k of X(r, k) * W(k, q).
-/
import proofs.«180772_j89300960018653_1_alg».proof.Proof.KI.Reg2
import proofs.«180772_j89300960018653_1_alg».proof.Proof.KI.PayloadAt
import proofs.«180772_j89300960018653_1_alg».proof.Proof.Bridge.Layers
import Idealize.ShloMosaic.Lib.Pipeline.Value

set_option maxRecDepth 16384

noncomputable section

namespace Cert.KernelIdeal.Hand

open Cert.KernelIdeal Cert.KernelIdeal.Gen Cert.Bridge
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-- One block: when x holds rows 5000 b .. 5000 b + 4999 of X and w holds W, the block's product at j is
    the dense layer at row 5000 b + j 0, column j 1. -/
theorem block_dense2 (X : S50000x128.Idx → EReal) (W : S128x128.Idx → EReal)
    (x : Vec Ideal S5000x128 .f32) (w : Vec Ideal S128x128 .f32) (b : ℕ)
    (hx : ∀ (p : Fin 5000) (k : Fin 128) (i : S50000x128.Idx), (i 0).val = b * 5000 + 1 * p.val → (i 1).val = k.val → x (ix2 p k) = X i)
    (hw : ∀ (k q : Fin 128), w (ix2 k q) = W (ix2 k q))
    (j : S5000x128.Idx) (i : S50000x128.Idx) (hi0 : (i 0).val = b * 5000 + 1 * (j 0).val) (hi1 : (i 1).val = (j 1).val) :
    Gen.k2_pay1 (F := Ideal) x w j = dense X W i := by
  obtain ⟨p, q, rfl⟩ : ∃ (p : Fin 5000) (q : Fin 128), j = ix2 p q := ⟨j 0, j 1, eq_ix2 j⟩
  rw [PayloadAt.k2_pay1_at]
  unfold dense
  refine Finset.sum_congr rfl fun k _ => ?_
  rw [hx p k (ix2 (n0 := 50000) (n1 := 128) (i 0) k) hi0 rfl, hw k q]
  have e : (i 1 : Fin 128) = q := Fin.ext hi1
  rw [e]

/-- The printed index maps over the grid: the rows' window moves with the output's, the weight's stays. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every one of the ten row blocks is some point's. -/
theorem idx_onto2 : ∀ (q0 : Fin 10), ∃ t : Fin cfg2.N, win2_2.index t = ![q0.val, 0] :=
  (by decide +kernel : ∀ (q0 : Fin 10), ∃ t : Fin grid2.N, win2_2.index t = ![q0.val, 0])

/-- What point t writes back is block t of the dense layer of the arrays the region found. -/
theorem flushed2_eq (c : Dev nD) (t : Fin cfg2.N) :
    (dat2 V c).flushed 2 t = ((cfg2.win 2).blk t).view.read (Elt Ideal) (dense (V c main_v50) (V c main_v52)) := by
  show (cfg2.win 2).cut (grid2.coords t) ((dat2 V c).after 2 t) = _
  rw [after2_2]
  unfold out2_2
  rw [View.canon_unit_zero zero_offsets2]
  simp only [View.ld_unit_zero (S := S5000x128) zero_offsets2, View.ld_unit_zero (S := S128x128) zero_offsets2]
  obtain ⟨e0, e1, e2, e3, e4⟩ := idx_facts2 t
  funext j
  refine block_dense2 (V c main_v50) (V c main_v52) (iblk2 V c 0 t) (iblk2 V c 1 t) (win2_2.index t (0 : Fin 2)) ?_ ?_ j
    (((cfg2.win 2).blk t).view.emb j) rfl ?_
  · intro p k i hi0 hi1
    unfold iblk2
    rw [View.read_apply]
    show V c main_v50 (((cfg2.win 0).blk t).view.emb (ix2 p k)) = V c main_v50 i
    refine congrArg _ (funext fun a => Fin.ext ?_)
    match a with
    | ⟨0, _⟩ => show win2_0.index t (0 : Fin 2) * 5000 + 1 * p.val = (i 0).val; rw [hi0, e0]
    | ⟨1, _⟩ => show win2_0.index t (1 : Fin 2) * 128 + 1 * k.val = (i 1).val; rw [hi1, e1]; omega
  · intro k q
    unfold iblk2
    rw [View.read_apply]
    show V c main_v52 (((cfg2.win 1).blk t).view.emb (ix2 k q)) = V c main_v52 (ix2 k q)
    refine congrArg _ (funext fun a => Fin.ext ?_)
    match a with
    | ⟨0, _⟩ => show win2_1.index t (0 : Fin 2) * 128 + 1 * k.val = k.val; rw [e2]; omega
    | ⟨1, _⟩ => show win2_1.index t (1 : Fin 2) * 128 + 1 * q.val = q.val; rw [e3]; omega
  · show win2_2.index t (1 : Fin 2) * 128 + 1 * (j 1).val = (j 1).val
    rw [e4]; omega

/-- An index of the output array is in point t's block iff each coordinate is in the block's range. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v53).slice (win2_2.rect t)).set ↔ _
  rw [View.set_slice_whole, Rect.mem_set_unit]
  exact Iff.rfl

/-- Row r is written by the point whose block index is r / 5000. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region: the dense layer of the activations and the weight it found. -/
theorem value2 (c : Dev nD) : (dat2 V c).arrAt 2 cfg2.N = dense (V c main_v50) (V c main_v52) :=
  (dat2 V c).arrAt_eq_of_cover 2 (dense (V c main_v50) (V c main_v52)) (fun t _ => flushed2_eq V c t) cover2

end Cert.KernelIdeal.Hand

end
-- ==== Proof.KI.Value3.lean ====
/-
  Region 3, read whole: after its ten points the output array holds, at (r, q), the maximum with zero of
  the aggregated array's entry plus entry q of the bias row plus the residual array's entry.  Point t takes
  rows 5000 t .. 5000 t + 4999 of both arrays and the whole bias row and writes the same rows of the result;
  row r is written by point r / 5000.
-/
import proofs.«180772_j89300960018653_1_alg».proof.Proof.KI.Reg3
import proofs.«180772_j89300960018653_1_alg».proof.Proof.KI.PayloadAt
import proofs.«180772_j89300960018653_1_alg».proof.Proof.Bridge.Layers
import Idealize.ShloMosaic.Lib.Pipeline.Value

set_option maxRecDepth 16384

noncomputable section

namespace Cert.KernelIdeal.Hand

open Cert.KernelIdeal Cert.KernelIdeal.Gen Cert.Bridge
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets3 : (![0, 0] : Fin 2 → Nat) = fun _ => 0 := funext fun a => by fin_cases a <;> rfl

/-- One block: when x and r hold rows 5000 b .. 5000 b + 4999 of A and of R and bb holds the bias row B, the
    block's result at j is the layer at row 5000 b + j 0, column j 1. -/
theorem block_biasResRelu3 (A : S50000x128.Idx → EReal) (B : S1x128.Idx → EReal) (R : S50000x128.Idx → EReal)
    (x : Vec Ideal S5000x128 .f32) (bb : Vec Ideal S1x128 .f32) (r : Vec Ideal S5000x128 .f32) (b : ℕ)
    (hx : ∀ (p : Fin 5000) (q : Fin 128) (i : S50000x128.Idx), (i 0).val = b * 5000 + 1 * p.val → (i 1).val = q.val → x (ix2 p q) = A i)
    (hb : ∀ (q : Fin 128), bb (ix2 (0 : Fin 1) q) = B (ix2 (0 : Fin 1) q))
    (hr : ∀ (p : Fin 5000) (q : Fin 128) (i : S50000x128.Idx), (i 0).val = b * 5000 + 1 * p.val → (i 1).val = q.val → r (ix2 p q) = R i)
    (j : S5000x128.Idx) (i : S50000x128.Idx) (hi0 : (i 0).val = b * 5000 + 1 * (j 0).val) (hi1 : (i 1).val = (j 1).val) :
    Gen.k3_pay1 (F := Ideal) bb x r j = biasResRelu A B R i := by
  obtain ⟨p, q, rfl⟩ : ∃ (p : Fin 5000) (q : Fin 128), j = ix2 p q := ⟨j 0, j 1, eq_ix2 j⟩
  rw [PayloadAt.k3_pay1_at]
  unfold biasResRelu
  rw [hx p q i hi0 hi1, hr p q i hi0 hi1, hb q]
  have e : (i 1 : Fin 128) = q := Fin.ext hi1
  rw [e]

/-- The printed index maps over the grid: the two row windows move with the output's, the bias row's stays. -/
theorem idx_facts3 : ∀ t : Fin cfg3.N, win3_0.index t (0 : Fin 2) = win3_3.index t (0 : Fin 2)
    ∧ win3_0.index t (1 : Fin 2) = 0
    ∧ win3_1.index t (0 : Fin 2) = 0
    ∧ win3_1.index t (1 : Fin 2) = 0
    ∧ win3_2.index t (0 : Fin 2) = win3_3.index t (0 : Fin 2)
    ∧ win3_2.index t (1 : Fin 2) = 0
    ∧ win3_3.index t (1 : Fin 2) = 0 :=
  (by decide +kernel : ∀ t : Fin grid3.N, _)

/-- Every one of the ten row blocks is some point's. -/
theorem idx_onto3 : ∀ (q0 : Fin 10), ∃ t : Fin cfg3.N, win3_3.index t = ![q0.val, 0] :=
  (by decide +kernel : ∀ (q0 : Fin 10), ∃ t : Fin grid3.N, win3_3.index t = ![q0.val, 0])

/-- What point t writes back is block t of the layer of the arrays the region found. -/
theorem flushed3_eq (c : Dev nD) (t : Fin cfg3.N) :
    (dat3 V c).flushed 3 t = ((cfg3.win 3).blk t).view.read (Elt Ideal) (biasResRelu (V c main_v66) (V c main_v69) (V c main_v50)) := by
  show (cfg3.win 3).cut (grid3.coords t) ((dat3 V c).after 3 t) = _
  rw [after3_3]
  unfold out3_3
  rw [View.canon_unit_zero zero_offsets3]
  simp only [View.ld_unit_zero (S := S5000x128) zero_offsets3, View.ld_unit_zero (S := S1x128) zero_offsets3]
  obtain ⟨e0, e1, e2, e3, e4, e5, e6⟩ := idx_facts3 t
  funext j
  refine block_biasResRelu3 (V c main_v66) (V c main_v69) (V c main_v50) (iblk3 V c 0 t) (iblk3 V c 1 t) (iblk3 V c 2 t)
    (win3_3.index t (0 : Fin 2)) ?_ ?_ ?_ j (((cfg3.win 3).blk t).view.emb j) rfl ?_
  · intro p q i hi0 hi1
    unfold iblk3
    rw [View.read_apply]
    show V c main_v66 (((cfg3.win 0).blk t).view.emb (ix2 p q)) = V c main_v66 i
    refine congrArg _ (funext fun a => Fin.ext ?_)
    match a with
    | ⟨0, _⟩ => show win3_0.index t (0 : Fin 2) * 5000 + 1 * p.val = (i 0).val; rw [hi0, e0]
    | ⟨1, _⟩ => show win3_0.index t (1 : Fin 2) * 128 + 1 * q.val = (i 1).val; rw [hi1, e1]; omega
  · intro q
    unfold iblk3
    rw [View.read_apply]
    show V c main_v69 (((cfg3.win 1).blk t).view.emb (ix2 (0 : Fin 1) q)) = V c main_v69 (ix2 (0 : Fin 1) q)
    refine congrArg _ (funext fun a => Fin.ext ?_)
    match a with
    | ⟨0, _⟩ => show win3_1.index t (0 : Fin 2) * 1 + 1 * 0 = 0; rw [e2]
    | ⟨1, _⟩ => show win3_1.index t (1 : Fin 2) * 128 + 1 * q.val = q.val; rw [e3]; omega
  · intro p q i hi0 hi1
    unfold iblk3
    rw [View.read_apply]
    show V c main_v50 (((cfg3.win 2).blk t).view.emb (ix2 p q)) = V c main_v50 i
    refine congrArg _ (funext fun a => Fin.ext ?_)
    match a with
    | ⟨0, _⟩ => show win3_2.index t (0 : Fin 2) * 5000 + 1 * p.val = (i 0).val; rw [hi0, e4]
    | ⟨1, _⟩ => show win3_2.index t (1 : Fin 2) * 128 + 1 * q.val = (i 1).val; rw [hi1, e5]; omega
  · show win3_3.index t (1 : Fin 2) * 128 + 1 * (j 1).val = (j 1).val
    rw [e6]; omega

/-- An index of the output array is in point t's block iff each coordinate is in the block's range. -/
theorem mem_blk3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v70).slice (win3_3.rect t)).set ↔ _
  rw [View.set_slice_whole, Rect.mem_set_unit]
  exact Iff.rfl

/-- Row r is written by the point whose block index is r / 5000. -/
theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ := idx_onto3 ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The output array after the region: bias, residual and clamp of the arrays it found. -/
theorem value3 (c : Dev nD) : (dat3 V c).arrAt 3 cfg3.N = biasResRelu (V c main_v66) (V c main_v69) (V c main_v50) :=
  (dat3 V c).arrAt_eq_of_cover 3 (biasResRelu (V c main_v66) (V c main_v69) (V c main_v50)) (fun t _ => flushed3_eq V c t) cover3

end Cert.KernelIdeal.Hand

end
-- ==== Proof.KI.Value4.lean ====
/-
  Region 4, read whole: after its ten points the output array holds the dense layer of the two arrays
  the region found.  Point t takes rows 5000 t .. 5000 t + 4999 of the activations and the whole weight and
  writes the same rows of the product; row r of the output is therefore written by point r / 5000, and what
  is written there is the sum over k of X(r, k) * W(k, q).
-/
import proofs.«180772_j89300960018653_1_alg».proof.Proof.KI.Reg4
import proofs.«180772_j89300960018653_1_alg».proof.Proof.KI.PayloadAt
import proofs.«180772_j89300960018653_1_alg».proof.Proof.Bridge.Layers
import Idealize.ShloMosaic.Lib.Pipeline.Value

set_option maxRecDepth 16384

noncomputable section

namespace Cert.KernelIdeal.Hand

open Cert.KernelIdeal Cert.KernelIdeal.Gen Cert.Bridge
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets4 : (![0, 0] : Fin 2 → Nat) = fun _ => 0 := funext fun a => by fin_cases a <;> rfl

/-- One block: when x holds rows 5000 b .. 5000 b + 4999 of X and w holds W, the block's product at j is
    the dense layer at row 5000 b + j 0, column j 1. -/
theorem block_dense4 (X : S50000x128.Idx → EReal) (W : S128x128.Idx → EReal)
    (x : Vec Ideal S5000x128 .f32) (w : Vec Ideal S128x128 .f32) (b : ℕ)
    (hx : ∀ (p : Fin 5000) (k : Fin 128) (i : S50000x128.Idx), (i 0).val = b * 5000 + 1 * p.val → (i 1).val = k.val → x (ix2 p k) = X i)
    (hw : ∀ (k q : Fin 128), w (ix2 k q) = W (ix2 k q))
    (j : S5000x128.Idx) (i : S50000x128.Idx) (hi0 : (i 0).val = b * 5000 + 1 * (j 0).val) (hi1 : (i 1).val = (j 1).val) :
    Gen.k4_pay1 (F := Ideal) x w j = dense X W i := by
  obtain ⟨p, q, rfl⟩ : ∃ (p : Fin 5000) (q : Fin 128), j = ix2 p q := ⟨j 0, j 1, eq_ix2 j⟩
  rw [PayloadAt.k4_pay1_at]
  unfold dense
  refine Finset.sum_congr rfl fun k _ => ?_
  rw [hx p k (ix2 (n0 := 50000) (n1 := 128) (i 0) k) hi0 rfl, hw k q]
  have e : (i 1 : Fin 128) = q := Fin.ext hi1
  rw [e]

/-- The printed index maps over the grid: the rows' window moves with the output's, the weight's stays. -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0 :=
  (by decide +kernel : ∀ t : Fin grid4.N, _)

/-- Every one of the ten row blocks is some point's. -/
theorem idx_onto4 : ∀ (q0 : Fin 10), ∃ t : Fin cfg4.N, win4_2.index t = ![q0.val, 0] :=
  (by decide +kernel : ∀ (q0 : Fin 10), ∃ t : Fin grid4.N, win4_2.index t = ![q0.val, 0])

/-- What point t writes back is block t of the dense layer of the arrays the region found. -/
theorem flushed4_eq (c : Dev nD) (t : Fin cfg4.N) :
    (dat4 V c).flushed 2 t = ((cfg4.win 2).blk t).view.read (Elt Ideal) (dense (V c main_v70) (V c main_v72)) := by
  show (cfg4.win 2).cut (grid4.coords t) ((dat4 V c).after 2 t) = _
  rw [after4_2]
  unfold out4_2
  rw [View.canon_unit_zero zero_offsets4]
  simp only [View.ld_unit_zero (S := S5000x128) zero_offsets4, View.ld_unit_zero (S := S128x128) zero_offsets4]
  obtain ⟨e0, e1, e2, e3, e4⟩ := idx_facts4 t
  funext j
  refine block_dense4 (V c main_v70) (V c main_v72) (iblk4 V c 0 t) (iblk4 V c 1 t) (win4_2.index t (0 : Fin 2)) ?_ ?_ j
    (((cfg4.win 2).blk t).view.emb j) rfl ?_
  · intro p k i hi0 hi1
    unfold iblk4
    rw [View.read_apply]
    show V c main_v70 (((cfg4.win 0).blk t).view.emb (ix2 p k)) = V c main_v70 i
    refine congrArg _ (funext fun a => Fin.ext ?_)
    match a with
    | ⟨0, _⟩ => show win4_0.index t (0 : Fin 2) * 5000 + 1 * p.val = (i 0).val; rw [hi0, e0]
    | ⟨1, _⟩ => show win4_0.index t (1 : Fin 2) * 128 + 1 * k.val = (i 1).val; rw [hi1, e1]; omega
  · intro k q
    unfold iblk4
    rw [View.read_apply]
    show V c main_v72 (((cfg4.win 1).blk t).view.emb (ix2 k q)) = V c main_v72 (ix2 k q)
    refine congrArg _ (funext fun a => Fin.ext ?_)
    match a with
    | ⟨0, _⟩ => show win4_1.index t (0 : Fin 2) * 128 + 1 * k.val = k.val; rw [e2]; omega
    | ⟨1, _⟩ => show win4_1.index t (1 : Fin 2) * 128 + 1 * q.val = q.val; rw [e3]; omega
  · show win4_2.index t (1 : Fin 2) * 128 + 1 * (j 1).val = (j 1).val
    rw [e4]; omega

/-- An index of the output array is in point t's block iff each coordinate is in the block's range. -/
theorem mem_blk4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v73).slice (win4_2.rect t)).set ↔ _
  rw [View.set_slice_whole, Rect.mem_set_unit]
  exact Iff.rfl

/-- Row r is written by the point whose block index is r / 5000. -/
theorem cover4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := idx_onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The output array after the region: the dense layer of the activations and the weight it found. -/
theorem value4 (c : Dev nD) : (dat4 V c).arrAt 2 cfg4.N = dense (V c main_v70) (V c main_v72) :=
  (dat4 V c).arrAt_eq_of_cover 2 (dense (V c main_v70) (V c main_v72)) (fun t _ => flushed4_eq V c t) cover4

end Cert.KernelIdeal.Hand

end
-- ==== Proof.KI.Value5.lean ====
/-
  Region 5, read whole: after its ten points the output array holds, at (r, q), the maximum with zero of
  the aggregated array's entry plus entry q of the bias row plus the residual array's entry.  Point t takes
  rows 5000 t .. 5000 t + 4999 of both arrays and the whole bias row and writes the same rows of the result;
  row r is written by point r / 5000.
-/
import proofs.«180772_j89300960018653_1_alg».proof.Proof.KI.Reg5
import proofs.«180772_j89300960018653_1_alg».proof.Proof.KI.PayloadAt
import proofs.«180772_j89300960018653_1_alg».proof.Proof.Bridge.Layers
import Idealize.ShloMosaic.Lib.Pipeline.Value

set_option maxRecDepth 16384

noncomputable section

namespace Cert.KernelIdeal.Hand

open Cert.KernelIdeal Cert.KernelIdeal.Gen Cert.Bridge
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets5 : (![0, 0] : Fin 2 → Nat) = fun _ => 0 := funext fun a => by fin_cases a <;> rfl

/-- One block: when x and r hold rows 5000 b .. 5000 b + 4999 of A and of R and bb holds the bias row B, the
    block's result at j is the layer at row 5000 b + j 0, column j 1. -/
theorem block_biasResRelu5 (A : S50000x128.Idx → EReal) (B : S1x128.Idx → EReal) (R : S50000x128.Idx → EReal)
    (x : Vec Ideal S5000x128 .f32) (bb : Vec Ideal S1x128 .f32) (r : Vec Ideal S5000x128 .f32) (b : ℕ)
    (hx : ∀ (p : Fin 5000) (q : Fin 128) (i : S50000x128.Idx), (i 0).val = b * 5000 + 1 * p.val → (i 1).val = q.val → x (ix2 p q) = A i)
    (hb : ∀ (q : Fin 128), bb (ix2 (0 : Fin 1) q) = B (ix2 (0 : Fin 1) q))
    (hr : ∀ (p : Fin 5000) (q : Fin 128) (i : S50000x128.Idx), (i 0).val = b * 5000 + 1 * p.val → (i 1).val = q.val → r (ix2 p q) = R i)
    (j : S5000x128.Idx) (i : S50000x128.Idx) (hi0 : (i 0).val = b * 5000 + 1 * (j 0).val) (hi1 : (i 1).val = (j 1).val) :
    Gen.k5_pay1 (F := Ideal) bb x r j = biasResRelu A B R i := by
  obtain ⟨p, q, rfl⟩ : ∃ (p : Fin 5000) (q : Fin 128), j = ix2 p q := ⟨j 0, j 1, eq_ix2 j⟩
  rw [PayloadAt.k5_pay1_at]
  unfold biasResRelu
  rw [hx p q i hi0 hi1, hr p q i hi0 hi1, hb q]
  have e : (i 1 : Fin 128) = q := Fin.ext hi1
  rw [e]

/-- The printed index maps over the grid: the two row windows move with the output's, the bias row's stays. -/
theorem idx_facts5 : ∀ t : Fin cfg5.N, win5_0.index t (0 : Fin 2) = win5_3.index t (0 : Fin 2)
    ∧ win5_0.index t (1 : Fin 2) = 0
    ∧ win5_1.index t (0 : Fin 2) = 0
    ∧ win5_1.index t (1 : Fin 2) = 0
    ∧ win5_2.index t (0 : Fin 2) = win5_3.index t (0 : Fin 2)
    ∧ win5_2.index t (1 : Fin 2) = 0
    ∧ win5_3.index t (1 : Fin 2) = 0 :=
  (by decide +kernel : ∀ t : Fin grid5.N, _)

/-- Every one of the ten row blocks is some point's. -/
theorem idx_onto5 : ∀ (q0 : Fin 10), ∃ t : Fin cfg5.N, win5_3.index t = ![q0.val, 0] :=
  (by decide +kernel : ∀ (q0 : Fin 10), ∃ t : Fin grid5.N, win5_3.index t = ![q0.val, 0])

/-- What point t writes back is block t of the layer of the arrays the region found. -/
theorem flushed5_eq (c : Dev nD) (t : Fin cfg5.N) :
    (dat5 V c).flushed 3 t = ((cfg5.win 3).blk t).view.read (Elt Ideal) (biasResRelu (V c main_v86) (V c main_v89) (V c main_v70)) := by
  show (cfg5.win 3).cut (grid5.coords t) ((dat5 V c).after 3 t) = _
  rw [after5_3]
  unfold out5_3
  rw [View.canon_unit_zero zero_offsets5]
  simp only [View.ld_unit_zero (S := S5000x128) zero_offsets5, View.ld_unit_zero (S := S1x128) zero_offsets5]
  obtain ⟨e0, e1, e2, e3, e4, e5, e6⟩ := idx_facts5 t
  funext j
  refine block_biasResRelu5 (V c main_v86) (V c main_v89) (V c main_v70) (iblk5 V c 0 t) (iblk5 V c 1 t) (iblk5 V c 2 t)
    (win5_3.index t (0 : Fin 2)) ?_ ?_ ?_ j (((cfg5.win 3).blk t).view.emb j) rfl ?_
  · intro p q i hi0 hi1
    unfold iblk5
    rw [View.read_apply]
    show V c main_v86 (((cfg5.win 0).blk t).view.emb (ix2 p q)) = V c main_v86 i
    refine congrArg _ (funext fun a => Fin.ext ?_)
    match a with
    | ⟨0, _⟩ => show win5_0.index t (0 : Fin 2) * 5000 + 1 * p.val = (i 0).val; rw [hi0, e0]
    | ⟨1, _⟩ => show win5_0.index t (1 : Fin 2) * 128 + 1 * q.val = (i 1).val; rw [hi1, e1]; omega
  · intro q
    unfold iblk5
    rw [View.read_apply]
    show V c main_v89 (((cfg5.win 1).blk t).view.emb (ix2 (0 : Fin 1) q)) = V c main_v89 (ix2 (0 : Fin 1) q)
    refine congrArg _ (funext fun a => Fin.ext ?_)
    match a with
    | ⟨0, _⟩ => show win5_1.index t (0 : Fin 2) * 1 + 1 * 0 = 0; rw [e2]
    | ⟨1, _⟩ => show win5_1.index t (1 : Fin 2) * 128 + 1 * q.val = q.val; rw [e3]; omega
  · intro p q i hi0 hi1
    unfold iblk5
    rw [View.read_apply]
    show V c main_v70 (((cfg5.win 2).blk t).view.emb (ix2 p q)) = V c main_v70 i
    refine congrArg _ (funext fun a => Fin.ext ?_)
    match a with
    | ⟨0, _⟩ => show win5_2.index t (0 : Fin 2) * 5000 + 1 * p.val = (i 0).val; rw [hi0, e4]
    | ⟨1, _⟩ => show win5_2.index t (1 : Fin 2) * 128 + 1 * q.val = (i 1).val; rw [hi1, e5]; omega
  · show win5_3.index t (1 : Fin 2) * 128 + 1 * (j 1).val = (j 1).val
    rw [e6]; omega

/-- An index of the output array is in point t's block iff each coordinate is in the block's range. -/
theorem mem_blk5 (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v90).slice (win5_3.rect t)).set ↔ _
  rw [View.set_slice_whole, Rect.mem_set_unit]
  exact Iff.rfl

/-- Row r is written by the point whose block index is r / 5000. -/
theorem cover5 (i : S50000x128.Idx) : ∃ t : Fin cfg5.N, (cfg5.win 3).flush t = true ∧ i ∈ ((cfg5.win 3).blk t).view.set := by
  have hi0 : (i 0).val < 50000 := (i 0).isLt
  have hi1 : (i 1).val < 128 := (i 1).isLt
  obtain ⟨t, ht⟩ := idx_onto5 ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- The output array after the region: bias, residual and clamp of the arrays it found. -/
theorem value5 (c : Dev nD) : (dat5 V c).arrAt 3 cfg5.N = biasResRelu (V c main_v86) (V c main_v89) (V c main_v70) :=
  (dat5 V c).arrAt_eq_of_cover 3 (biasResRelu (V c main_v86) (V c main_v89) (V c main_v70)) (fun t _ => flushed5_eq V c t) cover5

end Cert.KernelIdeal.Hand

end
-- ==== Proof.KI.Value6.lean ====
/-
  Region 6, read whole: after its ten points the output array holds the dense layer of the two arrays
  the region found.  Point t takes rows 5000 t .. 5000 t + 4999 of the activations and the whole weight and
  writes the same rows of the product; row r of the output is therefore written by point r / 5000, and what
  is written there is the sum over k of X(r, k) * W(k, q).
-/
import proofs.«180772_j89300960018653_1_alg».proof.Proof.KI.Reg6
import proofs.«180772_j89300960018653_1_alg».proof.Proof.KI.PayloadAt
import proofs.«180772_j89300960018653_1_alg».proof.Proof.Bridge.Layers
import Idealize.ShloMosaic.Lib.Pipeline.Value

set_option maxRecDepth 16384

noncomputable section

namespace Cert.KernelIdeal.Hand

open Cert.KernelIdeal Cert.KernelIdeal.Gen Cert.Bridge
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets6 : (![0, 0] : Fin 2 → Nat) = fun _ => 0 := funext fun a => by fin_cases a <;> rfl

/-- One block: when x holds rows 5000 b .. 5000 b + 4999 of X and w holds W, the block's product at j is
    the dense layer at row 5000 b + j 0, column j 1. -/
theorem block_dense6 (X : S50000x128.Idx → EReal) (W : S128x128.Idx → EReal)
    (x : Vec Ideal S5000x128 .f32) (w : Vec Ideal S128x128 .f32) (b : ℕ)
    (hx : ∀ (p : Fin 5000) (k : Fin 128) (i : S50000x128.Idx), (i 0).val = b * 5000 + 1 * p.val → (i 1).val = k.val → x (ix2 p k) = X i)
    (hw : ∀ (k q : Fin 128), w (ix2 k q) = W (ix2 k q))
    (j : S5000x128.Idx) (i : S50000x128.Idx) (hi0 : (i 0).val = b * 5000 + 1 * (j 0).val) (hi1 : (i 1).val = (j 1).val) :
    Gen.k6_pay1 (F := Ideal) x w j = dense X W i := by
  obtain ⟨p, q, rfl⟩ : ∃ (p : Fin 5000) (q : Fin 128), j = ix2 p q := ⟨j 0, j 1, eq_ix2 j⟩
  rw [PayloadAt.k6_pay1_at]
  unfold dense
  refine Finset.sum_congr rfl fun k _ => ?_
  rw [hx p k (ix2 (n0 := 50000) (n1 := 128) (i 0) k) hi0 rfl, hw k q]
  have e : (i 1 : Fin 128) = q := Fin.ext hi1
  rw [e]

/-- The printed index maps over the grid: the rows' window moves with the output's, the weight's stays. -/
theorem idx_facts6 : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0 :=
  (by decide +kernel : ∀ t : Fin grid6.N, _)

/-- Every one of the ten row blocks is some point's. -/
theorem idx_onto6 : ∀ (q0 : Fin 10), ∃ t : Fin cfg6.N, win6_2.index t = ![q0.val, 0] :=
  (by decide +kernel : ∀ (q0 : Fin 10), ∃ t : Fin grid6.N, win6_2.index t = ![q0.val, 0])

/-- What point t writes back is block t of the dense layer of the arrays the region found. -/
theorem flushed6_eq (c : Dev nD) (t : Fin cfg6.N) :
    (dat6 V c).flushed 2 t = ((cfg6.win 2).blk t).view.read (Elt Ideal) (dense (V c main_v90) (V c main_v92)) := by
  show (cfg6.win 2).cut (grid6.coords t) ((dat6 V c).after 2 t) = _
  rw [after6_2]
  unfold out6_2
  rw [View.canon_unit_zero zero_offsets6]
  simp only [View.ld_unit_zero (S := S5000x128) zero_offsets6, View.ld_unit_zero (S := S128x128) zero_offsets6]
  obtain ⟨e0, e1, e2, e3, e4⟩ := idx_facts6 t
  funext j
  refine block_dense6 (V c main_v90) (V c main_v92) (iblk6 V c 0 t) (iblk6 V c 1 t) (win6_2.index t (0 : Fin 2)) ?_ ?_ j
    (((cfg6.win 2).blk t).view.emb j) rfl ?_
  · intro p k i hi0 hi1
    unfold iblk6
    rw [View.read_apply]
    show V c main_v90 (((cfg6.win 0).blk t).view.emb (ix2 p k)) = V c main_v90 i
    refine congrArg _ (funext fun a => Fin.ext ?_)
    match a with
    | ⟨0, _⟩ => show win6_0.index t (0 : Fin 2) * 5000 + 1 * p.val = (i 0).val; rw [hi0, e0]
    | ⟨1, _⟩ => show win6_0.index t (1 : Fin 2) * 128 + 1 * k.val = (i 1).val; rw [hi1, e1]; omega
  · intro k q
    unfold iblk6
    rw [View.read_apply]
    show V c main_v92 (((cfg6.win 1).blk t).view.emb (ix2 k q)) = V c main_v92 (ix2 k q)
    refine congrArg _ (funext fun a => Fin.ext ?_)
    match a with
    | ⟨0, _⟩ => show win6_1.index t (0 : Fin 2) * 128 + 1 * k.val = k.val; rw [e2]; omega
    | ⟨1, _⟩ => show win6_1.index t (1 : Fin 2) * 128 + 1 * q.val = q.val; rw [e3]; omega
  · show win6_2.index t (1 : Fin 2) * 128 + 1 * (j 1).val = (j 1).val
    rw [e4]; omega

/-- An index of the output array is in point t's block iff each coordinate is in the block's range. -/
theorem mem_blk6 (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v93).slice (win6_2.rect t)).set ↔ _
  rw [View.set_slice_whole, Rect.mem_set_unit]
  exact Iff.rfl

/-- Row r is written by the point whose block index is r / 5000. -/
theorem cover6 (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  obtain ⟨t, ht⟩ := idx_onto6 ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- The output array after the region: the dense layer of the activations and the weight it found. -/
theorem value6 (c : Dev nD) : (dat6 V c).arrAt 2 cfg6.N = dense (V c main_v90) (V c main_v92) :=
  (dat6 V c).arrAt_eq_of_cover 2 (dense (V c main_v90) (V c main_v92)) (fun t _ => flushed6_eq V c t) cover6

end Cert.KernelIdeal.Hand

end
-- ==== Proof.KI.Value7.lean ====
/-
  Region 7, read whole: after its ten points the output array holds, at (r, q), the maximum with zero of
  the aggregated array's entry plus entry q of the bias row plus the residual array's entry.  Point t takes
  rows 5000 t .. 5000 t + 4999 of both arrays and the whole bias row and writes the same rows of the result;
  row r is written by point r / 5000.
-/
import proofs.«180772_j89300960018653_1_alg».proof.Proof.KI.Reg7
import proofs.«180772_j89300960018653_1_alg».proof.Proof.KI.PayloadAt
import proofs.«180772_j89300960018653_1_alg».proof.Proof.Bridge.Layers
import Idealize.ShloMosaic.Lib.Pipeline.Value

set_option maxRecDepth 16384

noncomputable section

namespace Cert.KernelIdeal.Hand

open Cert.KernelIdeal Cert.KernelIdeal.Gen Cert.Bridge
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets7 : (![0, 0] : Fin 2 → Nat) = fun _ => 0 := funext fun a => by fin_cases a <;> rfl

/-- One block: when x and r hold rows 5000 b .. 5000 b + 4999 of A and of R and bb holds the bias row B, the
    block's result at j is the layer at row 5000 b + j 0, column j 1. -/
theorem block_biasResRelu7 (A : S50000x128.Idx → EReal) (B : S1x128.Idx → EReal) (R : S50000x128.Idx → EReal)
    (x : Vec Ideal S5000x128 .f32) (bb : Vec Ideal S1x128 .f32) (r : Vec Ideal S5000x128 .f32) (b : ℕ)
    (hx : ∀ (p : Fin 5000) (q : Fin 128) (i : S50000x128.Idx), (i 0).val = b * 5000 + 1 * p.val → (i 1).val = q.val → x (ix2 p q) = A i)
    (hb : ∀ (q : Fin 128), bb (ix2 (0 : Fin 1) q) = B (ix2 (0 : Fin 1) q))
    (hr : ∀ (p : Fin 5000) (q : Fin 128) (i : S50000x128.Idx), (i 0).val = b * 5000 + 1 * p.val → (i 1).val = q.val → r (ix2 p q) = R i)
    (j : S5000x128.Idx) (i : S50000x128.Idx) (hi0 : (i 0).val = b * 5000 + 1 * (j 0).val) (hi1 : (i 1).val = (j 1).val) :
    Gen.k7_pay1 (F := Ideal) bb x r j = biasResRelu A B R i := by
  obtain ⟨p, q, rfl⟩ : ∃ (p : Fin 5000) (q : Fin 128), j = ix2 p q := ⟨j 0, j 1, eq_ix2 j⟩
  rw [PayloadAt.k7_pay1_at]
  unfold biasResRelu
  rw [hx p q i hi0 hi1, hr p q i hi0 hi1, hb q]
  have e : (i 1 : Fin 128) = q := Fin.ext hi1
  rw [e]

/-- The printed index maps over the grid: the two row windows move with the output's, the bias row's stays. -/
theorem idx_facts7 : ∀ t : Fin cfg7.N, win7_0.index t (0 : Fin 2) = win7_3.index t (0 : Fin 2)
    ∧ win7_0.index t (1 : Fin 2) = 0
    ∧ win7_1.index t (0 : Fin 2) = 0
    ∧ win7_1.index t (1 : Fin 2) = 0
    ∧ win7_2.index t (0 : Fin 2) = win7_3.index t (0 : Fin 2)
    ∧ win7_2.index t (1 : Fin 2) = 0
    ∧ win7_3.index t (1 : Fin 2) = 0 :=
  (by decide +kernel : ∀ t : Fin grid7.N, _)

/-- Every one of the ten row blocks is some point's. -/
theorem idx_onto7 : ∀ (q0 : Fin 10), ∃ t : Fin cfg7.N, win7_3.index t = ![q0.val, 0] :=
  (by decide +kernel : ∀ (q0 : Fin 10), ∃ t : Fin grid7.N, win7_3.index t = ![q0.val, 0])

/-- What point t writes back is block t of the layer of the arrays the region found. -/
theorem flushed7_eq (c : Dev nD) (t : Fin cfg7.N) :
    (dat7 V c).flushed 3 t = ((cfg7.win 3).blk t).view.read (Elt Ideal) (biasResRelu (V c main_v106) (V c main_v109) (V c main_v90)) := by
  show (cfg7.win 3).cut (grid7.coords t) ((dat7 V c).after 3 t) = _
  rw [after7_3]
  unfold out7_3
  rw [View.canon_unit_zero zero_offsets7]
  simp only [View.ld_unit_zero (S := S5000x128) zero_offsets7, View.ld_unit_zero (S := S1x128) zero_offsets7]
  obtain ⟨e0, e1, e2, e3, e4, e5, e6⟩ := idx_facts7 t
  funext j
  refine block_biasResRelu7 (V c main_v106) (V c main_v109) (V c main_v90) (iblk7 V c 0 t) (iblk7 V c 1 t) (iblk7 V c 2 t)
    (win7_3.index t (0 : Fin 2)) ?_ ?_ ?_ j (((cfg7.win 3).blk t).view.emb j) rfl ?_
  · intro p q i hi0 hi1
    unfold iblk7
    rw [View.read_apply]
    show V c main_v106 (((cfg7.win 0).blk t).view.emb (ix2 p q)) = V c main_v106 i
    refine congrArg _ (funext fun a => Fin.ext ?_)
    match a with
    | ⟨0, _⟩ => show win7_0.index t (0 : Fin 2) * 5000 + 1 * p.val = (i 0).val; rw [hi0, e0]
    | ⟨1, _⟩ => show win7_0.index t (1 : Fin 2) * 128 + 1 * q.val = (i 1).val; rw [hi1, e1]; omega
  · intro q
    unfold iblk7
    rw [View.read_apply]
    show V c main_v109 (((cfg7.win 1).blk t).view.emb (ix2 (0 : Fin 1) q)) = V c main_v109 (ix2 (0 : Fin 1) q)
    refine congrArg _ (funext fun a => Fin.ext ?_)
    match a with
    | ⟨0, _⟩ => show win7_1.index t (0 : Fin 2) * 1 + 1 * 0 = 0; rw [e2]
    | ⟨1, _⟩ => show win7_1.index t (1 : Fin 2) * 128 + 1 * q.val = q.val; rw [e3]; omega
  · intro p q i hi0 hi1
    unfold iblk7
    rw [View.read_apply]
    show V c main_v90 (((cfg7.win 2).blk t).view.emb (ix2 p q)) = V c main_v90 i
    refine congrArg _ (funext fun a => Fin.ext ?_)
    match a with
    | ⟨0, _⟩ => show win7_2.index t (0 : Fin 2) * 5000 + 1 * p.val = (i 0).val; rw [hi0, e4]
    | ⟨1, _⟩ => show win7_2.index t (1 : Fin 2) * 128 + 1 * q.val = (i 1).val; rw [hi1, e5]; omega
  · show win7_3.index t (1 : Fin 2) * 128 + 1 * (j 1).val = (j 1).val
    rw [e6]; omega

/-- An index of the output array is in point t's block iff each coordinate is in the block's range. -/
theorem mem_blk7 (t : Fin cfg7.N) (i : S50000x128.Idx) :
    i ∈ ((cfg7.win 3).blk t).view.set ↔ ∀ a : Fin 2, win7_3.index t a * S5000x128.size a ≤ (i a).val ∧ (i a).val < win7_3.index t a * S5000x128.size a + S5000x128.size a := by
  show i ∈ ((View.whole main_v110).slice (win7_3.rect t)).set ↔ _
  rw [View.set_slice_whole, Rect.mem_set_unit]
  exact Iff.rfl

/-- Row r is written by the point whose block index is r / 5000. -/
theorem cover7 (i : S50000x128.Idx) : ∃ t : Fin cfg7.N, (cfg7.win 3).flush t = true ∧ i ∈ ((cfg7.win 3).blk t).view.set := by
  have hi0 : (i 0).val < 50000 := (i 0).isLt
  have hi1 : (i 1).val < 128 := (i 1).isLt
  obtain ⟨t, ht⟩ := idx_onto7 ⟨(i 0).val / 5000, by omega⟩
  have q0 : win7_3.index t (0 : Fin 2) = (i 0).val / 5000 := congrFun ht 0
  have q1 : win7_3.index t (1 : Fin 2) = 0 := congrFun ht 1
  refine ⟨t, flush7_3 t, ?_⟩
  rw [mem_blk7]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 128 ≤ (i 1).val ∧ (i 1).val < win7_3.index t (1 : Fin 2) * 128 + 128; omega

/-- The output array after the region: bias, residual and clamp of the arrays it found. -/
theorem value7 (c : Dev nD) : (dat7 V c).arrAt 3 cfg7.N = biasResRelu (V c main_v106) (V c main_v109) (V c main_v90) :=
  (dat7 V c).arrAt_eq_of_cover 3 (biasResRelu (V c main_v106) (V c main_v109) (V c main_v90)) (fun t _ => flushed7_eq V c t) cover7

end Cert.KernelIdeal.Hand

end
-- ==== Proof.KI.Value8.lean ====
/-
  Region 8, read whole: after its ten points the output array holds the dense layer of the two arrays
  the region found.  Point t takes rows 5000 t .. 5000 t + 4999 of the activations and the whole weight and
  writes the same rows of the product; row r of the output is therefore written by point r / 5000, and what
  is written there is the sum over k of X(r, k) * W(k, q).
-/
import proofs.«180772_j89300960018653_1_alg».proof.Proof.KI.Reg8
import proofs.«180772_j89300960018653_1_alg».proof.Proof.KI.PayloadAt
import proofs.«180772_j89300960018653_1_alg».proof.Proof.Bridge.Layers
import Idealize.ShloMosaic.Lib.Pipeline.Value

set_option maxRecDepth 16384

noncomputable section

namespace Cert.KernelIdeal.Hand

open Cert.KernelIdeal Cert.KernelIdeal.Gen Cert.Bridge
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets8 : (![0, 0] : Fin 2 → Nat) = fun _ => 0 := funext fun a => by fin_cases a <;> rfl

/-- One block: when x holds rows 5000 b .. 5000 b + 4999 of X and w holds W, the block's product at j is
    the dense layer at row 5000 b + j 0, column j 1. -/
theorem block_dense8 (X : S50000x128.Idx → EReal) (W : S128x128.Idx → EReal)
    (x : Vec Ideal S5000x128 .f32) (w : Vec Ideal S128x128 .f32) (b : ℕ)
    (hx : ∀ (p : Fin 5000) (k : Fin 128) (i : S50000x128.Idx), (i 0).val = b * 5000 + 1 * p.val → (i 1).val = k.val → x (ix2 p k) = X i)
    (hw : ∀ (k q : Fin 128), w (ix2 k q) = W (ix2 k q))
    (j : S5000x128.Idx) (i : S50000x128.Idx) (hi0 : (i 0).val = b * 5000 + 1 * (j 0).val) (hi1 : (i 1).val = (j 1).val) :
    Gen.k8_pay1 (F := Ideal) x w j = dense X W i := by
  obtain ⟨p, q, rfl⟩ : ∃ (p : Fin 5000) (q : Fin 128), j = ix2 p q := ⟨j 0, j 1, eq_ix2 j⟩
  rw [PayloadAt.k8_pay1_at]
  unfold dense
  refine Finset.sum_congr rfl fun k _ => ?_
  rw [hx p k (ix2 (n0 := 50000) (n1 := 128) (i 0) k) hi0 rfl, hw k q]
  have e : (i 1 : Fin 128) = q := Fin.ext hi1
  rw [e]

/-- The printed index maps over the grid: the rows' window moves with the output's, the weight's stays. -/
theorem idx_facts8 : ∀ t : Fin cfg8.N, win8_0.index t (0 : Fin 2) = win8_2.index t (0 : Fin 2)
    ∧ win8_0.index t (1 : Fin 2) = 0
    ∧ win8_1.index t (0 : Fin 2) = 0
    ∧ win8_1.index t (1 : Fin 2) = 0
    ∧ win8_2.index t (1 : Fin 2) = 0 :=
  (by decide +kernel : ∀ t : Fin grid8.N, _)

/-- Every one of the ten row blocks is some point's. -/
theorem idx_onto8 : ∀ (q0 : Fin 10), ∃ t : Fin cfg8.N, win8_2.index t = ![q0.val, 0] :=
  (by decide +kernel : ∀ (q0 : Fin 10), ∃ t : Fin grid8.N, win8_2.index t = ![q0.val, 0])

/-- What point t writes back is block t of the dense layer of the arrays the region found. -/
theorem flushed8_eq (c : Dev nD) (t : Fin cfg8.N) :
    (dat8 V c).flushed 2 t = ((cfg8.win 2).blk t).view.read (Elt Ideal) (dense (V c main_v110) (V c main_v112)) := by
  show (cfg8.win 2).cut (grid8.coords t) ((dat8 V c).after 2 t) = _
  rw [after8_2]
  unfold out8_2
  rw [View.canon_unit_zero zero_offsets8]
  simp only [View.ld_unit_zero (S := S5000x128) zero_offsets8, View.ld_unit_zero (S := S128x128) zero_offsets8]
  obtain ⟨e0, e1, e2, e3, e4⟩ := idx_facts8 t
  funext j
  refine block_dense8 (V c main_v110) (V c main_v112) (iblk8 V c 0 t) (iblk8 V c 1 t) (win8_2.index t (0 : Fin 2)) ?_ ?_ j
    (((cfg8.win 2).blk t).view.emb j) rfl ?_
  · intro p k i hi0 hi1
    unfold iblk8
    rw [View.read_apply]
    show V c main_v110 (((cfg8.win 0).blk t).view.emb (ix2 p k)) = V c main_v110 i
    refine congrArg _ (funext fun a => Fin.ext ?_)
    match a with
    | ⟨0, _⟩ => show win8_0.index t (0 : Fin 2) * 5000 + 1 * p.val = (i 0).val; rw [hi0, e0]
    | ⟨1, _⟩ => show win8_0.index t (1 : Fin 2) * 128 + 1 * k.val = (i 1).val; rw [hi1, e1]; omega
  · intro k q
    unfold iblk8
    rw [View.read_apply]
    show V c main_v112 (((cfg8.win 1).blk t).view.emb (ix2 k q)) = V c main_v112 (ix2 k q)
    refine congrArg _ (funext fun a => Fin.ext ?_)
    match a with
    | ⟨0, _⟩ => show win8_1.index t (0 : Fin 2) * 128 + 1 * k.val = k.val; rw [e2]; omega
    | ⟨1, _⟩ => show win8_1.index t (1 : Fin 2) * 128 + 1 * q.val = q.val; rw [e3]; omega
  · show win8_2.index t (1 : Fin 2) * 128 + 1 * (j 1).val = (j 1).val
    rw [e4]; omega

/-- An index of the output array is in point t's block iff each coordinate is in the block's range. -/
theorem mem_blk8 (t : Fin cfg8.N) (i : S50000x128.Idx) :
    i ∈ ((cfg8.win 2).blk t).view.set ↔ ∀ a : Fin 2, win8_2.index t a * S5000x128.size a ≤ (i a).val ∧ (i a).val < win8_2.index t a * S5000x128.size a + S5000x128.size a := by
  show i ∈ ((View.whole main_v113).slice (win8_2.rect t)).set ↔ _
  rw [View.set_slice_whole, Rect.mem_set_unit]
  exact Iff.rfl

/-- Row r is written by the point whose block index is r / 5000. -/
theorem cover8 (i : S50000x128.Idx) : ∃ t : Fin cfg8.N, (cfg8.win 2).flush t = true ∧ i ∈ ((cfg8.win 2).blk t).view.set := by
  have hi0 : (i 0).val < 50000 := (i 0).isLt
  have hi1 : (i 1).val < 128 := (i 1).isLt
  obtain ⟨t, ht⟩ := idx_onto8 ⟨(i 0).val / 5000, by omega⟩
  have q0 : win8_2.index t (0 : Fin 2) = (i 0).val / 5000 := congrFun ht 0
  have q1 : win8_2.index t (1 : Fin 2) = 0 := congrFun ht 1
  refine ⟨t, flush8_2 t, ?_⟩
  rw [mem_blk8]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 128 ≤ (i 1).val ∧ (i 1).val < win8_2.index t (1 : Fin 2) * 128 + 128; omega

/-- The output array after the region: the dense layer of the activations and the weight it found. -/
theorem value8 (c : Dev nD) : (dat8 V c).arrAt 2 cfg8.N = dense (V c main_v110) (V c main_v112) :=
  (dat8 V c).arrAt_eq_of_cover 2 (dense (V c main_v110) (V c main_v112)) (fun t _ => flushed8_eq V c t) cover8

end Cert.KernelIdeal.Hand

end
-- ==== Proof.KI.Value9.lean ====
/-
  Region 9, read whole: after its ten points the output array holds, at (r, q), the maximum with zero of
  the aggregated array's entry plus entry q of the bias row plus the residual array's entry.  Point t takes
  rows 5000 t .. 5000 t + 4999 of both arrays and the whole bias row and writes the same rows of the result;
  row r is written by point r / 5000.
-/
import proofs.«180772_j89300960018653_1_alg».proof.Proof.KI.Reg9
import proofs.«180772_j89300960018653_1_alg».proof.Proof.KI.PayloadAt
import proofs.«180772_j89300960018653_1_alg».proof.Proof.Bridge.Layers
import Idealize.ShloMosaic.Lib.Pipeline.Value

set_option maxRecDepth 16384

noncomputable section

namespace Cert.KernelIdeal.Hand

open Cert.KernelIdeal Cert.KernelIdeal.Gen Cert.Bridge
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets9 : (![0, 0] : Fin 2 → Nat) = fun _ => 0 := funext fun a => by fin_cases a <;> rfl

/-- One block: when x and r hold rows 5000 b .. 5000 b + 4999 of A and of R and bb holds the bias row B, the
    block's result at j is the layer at row 5000 b + j 0, column j 1. -/
theorem block_biasResRelu9 (A : S50000x128.Idx → EReal) (B : S1x128.Idx → EReal) (R : S50000x128.Idx → EReal)
    (x : Vec Ideal S5000x128 .f32) (bb : Vec Ideal S1x128 .f32) (r : Vec Ideal S5000x128 .f32) (b : ℕ)
    (hx : ∀ (p : Fin 5000) (q : Fin 128) (i : S50000x128.Idx), (i 0).val = b * 5000 + 1 * p.val → (i 1).val = q.val → x (ix2 p q) = A i)
    (hb : ∀ (q : Fin 128), bb (ix2 (0 : Fin 1) q) = B (ix2 (0 : Fin 1) q))
    (hr : ∀ (p : Fin 5000) (q : Fin 128) (i : S50000x128.Idx), (i 0).val = b * 5000 + 1 * p.val → (i 1).val = q.val → r (ix2 p q) = R i)
    (j : S5000x128.Idx) (i : S50000x128.Idx) (hi0 : (i 0).val = b * 5000 + 1 * (j 0).val) (hi1 : (i 1).val = (j 1).val) :
    Gen.k9_pay1 (F := Ideal) bb x r j = biasResRelu A B R i := by
  obtain ⟨p, q, rfl⟩ : ∃ (p : Fin 5000) (q : Fin 128), j = ix2 p q := ⟨j 0, j 1, eq_ix2 j⟩
  rw [PayloadAt.k9_pay1_at]
  unfold biasResRelu
  rw [hx p q i hi0 hi1, hr p q i hi0 hi1, hb q]
  have e : (i 1 : Fin 128) = q := Fin.ext hi1
  rw [e]

/-- The printed index maps over the grid: the two row windows move with the output's, the bias row's stays. -/
theorem idx_facts9 : ∀ t : Fin cfg9.N, win9_0.index t (0 : Fin 2) = win9_3.index t (0 : Fin 2)
    ∧ win9_0.index t (1 : Fin 2) = 0
    ∧ win9_1.index t (0 : Fin 2) = 0
    ∧ win9_1.index t (1 : Fin 2) = 0
    ∧ win9_2.index t (0 : Fin 2) = win9_3.index t (0 : Fin 2)
    ∧ win9_2.index t (1 : Fin 2) = 0
    ∧ win9_3.index t (1 : Fin 2) = 0 :=
  (by decide +kernel : ∀ t : Fin grid9.N, _)

/-- Every one of the ten row blocks is some point's. -/
theorem idx_onto9 : ∀ (q0 : Fin 10), ∃ t : Fin cfg9.N, win9_3.index t = ![q0.val, 0] :=
  (by decide +kernel : ∀ (q0 : Fin 10), ∃ t : Fin grid9.N, win9_3.index t = ![q0.val, 0])

/-- What point t writes back is block t of the layer of the arrays the region found. -/
theorem flushed9_eq (c : Dev nD) (t : Fin cfg9.N) :
    (dat9 V c).flushed 3 t = ((cfg9.win 3).blk t).view.read (Elt Ideal) (biasResRelu (V c main_v126) (V c main_v129) (V c main_v110)) := by
  show (cfg9.win 3).cut (grid9.coords t) ((dat9 V c).after 3 t) = _
  rw [after9_3]
  unfold out9_3
  rw [View.canon_unit_zero zero_offsets9]
  simp only [View.ld_unit_zero (S := S5000x128) zero_offsets9, View.ld_unit_zero (S := S1x128) zero_offsets9]
  obtain ⟨e0, e1, e2, e3, e4, e5, e6⟩ := idx_facts9 t
  funext j
  refine block_biasResRelu9 (V c main_v126) (V c main_v129) (V c main_v110) (iblk9 V c 0 t) (iblk9 V c 1 t) (iblk9 V c 2 t)
    (win9_3.index t (0 : Fin 2)) ?_ ?_ ?_ j (((cfg9.win 3).blk t).view.emb j) rfl ?_
  · intro p q i hi0 hi1
    unfold iblk9
    rw [View.read_apply]
    show V c main_v126 (((cfg9.win 0).blk t).view.emb (ix2 p q)) = V c main_v126 i
    refine congrArg _ (funext fun a => Fin.ext ?_)
    match a with
    | ⟨0, _⟩ => show win9_0.index t (0 : Fin 2) * 5000 + 1 * p.val = (i 0).val; rw [hi0, e0]
    | ⟨1, _⟩ => show win9_0.index t (1 : Fin 2) * 128 + 1 * q.val = (i 1).val; rw [hi1, e1]; omega
  · intro q
    unfold iblk9
    rw [View.read_apply]
    show V c main_v129 (((cfg9.win 1).blk t).view.emb (ix2 (0 : Fin 1) q)) = V c main_v129 (ix2 (0 : Fin 1) q)
    refine congrArg _ (funext fun a => Fin.ext ?_)
    match a with
    | ⟨0, _⟩ => show win9_1.index t (0 : Fin 2) * 1 + 1 * 0 = 0; rw [e2]
    | ⟨1, _⟩ => show win9_1.index t (1 : Fin 2) * 128 + 1 * q.val = q.val; rw [e3]; omega
  · intro p q i hi0 hi1
    unfold iblk9
    rw [View.read_apply]
    show V c main_v110 (((cfg9.win 2).blk t).view.emb (ix2 p q)) = V c main_v110 i
    refine congrArg _ (funext fun a => Fin.ext ?_)
    match a with
    | ⟨0, _⟩ => show win9_2.index t (0 : Fin 2) * 5000 + 1 * p.val = (i 0).val; rw [hi0, e4]
    | ⟨1, _⟩ => show win9_2.index t (1 : Fin 2) * 128 + 1 * q.val = (i 1).val; rw [hi1, e5]; omega
  · show win9_3.index t (1 : Fin 2) * 128 + 1 * (j 1).val = (j 1).val
    rw [e6]; omega

/-- An index of the output array is in point t's block iff each coordinate is in the block's range. -/
theorem mem_blk9 (t : Fin cfg9.N) (i : S50000x128.Idx) :
    i ∈ ((cfg9.win 3).blk t).view.set ↔ ∀ a : Fin 2, win9_3.index t a * S5000x128.size a ≤ (i a).val ∧ (i a).val < win9_3.index t a * S5000x128.size a + S5000x128.size a := by
  show i ∈ ((View.whole main_v130).slice (win9_3.rect t)).set ↔ _
  rw [View.set_slice_whole, Rect.mem_set_unit]
  exact Iff.rfl

/-- Row r is written by the point whose block index is r / 5000. -/
theorem cover9 (i : S50000x128.Idx) : ∃ t : Fin cfg9.N, (cfg9.win 3).flush t = true ∧ i ∈ ((cfg9.win 3).blk t).view.set := by
  have hi0 : (i 0).val < 50000 := (i 0).isLt
  have hi1 : (i 1).val < 128 := (i 1).isLt
  obtain ⟨t, ht⟩ := idx_onto9 ⟨(i 0).val / 5000, by omega⟩
  have q0 : win9_3.index t (0 : Fin 2) = (i 0).val / 5000 := congrFun ht 0
  have q1 : win9_3.index t (1 : Fin 2) = 0 := congrFun ht 1
  refine ⟨t, flush9_3 t, ?_⟩
  rw [mem_blk9]
  intro a
  match a with
  | ⟨0, _⟩ => show win9_3.index t (0 : Fin 2) * 5000 ≤ (i 0).val ∧ (i 0).val < win9_3.index t (0 : Fin 2) * 5000 + 5000; omega
  | ⟨1, _⟩ => show win9_3.index t (1 : Fin 2) * 128 ≤ (i 1).val ∧ (i 1).val < win9_3.index t (1 : Fin 2) * 128 + 128; omega

/-- The output array after the region: bias, residual and clamp of the arrays it found. -/
theorem value9 (c : Dev nD) : (dat9 V c).arrAt 3 cfg9.N = biasResRelu (V c main_v126) (V c main_v129) (V c main_v110) :=
  (dat9 V c).arrAt_eq_of_cover 3 (biasResRelu (V c main_v126) (V c main_v129) (V c main_v110)) (fun t _ => flushed9_eq V c t) cover9

end Cert.KernelIdeal.Hand

end
-- ==== Proof.Bridge.Dense.lean ====
/-
  The reference's dense layer and its bias / residual / clamp steps are the three layer functions.

  The reference contracts a [50000,128] array with a [128,128] weight in one operation: entry (r, q) is the
  sum over k of X(r, k) * W(k, q).  Its bias is a [128] array broadcast through [1,128] to [50000,128] and
  added, for the later layers the residual array is added next, and the clamp is the maximum with a
  broadcast zero.  A bias row b of shape [1,128] that holds the [128] array (b(0, q) = b4(q)) gives the same
  function.
-/
import proofs.«180772_j89300960018653_1_alg».proof.Proof.Gen.ReferenceIdeal.Read
import proofs.«180772_j89300960018653_1_alg».proof.Proof.Bridge.Layers
import Idealize.ShloMosaic.Lib.ValueLayout

noncomputable section

namespace Cert.Bridge

open Cert.ReferenceIdeal Cert.ReferenceIdeal.Gen
open Idealize.ShloMosaic Idealize.ShloMosaic.TcCoe Idealize.ShloMosaic.ValueIdx Idealize.ShloMosaic.StableHlo

/-- The reference's contraction is the dense layer. -/
theorem dense_ref (X : SN.Idx → EReal) (W : SW.Idx → EReal) :
    dense X W = Host.dotGeneral (F := Ideal) (φ₁ := .f32) (φ₂ := .f32) dot_S50000x128_S128x128_S50000x128_1_0_0_1_n_n none X W := by
  funext i
  have h := Read.val_main_v35_apply X W i
  unfold Read.val_main_v35 at h
  rw [h]
  unfold dense
  refine Finset.sum_congr rfl fun k _ => ?_
  have el : Read.lidx_main_v35 i k = ix2 (n0 := 50000) (n1 := 128) (i 0) k :=
    funext fun a => Fin.ext (by match a with | ⟨0, _⟩ => rfl | ⟨1, _⟩ => rfl)
  have er : Read.ridx_main_v35 i k = ix2 (n0 := 128) (n1 := 128) k (i 1) :=
    funext fun a => Fin.ext (by match a with | ⟨0, _⟩ => rfl | ⟨1, _⟩ => rfl)
  rw [el, er]

/-- The reference's bias: a [128] array broadcast to [1,128], then to every row of [50000,128]. -/
def refBias (b4 : S128.Idx → EReal) : SN.Idx → EReal :=
  broadcastInDim S50000x128 ![0, 1] bcast_S1x128_S50000x128_0_1 (broadcastInDim S1x128 ![1] bcast_S128_S1x128_1 b4)

/-- The reference's broadcast zero. -/
def refZero : SN.Idx → EReal :=
  broadcastInDim S50000x128 ![] bcast_S_S50000x128 (constant (F := Ideal) S_ .f32 0x00000000#32)

/-- The reference's first layer after the aggregation: add the bias, clamp. -/
def refBiasRelu (A : SN.Idx → EReal) (b4 : S128.Idx → EReal) : SN.Idx → EReal :=
  (maximumf (addf (A : FVec Ideal S50000x128 .f32) (refBias b4 : FVec Ideal S50000x128 .f32)) (refZero : FVec Ideal S50000x128 .f32) : FVec Ideal S50000x128 .f32)

/-- The reference's later layers after the aggregation: add the bias, add the residual, clamp. -/
def refBiasResRelu (A : SN.Idx → EReal) (b4 : S128.Idx → EReal) (R : SN.Idx → EReal) : SN.Idx → EReal :=
  (maximumf (addf (addf (A : FVec Ideal S50000x128 .f32) (refBias b4 : FVec Ideal S50000x128 .f32)) (R : FVec Ideal S50000x128 .f32))
    (refZero : FVec Ideal S50000x128 .f32) : FVec Ideal S50000x128 .f32)

theorem refBias_apply (b4 : S128.Idx → EReal) (i : SN.Idx) : refBias b4 i = b4 (ix1 (n := 128) (i 1)) := by
  show Read.val_main_v50 (F := Ideal) b4 i = _
  rw [Read.val_main_v50_apply, Read.val_main_v49_apply]
  exact congrArg b4 (funext fun a => Fin.ext (by match a with | ⟨0, _⟩ => rfl))

theorem refZero_apply (i : SN.Idx) : refZero i = 0 := by
  show Read.val_main_call2_v0 (F := Ideal) i = _
  rw [Read.val_main_call2_v0_apply, Read.val_main_call2_cst_apply]
  exact Ideal.ofBits_zero_f32

/-- With a bias row that holds the reference's bias array, bias and clamp are the reference's. -/
theorem biasRelu_ref (A : SN.Idx → EReal) (b : SB.Idx → EReal) (b4 : S128.Idx → EReal)
    (hb : ∀ q : Fin 128, b (ix2 (0 : Fin 1) q) = b4 (ix1 q)) : biasRelu A b = refBiasRelu A b4 := by
  funext i
  unfold biasRelu refBiasRelu
  rw [maximumf_apply, addf_apply, refBias_apply, refZero_apply]
  exact congrArg (fun z => max (A i + z) 0) (hb (i 1))

/-- The same with the residual. -/
theorem biasResRelu_ref (A : SN.Idx → EReal) (b : SB.Idx → EReal) (R : SN.Idx → EReal) (b4 : S128.Idx → EReal)
    (hb : ∀ q : Fin 128, b (ix2 (0 : Fin 1) q) = b4 (ix1 q)) : biasResRelu A b R = refBiasResRelu A b4 R := by
  funext i
  unfold biasResRelu refBiasResRelu
  rw [maximumf_apply, addf_apply, addf_apply, refBias_apply, refZero_apply]
  exact congrArg (fun z => max ((A i + z) + R i) 0) (hb (i 1))

/-- A [128] array reshaped to one row holds the array: the hypothesis of the two lemmas above for a bias row
    made by a reshape. -/
theorem row_of_reshape (b4 : S128.Idx → EReal) (h : S128.ShapeCasts S1x128) (q : Fin 128) :
    shapeCast S1x128 b4 h (ix2 (0 : Fin 1) q) = b4 (ix1 q) :=
  shapeCast_a_1a_apply b4 h 0 q

/-! ## The reference's layers, one at a time

Each contraction of the reference is the dense layer of its two operand stages, and each activation (the
clamp's result) is the bias layer of the aggregated stage, of any bias row that holds the reference's [128]
bias, and for the later layers of the previous activation. -/

/-- Layer 0's product. -/
theorem stage_v35 (x0 : (⟨S50000x128, .f32⟩ : BufTy).Contents (Elt Ideal)) (x3 : (⟨S128x128, .f32⟩ : BufTy).Contents (Elt Ideal)) :
    Read.val_main_v35 (F := Ideal) x0 x3 = dense x0 x3 := (dense_ref x0 x3).symm

/-- Layer 0's activation. -/
theorem stage_v52 (x0 : (⟨S50000x128, .f32⟩ : BufTy).Contents (Elt Ideal)) (x1 : (⟨S2x600000, .i32⟩ : BufTy).Contents (Elt Ideal)) (x2 : (⟨S600000, .f32⟩ : BufTy).Contents (Elt Ideal)) (x3 : (⟨S128x128, .f32⟩ : BufTy).Contents (Elt Ideal)) (x4 : (⟨S128, .f32⟩ : BufTy).Contents (Elt Ideal)) (b : SB.Idx → EReal)
    (hb : ∀ q : Fin 128, b (ix2 (0 : Fin 1) q) = x4 (ix1 q)) :
    Read.val_main_v52 (F := Ideal) x0 x1 x2 x3 x4 = biasRelu (Read.val_main_v48 (F := Ideal) x0 x1 x2 x3) b :=
  (show Read.val_main_v52 (F := Ideal) x0 x1 x2 x3 x4 = refBiasRelu (Read.val_main_v48 (F := Ideal) x0 x1 x2 x3) x4 from rfl).trans
    (biasRelu_ref _ b x4 hb).symm

/-- Layer 1's product. -/
theorem stage_v57 (x0 : (⟨S50000x128, .f32⟩ : BufTy).Contents (Elt Ideal)) (x1 : (⟨S2x600000, .i32⟩ : BufTy).Contents (Elt Ideal)) (x2 : (⟨S600000, .f32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) :
    Read.val_main_v57 (F := Ideal) x0 x1 x2 x3 x4 x5 = dense (Read.val_main_v52 (F := Ideal) x0 x1 x2 x3 x4) (Read.val_main_v54 (F := Ideal) x5) := (dense_ref _ _).symm

/-- Layer 1's activation. -/
theorem stage_v75 (x0 : (⟨S50000x128, .f32⟩ : BufTy).Contents (Elt Ideal)) (x1 : (⟨S2x600000, .i32⟩ : BufTy).Contents (Elt Ideal)) (x2 : (⟨S600000, .f32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) (x6 : (⟨S4x128, .f32⟩ : BufTy).Contents (Elt Ideal)) (b : SB.Idx → EReal)
    (hb : ∀ q : Fin 128, b (ix2 (0 : Fin 1) q) = Read.val_main_v56 (F := Ideal) x6 (ix1 q)) :
    Read.val_main_v75 (F := Ideal) x0 x1 x2 x3 x4 x5 x6 = biasResRelu (Read.val_main_v70 (F := Ideal) x0 x1 x2 x3 x4 x5) b (Read.val_main_v52 (F := Ideal) x0 x1 x2 x3 x4) :=
  (show Read.val_main_v75 (F := Ideal) x0 x1 x2 x3 x4 x5 x6 = refBiasResRelu (Read.val_main_v70 (F := Ideal) x0 x1 x2 x3 x4 x5) (Read.val_main_v56 (F := Ideal) x6) (Read.val_main_v52 (F := Ideal) x0 x1 x2 x3 x4) from rfl).trans
    (biasResRelu_ref _ b _ _ hb).symm

/-- Layer 2's product. -/
theorem stage_v80 (x0 : (⟨S50000x128, .f32⟩ : BufTy).Contents (Elt Ideal)) (x1 : (⟨S2x600000, .i32⟩ : BufTy).Contents (Elt Ideal)) (x2 : (⟨S600000, .f32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) (x6 : (⟨S4x128, .f32⟩ : BufTy).Contents (Elt Ideal)) :
    Read.val_main_v80 (F := Ideal) x0 x1 x2 x3 x4 x5 x6 = dense (Read.val_main_v75 (F := Ideal) x0 x1 x2 x3 x4 x5 x6) (Read.val_main_v77 (F := Ideal) x5) := (dense_ref _ _).symm

/-- Layer 2's activation. -/
theorem stage_v98 (x0 : (⟨S50000x128, .f32⟩ : BufTy).Contents (Elt Ideal)) (x1 : (⟨S2x600000, .i32⟩ : BufTy).Contents (Elt Ideal)) (x2 : (⟨S600000, .f32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) (x6 : (⟨S4x128, .f32⟩ : BufTy).Contents (Elt Ideal)) (b : SB.Idx → EReal)
    (hb : ∀ q : Fin 128, b (ix2 (0 : Fin 1) q) = Read.val_main_v79 (F := Ideal) x6 (ix1 q)) :
    Read.val_main_v98 (F := Ideal) x0 x1 x2 x3 x4 x5 x6 = biasResRelu (Read.val_main_v93 (F := Ideal) x0 x1 x2 x3 x4 x5 x6) b (Read.val_main_v75 (F := Ideal) x0 x1 x2 x3 x4 x5 x6) :=
  (show Read.val_main_v98 (F := Ideal) x0 x1 x2 x3 x4 x5 x6 = refBiasResRelu (Read.val_main_v93 (F := Ideal) x0 x1 x2 x3 x4 x5 x6) (Read.val_main_v79 (F := Ideal) x6) (Read.val_main_v75 (F := Ideal) x0 x1 x2 x3 x4 x5 x6) from rfl).trans
    (biasResRelu_ref _ b _ _ hb).symm

/-- Layer 3's product. -/
theorem stage_v103 (x0 : (⟨S50000x128, .f32⟩ : BufTy).Contents (Elt Ideal)) (x1 : (⟨S2x600000, .i32⟩ : BufTy).Contents (Elt Ideal)) (x2 : (⟨S600000, .f32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) (x6 : (⟨S4x128, .f32⟩ : BufTy).Contents (Elt Ideal)) :
    Read.val_main_v103 (F := Ideal) x0 x1 x2 x3 x4 x5 x6 = dense (Read.val_main_v98 (F := Ideal) x0 x1 x2 x3 x4 x5 x6) (Read.val_main_v100 (F := Ideal) x5) := (dense_ref _ _).symm

/-- Layer 3's activation. -/
theorem stage_v121 (x0 : (⟨S50000x128, .f32⟩ : BufTy).Contents (Elt Ideal)) (x1 : (⟨S2x600000, .i32⟩ : BufTy).Contents (Elt Ideal)) (x2 : (⟨S600000, .f32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) (x6 : (⟨S4x128, .f32⟩ : BufTy).Contents (Elt Ideal)) (b : SB.Idx → EReal)
    (hb : ∀ q : Fin 128, b (ix2 (0 : Fin 1) q) = Read.val_main_v102 (F := Ideal) x6 (ix1 q)) :
    Read.val_main_v121 (F := Ideal) x0 x1 x2 x3 x4 x5 x6 = biasResRelu (Read.val_main_v116 (F := Ideal) x0 x1 x2 x3 x4 x5 x6) b (Read.val_main_v98 (F := Ideal) x0 x1 x2 x3 x4 x5 x6) :=
  (show Read.val_main_v121 (F := Ideal) x0 x1 x2 x3 x4 x5 x6 = refBiasResRelu (Read.val_main_v116 (F := Ideal) x0 x1 x2 x3 x4 x5 x6) (Read.val_main_v102 (F := Ideal) x6) (Read.val_main_v98 (F := Ideal) x0 x1 x2 x3 x4 x5 x6) from rfl).trans
    (biasResRelu_ref _ b _ _ hb).symm

/-- Layer 4's product. -/
theorem stage_v126 (x0 : (⟨S50000x128, .f32⟩ : BufTy).Contents (Elt Ideal)) (x1 : (⟨S2x600000, .i32⟩ : BufTy).Contents (Elt Ideal)) (x2 : (⟨S600000, .f32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) (x6 : (⟨S4x128, .f32⟩ : BufTy).Contents (Elt Ideal)) :
    Read.val_main_v126 (F := Ideal) x0 x1 x2 x3 x4 x5 x6 = dense (Read.val_main_v121 (F := Ideal) x0 x1 x2 x3 x4 x5 x6) (Read.val_main_v123 (F := Ideal) x5) := (dense_ref _ _).symm

/-- Layer 4's activation: the array the final stage reads. -/
theorem stage_v144 (x0 : (⟨S50000x128, .f32⟩ : BufTy).Contents (Elt Ideal)) (x1 : (⟨S2x600000, .i32⟩ : BufTy).Contents (Elt Ideal)) (x2 : (⟨S600000, .f32⟩ : BufTy).Contents (Elt Ideal)) (x3 : (⟨S128x128, .f32⟩ : BufTy).Contents (Elt Ideal)) (x4 : (⟨S128, .f32⟩ : BufTy).Contents (Elt Ideal)) (x5 : (⟨S4x128x128, .f32⟩ : BufTy).Contents (Elt Ideal)) (x6 : (⟨S4x128, .f32⟩ : BufTy).Contents (Elt Ideal)) (b : SB.Idx → EReal)
    (hb : ∀ q : Fin 128, b (ix2 (0 : Fin 1) q) = Read.val_main_v125 (F := Ideal) x6 (ix1 q)) :
    Read.val_main_v144 (F := Ideal) x0 x1 x2 x3 x4 x5 x6 = biasResRelu (Read.val_main_v139 (F := Ideal) x0 x1 x2 x3 x4 x5 x6) b (Read.val_main_v121 (F := Ideal) x0 x1 x2 x3 x4 x5 x6) :=
  (show Read.val_main_v144 (F := Ideal) x0 x1 x2 x3 x4 x5 x6 = refBiasResRelu (Read.val_main_v139 (F := Ideal) x0 x1 x2 x3 x4 x5 x6) (Read.val_main_v125 (F := Ideal) x6) (Read.val_main_v121 (F := Ideal) x0 x1 x2 x3 x4 x5 x6) from rfl).trans
    (biasResRelu_ref _ b _ _ hb).symm

end Cert.Bridge

end
-- ==== Proof.Bridge.AggDef.lean ====
/- The edge aggregation shared by both programs, as ONE function of the source indices, the target indices,
   the edge weights and the node features: wrap negative source indices, gather the feature rows at the source
   nodes, scale each gathered row by its edge weight, and add the rows up at the target nodes. -/
import proofs.«180772_j89300960018653_1_alg».proof.KernelIdeal
import proofs.«180772_j89300960018653_1_alg».proof.Proof.Gen.KernelIdeal

noncomputable section

namespace Cert.Bridge

open Idealize.ShloMosaic Idealize.SL.Sem
open Cert.KernelIdeal Cert.KernelIdeal.Gen

variable {F : FTy → Type} [FloatOps F]

/-- `AGG row col nrm h`: entry `(t, q)` is the sum over the edges `e` with target `col e = t` of
    `h (row e, q) * nrm e` (a source index below zero is first moved up by the number of nodes). -/
def AGG (row col : (⟨S650000, .i32⟩ : BufTy).Contents (Elt F)) (nrm : (⟨S650000, .f32⟩ : BufTy).Contents (Elt F))
    (h : (⟨S50000x128, .f32⟩ : BufTy).Contents (Elt F)) : (⟨S50000x128, .f32⟩ : BufTy).Contents (Elt F) :=
  Host.scatterAdd scatter_S50000x128_S650000x1_S650000x128_1_0_0_1
    (broadcastInDim S50000x128 ![] bcast_S_S50000x128 (constant S_ .f32 0x00000000#32))
    (broadcastInDim S650000x1 ![0] bcast_S650000_S650000x1_0 col)
    (mulf
      (Host.gather gather_S50000x128_S650000x1_S650000x128_1_0_n_n_0_1_1128 h
        (broadcastInDim S650000x1 ![0] bcast_S650000_S650000x1_0
          (select (cmpi .slt row (broadcastInDim S650000 ![] bcast_S_S650000 (constantI S_ 32 0#32)))
            (addi row (broadcastInDim S650000 ![] bcast_S_S650000 (constantI S_ 32 50000#32)))
            row)))
      (broadcastInDim S650000x128 ![0, 1] bcast_S650000x1_S650000x128_0_1
        (broadcastInDim S650000x1 ![0] bcast_S650000_S650000x1_0 nrm)))

end Cert.Bridge

end
-- ==== Proof.Bridge.Agg0.lean ====
/- The first edge aggregation on the kernel's side: what the host operations between region 0 and region 1 leave
   in the aggregated buffer is the shared aggregation function of the source indices, the target indices, the edge
   weights (all three as the normalisation stretch left them) and of whatever region 0 left in its output. -/
import proofs.«180772_j89300960018653_1_alg».proof.Proof.Gen.KernelIdeal.Regions
import proofs.«180772_j89300960018653_1_alg».proof.Proof.Bridge.AggDef
import Idealize.ShloMosaic.Lib.StableHlo.Run

noncomputable section

namespace Cert.Bridge

open Idealize.ShloMosaic Idealize.ShloMosaic.TcCoe Idealize.SL.Sem Idealize.ShloMosaic.StableHlo
open Cert.KernelIdeal Cert.KernelIdeal.Gen

variable {F : FTy → Type} [FloatOps F] [Named F]

/-- From any contents `V` of the buffers, the stretch's sixteen aggregation operations leave in the aggregated
    buffer the aggregation of `V`'s source indices, target indices, edge weights and features. -/
theorem agg0_after (V : Valuation τ sig (Elt F)) :
    after hostOps1 V (main_v48 : DevRef τ sig)
      = AGG (V (main_v3 : DevRef τ sig)) (V (main_v6 : DevRef τ sig)) (V (main_v34 : DevRef τ sig)) (V (main_v35 : DevRef τ sig)) := by
  after_results_simp
  rfl

variable (m : (ℓ : Loc nD τ sig) → Buf (Elt F) ℓ) (outs : Outs (F := F))

/-- Region 0 changes only its own output, so the indices and weights are still those of the normalisation stretch. -/
theorem agg0_eq (c : Dev nD) :
    V7 m outs c main_v48
      = AGG (V5 m c main_v3) (V5 m c main_v6) (V5 m c main_v34) (V6 m outs c main_v35) := by
  refine (agg0_after (V6 m outs c)).trans ?_
  rw [V6_of m outs c main_v3 (by decide), V6_of m outs c main_v6 (by decide), V6_of m outs c main_v34 (by decide)]

end Cert.Bridge

end
-- ==== Proof.Bridge.Keep.lean ====
/- The source indices, the target indices and the edge weights are written once, by the normalisation stretch,
   and by nothing after it: at every later item they read as that stretch left them. -/
import proofs.«180772_j89300960018653_1_alg».proof.Proof.Gen.KernelIdeal.Regions

noncomputable section

namespace Cert.Bridge

open Idealize.ShloMosaic Idealize.ShloMosaic.TcCoe Idealize.SL.Sem Idealize.ShloMosaic.StableHlo
open Cert.KernelIdeal Cert.KernelIdeal.Gen

variable {F : FTy → Type} [FloatOps F] [Named F]

variable (m : (ℓ : Loc nD τ sig) → Buf (Elt F) ℓ) (outs : Outs (F := F))

theorem keep6_main_v3 (c : Dev nD) : V6 m outs c main_v3 = V5 m c main_v3 := V6_of m outs c main_v3 (by decide)
theorem keep10_main_v3 (c : Dev nD) : V10 m outs c main_v3 = V5 m c main_v3 := by
  rw [V10_of m outs c main_v3 (by decide), V9_of m outs c main_v3 (by decide), V8_of m outs c main_v3 (by decide), V7_of m outs c main_v3 (by decide)]
  exact keep6_main_v3 m outs c
theorem keep14_main_v3 (c : Dev nD) : V14 m outs c main_v3 = V5 m c main_v3 := by
  rw [V14_of m outs c main_v3 (by decide), V13_of m outs c main_v3 (by decide), V12_of m outs c main_v3 (by decide), V11_of m outs c main_v3 (by decide)]
  exact keep10_main_v3 m outs c
theorem keep18_main_v3 (c : Dev nD) : V18 m outs c main_v3 = V5 m c main_v3 := by
  rw [V18_of m outs c main_v3 (by decide), V17_of m outs c main_v3 (by decide), V16_of m outs c main_v3 (by decide), V15_of m outs c main_v3 (by decide)]
  exact keep14_main_v3 m outs c
theorem keep22_main_v3 (c : Dev nD) : V22 m outs c main_v3 = V5 m c main_v3 := by
  rw [V22_of m outs c main_v3 (by decide), V21_of m outs c main_v3 (by decide), V20_of m outs c main_v3 (by decide), V19_of m outs c main_v3 (by decide)]
  exact keep18_main_v3 m outs c

theorem keep6_main_v6 (c : Dev nD) : V6 m outs c main_v6 = V5 m c main_v6 := V6_of m outs c main_v6 (by decide)
theorem keep10_main_v6 (c : Dev nD) : V10 m outs c main_v6 = V5 m c main_v6 := by
  rw [V10_of m outs c main_v6 (by decide), V9_of m outs c main_v6 (by decide), V8_of m outs c main_v6 (by decide), V7_of m outs c main_v6 (by decide)]
  exact keep6_main_v6 m outs c
theorem keep14_main_v6 (c : Dev nD) : V14 m outs c main_v6 = V5 m c main_v6 := by
  rw [V14_of m outs c main_v6 (by decide), V13_of m outs c main_v6 (by decide), V12_of m outs c main_v6 (by decide), V11_of m outs c main_v6 (by decide)]
  exact keep10_main_v6 m outs c
theorem keep18_main_v6 (c : Dev nD) : V18 m outs c main_v6 = V5 m c main_v6 := by
  rw [V18_of m outs c main_v6 (by decide), V17_of m outs c main_v6 (by decide), V16_of m outs c main_v6 (by decide), V15_of m outs c main_v6 (by decide)]
  exact keep14_main_v6 m outs c
theorem keep22_main_v6 (c : Dev nD) : V22 m outs c main_v6 = V5 m c main_v6 := by
  rw [V22_of m outs c main_v6 (by decide), V21_of m outs c main_v6 (by decide), V20_of m outs c main_v6 (by decide), V19_of m outs c main_v6 (by decide)]
  exact keep18_main_v6 m outs c

theorem keep6_main_v34 (c : Dev nD) : V6 m outs c main_v34 = V5 m c main_v34 := V6_of m outs c main_v34 (by decide)
theorem keep10_main_v34 (c : Dev nD) : V10 m outs c main_v34 = V5 m c main_v34 := by
  rw [V10_of m outs c main_v34 (by decide), V9_of m outs c main_v34 (by decide), V8_of m outs c main_v34 (by decide), V7_of m outs c main_v34 (by decide)]
  exact keep6_main_v34 m outs c
theorem keep14_main_v34 (c : Dev nD) : V14 m outs c main_v34 = V5 m c main_v34 := by
  rw [V14_of m outs c main_v34 (by decide), V13_of m outs c main_v34 (by decide), V12_of m outs c main_v34 (by decide), V11_of m outs c main_v34 (by decide)]
  exact keep10_main_v34 m outs c
theorem keep18_main_v34 (c : Dev nD) : V18 m outs c main_v34 = V5 m c main_v34 := by
  rw [V18_of m outs c main_v34 (by decide), V17_of m outs c main_v34 (by decide), V16_of m outs c main_v34 (by decide), V15_of m outs c main_v34 (by decide)]
  exact keep14_main_v34 m outs c
theorem keep22_main_v34 (c : Dev nD) : V22 m outs c main_v34 = V5 m c main_v34 := by
  rw [V22_of m outs c main_v34 (by decide), V21_of m outs c main_v34 (by decide), V20_of m outs c main_v34 (by decide), V19_of m outs c main_v34 (by decide)]
  exact keep18_main_v34 m outs c

end Cert.Bridge

end
-- ==== Proof.Bridge.Agg1.lean ====
/- The second edge aggregation on the kernel's side: the host operations after the region that wrote the
   features leave in the aggregated buffer the shared aggregation function of the source indices, the target
   indices and the edge weights (as the normalisation stretch left them) and of what that region left. -/
import proofs.«180772_j89300960018653_1_alg».proof.Proof.Gen.KernelIdeal.Regions
import proofs.«180772_j89300960018653_1_alg».proof.Proof.Bridge.AggDef
import proofs.«180772_j89300960018653_1_alg».proof.Proof.Bridge.Keep
import Idealize.ShloMosaic.Lib.StableHlo.Run

noncomputable section

namespace Cert.Bridge

open Idealize.ShloMosaic Idealize.ShloMosaic.TcCoe Idealize.SL.Sem Idealize.ShloMosaic.StableHlo
open Cert.KernelIdeal Cert.KernelIdeal.Gen

variable {F : FTy → Type} [FloatOps F] [Named F]

/-- From any contents `V` of the buffers, the stretch's sixteen aggregation operations leave in the aggregated
    buffer the aggregation of `V`'s source indices, target indices, edge weights and features. -/
theorem agg1_after (V : Valuation τ sig (Elt F)) :
    after hostOps3 V (main_v66 : DevRef τ sig)
      = AGG (V (main_v3 : DevRef τ sig)) (V (main_v6 : DevRef τ sig)) (V (main_v34 : DevRef τ sig)) (V (main_v53 : DevRef τ sig)) := by
  after_results_simp
  rfl

variable (m : (ℓ : Loc nD τ sig) → Buf (Elt F) ℓ) (outs : Outs (F := F))

theorem agg1_eq (c : Dev nD) :
    V11 m outs c main_v66
      = AGG (V5 m c main_v3) (V5 m c main_v6) (V5 m c main_v34) (V10 m outs c main_v53) := by
  refine (agg1_after (V10 m outs c)).trans ?_
  rw [keep10_main_v3 m outs c, keep10_main_v6 m outs c, keep10_main_v34 m outs c]

end Cert.Bridge

end
-- ==== Proof.Bridge.Agg2.lean ====
/- The third edge aggregation on the kernel's side: the host operations after the region that wrote the
   features leave in the aggregated buffer the shared aggregation function of the source indices, the target
   indices and the edge weights (as the normalisation stretch left them) and of what that region left. -/
import proofs.«180772_j89300960018653_1_alg».proof.Proof.Gen.KernelIdeal.Regions
import proofs.«180772_j89300960018653_1_alg».proof.Proof.Bridge.AggDef
import proofs.«180772_j89300960018653_1_alg».proof.Proof.Bridge.Keep
import Idealize.ShloMosaic.Lib.StableHlo.Run

noncomputable section

namespace Cert.Bridge

open Idealize.ShloMosaic Idealize.ShloMosaic.TcCoe Idealize.SL.Sem Idealize.ShloMosaic.StableHlo
open Cert.KernelIdeal Cert.KernelIdeal.Gen

variable {F : FTy → Type} [FloatOps F] [Named F]

/-- From any contents `V` of the buffers, the stretch's sixteen aggregation operations leave in the aggregated
    buffer the aggregation of `V`'s source indices, target indices, edge weights and features. -/
theorem agg2_after (V : Valuation τ sig (Elt F)) :
    after hostOps5 V (main_v86 : DevRef τ sig)
      = AGG (V (main_v3 : DevRef τ sig)) (V (main_v6 : DevRef τ sig)) (V (main_v34 : DevRef τ sig)) (V (main_v73 : DevRef τ sig)) := by
  after_results_simp
  rfl

variable (m : (ℓ : Loc nD τ sig) → Buf (Elt F) ℓ) (outs : Outs (F := F))

theorem agg2_eq (c : Dev nD) :
    V15 m outs c main_v86
      = AGG (V5 m c main_v3) (V5 m c main_v6) (V5 m c main_v34) (V14 m outs c main_v73) := by
  refine (agg2_after (V14 m outs c)).trans ?_
  rw [keep14_main_v3 m outs c, keep14_main_v6 m outs c, keep14_main_v34 m outs c]

end Cert.Bridge

end
-- ==== Proof.Bridge.Agg3.lean ====
/- The fourth edge aggregation on the kernel's side: the host operations after the region that wrote the
   features leave in the aggregated buffer the shared aggregation function of the source indices, the target
   indices and the edge weights (as the normalisation stretch left them) and of what that region left. -/
import proofs.«180772_j89300960018653_1_alg».proof.Proof.Gen.KernelIdeal.Regions
import proofs.«180772_j89300960018653_1_alg».proof.Proof.Bridge.AggDef
import proofs.«180772_j89300960018653_1_alg».proof.Proof.Bridge.Keep
import Idealize.ShloMosaic.Lib.StableHlo.Run

noncomputable section

namespace Cert.Bridge

open Idealize.ShloMosaic Idealize.ShloMosaic.TcCoe Idealize.SL.Sem Idealize.ShloMosaic.StableHlo
open Cert.KernelIdeal Cert.KernelIdeal.Gen

variable {F : FTy → Type} [FloatOps F] [Named F]

/-- From any contents `V` of the buffers, the stretch's sixteen aggregation operations leave in the aggregated
    buffer the aggregation of `V`'s source indices, target indices, edge weights and features. -/
theorem agg3_after (V : Valuation τ sig (Elt F)) :
    after hostOps7 V (main_v106 : DevRef τ sig)
      = AGG (V (main_v3 : DevRef τ sig)) (V (main_v6 : DevRef τ sig)) (V (main_v34 : DevRef τ sig)) (V (main_v93 : DevRef τ sig)) := by
  after_results_simp
  rfl

variable (m : (ℓ : Loc nD τ sig) → Buf (Elt F) ℓ) (outs : Outs (F := F))

theorem agg3_eq (c : Dev nD) :
    V19 m outs c main_v106
      = AGG (V5 m c main_v3) (V5 m c main_v6) (V5 m c main_v34) (V18 m outs c main_v93) := by
  refine (agg3_after (V18 m outs c)).trans ?_
  rw [keep18_main_v3 m outs c, keep18_main_v6 m outs c, keep18_main_v34 m outs c]

end Cert.Bridge

end
-- ==== Proof.Bridge.Agg4.lean ====
/- The fifth edge aggregation on the kernel's side: the host operations after the region that wrote the
   features leave in the aggregated buffer the shared aggregation function of the source indices, the target
   indices and the edge weights (as the normalisation stretch left them) and of what that region left. -/
import proofs.«180772_j89300960018653_1_alg».proof.Proof.Gen.KernelIdeal.Regions
import proofs.«180772_j89300960018653_1_alg».proof.Proof.Bridge.AggDef
import proofs.«180772_j89300960018653_1_alg».proof.Proof.Bridge.Keep
import Idealize.ShloMosaic.Lib.StableHlo.Run

noncomputable section

namespace Cert.Bridge

open Idealize.ShloMosaic Idealize.ShloMosaic.TcCoe Idealize.SL.Sem Idealize.ShloMosaic.StableHlo
open Cert.KernelIdeal Cert.KernelIdeal.Gen

variable {F : FTy → Type} [FloatOps F] [Named F]

/-- From any contents `V` of the buffers, the stretch's sixteen aggregation operations leave in the aggregated
    buffer the aggregation of `V`'s source indices, target indices, edge weights and features. -/
theorem agg4_after (V : Valuation τ sig (Elt F)) :
    after hostOps9 V (main_v126 : DevRef τ sig)
      = AGG (V (main_v3 : DevRef τ sig)) (V (main_v6 : DevRef τ sig)) (V (main_v34 : DevRef τ sig)) (V (main_v113 : DevRef τ sig)) := by
  after_results_simp
  rfl

variable (m : (ℓ : Loc nD τ sig) → Buf (Elt F) ℓ) (outs : Outs (F := F))

theorem agg4_eq (c : Dev nD) :
    V23 m outs c main_v126
      = AGG (V5 m c main_v3) (V5 m c main_v6) (V5 m c main_v34) (V22 m outs c main_v113) := by
  refine (agg4_after (V22 m outs c)).trans ?_
  rw [keep22_main_v3 m outs c, keep22_main_v6 m outs c, keep22_main_v34 m outs c]

end Cert.Bridge

end
-- ==== Proof.Bridge.RefAgg.lean ====
/- The reference's five edge aggregations are the shared aggregation function of its own source indices, target
   indices, edge weights and of the matrix product feeding each: the sixteen operations of each stage, opened once. -/
import proofs.«180772_j89300960018653_1_alg».proof.Proof.Gen.ReferenceIdeal.Read
import proofs.«180772_j89300960018653_1_alg».proof.Proof.Bridge.AggDef

noncomputable section

namespace Cert.Bridge

open Idealize.ShloMosaic Idealize.SL.Sem
open Cert.ReferenceIdeal.Read

variable {F : FTy → Type} [FloatOps F]

theorem ref_agg0 (x0 : (⟨Cert.ReferenceIdeal.S50000x128, .f32⟩ : BufTy).Contents (Elt F)) (x1 : (⟨Cert.ReferenceIdeal.S2x600000, .i32⟩ : BufTy).Contents (Elt F)) (x2 : (⟨Cert.ReferenceIdeal.S600000, .f32⟩ : BufTy).Contents (Elt F)) (x3 : (⟨Cert.ReferenceIdeal.S128x128, .f32⟩ : BufTy).Contents (Elt F)) :
    val_main_v48 (F := F) x0 x1 x2 x3
      = AGG (val_main_v3 (F := F) x1) (val_main_v6 (F := F) x1) (val_main_v34 (F := F) x1 x2) (val_main_v35 (F := F) x0 x3) := by
  unfold val_main_v48 val_main_v46 val_main_cst_10 val_main_v47 val_main_v45 val_main_v42 val_main_v41 val_main_v40 val_main_v37 val_main_v36 val_main_c_8 val_main_v39 val_main_v38 val_main_c_9 val_main_v44 val_main_v43 AGG
  rfl

theorem ref_agg1 (x0 : (⟨Cert.ReferenceIdeal.S50000x128, .f32⟩ : BufTy).Contents (Elt F)) (x1 : (⟨Cert.ReferenceIdeal.S2x600000, .i32⟩ : BufTy).Contents (Elt F)) (x2 : (⟨Cert.ReferenceIdeal.S600000, .f32⟩ : BufTy).Contents (Elt F)) (x3 : (⟨Cert.ReferenceIdeal.S128x128, .f32⟩ : BufTy).Contents (Elt F)) (x4 : (⟨Cert.ReferenceIdeal.S128, .f32⟩ : BufTy).Contents (Elt F)) (x5 : (⟨Cert.ReferenceIdeal.S4x128x128, .f32⟩ : BufTy).Contents (Elt F)) :
    val_main_v70 (F := F) x0 x1 x2 x3 x4 x5
      = AGG (val_main_v3 (F := F) x1) (val_main_v6 (F := F) x1) (val_main_v34 (F := F) x1 x2) (val_main_v57 (F := F) x0 x1 x2 x3 x4 x5) := by
  unfold val_main_v70 val_main_v68 val_main_cst_13 val_main_v69 val_main_v67 val_main_v64 val_main_v63 val_main_v62 val_main_v59 val_main_v58 val_main_c_11 val_main_v61 val_main_v60 val_main_c_12 val_main_v66 val_main_v65 AGG
  rfl

theorem ref_agg2 (x0 : (⟨Cert.ReferenceIdeal.S50000x128, .f32⟩ : BufTy).Contents (Elt F)) (x1 : (⟨Cert.ReferenceIdeal.S2x600000, .i32⟩ : BufTy).Contents (Elt F)) (x2 : (⟨Cert.ReferenceIdeal.S600000, .f32⟩ : BufTy).Contents (Elt F)) (x3 : (⟨Cert.ReferenceIdeal.S128x128, .f32⟩ : BufTy).Contents (Elt F)) (x4 : (⟨Cert.ReferenceIdeal.S128, .f32⟩ : BufTy).Contents (Elt F)) (x5 : (⟨Cert.ReferenceIdeal.S4x128x128, .f32⟩ : BufTy).Contents (Elt F)) (x6 : (⟨Cert.ReferenceIdeal.S4x128, .f32⟩ : BufTy).Contents (Elt F)) :
    val_main_v93 (F := F) x0 x1 x2 x3 x4 x5 x6
      = AGG (val_main_v3 (F := F) x1) (val_main_v6 (F := F) x1) (val_main_v34 (F := F) x1 x2) (val_main_v80 (F := F) x0 x1 x2 x3 x4 x5 x6) := by
  unfold val_main_v93 val_main_v91 val_main_cst_16 val_main_v92 val_main_v90 val_main_v87 val_main_v86 val_main_v85 val_main_v82 val_main_v81 val_main_c_14 val_main_v84 val_main_v83 val_main_c_15 val_main_v89 val_main_v88 AGG
  rfl

theorem ref_agg3 (x0 : (⟨Cert.ReferenceIdeal.S50000x128, .f32⟩ : BufTy).Contents (Elt F)) (x1 : (⟨Cert.ReferenceIdeal.S2x600000, .i32⟩ : BufTy).Contents (Elt F)) (x2 : (⟨Cert.ReferenceIdeal.S600000, .f32⟩ : BufTy).Contents (Elt F)) (x3 : (⟨Cert.ReferenceIdeal.S128x128, .f32⟩ : BufTy).Contents (Elt F)) (x4 : (⟨Cert.ReferenceIdeal.S128, .f32⟩ : BufTy).Contents (Elt F)) (x5 : (⟨Cert.ReferenceIdeal.S4x128x128, .f32⟩ : BufTy).Contents (Elt F)) (x6 : (⟨Cert.ReferenceIdeal.S4x128, .f32⟩ : BufTy).Contents (Elt F)) :
    val_main_v116 (F := F) x0 x1 x2 x3 x4 x5 x6
      = AGG (val_main_v3 (F := F) x1) (val_main_v6 (F := F) x1) (val_main_v34 (F := F) x1 x2) (val_main_v103 (F := F) x0 x1 x2 x3 x4 x5 x6) := by
  unfold val_main_v116 val_main_v114 val_main_cst_19 val_main_v115 val_main_v113 val_main_v110 val_main_v109 val_main_v108 val_main_v105 val_main_v104 val_main_c_17 val_main_v107 val_main_v106 val_main_c_18 val_main_v112 val_main_v111 AGG
  rfl

theorem ref_agg4 (x0 : (⟨Cert.ReferenceIdeal.S50000x128, .f32⟩ : BufTy).Contents (Elt F)) (x1 : (⟨Cert.ReferenceIdeal.S2x600000, .i32⟩ : BufTy).Contents (Elt F)) (x2 : (⟨Cert.ReferenceIdeal.S600000, .f32⟩ : BufTy).Contents (Elt F)) (x3 : (⟨Cert.ReferenceIdeal.S128x128, .f32⟩ : BufTy).Contents (Elt F)) (x4 : (⟨Cert.ReferenceIdeal.S128, .f32⟩ : BufTy).Contents (Elt F)) (x5 : (⟨Cert.ReferenceIdeal.S4x128x128, .f32⟩ : BufTy).Contents (Elt F)) (x6 : (⟨Cert.ReferenceIdeal.S4x128, .f32⟩ : BufTy).Contents (Elt F)) :
    val_main_v139 (F := F) x0 x1 x2 x3 x4 x5 x6
      = AGG (val_main_v3 (F := F) x1) (val_main_v6 (F := F) x1) (val_main_v34 (F := F) x1 x2) (val_main_v126 (F := F) x0 x1 x2 x3 x4 x5 x6) := by
  unfold val_main_v139 val_main_v137 val_main_cst_22 val_main_v138 val_main_v136 val_main_v133 val_main_v132 val_main_v131 val_main_v128 val_main_v127 val_main_c_20 val_main_v130 val_main_v129 val_main_c_21 val_main_v135 val_main_v134 AGG
  rfl

end Cert.Bridge

end
-- ==== Proof.Bridge.Norm0.lean ====
/- The normalisation stretch, first part: the source indices, the target indices, the edge weights with the self
   loops appended, the node degrees and the two degree tests are, on the kernel's side, the reference's stages of
   the same names applied to the kernel's edge list and edge weights. -/
import proofs.«180772_j89300960018653_1_alg».proof.Proof.Gen.KernelIdeal.Regions
import proofs.«180772_j89300960018653_1_alg».proof.Proof.Gen.ReferenceIdeal.Read
import Idealize.ShloMosaic.Lib.StableHlo.Run

noncomputable section

namespace Cert.Bridge

open Idealize.ShloMosaic Idealize.ShloMosaic.TcCoe Idealize.SL.Sem Idealize.ShloMosaic.StableHlo
open Cert.KernelIdeal Cert.KernelIdeal.Gen Cert.ReferenceIdeal.Read

variable {F : FTy → Type} [FloatOps F] [Named F]

theorem n0_v3 (V : Valuation τ sig (Elt F)) :
    after hostOps0 V (main_v3 : DevRef τ sig) = val_main_v3 (F := F) (V (main_arg1 : DevRef τ sig)) := by
  after_results_simp
  unfold val_main_v3 val_main_v2 val_main_v1 val_main_v0
  rfl

theorem n0_v6 (V : Valuation τ sig (Elt F)) :
    after hostOps0 V (main_v6 : DevRef τ sig) = val_main_v6 (F := F) (V (main_arg1 : DevRef τ sig)) := by
  after_results_simp
  unfold val_main_v6 val_main_v5 val_main_v4 val_main_v0
  rfl

theorem n0_v8 (V : Valuation τ sig (Elt F)) :
    after hostOps0 V (main_v8 : DevRef τ sig) = val_main_v8 (F := F) (V (main_arg2 : DevRef τ sig)) := by
  after_results_simp
  unfold val_main_v8 val_main_v7 val_main_cst
  rfl

theorem n0_v11 (V : Valuation τ sig (Elt F)) :
    after hostOps0 V (main_v11 : DevRef τ sig) = val_main_v11 (F := F) (V (main_arg1 : DevRef τ sig)) (V (main_arg2 : DevRef τ sig)) := by
  after_results_simp
  unfold val_main_v11 val_main_v9 val_main_cst_0 val_main_v10 val_main_v6 val_main_v5 val_main_v4 val_main_v0 val_main_v8 val_main_v7 val_main_cst
  rfl

theorem n0_v13 (V : Valuation τ sig (Elt F)) :
    after hostOps0 V (main_v13 : DevRef τ sig) = val_main_v13 (F := F) (V (main_arg1 : DevRef τ sig)) (V (main_arg2 : DevRef τ sig)) := by
  after_results_simp
  unfold val_main_v13 val_main_v11 val_main_v9 val_main_cst_0 val_main_v10 val_main_v6 val_main_v5 val_main_v4 val_main_v0 val_main_v8 val_main_v7 val_main_cst val_main_v12 val_main_cst_1
  rfl

theorem n0_v15 (V : Valuation τ sig (Elt F)) :
    after hostOps0 V (main_v15 : DevRef τ sig) = val_main_v15 (F := F) (V (main_arg1 : DevRef τ sig)) (V (main_arg2 : DevRef τ sig)) := by
  after_results_simp
  unfold val_main_v15 val_main_v11 val_main_v9 val_main_cst_0 val_main_v10 val_main_v6 val_main_v5 val_main_v4 val_main_v0 val_main_v8 val_main_v7 val_main_cst val_main_v14 val_main_cst_2
  rfl

theorem n0_cst_3 (V : Valuation τ sig (Elt F)) :
    after hostOps0 V (main_cst_3 : DevRef τ sig) = val_main_cst_3 (F := F) := by
  after_results_simp
  unfold val_main_cst_3
  rfl

end Cert.Bridge

end
-- ==== Proof.Bridge.Norm.lean ====
/- The normalisation stretch, second part: the inverse square roots of the degrees (one where a degree is not
   positive before the root, zero after it) and the edge weights scaled by them at both ends are, on the kernel's
   side, the reference's stages of the same names applied to the kernel's edge list and edge weights; with the
   first part this identifies the source indices, the target indices and the normalised edge weights. -/
import proofs.«180772_j89300960018653_1_alg».proof.Proof.Gen.KernelIdeal.Regions
import proofs.«180772_j89300960018653_1_alg».proof.Proof.Gen.ReferenceIdeal.Read
import proofs.«180772_j89300960018653_1_alg».proof.Proof.Bridge.Norm0
import Idealize.ShloMosaic.Lib.StableHlo.Run

noncomputable section

namespace Cert.Bridge

open Idealize.ShloMosaic Idealize.ShloMosaic.TcCoe Idealize.SL.Sem Idealize.ShloMosaic.StableHlo
open Cert.KernelIdeal Cert.KernelIdeal.Gen Cert.ReferenceIdeal.Read

variable {F : FTy → Type} [FloatOps F] [Named F]

theorem n1_v16 (V : Valuation τ sig (Elt F)) (x1 : (⟨Cert.ReferenceIdeal.S2x600000, .i32⟩ : BufTy).Contents (Elt F)) (x2 : (⟨Cert.ReferenceIdeal.S600000, .f32⟩ : BufTy).Contents (Elt F))
    (h15 : (V (main_v15 : DevRef τ sig)) = val_main_v15 (F := F) x1 x2)
    (h11 : (V (main_v11 : DevRef τ sig)) = val_main_v11 (F := F) x1 x2)
    (hc : (V (main_cst_3 : DevRef τ sig)) = val_main_cst_3 (F := F)) :
    after hostOps0_1 V (main_v16 : DevRef τ sig) = val_main_v16 (F := F) x1 x2 := by
  after_results_simp
  rw [h15, h11, hc]
  unfold val_main_v16 val_main_call0_v1 val_main_call0_v0
  rfl

theorem n2_v17 (V : Valuation τ sig (Elt F)) (x1 : (⟨Cert.ReferenceIdeal.S2x600000, .i32⟩ : BufTy).Contents (Elt F)) (x2 : (⟨Cert.ReferenceIdeal.S600000, .f32⟩ : BufTy).Contents (Elt F))
    (h16 : (V (main_v16 : DevRef τ sig)) = val_main_v16 (F := F) x1 x2) :
    after hostOps0_2 V (main_v17 : DevRef τ sig) = val_main_v17 (F := F) x1 x2 := by
  after_results_simp
  rw [h16]
  unfold val_main_v17
  rfl

theorem n2_cst_4 (V : Valuation τ sig (Elt F)) :
    after hostOps0_2 V (main_cst_4 : DevRef τ sig) = val_main_cst_4 (F := F) := by
  after_results_simp
  unfold val_main_cst_4
  rfl

theorem n3_v18 (V : Valuation τ sig (Elt F)) (x1 : (⟨Cert.ReferenceIdeal.S2x600000, .i32⟩ : BufTy).Contents (Elt F)) (x2 : (⟨Cert.ReferenceIdeal.S600000, .f32⟩ : BufTy).Contents (Elt F))
    (h13 : (V (main_v13 : DevRef τ sig)) = val_main_v13 (F := F) x1 x2)
    (h17 : (V (main_v17 : DevRef τ sig)) = val_main_v17 (F := F) x1 x2)
    (hc : (V (main_cst_4 : DevRef τ sig)) = val_main_cst_4 (F := F)) :
    after hostOps0_3 V (main_v18 : DevRef τ sig) = val_main_v18 (F := F) x1 x2 := by
  after_results_simp
  rw [h13, h17, hc]
  unfold val_main_v18 val_main_call1_v1 val_main_call1_v0
  rfl

theorem n4_v34 (V : Valuation τ sig (Elt F)) (x1 : (⟨Cert.ReferenceIdeal.S2x600000, .i32⟩ : BufTy).Contents (Elt F)) (x2 : (⟨Cert.ReferenceIdeal.S600000, .f32⟩ : BufTy).Contents (Elt F))
    (h18 : (V (main_v18 : DevRef τ sig)) = val_main_v18 (F := F) x1 x2)
    (h3 : (V (main_v3 : DevRef τ sig)) = val_main_v3 (F := F) x1)
    (h6 : (V (main_v6 : DevRef τ sig)) = val_main_v6 (F := F) x1)
    (h8 : (V (main_v8 : DevRef τ sig)) = val_main_v8 (F := F) x2) :
    after hostOps0_4 V (main_v34 : DevRef τ sig) = val_main_v34 (F := F) x1 x2 := by
  after_results_simp
  rw [h18, h3, h6, h8]
  unfold val_main_v34 val_main_v26 val_main_v25 val_main_v24 val_main_v23 val_main_v20 val_main_v19 val_main_c val_main_v22 val_main_v21 val_main_c_5 val_main_v33 val_main_v32 val_main_v31 val_main_v28 val_main_v27 val_main_c_6 val_main_v30 val_main_v29 val_main_c_7
  rfl

variable (m : (ℓ : Loc nD τ sig) → Buf (Elt F) ℓ)

theorem e2_v16 (c : Dev nD) : V2 m c main_v16 = val_main_v16 (F := F) (V0 m c main_arg1) (V0 m c main_arg2) :=
  n1_v16 (V1 m c) _ _ (n0_v15 (V0 m c)) (n0_v11 (V0 m c)) (n0_cst_3 (V0 m c))

theorem e3_v17 (c : Dev nD) : V3 m c main_v17 = val_main_v17 (F := F) (V0 m c main_arg1) (V0 m c main_arg2) :=
  n2_v17 (V2 m c) _ _ (e2_v16 m c)

theorem e3_v13 (c : Dev nD) : V3 m c main_v13 = val_main_v13 (F := F) (V0 m c main_arg1) (V0 m c main_arg2) :=
  (V3_of m c main_v13 (by decide)).trans ((V2_of m c main_v13 (by decide)).trans (n0_v13 (V0 m c)))

theorem e4_v18 (c : Dev nD) : V4 m c main_v18 = val_main_v18 (F := F) (V0 m c main_arg1) (V0 m c main_arg2) :=
  n3_v18 (V3 m c) _ _ (e3_v13 m c) (e3_v17 m c) (n2_cst_4 (V2 m c))

theorem e4_v3 (c : Dev nD) : V4 m c main_v3 = val_main_v3 (F := F) (V0 m c main_arg1) :=
  (V4_of m c main_v3 (by decide)).trans ((V3_of m c main_v3 (by decide)).trans ((V2_of m c main_v3 (by decide)).trans (n0_v3 (V0 m c))))

theorem e4_v6 (c : Dev nD) : V4 m c main_v6 = val_main_v6 (F := F) (V0 m c main_arg1) :=
  (V4_of m c main_v6 (by decide)).trans ((V3_of m c main_v6 (by decide)).trans ((V2_of m c main_v6 (by decide)).trans (n0_v6 (V0 m c))))

theorem e4_v8 (c : Dev nD) : V4 m c main_v8 = val_main_v8 (F := F) (V0 m c main_arg2) :=
  (V4_of m c main_v8 (by decide)).trans ((V3_of m c main_v8 (by decide)).trans ((V2_of m c main_v8 (by decide)).trans (n0_v8 (V0 m c))))

/-- The source node of every edge (self loops appended), as the reference computes it from the same edge list. -/
theorem row_eq (c : Dev nD) : V5 m c main_v3 = val_main_v3 (F := F) (V0 m c main_arg1) :=
  (V5_of m c main_v3 (by decide)).trans (e4_v3 m c)

/-- The target node of every edge. -/
theorem col_eq (c : Dev nD) : V5 m c main_v6 = val_main_v6 (F := F) (V0 m c main_arg1) :=
  (V5_of m c main_v6 (by decide)).trans (e4_v6 m c)

/-- The symmetrically normalised weight of every edge. -/
theorem nrm_eq (c : Dev nD) : V5 m c main_v34 = val_main_v34 (F := F) (V0 m c main_arg1) (V0 m c main_arg2) :=
  n4_v34 (V4 m c) _ _ (e4_v18 m c) (e4_v3 m c) (e4_v6 m c) (e4_v8 m c)

end Cert.Bridge

end
-- ==== Proof.Bridge.Args.lean ====
/- No host stretch writes an argument array and no region may change one: at every item an argument reads as at
   launch. -/
import proofs.«180772_j89300960018653_1_alg».proof.Proof.Gen.KernelIdeal.Regions

noncomputable section

namespace Cert.Bridge

open Idealize.ShloMosaic Idealize.ShloMosaic.TcCoe Idealize.SL.Sem Idealize.ShloMosaic.StableHlo
open Cert.KernelIdeal Cert.KernelIdeal.Gen

variable {F : FTy → Type} [FloatOps F] [Named F]

variable (m : (ℓ : Loc nD τ sig) → Buf (Elt F) ℓ) (outs : Outs (F := F))

theorem arg0_at1 (c : Dev nD) : V1 m c main_arg0 = V0 m c main_arg0 := V1_of m c main_arg0 (by decide)
theorem arg0_at2 (c : Dev nD) : V2 m c main_arg0 = V0 m c main_arg0 := (V2_of m c main_arg0 (by decide)).trans (arg0_at1 m c)
theorem arg0_at3 (c : Dev nD) : V3 m c main_arg0 = V0 m c main_arg0 := (V3_of m c main_arg0 (by decide)).trans (arg0_at2 m c)
theorem arg0_at4 (c : Dev nD) : V4 m c main_arg0 = V0 m c main_arg0 := (V4_of m c main_arg0 (by decide)).trans (arg0_at3 m c)
theorem arg0_at5 (c : Dev nD) : V5 m c main_arg0 = V0 m c main_arg0 := (V5_of m c main_arg0 (by decide)).trans (arg0_at4 m c)
theorem arg0_at6 (c : Dev nD) : V6 m outs c main_arg0 = V0 m c main_arg0 := (V6_of m outs c main_arg0 (by decide)).trans (arg0_at5 m c)
theorem arg0_at7 (c : Dev nD) : V7 m outs c main_arg0 = V0 m c main_arg0 := (V7_of m outs c main_arg0 (by decide)).trans (arg0_at6 m outs c)
theorem arg0_at8 (c : Dev nD) : V8 m outs c main_arg0 = V0 m c main_arg0 := (V8_of m outs c main_arg0 (by decide)).trans (arg0_at7 m outs c)
theorem arg0_at9 (c : Dev nD) : V9 m outs c main_arg0 = V0 m c main_arg0 := (V9_of m outs c main_arg0 (by decide)).trans (arg0_at8 m outs c)
theorem arg0_at10 (c : Dev nD) : V10 m outs c main_arg0 = V0 m c main_arg0 := (V10_of m outs c main_arg0 (by decide)).trans (arg0_at9 m outs c)
theorem arg0_at11 (c : Dev nD) : V11 m outs c main_arg0 = V0 m c main_arg0 := (V11_of m outs c main_arg0 (by decide)).trans (arg0_at10 m outs c)
theorem arg0_at12 (c : Dev nD) : V12 m outs c main_arg0 = V0 m c main_arg0 := (V12_of m outs c main_arg0 (by decide)).trans (arg0_at11 m outs c)
theorem arg0_at13 (c : Dev nD) : V13 m outs c main_arg0 = V0 m c main_arg0 := (V13_of m outs c main_arg0 (by decide)).trans (arg0_at12 m outs c)
theorem arg0_at14 (c : Dev nD) : V14 m outs c main_arg0 = V0 m c main_arg0 := (V14_of m outs c main_arg0 (by decide)).trans (arg0_at13 m outs c)
theorem arg0_at15 (c : Dev nD) : V15 m outs c main_arg0 = V0 m c main_arg0 := (V15_of m outs c main_arg0 (by decide)).trans (arg0_at14 m outs c)
theorem arg0_at16 (c : Dev nD) : V16 m outs c main_arg0 = V0 m c main_arg0 := (V16_of m outs c main_arg0 (by decide)).trans (arg0_at15 m outs c)
theorem arg0_at17 (c : Dev nD) : V17 m outs c main_arg0 = V0 m c main_arg0 := (V17_of m outs c main_arg0 (by decide)).trans (arg0_at16 m outs c)
theorem arg0_at18 (c : Dev nD) : V18 m outs c main_arg0 = V0 m c main_arg0 := (V18_of m outs c main_arg0 (by decide)).trans (arg0_at17 m outs c)
theorem arg0_at19 (c : Dev nD) : V19 m outs c main_arg0 = V0 m c main_arg0 := (V19_of m outs c main_arg0 (by decide)).trans (arg0_at18 m outs c)
theorem arg0_at20 (c : Dev nD) : V20 m outs c main_arg0 = V0 m c main_arg0 := (V20_of m outs c main_arg0 (by decide)).trans (arg0_at19 m outs c)
theorem arg0_at21 (c : Dev nD) : V21 m outs c main_arg0 = V0 m c main_arg0 := (V21_of m outs c main_arg0 (by decide)).trans (arg0_at20 m outs c)
theorem arg0_at22 (c : Dev nD) : V22 m outs c main_arg0 = V0 m c main_arg0 := (V22_of m outs c main_arg0 (by decide)).trans (arg0_at21 m outs c)
theorem arg0_at23 (c : Dev nD) : V23 m outs c main_arg0 = V0 m c main_arg0 := (V23_of m outs c main_arg0 (by decide)).trans (arg0_at22 m outs c)
theorem arg0_at24 (c : Dev nD) : V24 m outs c main_arg0 = V0 m c main_arg0 := (V24_of m outs c main_arg0 (by decide)).trans (arg0_at23 m outs c)
theorem arg0_at25 (c : Dev nD) : V25 m outs c main_arg0 = V0 m c main_arg0 := (V25_of m outs c main_arg0 (by decide)).trans (arg0_at24 m outs c)

theorem arg1_at1 (c : Dev nD) : V1 m c main_arg1 = V0 m c main_arg1 := V1_of m c main_arg1 (by decide)
theorem arg1_at2 (c : Dev nD) : V2 m c main_arg1 = V0 m c main_arg1 := (V2_of m c main_arg1 (by decide)).trans (arg1_at1 m c)
theorem arg1_at3 (c : Dev nD) : V3 m c main_arg1 = V0 m c main_arg1 := (V3_of m c main_arg1 (by decide)).trans (arg1_at2 m c)
theorem arg1_at4 (c : Dev nD) : V4 m c main_arg1 = V0 m c main_arg1 := (V4_of m c main_arg1 (by decide)).trans (arg1_at3 m c)
theorem arg1_at5 (c : Dev nD) : V5 m c main_arg1 = V0 m c main_arg1 := (V5_of m c main_arg1 (by decide)).trans (arg1_at4 m c)
theorem arg1_at6 (c : Dev nD) : V6 m outs c main_arg1 = V0 m c main_arg1 := (V6_of m outs c main_arg1 (by decide)).trans (arg1_at5 m c)
theorem arg1_at7 (c : Dev nD) : V7 m outs c main_arg1 = V0 m c main_arg1 := (V7_of m outs c main_arg1 (by decide)).trans (arg1_at6 m outs c)
theorem arg1_at8 (c : Dev nD) : V8 m outs c main_arg1 = V0 m c main_arg1 := (V8_of m outs c main_arg1 (by decide)).trans (arg1_at7 m outs c)
theorem arg1_at9 (c : Dev nD) : V9 m outs c main_arg1 = V0 m c main_arg1 := (V9_of m outs c main_arg1 (by decide)).trans (arg1_at8 m outs c)
theorem arg1_at10 (c : Dev nD) : V10 m outs c main_arg1 = V0 m c main_arg1 := (V10_of m outs c main_arg1 (by decide)).trans (arg1_at9 m outs c)
theorem arg1_at11 (c : Dev nD) : V11 m outs c main_arg1 = V0 m c main_arg1 := (V11_of m outs c main_arg1 (by decide)).trans (arg1_at10 m outs c)
theorem arg1_at12 (c : Dev nD) : V12 m outs c main_arg1 = V0 m c main_arg1 := (V12_of m outs c main_arg1 (by decide)).trans (arg1_at11 m outs c)
theorem arg1_at13 (c : Dev nD) : V13 m outs c main_arg1 = V0 m c main_arg1 := (V13_of m outs c main_arg1 (by decide)).trans (arg1_at12 m outs c)
theorem arg1_at14 (c : Dev nD) : V14 m outs c main_arg1 = V0 m c main_arg1 := (V14_of m outs c main_arg1 (by decide)).trans (arg1_at13 m outs c)
theorem arg1_at15 (c : Dev nD) : V15 m outs c main_arg1 = V0 m c main_arg1 := (V15_of m outs c main_arg1 (by decide)).trans (arg1_at14 m outs c)
theorem arg1_at16 (c : Dev nD) : V16 m outs c main_arg1 = V0 m c main_arg1 := (V16_of m outs c main_arg1 (by decide)).trans (arg1_at15 m outs c)
theorem arg1_at17 (c : Dev nD) : V17 m outs c main_arg1 = V0 m c main_arg1 := (V17_of m outs c main_arg1 (by decide)).trans (arg1_at16 m outs c)
theorem arg1_at18 (c : Dev nD) : V18 m outs c main_arg1 = V0 m c main_arg1 := (V18_of m outs c main_arg1 (by decide)).trans (arg1_at17 m outs c)
theorem arg1_at19 (c : Dev nD) : V19 m outs c main_arg1 = V0 m c main_arg1 := (V19_of m outs c main_arg1 (by decide)).trans (arg1_at18 m outs c)
theorem arg1_at20 (c : Dev nD) : V20 m outs c main_arg1 = V0 m c main_arg1 := (V20_of m outs c main_arg1 (by decide)).trans (arg1_at19 m outs c)
theorem arg1_at21 (c : Dev nD) : V21 m outs c main_arg1 = V0 m c main_arg1 := (V21_of m outs c main_arg1 (by decide)).trans (arg1_at20 m outs c)
theorem arg1_at22 (c : Dev nD) : V22 m outs c main_arg1 = V0 m c main_arg1 := (V22_of m outs c main_arg1 (by decide)).trans (arg1_at21 m outs c)
theorem arg1_at23 (c : Dev nD) : V23 m outs c main_arg1 = V0 m c main_arg1 := (V23_of m outs c main_arg1 (by decide)).trans (arg1_at22 m outs c)
theorem arg1_at24 (c : Dev nD) : V24 m outs c main_arg1 = V0 m c main_arg1 := (V24_of m outs c main_arg1 (by decide)).trans (arg1_at23 m outs c)
theorem arg1_at25 (c : Dev nD) : V25 m outs c main_arg1 = V0 m c main_arg1 := (V25_of m outs c main_arg1 (by decide)).trans (arg1_at24 m outs c)

theorem arg2_at1 (c : Dev nD) : V1 m c main_arg2 = V0 m c main_arg2 := V1_of m c main_arg2 (by decide)
theorem arg2_at2 (c : Dev nD) : V2 m c main_arg2 = V0 m c main_arg2 := (V2_of m c main_arg2 (by decide)).trans (arg2_at1 m c)
theorem arg2_at3 (c : Dev nD) : V3 m c main_arg2 = V0 m c main_arg2 := (V3_of m c main_arg2 (by decide)).trans (arg2_at2 m c)
theorem arg2_at4 (c : Dev nD) : V4 m c main_arg2 = V0 m c main_arg2 := (V4_of m c main_arg2 (by decide)).trans (arg2_at3 m c)
theorem arg2_at5 (c : Dev nD) : V5 m c main_arg2 = V0 m c main_arg2 := (V5_of m c main_arg2 (by decide)).trans (arg2_at4 m c)
theorem arg2_at6 (c : Dev nD) : V6 m outs c main_arg2 = V0 m c main_arg2 := (V6_of m outs c main_arg2 (by decide)).trans (arg2_at5 m c)
theorem arg2_at7 (c : Dev nD) : V7 m outs c main_arg2 = V0 m c main_arg2 := (V7_of m outs c main_arg2 (by decide)).trans (arg2_at6 m outs c)
theorem arg2_at8 (c : Dev nD) : V8 m outs c main_arg2 = V0 m c main_arg2 := (V8_of m outs c main_arg2 (by decide)).trans (arg2_at7 m outs c)
theorem arg2_at9 (c : Dev nD) : V9 m outs c main_arg2 = V0 m c main_arg2 := (V9_of m outs c main_arg2 (by decide)).trans (arg2_at8 m outs c)
theorem arg2_at10 (c : Dev nD) : V10 m outs c main_arg2 = V0 m c main_arg2 := (V10_of m outs c main_arg2 (by decide)).trans (arg2_at9 m outs c)
theorem arg2_at11 (c : Dev nD) : V11 m outs c main_arg2 = V0 m c main_arg2 := (V11_of m outs c main_arg2 (by decide)).trans (arg2_at10 m outs c)
theorem arg2_at12 (c : Dev nD) : V12 m outs c main_arg2 = V0 m c main_arg2 := (V12_of m outs c main_arg2 (by decide)).trans (arg2_at11 m outs c)
theorem arg2_at13 (c : Dev nD) : V13 m outs c main_arg2 = V0 m c main_arg2 := (V13_of m outs c main_arg2 (by decide)).trans (arg2_at12 m outs c)
theorem arg2_at14 (c : Dev nD) : V14 m outs c main_arg2 = V0 m c main_arg2 := (V14_of m outs c main_arg2 (by decide)).trans (arg2_at13 m outs c)
theorem arg2_at15 (c : Dev nD) : V15 m outs c main_arg2 = V0 m c main_arg2 := (V15_of m outs c main_arg2 (by decide)).trans (arg2_at14 m outs c)
theorem arg2_at16 (c : Dev nD) : V16 m outs c main_arg2 = V0 m c main_arg2 := (V16_of m outs c main_arg2 (by decide)).trans (arg2_at15 m outs c)
theorem arg2_at17 (c : Dev nD) : V17 m outs c main_arg2 = V0 m c main_arg2 := (V17_of m outs c main_arg2 (by decide)).trans (arg2_at16 m outs c)
theorem arg2_at18 (c : Dev nD) : V18 m outs c main_arg2 = V0 m c main_arg2 := (V18_of m outs c main_arg2 (by decide)).trans (arg2_at17 m outs c)
theorem arg2_at19 (c : Dev nD) : V19 m outs c main_arg2 = V0 m c main_arg2 := (V19_of m outs c main_arg2 (by decide)).trans (arg2_at18 m outs c)
theorem arg2_at20 (c : Dev nD) : V20 m outs c main_arg2 = V0 m c main_arg2 := (V20_of m outs c main_arg2 (by decide)).trans (arg2_at19 m outs c)
theorem arg2_at21 (c : Dev nD) : V21 m outs c main_arg2 = V0 m c main_arg2 := (V21_of m outs c main_arg2 (by decide)).trans (arg2_at20 m outs c)
theorem arg2_at22 (c : Dev nD) : V22 m outs c main_arg2 = V0 m c main_arg2 := (V22_of m outs c main_arg2 (by decide)).trans (arg2_at21 m outs c)
theorem arg2_at23 (c : Dev nD) : V23 m outs c main_arg2 = V0 m c main_arg2 := (V23_of m outs c main_arg2 (by decide)).trans (arg2_at22 m outs c)
theorem arg2_at24 (c : Dev nD) : V24 m outs c main_arg2 = V0 m c main_arg2 := (V24_of m outs c main_arg2 (by decide)).trans (arg2_at23 m outs c)
theorem arg2_at25 (c : Dev nD) : V25 m outs c main_arg2 = V0 m c main_arg2 := (V25_of m outs c main_arg2 (by decide)).trans (arg2_at24 m outs c)

theorem arg3_at1 (c : Dev nD) : V1 m c main_arg3 = V0 m c main_arg3 := V1_of m c main_arg3 (by decide)
theorem arg3_at2 (c : Dev nD) : V2 m c main_arg3 = V0 m c main_arg3 := (V2_of m c main_arg3 (by decide)).trans (arg3_at1 m c)
theorem arg3_at3 (c : Dev nD) : V3 m c main_arg3 = V0 m c main_arg3 := (V3_of m c main_arg3 (by decide)).trans (arg3_at2 m c)
theorem arg3_at4 (c : Dev nD) : V4 m c main_arg3 = V0 m c main_arg3 := (V4_of m c main_arg3 (by decide)).trans (arg3_at3 m c)
theorem arg3_at5 (c : Dev nD) : V5 m c main_arg3 = V0 m c main_arg3 := (V5_of m c main_arg3 (by decide)).trans (arg3_at4 m c)
theorem arg3_at6 (c : Dev nD) : V6 m outs c main_arg3 = V0 m c main_arg3 := (V6_of m outs c main_arg3 (by decide)).trans (arg3_at5 m c)
theorem arg3_at7 (c : Dev nD) : V7 m outs c main_arg3 = V0 m c main_arg3 := (V7_of m outs c main_arg3 (by decide)).trans (arg3_at6 m outs c)
theorem arg3_at8 (c : Dev nD) : V8 m outs c main_arg3 = V0 m c main_arg3 := (V8_of m outs c main_arg3 (by decide)).trans (arg3_at7 m outs c)
theorem arg3_at9 (c : Dev nD) : V9 m outs c main_arg3 = V0 m c main_arg3 := (V9_of m outs c main_arg3 (by decide)).trans (arg3_at8 m outs c)
theorem arg3_at10 (c : Dev nD) : V10 m outs c main_arg3 = V0 m c main_arg3 := (V10_of m outs c main_arg3 (by decide)).trans (arg3_at9 m outs c)
theorem arg3_at11 (c : Dev nD) : V11 m outs c main_arg3 = V0 m c main_arg3 := (V11_of m outs c main_arg3 (by decide)).trans (arg3_at10 m outs c)
theorem arg3_at12 (c : Dev nD) : V12 m outs c main_arg3 = V0 m c main_arg3 := (V12_of m outs c main_arg3 (by decide)).trans (arg3_at11 m outs c)
theorem arg3_at13 (c : Dev nD) : V13 m outs c main_arg3 = V0 m c main_arg3 := (V13_of m outs c main_arg3 (by decide)).trans (arg3_at12 m outs c)
theorem arg3_at14 (c : Dev nD) : V14 m outs c main_arg3 = V0 m c main_arg3 := (V14_of m outs c main_arg3 (by decide)).trans (arg3_at13 m outs c)
theorem arg3_at15 (c : Dev nD) : V15 m outs c main_arg3 = V0 m c main_arg3 := (V15_of m outs c main_arg3 (by decide)).trans (arg3_at14 m outs c)
theorem arg3_at16 (c : Dev nD) : V16 m outs c main_arg3 = V0 m c main_arg3 := (V16_of m outs c main_arg3 (by decide)).trans (arg3_at15 m outs c)
theorem arg3_at17 (c : Dev nD) : V17 m outs c main_arg3 = V0 m c main_arg3 := (V17_of m outs c main_arg3 (by decide)).trans (arg3_at16 m outs c)
theorem arg3_at18 (c : Dev nD) : V18 m outs c main_arg3 = V0 m c main_arg3 := (V18_of m outs c main_arg3 (by decide)).trans (arg3_at17 m outs c)
theorem arg3_at19 (c : Dev nD) : V19 m outs c main_arg3 = V0 m c main_arg3 := (V19_of m outs c main_arg3 (by decide)).trans (arg3_at18 m outs c)
theorem arg3_at20 (c : Dev nD) : V20 m outs c main_arg3 = V0 m c main_arg3 := (V20_of m outs c main_arg3 (by decide)).trans (arg3_at19 m outs c)
theorem arg3_at21 (c : Dev nD) : V21 m outs c main_arg3 = V0 m c main_arg3 := (V21_of m outs c main_arg3 (by decide)).trans (arg3_at20 m outs c)
theorem arg3_at22 (c : Dev nD) : V22 m outs c main_arg3 = V0 m c main_arg3 := (V22_of m outs c main_arg3 (by decide)).trans (arg3_at21 m outs c)
theorem arg3_at23 (c : Dev nD) : V23 m outs c main_arg3 = V0 m c main_arg3 := (V23_of m outs c main_arg3 (by decide)).trans (arg3_at22 m outs c)
theorem arg3_at24 (c : Dev nD) : V24 m outs c main_arg3 = V0 m c main_arg3 := (V24_of m outs c main_arg3 (by decide)).trans (arg3_at23 m outs c)
theorem arg3_at25 (c : Dev nD) : V25 m outs c main_arg3 = V0 m c main_arg3 := (V25_of m outs c main_arg3 (by decide)).trans (arg3_at24 m outs c)

theorem arg4_at1 (c : Dev nD) : V1 m c main_arg4 = V0 m c main_arg4 := V1_of m c main_arg4 (by decide)
theorem arg4_at2 (c : Dev nD) : V2 m c main_arg4 = V0 m c main_arg4 := (V2_of m c main_arg4 (by decide)).trans (arg4_at1 m c)
theorem arg4_at3 (c : Dev nD) : V3 m c main_arg4 = V0 m c main_arg4 := (V3_of m c main_arg4 (by decide)).trans (arg4_at2 m c)
theorem arg4_at4 (c : Dev nD) : V4 m c main_arg4 = V0 m c main_arg4 := (V4_of m c main_arg4 (by decide)).trans (arg4_at3 m c)
theorem arg4_at5 (c : Dev nD) : V5 m c main_arg4 = V0 m c main_arg4 := (V5_of m c main_arg4 (by decide)).trans (arg4_at4 m c)
theorem arg4_at6 (c : Dev nD) : V6 m outs c main_arg4 = V0 m c main_arg4 := (V6_of m outs c main_arg4 (by decide)).trans (arg4_at5 m c)
theorem arg4_at7 (c : Dev nD) : V7 m outs c main_arg4 = V0 m c main_arg4 := (V7_of m outs c main_arg4 (by decide)).trans (arg4_at6 m outs c)
theorem arg4_at8 (c : Dev nD) : V8 m outs c main_arg4 = V0 m c main_arg4 := (V8_of m outs c main_arg4 (by decide)).trans (arg4_at7 m outs c)
theorem arg4_at9 (c : Dev nD) : V9 m outs c main_arg4 = V0 m c main_arg4 := (V9_of m outs c main_arg4 (by decide)).trans (arg4_at8 m outs c)
theorem arg4_at10 (c : Dev nD) : V10 m outs c main_arg4 = V0 m c main_arg4 := (V10_of m outs c main_arg4 (by decide)).trans (arg4_at9 m outs c)
theorem arg4_at11 (c : Dev nD) : V11 m outs c main_arg4 = V0 m c main_arg4 := (V11_of m outs c main_arg4 (by decide)).trans (arg4_at10 m outs c)
theorem arg4_at12 (c : Dev nD) : V12 m outs c main_arg4 = V0 m c main_arg4 := (V12_of m outs c main_arg4 (by decide)).trans (arg4_at11 m outs c)
theorem arg4_at13 (c : Dev nD) : V13 m outs c main_arg4 = V0 m c main_arg4 := (V13_of m outs c main_arg4 (by decide)).trans (arg4_at12 m outs c)
theorem arg4_at14 (c : Dev nD) : V14 m outs c main_arg4 = V0 m c main_arg4 := (V14_of m outs c main_arg4 (by decide)).trans (arg4_at13 m outs c)
theorem arg4_at15 (c : Dev nD) : V15 m outs c main_arg4 = V0 m c main_arg4 := (V15_of m outs c main_arg4 (by decide)).trans (arg4_at14 m outs c)
theorem arg4_at16 (c : Dev nD) : V16 m outs c main_arg4 = V0 m c main_arg4 := (V16_of m outs c main_arg4 (by decide)).trans (arg4_at15 m outs c)
theorem arg4_at17 (c : Dev nD) : V17 m outs c main_arg4 = V0 m c main_arg4 := (V17_of m outs c main_arg4 (by decide)).trans (arg4_at16 m outs c)
theorem arg4_at18 (c : Dev nD) : V18 m outs c main_arg4 = V0 m c main_arg4 := (V18_of m outs c main_arg4 (by decide)).trans (arg4_at17 m outs c)
theorem arg4_at19 (c : Dev nD) : V19 m outs c main_arg4 = V0 m c main_arg4 := (V19_of m outs c main_arg4 (by decide)).trans (arg4_at18 m outs c)
theorem arg4_at20 (c : Dev nD) : V20 m outs c main_arg4 = V0 m c main_arg4 := (V20_of m outs c main_arg4 (by decide)).trans (arg4_at19 m outs c)
theorem arg4_at21 (c : Dev nD) : V21 m outs c main_arg4 = V0 m c main_arg4 := (V21_of m outs c main_arg4 (by decide)).trans (arg4_at20 m outs c)
theorem arg4_at22 (c : Dev nD) : V22 m outs c main_arg4 = V0 m c main_arg4 := (V22_of m outs c main_arg4 (by decide)).trans (arg4_at21 m outs c)
theorem arg4_at23 (c : Dev nD) : V23 m outs c main_arg4 = V0 m c main_arg4 := (V23_of m outs c main_arg4 (by decide)).trans (arg4_at22 m outs c)
theorem arg4_at24 (c : Dev nD) : V24 m outs c main_arg4 = V0 m c main_arg4 := (V24_of m outs c main_arg4 (by decide)).trans (arg4_at23 m outs c)
theorem arg4_at25 (c : Dev nD) : V25 m outs c main_arg4 = V0 m c main_arg4 := (V25_of m outs c main_arg4 (by decide)).trans (arg4_at24 m outs c)

theorem arg5_at1 (c : Dev nD) : V1 m c main_arg5 = V0 m c main_arg5 := V1_of m c main_arg5 (by decide)
theorem arg5_at2 (c : Dev nD) : V2 m c main_arg5 = V0 m c main_arg5 := (V2_of m c main_arg5 (by decide)).trans (arg5_at1 m c)
theorem arg5_at3 (c : Dev nD) : V3 m c main_arg5 = V0 m c main_arg5 := (V3_of m c main_arg5 (by decide)).trans (arg5_at2 m c)
theorem arg5_at4 (c : Dev nD) : V4 m c main_arg5 = V0 m c main_arg5 := (V4_of m c main_arg5 (by decide)).trans (arg5_at3 m c)
theorem arg5_at5 (c : Dev nD) : V5 m c main_arg5 = V0 m c main_arg5 := (V5_of m c main_arg5 (by decide)).trans (arg5_at4 m c)
theorem arg5_at6 (c : Dev nD) : V6 m outs c main_arg5 = V0 m c main_arg5 := (V6_of m outs c main_arg5 (by decide)).trans (arg5_at5 m c)
theorem arg5_at7 (c : Dev nD) : V7 m outs c main_arg5 = V0 m c main_arg5 := (V7_of m outs c main_arg5 (by decide)).trans (arg5_at6 m outs c)
theorem arg5_at8 (c : Dev nD) : V8 m outs c main_arg5 = V0 m c main_arg5 := (V8_of m outs c main_arg5 (by decide)).trans (arg5_at7 m outs c)
theorem arg5_at9 (c : Dev nD) : V9 m outs c main_arg5 = V0 m c main_arg5 := (V9_of m outs c main_arg5 (by decide)).trans (arg5_at8 m outs c)
theorem arg5_at10 (c : Dev nD) : V10 m outs c main_arg5 = V0 m c main_arg5 := (V10_of m outs c main_arg5 (by decide)).trans (arg5_at9 m outs c)
theorem arg5_at11 (c : Dev nD) : V11 m outs c main_arg5 = V0 m c main_arg5 := (V11_of m outs c main_arg5 (by decide)).trans (arg5_at10 m outs c)
theorem arg5_at12 (c : Dev nD) : V12 m outs c main_arg5 = V0 m c main_arg5 := (V12_of m outs c main_arg5 (by decide)).trans (arg5_at11 m outs c)
theorem arg5_at13 (c : Dev nD) : V13 m outs c main_arg5 = V0 m c main_arg5 := (V13_of m outs c main_arg5 (by decide)).trans (arg5_at12 m outs c)
theorem arg5_at14 (c : Dev nD) : V14 m outs c main_arg5 = V0 m c main_arg5 := (V14_of m outs c main_arg5 (by decide)).trans (arg5_at13 m outs c)
theorem arg5_at15 (c : Dev nD) : V15 m outs c main_arg5 = V0 m c main_arg5 := (V15_of m outs c main_arg5 (by decide)).trans (arg5_at14 m outs c)
theorem arg5_at16 (c : Dev nD) : V16 m outs c main_arg5 = V0 m c main_arg5 := (V16_of m outs c main_arg5 (by decide)).trans (arg5_at15 m outs c)
theorem arg5_at17 (c : Dev nD) : V17 m outs c main_arg5 = V0 m c main_arg5 := (V17_of m outs c main_arg5 (by decide)).trans (arg5_at16 m outs c)
theorem arg5_at18 (c : Dev nD) : V18 m outs c main_arg5 = V0 m c main_arg5 := (V18_of m outs c main_arg5 (by decide)).trans (arg5_at17 m outs c)
theorem arg5_at19 (c : Dev nD) : V19 m outs c main_arg5 = V0 m c main_arg5 := (V19_of m outs c main_arg5 (by decide)).trans (arg5_at18 m outs c)
theorem arg5_at20 (c : Dev nD) : V20 m outs c main_arg5 = V0 m c main_arg5 := (V20_of m outs c main_arg5 (by decide)).trans (arg5_at19 m outs c)
theorem arg5_at21 (c : Dev nD) : V21 m outs c main_arg5 = V0 m c main_arg5 := (V21_of m outs c main_arg5 (by decide)).trans (arg5_at20 m outs c)
theorem arg5_at22 (c : Dev nD) : V22 m outs c main_arg5 = V0 m c main_arg5 := (V22_of m outs c main_arg5 (by decide)).trans (arg5_at21 m outs c)
theorem arg5_at23 (c : Dev nD) : V23 m outs c main_arg5 = V0 m c main_arg5 := (V23_of m outs c main_arg5 (by decide)).trans (arg5_at22 m outs c)
theorem arg5_at24 (c : Dev nD) : V24 m outs c main_arg5 = V0 m c main_arg5 := (V24_of m outs c main_arg5 (by decide)).trans (arg5_at23 m outs c)
theorem arg5_at25 (c : Dev nD) : V25 m outs c main_arg5 = V0 m c main_arg5 := (V25_of m outs c main_arg5 (by decide)).trans (arg5_at24 m outs c)

theorem arg6_at1 (c : Dev nD) : V1 m c main_arg6 = V0 m c main_arg6 := V1_of m c main_arg6 (by decide)
theorem arg6_at2 (c : Dev nD) : V2 m c main_arg6 = V0 m c main_arg6 := (V2_of m c main_arg6 (by decide)).trans (arg6_at1 m c)
theorem arg6_at3 (c : Dev nD) : V3 m c main_arg6 = V0 m c main_arg6 := (V3_of m c main_arg6 (by decide)).trans (arg6_at2 m c)
theorem arg6_at4 (c : Dev nD) : V4 m c main_arg6 = V0 m c main_arg6 := (V4_of m c main_arg6 (by decide)).trans (arg6_at3 m c)
theorem arg6_at5 (c : Dev nD) : V5 m c main_arg6 = V0 m c main_arg6 := (V5_of m c main_arg6 (by decide)).trans (arg6_at4 m c)
theorem arg6_at6 (c : Dev nD) : V6 m outs c main_arg6 = V0 m c main_arg6 := (V6_of m outs c main_arg6 (by decide)).trans (arg6_at5 m c)
theorem arg6_at7 (c : Dev nD) : V7 m outs c main_arg6 = V0 m c main_arg6 := (V7_of m outs c main_arg6 (by decide)).trans (arg6_at6 m outs c)
theorem arg6_at8 (c : Dev nD) : V8 m outs c main_arg6 = V0 m c main_arg6 := (V8_of m outs c main_arg6 (by decide)).trans (arg6_at7 m outs c)
theorem arg6_at9 (c : Dev nD) : V9 m outs c main_arg6 = V0 m c main_arg6 := (V9_of m outs c main_arg6 (by decide)).trans (arg6_at8 m outs c)
theorem arg6_at10 (c : Dev nD) : V10 m outs c main_arg6 = V0 m c main_arg6 := (V10_of m outs c main_arg6 (by decide)).trans (arg6_at9 m outs c)
theorem arg6_at11 (c : Dev nD) : V11 m outs c main_arg6 = V0 m c main_arg6 := (V11_of m outs c main_arg6 (by decide)).trans (arg6_at10 m outs c)
theorem arg6_at12 (c : Dev nD) : V12 m outs c main_arg6 = V0 m c main_arg6 := (V12_of m outs c main_arg6 (by decide)).trans (arg6_at11 m outs c)
theorem arg6_at13 (c : Dev nD) : V13 m outs c main_arg6 = V0 m c main_arg6 := (V13_of m outs c main_arg6 (by decide)).trans (arg6_at12 m outs c)
theorem arg6_at14 (c : Dev nD) : V14 m outs c main_arg6 = V0 m c main_arg6 := (V14_of m outs c main_arg6 (by decide)).trans (arg6_at13 m outs c)
theorem arg6_at15 (c : Dev nD) : V15 m outs c main_arg6 = V0 m c main_arg6 := (V15_of m outs c main_arg6 (by decide)).trans (arg6_at14 m outs c)
theorem arg6_at16 (c : Dev nD) : V16 m outs c main_arg6 = V0 m c main_arg6 := (V16_of m outs c main_arg6 (by decide)).trans (arg6_at15 m outs c)
theorem arg6_at17 (c : Dev nD) : V17 m outs c main_arg6 = V0 m c main_arg6 := (V17_of m outs c main_arg6 (by decide)).trans (arg6_at16 m outs c)
theorem arg6_at18 (c : Dev nD) : V18 m outs c main_arg6 = V0 m c main_arg6 := (V18_of m outs c main_arg6 (by decide)).trans (arg6_at17 m outs c)
theorem arg6_at19 (c : Dev nD) : V19 m outs c main_arg6 = V0 m c main_arg6 := (V19_of m outs c main_arg6 (by decide)).trans (arg6_at18 m outs c)
theorem arg6_at20 (c : Dev nD) : V20 m outs c main_arg6 = V0 m c main_arg6 := (V20_of m outs c main_arg6 (by decide)).trans (arg6_at19 m outs c)
theorem arg6_at21 (c : Dev nD) : V21 m outs c main_arg6 = V0 m c main_arg6 := (V21_of m outs c main_arg6 (by decide)).trans (arg6_at20 m outs c)
theorem arg6_at22 (c : Dev nD) : V22 m outs c main_arg6 = V0 m c main_arg6 := (V22_of m outs c main_arg6 (by decide)).trans (arg6_at21 m outs c)
theorem arg6_at23 (c : Dev nD) : V23 m outs c main_arg6 = V0 m c main_arg6 := (V23_of m outs c main_arg6 (by decide)).trans (arg6_at22 m outs c)
theorem arg6_at24 (c : Dev nD) : V24 m outs c main_arg6 = V0 m c main_arg6 := (V24_of m outs c main_arg6 (by decide)).trans (arg6_at23 m outs c)
theorem arg6_at25 (c : Dev nD) : V25 m outs c main_arg6 = V0 m c main_arg6 := (V25_of m outs c main_arg6 (by decide)).trans (arg6_at24 m outs c)

theorem arg7_at1 (c : Dev nD) : V1 m c main_arg7 = V0 m c main_arg7 := V1_of m c main_arg7 (by decide)
theorem arg7_at2 (c : Dev nD) : V2 m c main_arg7 = V0 m c main_arg7 := (V2_of m c main_arg7 (by decide)).trans (arg7_at1 m c)
theorem arg7_at3 (c : Dev nD) : V3 m c main_arg7 = V0 m c main_arg7 := (V3_of m c main_arg7 (by decide)).trans (arg7_at2 m c)
theorem arg7_at4 (c : Dev nD) : V4 m c main_arg7 = V0 m c main_arg7 := (V4_of m c main_arg7 (by decide)).trans (arg7_at3 m c)
theorem arg7_at5 (c : Dev nD) : V5 m c main_arg7 = V0 m c main_arg7 := (V5_of m c main_arg7 (by decide)).trans (arg7_at4 m c)
theorem arg7_at6 (c : Dev nD) : V6 m outs c main_arg7 = V0 m c main_arg7 := (V6_of m outs c main_arg7 (by decide)).trans (arg7_at5 m c)
theorem arg7_at7 (c : Dev nD) : V7 m outs c main_arg7 = V0 m c main_arg7 := (V7_of m outs c main_arg7 (by decide)).trans (arg7_at6 m outs c)
theorem arg7_at8 (c : Dev nD) : V8 m outs c main_arg7 = V0 m c main_arg7 := (V8_of m outs c main_arg7 (by decide)).trans (arg7_at7 m outs c)
theorem arg7_at9 (c : Dev nD) : V9 m outs c main_arg7 = V0 m c main_arg7 := (V9_of m outs c main_arg7 (by decide)).trans (arg7_at8 m outs c)
theorem arg7_at10 (c : Dev nD) : V10 m outs c main_arg7 = V0 m c main_arg7 := (V10_of m outs c main_arg7 (by decide)).trans (arg7_at9 m outs c)
theorem arg7_at11 (c : Dev nD) : V11 m outs c main_arg7 = V0 m c main_arg7 := (V11_of m outs c main_arg7 (by decide)).trans (arg7_at10 m outs c)
theorem arg7_at12 (c : Dev nD) : V12 m outs c main_arg7 = V0 m c main_arg7 := (V12_of m outs c main_arg7 (by decide)).trans (arg7_at11 m outs c)
theorem arg7_at13 (c : Dev nD) : V13 m outs c main_arg7 = V0 m c main_arg7 := (V13_of m outs c main_arg7 (by decide)).trans (arg7_at12 m outs c)
theorem arg7_at14 (c : Dev nD) : V14 m outs c main_arg7 = V0 m c main_arg7 := (V14_of m outs c main_arg7 (by decide)).trans (arg7_at13 m outs c)
theorem arg7_at15 (c : Dev nD) : V15 m outs c main_arg7 = V0 m c main_arg7 := (V15_of m outs c main_arg7 (by decide)).trans (arg7_at14 m outs c)
theorem arg7_at16 (c : Dev nD) : V16 m outs c main_arg7 = V0 m c main_arg7 := (V16_of m outs c main_arg7 (by decide)).trans (arg7_at15 m outs c)
theorem arg7_at17 (c : Dev nD) : V17 m outs c main_arg7 = V0 m c main_arg7 := (V17_of m outs c main_arg7 (by decide)).trans (arg7_at16 m outs c)
theorem arg7_at18 (c : Dev nD) : V18 m outs c main_arg7 = V0 m c main_arg7 := (V18_of m outs c main_arg7 (by decide)).trans (arg7_at17 m outs c)
theorem arg7_at19 (c : Dev nD) : V19 m outs c main_arg7 = V0 m c main_arg7 := (V19_of m outs c main_arg7 (by decide)).trans (arg7_at18 m outs c)
theorem arg7_at20 (c : Dev nD) : V20 m outs c main_arg7 = V0 m c main_arg7 := (V20_of m outs c main_arg7 (by decide)).trans (arg7_at19 m outs c)
theorem arg7_at21 (c : Dev nD) : V21 m outs c main_arg7 = V0 m c main_arg7 := (V21_of m outs c main_arg7 (by decide)).trans (arg7_at20 m outs c)
theorem arg7_at22 (c : Dev nD) : V22 m outs c main_arg7 = V0 m c main_arg7 := (V22_of m outs c main_arg7 (by decide)).trans (arg7_at21 m outs c)
theorem arg7_at23 (c : Dev nD) : V23 m outs c main_arg7 = V0 m c main_arg7 := (V23_of m outs c main_arg7 (by decide)).trans (arg7_at22 m outs c)
theorem arg7_at24 (c : Dev nD) : V24 m outs c main_arg7 = V0 m c main_arg7 := (V24_of m outs c main_arg7 (by decide)).trans (arg7_at23 m outs c)
theorem arg7_at25 (c : Dev nD) : V25 m outs c main_arg7 = V0 m c main_arg7 := (V25_of m outs c main_arg7 (by decide)).trans (arg7_at24 m outs c)

theorem arg8_at1 (c : Dev nD) : V1 m c main_arg8 = V0 m c main_arg8 := V1_of m c main_arg8 (by decide)
theorem arg8_at2 (c : Dev nD) : V2 m c main_arg8 = V0 m c main_arg8 := (V2_of m c main_arg8 (by decide)).trans (arg8_at1 m c)
theorem arg8_at3 (c : Dev nD) : V3 m c main_arg8 = V0 m c main_arg8 := (V3_of m c main_arg8 (by decide)).trans (arg8_at2 m c)
theorem arg8_at4 (c : Dev nD) : V4 m c main_arg8 = V0 m c main_arg8 := (V4_of m c main_arg8 (by decide)).trans (arg8_at3 m c)
theorem arg8_at5 (c : Dev nD) : V5 m c main_arg8 = V0 m c main_arg8 := (V5_of m c main_arg8 (by decide)).trans (arg8_at4 m c)
theorem arg8_at6 (c : Dev nD) : V6 m outs c main_arg8 = V0 m c main_arg8 := (V6_of m outs c main_arg8 (by decide)).trans (arg8_at5 m c)
theorem arg8_at7 (c : Dev nD) : V7 m outs c main_arg8 = V0 m c main_arg8 := (V7_of m outs c main_arg8 (by decide)).trans (arg8_at6 m outs c)
theorem arg8_at8 (c : Dev nD) : V8 m outs c main_arg8 = V0 m c main_arg8 := (V8_of m outs c main_arg8 (by decide)).trans (arg8_at7 m outs c)
theorem arg8_at9 (c : Dev nD) : V9 m outs c main_arg8 = V0 m c main_arg8 := (V9_of m outs c main_arg8 (by decide)).trans (arg8_at8 m outs c)
theorem arg8_at10 (c : Dev nD) : V10 m outs c main_arg8 = V0 m c main_arg8 := (V10_of m outs c main_arg8 (by decide)).trans (arg8_at9 m outs c)
theorem arg8_at11 (c : Dev nD) : V11 m outs c main_arg8 = V0 m c main_arg8 := (V11_of m outs c main_arg8 (by decide)).trans (arg8_at10 m outs c)
theorem arg8_at12 (c : Dev nD) : V12 m outs c main_arg8 = V0 m c main_arg8 := (V12_of m outs c main_arg8 (by decide)).trans (arg8_at11 m outs c)
theorem arg8_at13 (c : Dev nD) : V13 m outs c main_arg8 = V0 m c main_arg8 := (V13_of m outs c main_arg8 (by decide)).trans (arg8_at12 m outs c)
theorem arg8_at14 (c : Dev nD) : V14 m outs c main_arg8 = V0 m c main_arg8 := (V14_of m outs c main_arg8 (by decide)).trans (arg8_at13 m outs c)
theorem arg8_at15 (c : Dev nD) : V15 m outs c main_arg8 = V0 m c main_arg8 := (V15_of m outs c main_arg8 (by decide)).trans (arg8_at14 m outs c)
theorem arg8_at16 (c : Dev nD) : V16 m outs c main_arg8 = V0 m c main_arg8 := (V16_of m outs c main_arg8 (by decide)).trans (arg8_at15 m outs c)
theorem arg8_at17 (c : Dev nD) : V17 m outs c main_arg8 = V0 m c main_arg8 := (V17_of m outs c main_arg8 (by decide)).trans (arg8_at16 m outs c)
theorem arg8_at18 (c : Dev nD) : V18 m outs c main_arg8 = V0 m c main_arg8 := (V18_of m outs c main_arg8 (by decide)).trans (arg8_at17 m outs c)
theorem arg8_at19 (c : Dev nD) : V19 m outs c main_arg8 = V0 m c main_arg8 := (V19_of m outs c main_arg8 (by decide)).trans (arg8_at18 m outs c)
theorem arg8_at20 (c : Dev nD) : V20 m outs c main_arg8 = V0 m c main_arg8 := (V20_of m outs c main_arg8 (by decide)).trans (arg8_at19 m outs c)
theorem arg8_at21 (c : Dev nD) : V21 m outs c main_arg8 = V0 m c main_arg8 := (V21_of m outs c main_arg8 (by decide)).trans (arg8_at20 m outs c)
theorem arg8_at22 (c : Dev nD) : V22 m outs c main_arg8 = V0 m c main_arg8 := (V22_of m outs c main_arg8 (by decide)).trans (arg8_at21 m outs c)
theorem arg8_at23 (c : Dev nD) : V23 m outs c main_arg8 = V0 m c main_arg8 := (V23_of m outs c main_arg8 (by decide)).trans (arg8_at22 m outs c)
theorem arg8_at24 (c : Dev nD) : V24 m outs c main_arg8 = V0 m c main_arg8 := (V24_of m outs c main_arg8 (by decide)).trans (arg8_at23 m outs c)
theorem arg8_at25 (c : Dev nD) : V25 m outs c main_arg8 = V0 m c main_arg8 := (V25_of m outs c main_arg8 (by decide)).trans (arg8_at24 m outs c)

end Cert.Bridge

end
-- ==== Proof.Bridge.Layout.lean ====
/- The small re-layings the host does between regions, read at an index: a bias as a one-row matrix, one layer's
   weight matrix and bias row cut out of the stacked arrays, the last bias as a one-row matrix. -/
import proofs.«180772_j89300960018653_1_alg».proof.Proof.Gen.KernelIdeal.Regions
import proofs.«180772_j89300960018653_1_alg».proof.Proof.Bridge.Args
import Idealize.ShloMosaic.Lib.StableHlo.Run
import Idealize.ShloMosaic.Lib.Pipeline.Value
import Idealize.ShloMosaic.Lib.ValueIdx

noncomputable section

namespace Cert.Bridge

open Idealize.ShloMosaic Idealize.ShloMosaic.TcCoe Idealize.SL.Sem Idealize.ShloMosaic.StableHlo
open Cert.KernelIdeal Cert.KernelIdeal.Gen Idealize.ShloMosaic.ValueIdx

variable {F : FTy → Type} [FloatOps F] [Named F]

theorem lay_v49 (V : Valuation τ sig (Elt F)) (q : Fin 128) :
    (after hostOps1 V (main_v49 : DevRef τ sig) : (⟨S1x128, .f32⟩ : BufTy).Contents (Elt F)) (ix2 (0 : Fin 1) q)
      = (V (main_arg4 : DevRef τ sig) : (⟨S128, .f32⟩ : BufTy).Contents (Elt F)) (ix1 q) := by
  after_results_simp
  exact shapeCast_apply _ shapeCasts_S128_S1x128 (ix2 (0 : Fin 1) q) (ix1 q)
    (by rewrite [Shape.rowMajor_val_one, Shape.rowMajor_val_two]; show q.val = 0 * 128 + q.val; omega)

theorem lay_v52 (V : Valuation τ sig (Elt F)) (k q : Fin 128) :
    (after hostOps2 V (main_v52 : DevRef τ sig) : (⟨S128x128, .f32⟩ : BufTy).Contents (Elt F)) (ix2 k q)
      = (V (main_arg5 : DevRef τ sig) : (⟨S4x128x128, .f32⟩ : BufTy).Contents (Elt F)) (ix3 (0 : Fin 4) k q) := by
  after_results_simp
  refine (shapeCast_apply _ shapeCasts_S1x128x128_S128x128 (ix2 k q) (ix3 (0 : Fin 1) k q)
    (by rewrite [Shape.rowMajor_val_three, Shape.rowMajor_val_two]; show (0 * 128 + k.val) * 128 + q.val = k.val * 128 + q.val; omega)).trans ?_
  exact extractStridedSlice_apply ![0, 0, 0] _ slices_S4x128x128_S1x128x128_0_0_0 (ix3 (0 : Fin 1) k q) (ix3 (0 : Fin 4) k q) (fun a => match a with
    | ⟨0, _⟩ => by show (0 : Nat) = 0 + 0; omega
    | ⟨1, _⟩ => by show k.val = 0 + k.val; omega
    | ⟨2, _⟩ => by show q.val = 0 + q.val; omega)

theorem lay_v72 (V : Valuation τ sig (Elt F)) (k q : Fin 128) :
    (after hostOps4 V (main_v72 : DevRef τ sig) : (⟨S128x128, .f32⟩ : BufTy).Contents (Elt F)) (ix2 k q)
      = (V (main_arg5 : DevRef τ sig) : (⟨S4x128x128, .f32⟩ : BufTy).Contents (Elt F)) (ix3 (1 : Fin 4) k q) := by
  after_results_simp
  refine (shapeCast_apply _ shapeCasts_S1x128x128_S128x128 (ix2 k q) (ix3 (0 : Fin 1) k q)
    (by rewrite [Shape.rowMajor_val_three, Shape.rowMajor_val_two]; show (0 * 128 + k.val) * 128 + q.val = k.val * 128 + q.val; omega)).trans ?_
  exact extractStridedSlice_apply ![1, 0, 0] _ slices_S4x128x128_S1x128x128_1_0_0 (ix3 (0 : Fin 1) k q) (ix3 (1 : Fin 4) k q) (fun a => match a with
    | ⟨0, _⟩ => by show (1 : Nat) = 1 + 0; omega
    | ⟨1, _⟩ => by show k.val = 0 + k.val; omega
    | ⟨2, _⟩ => by show q.val = 0 + q.val; omega)

theorem lay_v92 (V : Valuation τ sig (Elt F)) (k q : Fin 128) :
    (after hostOps6 V (main_v92 : DevRef τ sig) : (⟨S128x128, .f32⟩ : BufTy).Contents (Elt F)) (ix2 k q)
      = (V (main_arg5 : DevRef τ sig) : (⟨S4x128x128, .f32⟩ : BufTy).Contents (Elt F)) (ix3 (2 : Fin 4) k q) := by
  after_results_simp
  refine (shapeCast_apply _ shapeCasts_S1x128x128_S128x128 (ix2 k q) (ix3 (0 : Fin 1) k q)
    (by rewrite [Shape.rowMajor_val_three, Shape.rowMajor_val_two]; show (0 * 128 + k.val) * 128 + q.val = k.val * 128 + q.val; omega)).trans ?_
  exact extractStridedSlice_apply ![2, 0, 0] _ slices_S4x128x128_S1x128x128_2_0_0 (ix3 (0 : Fin 1) k q) (ix3 (2 : Fin 4) k q) (fun a => match a with
    | ⟨0, _⟩ => by show (2 : Nat) = 2 + 0; omega
    | ⟨1, _⟩ => by show k.val = 0 + k.val; omega
    | ⟨2, _⟩ => by show q.val = 0 + q.val; omega)

theorem lay_v112 (V : Valuation τ sig (Elt F)) (k q : Fin 128) :
    (after hostOps8 V (main_v112 : DevRef τ sig) : (⟨S128x128, .f32⟩ : BufTy).Contents (Elt F)) (ix2 k q)
      = (V (main_arg5 : DevRef τ sig) : (⟨S4x128x128, .f32⟩ : BufTy).Contents (Elt F)) (ix3 (3 : Fin 4) k q) := by
  after_results_simp
  refine (shapeCast_apply _ shapeCasts_S1x128x128_S128x128 (ix2 k q) (ix3 (0 : Fin 1) k q)
    (by rewrite [Shape.rowMajor_val_three, Shape.rowMajor_val_two]; show (0 * 128 + k.val) * 128 + q.val = k.val * 128 + q.val; omega)).trans ?_
  exact extractStridedSlice_apply ![3, 0, 0] _ slices_S4x128x128_S1x128x128_3_0_0 (ix3 (0 : Fin 1) k q) (ix3 (3 : Fin 4) k q) (fun a => match a with
    | ⟨0, _⟩ => by show (3 : Nat) = 3 + 0; omega
    | ⟨1, _⟩ => by show k.val = 0 + k.val; omega
    | ⟨2, _⟩ => by show q.val = 0 + q.val; omega)

theorem lay_v69 (V : Valuation τ sig (Elt F)) (q : Fin 128) :
    (after hostOps3 V (main_v69 : DevRef τ sig) : (⟨S1x128, .f32⟩ : BufTy).Contents (Elt F)) (ix2 (0 : Fin 1) q)
      = (V (main_arg6 : DevRef τ sig) : (⟨S4x128, .f32⟩ : BufTy).Contents (Elt F)) (ix2 (0 : Fin 4) q) := by
  after_results_simp
  refine (shapeCast_apply _ shapeCasts_S128_S1x128 (ix2 (0 : Fin 1) q) (ix1 q)
    (by rewrite [Shape.rowMajor_val_one, Shape.rowMajor_val_two]; show q.val = 0 * 128 + q.val; omega)).trans ?_
  refine (shapeCast_apply _ shapeCasts_S1x128_S128 (ix1 q) (ix2 (0 : Fin 1) q)
    (by rewrite [Shape.rowMajor_val_one, Shape.rowMajor_val_two]; show 0 * 128 + q.val = q.val; omega)).trans ?_
  exact extractStridedSlice_apply ![0, 0] _ slices_S4x128_S1x128_0_0 (ix2 (0 : Fin 1) q) (ix2 (0 : Fin 4) q) (fun a => match a with
    | ⟨0, _⟩ => by show (0 : Nat) = 0 + 0; omega
    | ⟨1, _⟩ => by show q.val = 0 + q.val; omega)

theorem lay_v89 (V : Valuation τ sig (Elt F)) (q : Fin 128) :
    (after hostOps5 V (main_v89 : DevRef τ sig) : (⟨S1x128, .f32⟩ : BufTy).Contents (Elt F)) (ix2 (0 : Fin 1) q)
      = (V (main_arg6 : DevRef τ sig) : (⟨S4x128, .f32⟩ : BufTy).Contents (Elt F)) (ix2 (1 : Fin 4) q) := by
  after_results_simp
  refine (shapeCast_apply _ shapeCasts_S128_S1x128 (ix2 (0 : Fin 1) q) (ix1 q)
    (by rewrite [Shape.rowMajor_val_one, Shape.rowMajor_val_two]; show q.val = 0 * 128 + q.val; omega)).trans ?_
  refine (shapeCast_apply _ shapeCasts_S1x128_S128 (ix1 q) (ix2 (0 : Fin 1) q)
    (by rewrite [Shape.rowMajor_val_one, Shape.rowMajor_val_two]; show 0 * 128 + q.val = q.val; omega)).trans ?_
  exact extractStridedSlice_apply ![1, 0] _ slices_S4x128_S1x128_1_0 (ix2 (0 : Fin 1) q) (ix2 (1 : Fin 4) q) (fun a => match a with
    | ⟨0, _⟩ => by show (1 : Nat) = 1 + 0; omega
    | ⟨1, _⟩ => by show q.val = 0 + q.val; omega)

theorem lay_v109 (V : Valuation τ sig (Elt F)) (q : Fin 128) :
    (after hostOps7 V (main_v109 : DevRef τ sig) : (⟨S1x128, .f32⟩ : BufTy).Contents (Elt F)) (ix2 (0 : Fin 1) q)
      = (V (main_arg6 : DevRef τ sig) : (⟨S4x128, .f32⟩ : BufTy).Contents (Elt F)) (ix2 (2 : Fin 4) q) := by
  after_results_simp
  refine (shapeCast_apply _ shapeCasts_S128_S1x128 (ix2 (0 : Fin 1) q) (ix1 q)
    (by rewrite [Shape.rowMajor_val_one, Shape.rowMajor_val_two]; show q.val = 0 * 128 + q.val; omega)).trans ?_
  refine (shapeCast_apply _ shapeCasts_S1x128_S128 (ix1 q) (ix2 (0 : Fin 1) q)
    (by rewrite [Shape.rowMajor_val_one, Shape.rowMajor_val_two]; show 0 * 128 + q.val = q.val; omega)).trans ?_
  exact extractStridedSlice_apply ![2, 0] _ slices_S4x128_S1x128_2_0 (ix2 (0 : Fin 1) q) (ix2 (2 : Fin 4) q) (fun a => match a with
    | ⟨0, _⟩ => by show (2 : Nat) = 2 + 0; omega
    | ⟨1, _⟩ => by show q.val = 0 + q.val; omega)

theorem lay_v129 (V : Valuation τ sig (Elt F)) (q : Fin 128) :
    (after hostOps9 V (main_v129 : DevRef τ sig) : (⟨S1x128, .f32⟩ : BufTy).Contents (Elt F)) (ix2 (0 : Fin 1) q)
      = (V (main_arg6 : DevRef τ sig) : (⟨S4x128, .f32⟩ : BufTy).Contents (Elt F)) (ix2 (3 : Fin 4) q) := by
  after_results_simp
  refine (shapeCast_apply _ shapeCasts_S128_S1x128 (ix2 (0 : Fin 1) q) (ix1 q)
    (by rewrite [Shape.rowMajor_val_one, Shape.rowMajor_val_two]; show q.val = 0 * 128 + q.val; omega)).trans ?_
  refine (shapeCast_apply _ shapeCasts_S1x128_S128 (ix1 q) (ix2 (0 : Fin 1) q)
    (by rewrite [Shape.rowMajor_val_one, Shape.rowMajor_val_two]; show 0 * 128 + q.val = q.val; omega)).trans ?_
  exact extractStridedSlice_apply ![3, 0] _ slices_S4x128_S1x128_3_0 (ix2 (0 : Fin 1) q) (ix2 (3 : Fin 4) q) (fun a => match a with
    | ⟨0, _⟩ => by show (3 : Nat) = 3 + 0; omega
    | ⟨1, _⟩ => by show q.val = 0 + q.val; omega)

theorem lay_v131 (V : Valuation τ sig (Elt F)) (j : Fin 2) :
    (after hostOps10 V (main_v131 : DevRef τ sig) : (⟨S1x2, .f32⟩ : BufTy).Contents (Elt F)) (ix2 (0 : Fin 1) j)
      = (V (main_arg8 : DevRef τ sig) : (⟨S2, .f32⟩ : BufTy).Contents (Elt F)) (ix1 j) := by
  after_results_simp
  exact shapeCast_apply _ shapeCasts_S2_S1x2 (ix2 (0 : Fin 1) j) (ix1 j)
    (by rewrite [Shape.rowMajor_val_one, Shape.rowMajor_val_two]; show j.val = 0 * 2 + j.val; omega)

variable (m : (ℓ : Loc nD τ sig) → Buf (Elt F) ℓ) (outs : Outs (F := F))

/-- The first bias as the one-row matrix region 1 reads. -/
theorem lay7_v49 (c : Dev nD) (q : Fin 128) :
    (V7 m outs c main_v49 : (⟨S1x128, .f32⟩ : BufTy).Contents (Elt F)) (ix2 (0 : Fin 1) q)
      = (V0 m c main_arg4 : (⟨S128, .f32⟩ : BufTy).Contents (Elt F)) (ix1 q) := by
  refine (lay_v49 (V6 m outs c) q).trans ?_
  rw [arg4_at6 m outs c]

/-- Layer 1's weight matrix, cut out of the stacked weights. -/
theorem lay9_v52 (c : Dev nD) (k q : Fin 128) :
    (V9 m outs c main_v52 : (⟨S128x128, .f32⟩ : BufTy).Contents (Elt F)) (ix2 k q)
      = (V0 m c main_arg5 : (⟨S4x128x128, .f32⟩ : BufTy).Contents (Elt F)) (ix3 (0 : Fin 4) k q) := by
  refine (lay_v52 (V8 m outs c) k q).trans ?_
  rw [arg5_at8 m outs c]

/-- Layer 2's weight matrix, cut out of the stacked weights. -/
theorem lay13_v72 (c : Dev nD) (k q : Fin 128) :
    (V13 m outs c main_v72 : (⟨S128x128, .f32⟩ : BufTy).Contents (Elt F)) (ix2 k q)
      = (V0 m c main_arg5 : (⟨S4x128x128, .f32⟩ : BufTy).Contents (Elt F)) (ix3 (1 : Fin 4) k q) := by
  refine (lay_v72 (V12 m outs c) k q).trans ?_
  rw [arg5_at12 m outs c]

/-- Layer 3's weight matrix, cut out of the stacked weights. -/
theorem lay17_v92 (c : Dev nD) (k q : Fin 128) :
    (V17 m outs c main_v92 : (⟨S128x128, .f32⟩ : BufTy).Contents (Elt F)) (ix2 k q)
      = (V0 m c main_arg5 : (⟨S4x128x128, .f32⟩ : BufTy).Contents (Elt F)) (ix3 (2 : Fin 4) k q) := by
  refine (lay_v92 (V16 m outs c) k q).trans ?_
  rw [arg5_at16 m outs c]

/-- Layer 4's weight matrix, cut out of the stacked weights. -/
theorem lay21_v112 (c : Dev nD) (k q : Fin 128) :
    (V21 m outs c main_v112 : (⟨S128x128, .f32⟩ : BufTy).Contents (Elt F)) (ix2 k q)
      = (V0 m c main_arg5 : (⟨S4x128x128, .f32⟩ : BufTy).Contents (Elt F)) (ix3 (3 : Fin 4) k q) := by
  refine (lay_v112 (V20 m outs c) k q).trans ?_
  rw [arg5_at20 m outs c]

/-- Layer 1's bias row, cut out of the stacked biases. -/
theorem lay11_v69 (c : Dev nD) (q : Fin 128) :
    (V11 m outs c main_v69 : (⟨S1x128, .f32⟩ : BufTy).Contents (Elt F)) (ix2 (0 : Fin 1) q)
      = (V0 m c main_arg6 : (⟨S4x128, .f32⟩ : BufTy).Contents (Elt F)) (ix2 (0 : Fin 4) q) := by
  refine (lay_v69 (V10 m outs c) q).trans ?_
  rw [arg6_at10 m outs c]

/-- Layer 2's bias row, cut out of the stacked biases. -/
theorem lay15_v89 (c : Dev nD) (q : Fin 128) :
    (V15 m outs c main_v89 : (⟨S1x128, .f32⟩ : BufTy).Contents (Elt F)) (ix2 (0 : Fin 1) q)
      = (V0 m c main_arg6 : (⟨S4x128, .f32⟩ : BufTy).Contents (Elt F)) (ix2 (1 : Fin 4) q) := by
  refine (lay_v89 (V14 m outs c) q).trans ?_
  rw [arg6_at14 m outs c]

/-- Layer 3's bias row, cut out of the stacked biases. -/
theorem lay19_v109 (c : Dev nD) (q : Fin 128) :
    (V19 m outs c main_v109 : (⟨S1x128, .f32⟩ : BufTy).Contents (Elt F)) (ix2 (0 : Fin 1) q)
      = (V0 m c main_arg6 : (⟨S4x128, .f32⟩ : BufTy).Contents (Elt F)) (ix2 (2 : Fin 4) q) := by
  refine (lay_v109 (V18 m outs c) q).trans ?_
  rw [arg6_at18 m outs c]

/-- Layer 4's bias row, cut out of the stacked biases. -/
theorem lay23_v129 (c : Dev nD) (q : Fin 128) :
    (V23 m outs c main_v129 : (⟨S1x128, .f32⟩ : BufTy).Contents (Elt F)) (ix2 (0 : Fin 1) q)
      = (V0 m c main_arg6 : (⟨S4x128, .f32⟩ : BufTy).Contents (Elt F)) (ix2 (3 : Fin 4) q) := by
  refine (lay_v129 (V22 m outs c) q).trans ?_
  rw [arg6_at22 m outs c]

/-- The last bias as the one-row matrix region 10 reads. -/
theorem lay25_v131 (c : Dev nD) (j : Fin 2) :
    (V25 m outs c main_v131 : (⟨S1x2, .f32⟩ : BufTy).Contents (Elt F)) (ix2 (0 : Fin 1) j)
      = (V0 m c main_arg8 : (⟨S2, .f32⟩ : BufTy).Contents (Elt F)) (ix1 j) := by
  refine (lay_v131 (V24 m outs c) j).trans ?_
  rw [arg8_at24 m outs c]

end Cert.Bridge

end
-- ==== Proof.Bridge.Outs.lean ====
/- What a region leaves in its output array stays there: no later host stretch writes it and no later region may
   change it, so every later item reads it as the region left it. -/
import proofs.«180772_j89300960018653_1_alg».proof.Proof.Gen.KernelIdeal.Regions

noncomputable section

namespace Cert.Bridge

open Idealize.ShloMosaic Idealize.ShloMosaic.TcCoe Idealize.SL.Sem Idealize.ShloMosaic.StableHlo
open Cert.KernelIdeal Cert.KernelIdeal.Gen

variable {F : FTy → Type} [FloatOps F] [Named F]

variable (m : (ℓ : Loc nD τ sig) → Buf (Elt F) ℓ) (outs : Outs (F := F))

theorem out6_at6 (c : Dev nD) : V6 m outs c main_v35 = outs 6 main_v35 c := Function.update_self _ _ _
theorem out6_at7 (c : Dev nD) : V7 m outs c main_v35 = outs 6 main_v35 c := (V7_of m outs c main_v35 (by decide)).trans (out6_at6 m outs c)
theorem out6_at8 (c : Dev nD) : V8 m outs c main_v35 = outs 6 main_v35 c := (V8_of m outs c main_v35 (by decide)).trans (out6_at7 m outs c)
theorem out6_at9 (c : Dev nD) : V9 m outs c main_v35 = outs 6 main_v35 c := (V9_of m outs c main_v35 (by decide)).trans (out6_at8 m outs c)
theorem out6_at10 (c : Dev nD) : V10 m outs c main_v35 = outs 6 main_v35 c := (V10_of m outs c main_v35 (by decide)).trans (out6_at9 m outs c)
theorem out6_at11 (c : Dev nD) : V11 m outs c main_v35 = outs 6 main_v35 c := (V11_of m outs c main_v35 (by decide)).trans (out6_at10 m outs c)
theorem out6_at12 (c : Dev nD) : V12 m outs c main_v35 = outs 6 main_v35 c := (V12_of m outs c main_v35 (by decide)).trans (out6_at11 m outs c)
theorem out6_at13 (c : Dev nD) : V13 m outs c main_v35 = outs 6 main_v35 c := (V13_of m outs c main_v35 (by decide)).trans (out6_at12 m outs c)
theorem out6_at14 (c : Dev nD) : V14 m outs c main_v35 = outs 6 main_v35 c := (V14_of m outs c main_v35 (by decide)).trans (out6_at13 m outs c)
theorem out6_at15 (c : Dev nD) : V15 m outs c main_v35 = outs 6 main_v35 c := (V15_of m outs c main_v35 (by decide)).trans (out6_at14 m outs c)
theorem out6_at16 (c : Dev nD) : V16 m outs c main_v35 = outs 6 main_v35 c := (V16_of m outs c main_v35 (by decide)).trans (out6_at15 m outs c)
theorem out6_at17 (c : Dev nD) : V17 m outs c main_v35 = outs 6 main_v35 c := (V17_of m outs c main_v35 (by decide)).trans (out6_at16 m outs c)
theorem out6_at18 (c : Dev nD) : V18 m outs c main_v35 = outs 6 main_v35 c := (V18_of m outs c main_v35 (by decide)).trans (out6_at17 m outs c)
theorem out6_at19 (c : Dev nD) : V19 m outs c main_v35 = outs 6 main_v35 c := (V19_of m outs c main_v35 (by decide)).trans (out6_at18 m outs c)
theorem out6_at20 (c : Dev nD) : V20 m outs c main_v35 = outs 6 main_v35 c := (V20_of m outs c main_v35 (by decide)).trans (out6_at19 m outs c)
theorem out6_at21 (c : Dev nD) : V21 m outs c main_v35 = outs 6 main_v35 c := (V21_of m outs c main_v35 (by decide)).trans (out6_at20 m outs c)
theorem out6_at22 (c : Dev nD) : V22 m outs c main_v35 = outs 6 main_v35 c := (V22_of m outs c main_v35 (by decide)).trans (out6_at21 m outs c)
theorem out6_at23 (c : Dev nD) : V23 m outs c main_v35 = outs 6 main_v35 c := (V23_of m outs c main_v35 (by decide)).trans (out6_at22 m outs c)
theorem out6_at24 (c : Dev nD) : V24 m outs c main_v35 = outs 6 main_v35 c := (V24_of m outs c main_v35 (by decide)).trans (out6_at23 m outs c)
theorem out6_at25 (c : Dev nD) : V25 m outs c main_v35 = outs 6 main_v35 c := (V25_of m outs c main_v35 (by decide)).trans (out6_at24 m outs c)
theorem out6_at26 (c : Dev nD) : V26 m outs c main_v35 = outs 6 main_v35 c := (V26_of m outs c main_v35 (by decide)).trans (out6_at25 m outs c)

theorem out8_at8 (c : Dev nD) : V8 m outs c main_v50 = outs 8 main_v50 c := Function.update_self _ _ _
theorem out8_at9 (c : Dev nD) : V9 m outs c main_v50 = outs 8 main_v50 c := (V9_of m outs c main_v50 (by decide)).trans (out8_at8 m outs c)
theorem out8_at10 (c : Dev nD) : V10 m outs c main_v50 = outs 8 main_v50 c := (V10_of m outs c main_v50 (by decide)).trans (out8_at9 m outs c)
theorem out8_at11 (c : Dev nD) : V11 m outs c main_v50 = outs 8 main_v50 c := (V11_of m outs c main_v50 (by decide)).trans (out8_at10 m outs c)
theorem out8_at12 (c : Dev nD) : V12 m outs c main_v50 = outs 8 main_v50 c := (V12_of m outs c main_v50 (by decide)).trans (out8_at11 m outs c)
theorem out8_at13 (c : Dev nD) : V13 m outs c main_v50 = outs 8 main_v50 c := (V13_of m outs c main_v50 (by decide)).trans (out8_at12 m outs c)
theorem out8_at14 (c : Dev nD) : V14 m outs c main_v50 = outs 8 main_v50 c := (V14_of m outs c main_v50 (by decide)).trans (out8_at13 m outs c)
theorem out8_at15 (c : Dev nD) : V15 m outs c main_v50 = outs 8 main_v50 c := (V15_of m outs c main_v50 (by decide)).trans (out8_at14 m outs c)
theorem out8_at16 (c : Dev nD) : V16 m outs c main_v50 = outs 8 main_v50 c := (V16_of m outs c main_v50 (by decide)).trans (out8_at15 m outs c)
theorem out8_at17 (c : Dev nD) : V17 m outs c main_v50 = outs 8 main_v50 c := (V17_of m outs c main_v50 (by decide)).trans (out8_at16 m outs c)
theorem out8_at18 (c : Dev nD) : V18 m outs c main_v50 = outs 8 main_v50 c := (V18_of m outs c main_v50 (by decide)).trans (out8_at17 m outs c)
theorem out8_at19 (c : Dev nD) : V19 m outs c main_v50 = outs 8 main_v50 c := (V19_of m outs c main_v50 (by decide)).trans (out8_at18 m outs c)
theorem out8_at20 (c : Dev nD) : V20 m outs c main_v50 = outs 8 main_v50 c := (V20_of m outs c main_v50 (by decide)).trans (out8_at19 m outs c)
theorem out8_at21 (c : Dev nD) : V21 m outs c main_v50 = outs 8 main_v50 c := (V21_of m outs c main_v50 (by decide)).trans (out8_at20 m outs c)
theorem out8_at22 (c : Dev nD) : V22 m outs c main_v50 = outs 8 main_v50 c := (V22_of m outs c main_v50 (by decide)).trans (out8_at21 m outs c)
theorem out8_at23 (c : Dev nD) : V23 m outs c main_v50 = outs 8 main_v50 c := (V23_of m outs c main_v50 (by decide)).trans (out8_at22 m outs c)
theorem out8_at24 (c : Dev nD) : V24 m outs c main_v50 = outs 8 main_v50 c := (V24_of m outs c main_v50 (by decide)).trans (out8_at23 m outs c)
theorem out8_at25 (c : Dev nD) : V25 m outs c main_v50 = outs 8 main_v50 c := (V25_of m outs c main_v50 (by decide)).trans (out8_at24 m outs c)
theorem out8_at26 (c : Dev nD) : V26 m outs c main_v50 = outs 8 main_v50 c := (V26_of m outs c main_v50 (by decide)).trans (out8_at25 m outs c)

theorem out10_at10 (c : Dev nD) : V10 m outs c main_v53 = outs 10 main_v53 c := Function.update_self _ _ _
theorem out10_at11 (c : Dev nD) : V11 m outs c main_v53 = outs 10 main_v53 c := (V11_of m outs c main_v53 (by decide)).trans (out10_at10 m outs c)
theorem out10_at12 (c : Dev nD) : V12 m outs c main_v53 = outs 10 main_v53 c := (V12_of m outs c main_v53 (by decide)).trans (out10_at11 m outs c)
theorem out10_at13 (c : Dev nD) : V13 m outs c main_v53 = outs 10 main_v53 c := (V13_of m outs c main_v53 (by decide)).trans (out10_at12 m outs c)
theorem out10_at14 (c : Dev nD) : V14 m outs c main_v53 = outs 10 main_v53 c := (V14_of m outs c main_v53 (by decide)).trans (out10_at13 m outs c)
theorem out10_at15 (c : Dev nD) : V15 m outs c main_v53 = outs 10 main_v53 c := (V15_of m outs c main_v53 (by decide)).trans (out10_at14 m outs c)
theorem out10_at16 (c : Dev nD) : V16 m outs c main_v53 = outs 10 main_v53 c := (V16_of m outs c main_v53 (by decide)).trans (out10_at15 m outs c)
theorem out10_at17 (c : Dev nD) : V17 m outs c main_v53 = outs 10 main_v53 c := (V17_of m outs c main_v53 (by decide)).trans (out10_at16 m outs c)
theorem out10_at18 (c : Dev nD) : V18 m outs c main_v53 = outs 10 main_v53 c := (V18_of m outs c main_v53 (by decide)).trans (out10_at17 m outs c)
theorem out10_at19 (c : Dev nD) : V19 m outs c main_v53 = outs 10 main_v53 c := (V19_of m outs c main_v53 (by decide)).trans (out10_at18 m outs c)
theorem out10_at20 (c : Dev nD) : V20 m outs c main_v53 = outs 10 main_v53 c := (V20_of m outs c main_v53 (by decide)).trans (out10_at19 m outs c)
theorem out10_at21 (c : Dev nD) : V21 m outs c main_v53 = outs 10 main_v53 c := (V21_of m outs c main_v53 (by decide)).trans (out10_at20 m outs c)
theorem out10_at22 (c : Dev nD) : V22 m outs c main_v53 = outs 10 main_v53 c := (V22_of m outs c main_v53 (by decide)).trans (out10_at21 m outs c)
theorem out10_at23 (c : Dev nD) : V23 m outs c main_v53 = outs 10 main_v53 c := (V23_of m outs c main_v53 (by decide)).trans (out10_at22 m outs c)
theorem out10_at24 (c : Dev nD) : V24 m outs c main_v53 = outs 10 main_v53 c := (V24_of m outs c main_v53 (by decide)).trans (out10_at23 m outs c)
theorem out10_at25 (c : Dev nD) : V25 m outs c main_v53 = outs 10 main_v53 c := (V25_of m outs c main_v53 (by decide)).trans (out10_at24 m outs c)
theorem out10_at26 (c : Dev nD) : V26 m outs c main_v53 = outs 10 main_v53 c := (V26_of m outs c main_v53 (by decide)).trans (out10_at25 m outs c)

theorem out12_at12 (c : Dev nD) : V12 m outs c main_v70 = outs 12 main_v70 c := Function.update_self _ _ _
theorem out12_at13 (c : Dev nD) : V13 m outs c main_v70 = outs 12 main_v70 c := (V13_of m outs c main_v70 (by decide)).trans (out12_at12 m outs c)
theorem out12_at14 (c : Dev nD) : V14 m outs c main_v70 = outs 12 main_v70 c := (V14_of m outs c main_v70 (by decide)).trans (out12_at13 m outs c)
theorem out12_at15 (c : Dev nD) : V15 m outs c main_v70 = outs 12 main_v70 c := (V15_of m outs c main_v70 (by decide)).trans (out12_at14 m outs c)
theorem out12_at16 (c : Dev nD) : V16 m outs c main_v70 = outs 12 main_v70 c := (V16_of m outs c main_v70 (by decide)).trans (out12_at15 m outs c)
theorem out12_at17 (c : Dev nD) : V17 m outs c main_v70 = outs 12 main_v70 c := (V17_of m outs c main_v70 (by decide)).trans (out12_at16 m outs c)
theorem out12_at18 (c : Dev nD) : V18 m outs c main_v70 = outs 12 main_v70 c := (V18_of m outs c main_v70 (by decide)).trans (out12_at17 m outs c)
theorem out12_at19 (c : Dev nD) : V19 m outs c main_v70 = outs 12 main_v70 c := (V19_of m outs c main_v70 (by decide)).trans (out12_at18 m outs c)
theorem out12_at20 (c : Dev nD) : V20 m outs c main_v70 = outs 12 main_v70 c := (V20_of m outs c main_v70 (by decide)).trans (out12_at19 m outs c)
theorem out12_at21 (c : Dev nD) : V21 m outs c main_v70 = outs 12 main_v70 c := (V21_of m outs c main_v70 (by decide)).trans (out12_at20 m outs c)
theorem out12_at22 (c : Dev nD) : V22 m outs c main_v70 = outs 12 main_v70 c := (V22_of m outs c main_v70 (by decide)).trans (out12_at21 m outs c)
theorem out12_at23 (c : Dev nD) : V23 m outs c main_v70 = outs 12 main_v70 c := (V23_of m outs c main_v70 (by decide)).trans (out12_at22 m outs c)
theorem out12_at24 (c : Dev nD) : V24 m outs c main_v70 = outs 12 main_v70 c := (V24_of m outs c main_v70 (by decide)).trans (out12_at23 m outs c)
theorem out12_at25 (c : Dev nD) : V25 m outs c main_v70 = outs 12 main_v70 c := (V25_of m outs c main_v70 (by decide)).trans (out12_at24 m outs c)
theorem out12_at26 (c : Dev nD) : V26 m outs c main_v70 = outs 12 main_v70 c := (V26_of m outs c main_v70 (by decide)).trans (out12_at25 m outs c)

theorem out14_at14 (c : Dev nD) : V14 m outs c main_v73 = outs 14 main_v73 c := Function.update_self _ _ _
theorem out14_at15 (c : Dev nD) : V15 m outs c main_v73 = outs 14 main_v73 c := (V15_of m outs c main_v73 (by decide)).trans (out14_at14 m outs c)
theorem out14_at16 (c : Dev nD) : V16 m outs c main_v73 = outs 14 main_v73 c := (V16_of m outs c main_v73 (by decide)).trans (out14_at15 m outs c)
theorem out14_at17 (c : Dev nD) : V17 m outs c main_v73 = outs 14 main_v73 c := (V17_of m outs c main_v73 (by decide)).trans (out14_at16 m outs c)
theorem out14_at18 (c : Dev nD) : V18 m outs c main_v73 = outs 14 main_v73 c := (V18_of m outs c main_v73 (by decide)).trans (out14_at17 m outs c)
theorem out14_at19 (c : Dev nD) : V19 m outs c main_v73 = outs 14 main_v73 c := (V19_of m outs c main_v73 (by decide)).trans (out14_at18 m outs c)
theorem out14_at20 (c : Dev nD) : V20 m outs c main_v73 = outs 14 main_v73 c := (V20_of m outs c main_v73 (by decide)).trans (out14_at19 m outs c)
theorem out14_at21 (c : Dev nD) : V21 m outs c main_v73 = outs 14 main_v73 c := (V21_of m outs c main_v73 (by decide)).trans (out14_at20 m outs c)
theorem out14_at22 (c : Dev nD) : V22 m outs c main_v73 = outs 14 main_v73 c := (V22_of m outs c main_v73 (by decide)).trans (out14_at21 m outs c)
theorem out14_at23 (c : Dev nD) : V23 m outs c main_v73 = outs 14 main_v73 c := (V23_of m outs c main_v73 (by decide)).trans (out14_at22 m outs c)
theorem out14_at24 (c : Dev nD) : V24 m outs c main_v73 = outs 14 main_v73 c := (V24_of m outs c main_v73 (by decide)).trans (out14_at23 m outs c)
theorem out14_at25 (c : Dev nD) : V25 m outs c main_v73 = outs 14 main_v73 c := (V25_of m outs c main_v73 (by decide)).trans (out14_at24 m outs c)
theorem out14_at26 (c : Dev nD) : V26 m outs c main_v73 = outs 14 main_v73 c := (V26_of m outs c main_v73 (by decide)).trans (out14_at25 m outs c)

theorem out16_at16 (c : Dev nD) : V16 m outs c main_v90 = outs 16 main_v90 c := Function.update_self _ _ _
theorem out16_at17 (c : Dev nD) : V17 m outs c main_v90 = outs 16 main_v90 c := (V17_of m outs c main_v90 (by decide)).trans (out16_at16 m outs c)
theorem out16_at18 (c : Dev nD) : V18 m outs c main_v90 = outs 16 main_v90 c := (V18_of m outs c main_v90 (by decide)).trans (out16_at17 m outs c)
theorem out16_at19 (c : Dev nD) : V19 m outs c main_v90 = outs 16 main_v90 c := (V19_of m outs c main_v90 (by decide)).trans (out16_at18 m outs c)
theorem out16_at20 (c : Dev nD) : V20 m outs c main_v90 = outs 16 main_v90 c := (V20_of m outs c main_v90 (by decide)).trans (out16_at19 m outs c)
theorem out16_at21 (c : Dev nD) : V21 m outs c main_v90 = outs 16 main_v90 c := (V21_of m outs c main_v90 (by decide)).trans (out16_at20 m outs c)
theorem out16_at22 (c : Dev nD) : V22 m outs c main_v90 = outs 16 main_v90 c := (V22_of m outs c main_v90 (by decide)).trans (out16_at21 m outs c)
theorem out16_at23 (c : Dev nD) : V23 m outs c main_v90 = outs 16 main_v90 c := (V23_of m outs c main_v90 (by decide)).trans (out16_at22 m outs c)
theorem out16_at24 (c : Dev nD) : V24 m outs c main_v90 = outs 16 main_v90 c := (V24_of m outs c main_v90 (by decide)).trans (out16_at23 m outs c)
theorem out16_at25 (c : Dev nD) : V25 m outs c main_v90 = outs 16 main_v90 c := (V25_of m outs c main_v90 (by decide)).trans (out16_at24 m outs c)
theorem out16_at26 (c : Dev nD) : V26 m outs c main_v90 = outs 16 main_v90 c := (V26_of m outs c main_v90 (by decide)).trans (out16_at25 m outs c)

theorem out18_at18 (c : Dev nD) : V18 m outs c main_v93 = outs 18 main_v93 c := Function.update_self _ _ _
theorem out18_at19 (c : Dev nD) : V19 m outs c main_v93 = outs 18 main_v93 c := (V19_of m outs c main_v93 (by decide)).trans (out18_at18 m outs c)
theorem out18_at20 (c : Dev nD) : V20 m outs c main_v93 = outs 18 main_v93 c := (V20_of m outs c main_v93 (by decide)).trans (out18_at19 m outs c)
theorem out18_at21 (c : Dev nD) : V21 m outs c main_v93 = outs 18 main_v93 c := (V21_of m outs c main_v93 (by decide)).trans (out18_at20 m outs c)
theorem out18_at22 (c : Dev nD) : V22 m outs c main_v93 = outs 18 main_v93 c := (V22_of m outs c main_v93 (by decide)).trans (out18_at21 m outs c)
theorem out18_at23 (c : Dev nD) : V23 m outs c main_v93 = outs 18 main_v93 c := (V23_of m outs c main_v93 (by decide)).trans (out18_at22 m outs c)
theorem out18_at24 (c : Dev nD) : V24 m outs c main_v93 = outs 18 main_v93 c := (V24_of m outs c main_v93 (by decide)).trans (out18_at23 m outs c)
theorem out18_at25 (c : Dev nD) : V25 m outs c main_v93 = outs 18 main_v93 c := (V25_of m outs c main_v93 (by decide)).trans (out18_at24 m outs c)
theorem out18_at26 (c : Dev nD) : V26 m outs c main_v93 = outs 18 main_v93 c := (V26_of m outs c main_v93 (by decide)).trans (out18_at25 m outs c)

theorem out20_at20 (c : Dev nD) : V20 m outs c main_v110 = outs 20 main_v110 c := Function.update_self _ _ _
theorem out20_at21 (c : Dev nD) : V21 m outs c main_v110 = outs 20 main_v110 c := (V21_of m outs c main_v110 (by decide)).trans (out20_at20 m outs c)
theorem out20_at22 (c : Dev nD) : V22 m outs c main_v110 = outs 20 main_v110 c := (V22_of m outs c main_v110 (by decide)).trans (out20_at21 m outs c)
theorem out20_at23 (c : Dev nD) : V23 m outs c main_v110 = outs 20 main_v110 c := (V23_of m outs c main_v110 (by decide)).trans (out20_at22 m outs c)
theorem out20_at24 (c : Dev nD) : V24 m outs c main_v110 = outs 20 main_v110 c := (V24_of m outs c main_v110 (by decide)).trans (out20_at23 m outs c)
theorem out20_at25 (c : Dev nD) : V25 m outs c main_v110 = outs 20 main_v110 c := (V25_of m outs c main_v110 (by decide)).trans (out20_at24 m outs c)
theorem out20_at26 (c : Dev nD) : V26 m outs c main_v110 = outs 20 main_v110 c := (V26_of m outs c main_v110 (by decide)).trans (out20_at25 m outs c)

theorem out22_at22 (c : Dev nD) : V22 m outs c main_v113 = outs 22 main_v113 c := Function.update_self _ _ _
theorem out22_at23 (c : Dev nD) : V23 m outs c main_v113 = outs 22 main_v113 c := (V23_of m outs c main_v113 (by decide)).trans (out22_at22 m outs c)
theorem out22_at24 (c : Dev nD) : V24 m outs c main_v113 = outs 22 main_v113 c := (V24_of m outs c main_v113 (by decide)).trans (out22_at23 m outs c)
theorem out22_at25 (c : Dev nD) : V25 m outs c main_v113 = outs 22 main_v113 c := (V25_of m outs c main_v113 (by decide)).trans (out22_at24 m outs c)
theorem out22_at26 (c : Dev nD) : V26 m outs c main_v113 = outs 22 main_v113 c := (V26_of m outs c main_v113 (by decide)).trans (out22_at25 m outs c)

theorem out24_at24 (c : Dev nD) : V24 m outs c main_v130 = outs 24 main_v130 c := Function.update_self _ _ _
theorem out24_at25 (c : Dev nD) : V25 m outs c main_v130 = outs 24 main_v130 c := (V25_of m outs c main_v130 (by decide)).trans (out24_at24 m outs c)
theorem out24_at26 (c : Dev nD) : V26 m outs c main_v130 = outs 24 main_v130 c := (V26_of m outs c main_v130 (by decide)).trans (out24_at25 m outs c)

theorem out26_at26 (c : Dev nD) : V26 m outs c main_v132 = outs 26 main_v132 c := Function.update_self _ _ _

end Cert.Bridge

end
-- ==== Proof.Bridge.Params.lean ====
/- The later layers' parameters: the weight matrix a layer's product reads and the bias row its activation reads
   are, on the kernel's side, the reference's stages that cut the same layer out of the stacked weights and the
   stacked biases (the bias row as the one-row matrix that holds the reference's bias array). -/
import proofs.«180772_j89300960018653_1_alg».proof.Proof.Gen.KernelIdeal.Regions
import proofs.«180772_j89300960018653_1_alg».proof.Proof.Gen.ReferenceIdeal.Read
import proofs.«180772_j89300960018653_1_alg».proof.Proof.Bridge.Args
import Idealize.ShloMosaic.Lib.StableHlo.Run
import Idealize.ShloMosaic.Lib.Pipeline.Value
import Idealize.ShloMosaic.Lib.ValueIdx

noncomputable section

namespace Cert.Bridge

open Idealize.ShloMosaic Idealize.ShloMosaic.TcCoe Idealize.SL.Sem Idealize.ShloMosaic.StableHlo
open Cert.KernelIdeal Cert.KernelIdeal.Gen Cert.ReferenceIdeal.Read Idealize.ShloMosaic.ValueIdx

variable {F : FTy → Type} [FloatOps F] [Named F]

theorem wt1_after (V : Valuation τ sig (Elt F)) :
    after hostOps2 V (main_v52 : DevRef τ sig) = val_main_v54 (F := F) (V (main_arg5 : DevRef τ sig)) := by
  after_results_simp
  unfold val_main_v54 val_main_v53
  rfl

theorem wt2_after (V : Valuation τ sig (Elt F)) :
    after hostOps4 V (main_v72 : DevRef τ sig) = val_main_v77 (F := F) (V (main_arg5 : DevRef τ sig)) := by
  after_results_simp
  unfold val_main_v77 val_main_v76
  rfl

theorem wt3_after (V : Valuation τ sig (Elt F)) :
    after hostOps6 V (main_v92 : DevRef τ sig) = val_main_v100 (F := F) (V (main_arg5 : DevRef τ sig)) := by
  after_results_simp
  unfold val_main_v100 val_main_v99
  rfl

theorem wt4_after (V : Valuation τ sig (Elt F)) :
    after hostOps8 V (main_v112 : DevRef τ sig) = val_main_v123 (F := F) (V (main_arg5 : DevRef τ sig)) := by
  after_results_simp
  unfold val_main_v123 val_main_v122
  rfl

theorem bias1_after (V : Valuation τ sig (Elt F)) (q : Fin 128) :
    (after hostOps3 V (main_v69 : DevRef τ sig) : (⟨S1x128, .f32⟩ : BufTy).Contents (Elt F)) (ix2 (0 : Fin 1) q)
      = val_main_v56 (F := F) (V (main_arg6 : DevRef τ sig)) (ix1 q) := by
  after_results_simp
  refine (shapeCast_apply _ shapeCasts_S128_S1x128 (ix2 (0 : Fin 1) q) (ix1 q)
    (by rewrite [Shape.rowMajor_val_one, Shape.rowMajor_val_two]; show q.val = 0 * 128 + q.val; omega)).trans ?_
  unfold val_main_v56 val_main_v55
  rfl

theorem bias2_after (V : Valuation τ sig (Elt F)) (q : Fin 128) :
    (after hostOps5 V (main_v89 : DevRef τ sig) : (⟨S1x128, .f32⟩ : BufTy).Contents (Elt F)) (ix2 (0 : Fin 1) q)
      = val_main_v79 (F := F) (V (main_arg6 : DevRef τ sig)) (ix1 q) := by
  after_results_simp
  refine (shapeCast_apply _ shapeCasts_S128_S1x128 (ix2 (0 : Fin 1) q) (ix1 q)
    (by rewrite [Shape.rowMajor_val_one, Shape.rowMajor_val_two]; show q.val = 0 * 128 + q.val; omega)).trans ?_
  unfold val_main_v79 val_main_v78
  rfl

theorem bias3_after (V : Valuation τ sig (Elt F)) (q : Fin 128) :
    (after hostOps7 V (main_v109 : DevRef τ sig) : (⟨S1x128, .f32⟩ : BufTy).Contents (Elt F)) (ix2 (0 : Fin 1) q)
      = val_main_v102 (F := F) (V (main_arg6 : DevRef τ sig)) (ix1 q) := by
  after_results_simp
  refine (shapeCast_apply _ shapeCasts_S128_S1x128 (ix2 (0 : Fin 1) q) (ix1 q)
    (by rewrite [Shape.rowMajor_val_one, Shape.rowMajor_val_two]; show q.val = 0 * 128 + q.val; omega)).trans ?_
  unfold val_main_v102 val_main_v101
  rfl

theorem bias4_after (V : Valuation τ sig (Elt F)) (q : Fin 128) :
    (after hostOps9 V (main_v129 : DevRef τ sig) : (⟨S1x128, .f32⟩ : BufTy).Contents (Elt F)) (ix2 (0 : Fin 1) q)
      = val_main_v125 (F := F) (V (main_arg6 : DevRef τ sig)) (ix1 q) := by
  after_results_simp
  refine (shapeCast_apply _ shapeCasts_S128_S1x128 (ix2 (0 : Fin 1) q) (ix1 q)
    (by rewrite [Shape.rowMajor_val_one, Shape.rowMajor_val_two]; show q.val = 0 * 128 + q.val; omega)).trans ?_
  unfold val_main_v125 val_main_v124
  rfl

variable (m : (ℓ : Loc nD τ sig) → Buf (Elt F) ℓ) (outs : Outs (F := F))

/-- Layer 1's weight matrix. -/
theorem wt1 (c : Dev nD) : V9 m outs c main_v52 = val_main_v54 (F := F) (V0 m c main_arg5) := by
  refine (wt1_after (V8 m outs c)).trans ?_
  rw [arg5_at8 m outs c]

/-- Layer 2's weight matrix. -/
theorem wt2 (c : Dev nD) : V13 m outs c main_v72 = val_main_v77 (F := F) (V0 m c main_arg5) := by
  refine (wt2_after (V12 m outs c)).trans ?_
  rw [arg5_at12 m outs c]

/-- Layer 3's weight matrix. -/
theorem wt3 (c : Dev nD) : V17 m outs c main_v92 = val_main_v100 (F := F) (V0 m c main_arg5) := by
  refine (wt3_after (V16 m outs c)).trans ?_
  rw [arg5_at16 m outs c]

/-- Layer 4's weight matrix. -/
theorem wt4 (c : Dev nD) : V21 m outs c main_v112 = val_main_v123 (F := F) (V0 m c main_arg5) := by
  refine (wt4_after (V20 m outs c)).trans ?_
  rw [arg5_at20 m outs c]

/-- Layer 1's bias row holds the reference's bias array of that layer. -/
theorem bias1 (c : Dev nD) (q : Fin 128) :
    (V11 m outs c main_v69 : (⟨S1x128, .f32⟩ : BufTy).Contents (Elt F)) (ix2 (0 : Fin 1) q)
      = val_main_v56 (F := F) (V0 m c main_arg6) (ix1 q) := by
  refine (bias1_after (V10 m outs c) q).trans ?_
  rw [arg6_at10 m outs c]

/-- Layer 2's bias row holds the reference's bias array of that layer. -/
theorem bias2 (c : Dev nD) (q : Fin 128) :
    (V15 m outs c main_v89 : (⟨S1x128, .f32⟩ : BufTy).Contents (Elt F)) (ix2 (0 : Fin 1) q)
      = val_main_v79 (F := F) (V0 m c main_arg6) (ix1 q) := by
  refine (bias2_after (V14 m outs c) q).trans ?_
  rw [arg6_at14 m outs c]

/-- Layer 3's bias row holds the reference's bias array of that layer. -/
theorem bias3 (c : Dev nD) (q : Fin 128) :
    (V19 m outs c main_v109 : (⟨S1x128, .f32⟩ : BufTy).Contents (Elt F)) (ix2 (0 : Fin 1) q)
      = val_main_v102 (F := F) (V0 m c main_arg6) (ix1 q) := by
  refine (bias3_after (V18 m outs c) q).trans ?_
  rw [arg6_at18 m outs c]

/-- Layer 4's bias row holds the reference's bias array of that layer. -/
theorem bias4 (c : Dev nD) (q : Fin 128) :
    (V23 m outs c main_v129 : (⟨S1x128, .f32⟩ : BufTy).Contents (Elt F)) (ix2 (0 : Fin 1) q)
      = val_main_v125 (F := F) (V0 m c main_arg6) (ix1 q) := by
  refine (bias4_after (V22 m outs c) q).trans ?_
  rw [arg6_at22 m outs c]

end Cert.Bridge

end
-- ==== Proof.Bridge.Chain.lean ====
/- The layer chain: if every region leaves in its output the layer function (matrix product, bias and clamp, bias
   and residual and clamp) of the arrays it reads, then after each region its output is the reference's stage of
   the same layer, applied to the kernel's own argument arrays; in the end the last activation is the array the
   reference's final product reads. Layer by layer: the arrays a region reads are the previous regions' outputs
   (equal to the reference's stages by the previous steps), the shared edge aggregation of them, and the layer's
   parameters cut out of the argument arrays. -/
import proofs.«180772_j89300960018653_1_alg».proof.Proof.Gen.KernelIdeal.Regions
import proofs.«180772_j89300960018653_1_alg».proof.Proof.Gen.ReferenceIdeal.Read
import proofs.«180772_j89300960018653_1_alg».proof.Proof.Bridge.Layers
import proofs.«180772_j89300960018653_1_alg».proof.Proof.Bridge.Dense
import proofs.«180772_j89300960018653_1_alg».proof.Proof.Bridge.AggDef
import proofs.«180772_j89300960018653_1_alg».proof.Proof.Bridge.Agg0
import proofs.«180772_j89300960018653_1_alg».proof.Proof.Bridge.Agg1
import proofs.«180772_j89300960018653_1_alg».proof.Proof.Bridge.Agg2
import proofs.«180772_j89300960018653_1_alg».proof.Proof.Bridge.Agg3
import proofs.«180772_j89300960018653_1_alg».proof.Proof.Bridge.Agg4
import proofs.«180772_j89300960018653_1_alg».proof.Proof.Bridge.RefAgg
import proofs.«180772_j89300960018653_1_alg».proof.Proof.Bridge.Norm
import proofs.«180772_j89300960018653_1_alg».proof.Proof.Bridge.Args
import proofs.«180772_j89300960018653_1_alg».proof.Proof.Bridge.Layout
import proofs.«180772_j89300960018653_1_alg».proof.Proof.Bridge.Outs
import proofs.«180772_j89300960018653_1_alg».proof.Proof.Bridge.Params

noncomputable section

namespace Cert.Bridge

open Idealize.ShloMosaic Idealize.ShloMosaic.TcCoe Idealize.SL.Sem Idealize.ShloMosaic.StableHlo
open Cert.KernelIdeal Cert.KernelIdeal.Gen Cert.ReferenceIdeal.Read Idealize.ShloMosaic.ValueIdx

variable (m : (ℓ : Loc nD τ sig) → Buf (Elt Ideal) ℓ) (outs : Outs (F := Ideal)) (c : Dev nD)

/-- Region 0's output is the reference's first product. -/
theorem o6
    (H0 : outs 6 main_v35 c = dense (V5 m c main_arg0) (V5 m c main_arg3)) :
    outs 6 main_v35 c = val_main_v35 (F := Ideal) (V0 m c main_arg0) (V0 m c main_arg3) := by
  refine H0.trans ?_
  rw [arg0_at5 m c, arg3_at5 m c]
  exact (stage_v35 _ _).symm

/-- Region 1's output is the reference's first activation. -/
theorem o8
    (H0 : outs 6 main_v35 c = dense (V5 m c main_arg0) (V5 m c main_arg3))
    (H1 : outs 8 main_v50 c = biasRelu (V7 m outs c main_v48) (V7 m outs c main_v49)) :
    outs 8 main_v50 c = val_main_v52 (F := Ideal) (V0 m c main_arg0) (V0 m c main_arg1) (V0 m c main_arg2) (V0 m c main_arg3) (V0 m c main_arg4) := by
  refine H1.trans ?_
  rw [agg0_eq m outs c, row_eq m c, col_eq m c, nrm_eq m c, out6_at6 m outs c, o6 m outs c H0, ← ref_agg0]
  exact (stage_v52 _ _ _ _ _ _ (lay7_v49 m outs c)).symm

theorem act0
    (H0 : outs 6 main_v35 c = dense (V5 m c main_arg0) (V5 m c main_arg3))
    (H1 : outs 8 main_v50 c = biasRelu (V7 m outs c main_v48) (V7 m outs c main_v49)) :
    V8 m outs c main_v50 = val_main_v52 (F := Ideal) (V0 m c main_arg0) (V0 m c main_arg1) (V0 m c main_arg2) (V0 m c main_arg3) (V0 m c main_arg4) :=
  (out8_at8 m outs c).trans (o8 m outs c H0 H1)

/-- Region 2's output is the reference's product of layer 1. -/
theorem o10
    (H0 : outs 6 main_v35 c = dense (V5 m c main_arg0) (V5 m c main_arg3))
    (H1 : outs 8 main_v50 c = biasRelu (V7 m outs c main_v48) (V7 m outs c main_v49))
    (H2 : outs 10 main_v53 c = dense (V9 m outs c main_v50) (V9 m outs c main_v52)) :
    outs 10 main_v53 c = val_main_v57 (F := Ideal) (V0 m c main_arg0) (V0 m c main_arg1) (V0 m c main_arg2) (V0 m c main_arg3) (V0 m c main_arg4) (V0 m c main_arg5) := by
  refine H2.trans ?_
  rw [out8_at9 m outs c, o8 m outs c H0 H1, wt1 m outs c]
  exact (stage_v57 _ _ _ _ _ _).symm

/-- Region 3's output is the reference's activation of layer 1. -/
theorem o12
    (H0 : outs 6 main_v35 c = dense (V5 m c main_arg0) (V5 m c main_arg3))
    (H1 : outs 8 main_v50 c = biasRelu (V7 m outs c main_v48) (V7 m outs c main_v49))
    (H2 : outs 10 main_v53 c = dense (V9 m outs c main_v50) (V9 m outs c main_v52))
    (H3 : outs 12 main_v70 c = biasResRelu (V11 m outs c main_v66) (V11 m outs c main_v69) (V11 m outs c main_v50)) :
    outs 12 main_v70 c = val_main_v75 (F := Ideal) (V0 m c main_arg0) (V0 m c main_arg1) (V0 m c main_arg2) (V0 m c main_arg3) (V0 m c main_arg4) (V0 m c main_arg5) (V0 m c main_arg6) := by
  refine H3.trans ?_
  rw [agg1_eq m outs c, row_eq m c, col_eq m c, nrm_eq m c, out10_at10 m outs c, o10 m outs c H0 H1 H2, ← ref_agg1,
    out8_at11 m outs c, o8 m outs c H0 H1]
  exact (stage_v75 _ _ _ _ _ _ _ _ (bias1 m outs c)).symm

theorem act1
    (H0 : outs 6 main_v35 c = dense (V5 m c main_arg0) (V5 m c main_arg3))
    (H1 : outs 8 main_v50 c = biasRelu (V7 m outs c main_v48) (V7 m outs c main_v49))
    (H2 : outs 10 main_v53 c = dense (V9 m outs c main_v50) (V9 m outs c main_v52))
    (H3 : outs 12 main_v70 c = biasResRelu (V11 m outs c main_v66) (V11 m outs c main_v69) (V11 m outs c main_v50)) :
    V12 m outs c main_v70 = val_main_v75 (F := Ideal) (V0 m c main_arg0) (V0 m c main_arg1) (V0 m c main_arg2) (V0 m c main_arg3) (V0 m c main_arg4) (V0 m c main_arg5) (V0 m c main_arg6) :=
  (out12_at12 m outs c).trans (o12 m outs c H0 H1 H2 H3)

/-- Region 4's output is the reference's product of layer 2. -/
theorem o14
    (H0 : outs 6 main_v35 c = dense (V5 m c main_arg0) (V5 m c main_arg3))
    (H1 : outs 8 main_v50 c = biasRelu (V7 m outs c main_v48) (V7 m outs c main_v49))
    (H2 : outs 10 main_v53 c = dense (V9 m outs c main_v50) (V9 m outs c main_v52))
    (H3 : outs 12 main_v70 c = biasResRelu (V11 m outs c main_v66) (V11 m outs c main_v69) (V11 m outs c main_v50))
    (H4 : outs 14 main_v73 c = dense (V13 m outs c main_v70) (V13 m outs c main_v72)) :
    outs 14 main_v73 c = val_main_v80 (F := Ideal) (V0 m c main_arg0) (V0 m c main_arg1) (V0 m c main_arg2) (V0 m c main_arg3) (V0 m c main_arg4) (V0 m c main_arg5) (V0 m c main_arg6) := by
  refine H4.trans ?_
  rw [out12_at13 m outs c, o12 m outs c H0 H1 H2 H3, wt2 m outs c]
  exact (stage_v80 _ _ _ _ _ _ _).symm

/-- Region 5's output is the reference's activation of layer 2. -/
theorem o16
    (H0 : outs 6 main_v35 c = dense (V5 m c main_arg0) (V5 m c main_arg3))
    (H1 : outs 8 main_v50 c = biasRelu (V7 m outs c main_v48) (V7 m outs c main_v49))
    (H2 : outs 10 main_v53 c = dense (V9 m outs c main_v50) (V9 m outs c main_v52))
    (H3 : outs 12 main_v70 c = biasResRelu (V11 m outs c main_v66) (V11 m outs c main_v69) (V11 m outs c main_v50))
    (H4 : outs 14 main_v73 c = dense (V13 m outs c main_v70) (V13 m outs c main_v72))
    (H5 : outs 16 main_v90 c = biasResRelu (V15 m outs c main_v86) (V15 m outs c main_v89) (V15 m outs c main_v70)) :
    outs 16 main_v90 c = val_main_v98 (F := Ideal) (V0 m c main_arg0) (V0 m c main_arg1) (V0 m c main_arg2) (V0 m c main_arg3) (V0 m c main_arg4) (V0 m c main_arg5) (V0 m c main_arg6) := by
  refine H5.trans ?_
  rw [agg2_eq m outs c, row_eq m c, col_eq m c, nrm_eq m c, out14_at14 m outs c, o14 m outs c H0 H1 H2 H3 H4, ← ref_agg2,
    out12_at15 m outs c, o12 m outs c H0 H1 H2 H3]
  exact (stage_v98 _ _ _ _ _ _ _ _ (bias2 m outs c)).symm

theorem act2
    (H0 : outs 6 main_v35 c = dense (V5 m c main_arg0) (V5 m c main_arg3))
    (H1 : outs 8 main_v50 c = biasRelu (V7 m outs c main_v48) (V7 m outs c main_v49))
    (H2 : outs 10 main_v53 c = dense (V9 m outs c main_v50) (V9 m outs c main_v52))
    (H3 : outs 12 main_v70 c = biasResRelu (V11 m outs c main_v66) (V11 m outs c main_v69) (V11 m outs c main_v50))
    (H4 : outs 14 main_v73 c = dense (V13 m outs c main_v70) (V13 m outs c main_v72))
    (H5 : outs 16 main_v90 c = biasResRelu (V15 m outs c main_v86) (V15 m outs c main_v89) (V15 m outs c main_v70)) :
    V16 m outs c main_v90 = val_main_v98 (F := Ideal) (V0 m c main_arg0) (V0 m c main_arg1) (V0 m c main_arg2) (V0 m c main_arg3) (V0 m c main_arg4) (V0 m c main_arg5) (V0 m c main_arg6) :=
  (out16_at16 m outs c).trans (o16 m outs c H0 H1 H2 H3 H4 H5)

/-- Region 6's output is the reference's product of layer 3. -/
theorem o18
    (H0 : outs 6 main_v35 c = dense (V5 m c main_arg0) (V5 m c main_arg3))
    (H1 : outs 8 main_v50 c = biasRelu (V7 m outs c main_v48) (V7 m outs c main_v49))
    (H2 : outs 10 main_v53 c = dense (V9 m outs c main_v50) (V9 m outs c main_v52))
    (H3 : outs 12 main_v70 c = biasResRelu (V11 m outs c main_v66) (V11 m outs c main_v69) (V11 m outs c main_v50))
    (H4 : outs 14 main_v73 c = dense (V13 m outs c main_v70) (V13 m outs c main_v72))
    (H5 : outs 16 main_v90 c = biasResRelu (V15 m outs c main_v86) (V15 m outs c main_v89) (V15 m outs c main_v70))
    (H6 : outs 18 main_v93 c = dense (V17 m outs c main_v90) (V17 m outs c main_v92)) :
    outs 18 main_v93 c = val_main_v103 (F := Ideal) (V0 m c main_arg0) (V0 m c main_arg1) (V0 m c main_arg2) (V0 m c main_arg3) (V0 m c main_arg4) (V0 m c main_arg5) (V0 m c main_arg6) := by
  refine H6.trans ?_
  rw [out16_at17 m outs c, o16 m outs c H0 H1 H2 H3 H4 H5, wt3 m outs c]
  exact (stage_v103 _ _ _ _ _ _ _).symm

/-- Region 7's output is the reference's activation of layer 3. -/
theorem o20
    (H0 : outs 6 main_v35 c = dense (V5 m c main_arg0) (V5 m c main_arg3))
    (H1 : outs 8 main_v50 c = biasRelu (V7 m outs c main_v48) (V7 m outs c main_v49))
    (H2 : outs 10 main_v53 c = dense (V9 m outs c main_v50) (V9 m outs c main_v52))
    (H3 : outs 12 main_v70 c = biasResRelu (V11 m outs c main_v66) (V11 m outs c main_v69) (V11 m outs c main_v50))
    (H4 : outs 14 main_v73 c = dense (V13 m outs c main_v70) (V13 m outs c main_v72))
    (H5 : outs 16 main_v90 c = biasResRelu (V15 m outs c main_v86) (V15 m outs c main_v89) (V15 m outs c main_v70))
    (H6 : outs 18 main_v93 c = dense (V17 m outs c main_v90) (V17 m outs c main_v92))
    (H7 : outs 20 main_v110 c = biasResRelu (V19 m outs c main_v106) (V19 m outs c main_v109) (V19 m outs c main_v90)) :
    outs 20 main_v110 c = val_main_v121 (F := Ideal) (V0 m c main_arg0) (V0 m c main_arg1) (V0 m c main_arg2) (V0 m c main_arg3) (V0 m c main_arg4) (V0 m c main_arg5) (V0 m c main_arg6) := by
  refine H7.trans ?_
  rw [agg3_eq m outs c, row_eq m c, col_eq m c, nrm_eq m c, out18_at18 m outs c, o18 m outs c H0 H1 H2 H3 H4 H5 H6, ← ref_agg3,
    out16_at19 m outs c, o16 m outs c H0 H1 H2 H3 H4 H5]
  exact (stage_v121 _ _ _ _ _ _ _ _ (bias3 m outs c)).symm

theorem act3
    (H0 : outs 6 main_v35 c = dense (V5 m c main_arg0) (V5 m c main_arg3))
    (H1 : outs 8 main_v50 c = biasRelu (V7 m outs c main_v48) (V7 m outs c main_v49))
    (H2 : outs 10 main_v53 c = dense (V9 m outs c main_v50) (V9 m outs c main_v52))
    (H3 : outs 12 main_v70 c = biasResRelu (V11 m outs c main_v66) (V11 m outs c main_v69) (V11 m outs c main_v50))
    (H4 : outs 14 main_v73 c = dense (V13 m outs c main_v70) (V13 m outs c main_v72))
    (H5 : outs 16 main_v90 c = biasResRelu (V15 m outs c main_v86) (V15 m outs c main_v89) (V15 m outs c main_v70))
    (H6 : outs 18 main_v93 c = dense (V17 m outs c main_v90) (V17 m outs c main_v92))
    (H7 : outs 20 main_v110 c = biasResRelu (V19 m outs c main_v106) (V19 m outs c main_v109) (V19 m outs c main_v90)) :
    V20 m outs c main_v110 = val_main_v121 (F := Ideal) (V0 m c main_arg0) (V0 m c main_arg1) (V0 m c main_arg2) (V0 m c main_arg3) (V0 m c main_arg4) (V0 m c main_arg5) (V0 m c main_arg6) :=
  (out20_at20 m outs c).trans (o20 m outs c H0 H1 H2 H3 H4 H5 H6 H7)

/-- Region 8's output is the reference's product of layer 4. -/
theorem o22
    (H0 : outs 6 main_v35 c = dense (V5 m c main_arg0) (V5 m c main_arg3))
    (H1 : outs 8 main_v50 c = biasRelu (V7 m outs c main_v48) (V7 m outs c main_v49))
    (H2 : outs 10 main_v53 c = dense (V9 m outs c main_v50) (V9 m outs c main_v52))
    (H3 : outs 12 main_v70 c = biasResRelu (V11 m outs c main_v66) (V11 m outs c main_v69) (V11 m outs c main_v50))
    (H4 : outs 14 main_v73 c = dense (V13 m outs c main_v70) (V13 m outs c main_v72))
    (H5 : outs 16 main_v90 c = biasResRelu (V15 m outs c main_v86) (V15 m outs c main_v89) (V15 m outs c main_v70))
    (H6 : outs 18 main_v93 c = dense (V17 m outs c main_v90) (V17 m outs c main_v92))
    (H7 : outs 20 main_v110 c = biasResRelu (V19 m outs c main_v106) (V19 m outs c main_v109) (V19 m outs c main_v90))
    (H8 : outs 22 main_v113 c = dense (V21 m outs c main_v110) (V21 m outs c main_v112)) :
    outs 22 main_v113 c = val_main_v126 (F := Ideal) (V0 m c main_arg0) (V0 m c main_arg1) (V0 m c main_arg2) (V0 m c main_arg3) (V0 m c main_arg4) (V0 m c main_arg5) (V0 m c main_arg6) := by
  refine H8.trans ?_
  rw [out20_at21 m outs c, o20 m outs c H0 H1 H2 H3 H4 H5 H6 H7, wt4 m outs c]
  exact (stage_v126 _ _ _ _ _ _ _).symm

/-- Region 9's output is the reference's activation of layer 4. -/
theorem o24
    (H0 : outs 6 main_v35 c = dense (V5 m c main_arg0) (V5 m c main_arg3))
    (H1 : outs 8 main_v50 c = biasRelu (V7 m outs c main_v48) (V7 m outs c main_v49))
    (H2 : outs 10 main_v53 c = dense (V9 m outs c main_v50) (V9 m outs c main_v52))
    (H3 : outs 12 main_v70 c = biasResRelu (V11 m outs c main_v66) (V11 m outs c main_v69) (V11 m outs c main_v50))
    (H4 : outs 14 main_v73 c = dense (V13 m outs c main_v70) (V13 m outs c main_v72))
    (H5 : outs 16 main_v90 c = biasResRelu (V15 m outs c main_v86) (V15 m outs c main_v89) (V15 m outs c main_v70))
    (H6 : outs 18 main_v93 c = dense (V17 m outs c main_v90) (V17 m outs c main_v92))
    (H7 : outs 20 main_v110 c = biasResRelu (V19 m outs c main_v106) (V19 m outs c main_v109) (V19 m outs c main_v90))
    (H8 : outs 22 main_v113 c = dense (V21 m outs c main_v110) (V21 m outs c main_v112))
    (H9 : outs 24 main_v130 c = biasResRelu (V23 m outs c main_v126) (V23 m outs c main_v129) (V23 m outs c main_v110)) :
    outs 24 main_v130 c = val_main_v144 (F := Ideal) (V0 m c main_arg0) (V0 m c main_arg1) (V0 m c main_arg2) (V0 m c main_arg3) (V0 m c main_arg4) (V0 m c main_arg5) (V0 m c main_arg6) := by
  refine H9.trans ?_
  rw [agg4_eq m outs c, row_eq m c, col_eq m c, nrm_eq m c, out22_at22 m outs c, o22 m outs c H0 H1 H2 H3 H4 H5 H6 H7 H8, ← ref_agg4,
    out20_at23 m outs c, o20 m outs c H0 H1 H2 H3 H4 H5 H6 H7]
  exact (stage_v144 _ _ _ _ _ _ _ _ (bias4 m outs c)).symm

theorem act4
    (H0 : outs 6 main_v35 c = dense (V5 m c main_arg0) (V5 m c main_arg3))
    (H1 : outs 8 main_v50 c = biasRelu (V7 m outs c main_v48) (V7 m outs c main_v49))
    (H2 : outs 10 main_v53 c = dense (V9 m outs c main_v50) (V9 m outs c main_v52))
    (H3 : outs 12 main_v70 c = biasResRelu (V11 m outs c main_v66) (V11 m outs c main_v69) (V11 m outs c main_v50))
    (H4 : outs 14 main_v73 c = dense (V13 m outs c main_v70) (V13 m outs c main_v72))
    (H5 : outs 16 main_v90 c = biasResRelu (V15 m outs c main_v86) (V15 m outs c main_v89) (V15 m outs c main_v70))
    (H6 : outs 18 main_v93 c = dense (V17 m outs c main_v90) (V17 m outs c main_v92))
    (H7 : outs 20 main_v110 c = biasResRelu (V19 m outs c main_v106) (V19 m outs c main_v109) (V19 m outs c main_v90))
    (H8 : outs 22 main_v113 c = dense (V21 m outs c main_v110) (V21 m outs c main_v112))
    (H9 : outs 24 main_v130 c = biasResRelu (V23 m outs c main_v126) (V23 m outs c main_v129) (V23 m outs c main_v110)) :
    V24 m outs c main_v130 = val_main_v144 (F := Ideal) (V0 m c main_arg0) (V0 m c main_arg1) (V0 m c main_arg2) (V0 m c main_arg3) (V0 m c main_arg4) (V0 m c main_arg5) (V0 m c main_arg6) :=
  (out24_at24 m outs c).trans (o24 m outs c H0 H1 H2 H3 H4 H5 H6 H7 H8 H9)

/-- The array the last region reads is the array the reference's final product reads. -/
theorem chain
    (H0 : outs 6 main_v35 c = dense (V5 m c main_arg0) (V5 m c main_arg3))
    (H1 : outs 8 main_v50 c = biasRelu (V7 m outs c main_v48) (V7 m outs c main_v49))
    (H2 : outs 10 main_v53 c = dense (V9 m outs c main_v50) (V9 m outs c main_v52))
    (H3 : outs 12 main_v70 c = biasResRelu (V11 m outs c main_v66) (V11 m outs c main_v69) (V11 m outs c main_v50))
    (H4 : outs 14 main_v73 c = dense (V13 m outs c main_v70) (V13 m outs c main_v72))
    (H5 : outs 16 main_v90 c = biasResRelu (V15 m outs c main_v86) (V15 m outs c main_v89) (V15 m outs c main_v70))
    (H6 : outs 18 main_v93 c = dense (V17 m outs c main_v90) (V17 m outs c main_v92))
    (H7 : outs 20 main_v110 c = biasResRelu (V19 m outs c main_v106) (V19 m outs c main_v109) (V19 m outs c main_v90))
    (H8 : outs 22 main_v113 c = dense (V21 m outs c main_v110) (V21 m outs c main_v112))
    (H9 : outs 24 main_v130 c = biasResRelu (V23 m outs c main_v126) (V23 m outs c main_v129) (V23 m outs c main_v110)) :
    V25 m outs c main_v130 = val_main_v144 (F := Ideal) (V0 m c main_arg0) (V0 m c main_arg1) (V0 m c main_arg2) (V0 m c main_arg3) (V0 m c main_arg4) (V0 m c main_arg5) (V0 m c main_arg6) :=
  (out24_at25 m outs c).trans (o24 m outs c H0 H1 H2 H3 H4 H5 H6 H7 H8 H9)

end Cert.Bridge

end
-- ==== Proof.Bridge.Assemble.lean ====
/- The kernel's result is the reference's. The contents the regions leave are the layer functions of the contents
   they find (the value of each region), so the layer chain applies to them: the array the last region reads is the
   array the reference's final product reads. -/
import proofs.«180772_j89300960018653_1_alg».proof.Proof.KI.Run
import proofs.«180772_j89300960018653_1_alg».proof.Proof.KI.Value0
import proofs.«180772_j89300960018653_1_alg».proof.Proof.KI.Value1
import proofs.«180772_j89300960018653_1_alg».proof.Proof.KI.Value2
import proofs.«180772_j89300960018653_1_alg».proof.Proof.KI.Value3
import proofs.«180772_j89300960018653_1_alg».proof.Proof.KI.Value4
import proofs.«180772_j89300960018653_1_alg».proof.Proof.KI.Value5
import proofs.«180772_j89300960018653_1_alg».proof.Proof.KI.Value6
import proofs.«180772_j89300960018653_1_alg».proof.Proof.KI.Value7
import proofs.«180772_j89300960018653_1_alg».proof.Proof.KI.Value8
import proofs.«180772_j89300960018653_1_alg».proof.Proof.KI.Value9
import proofs.«180772_j89300960018653_1_alg».proof.Proof.Bridge.Chain

noncomputable section

namespace Cert.Bridge

open Idealize.ShloMosaic Idealize.ShloMosaic.TcCoe Idealize.SL.Sem Idealize.ShloMosaic.StableHlo
open Cert.KernelIdeal Cert.KernelIdeal.Gen Cert.ReferenceIdeal.Read Idealize.ShloMosaic.ValueIdx
open Cert.KernelIdeal.Hand (atRefs W6 W7 W8 W9 W10 W11 W12 W13 W14 W15 W16 W17 W18 W19 W20 W21 W22 W23 W24 W25 W26)

variable (m : (ℓ : Loc nD τ sig) → Buf (Elt Ideal) ℓ) (c : Dev nD)

/-- Region 0 leaves in its output the layer function of the arrays it reads. -/
theorem outs_H0 : Hand.outs m 6 main_v35 c = dense (V5 m c main_arg0) (V5 m c main_arg3) := by
  refine Eq.trans ?_ (Hand.value0 (atRefs (V5 m)) c)
  show W6 m c (main_v35 : DevRef τ sig) = _
  unfold W6
  exact Function.update_self (α := DevRef τ sig) (main_v35 : DevRef τ sig) _ _

/-- Region 1 leaves in its output the layer function of the arrays it reads. -/
theorem outs_H1 : Hand.outs m 8 main_v50 c = biasRelu (V7 m (Hand.outs m) c main_v48) (V7 m (Hand.outs m) c main_v49) := by
  rw [Hand.V7_eq m c]
  refine Eq.trans ?_ (Hand.value1 (atRefs (W7 m)) c)
  show W8 m c (main_v50 : DevRef τ sig) = _
  unfold W8
  exact Function.update_self (α := DevRef τ sig) (main_v50 : DevRef τ sig) _ _

/-- Region 2 leaves in its output the layer function of the arrays it reads. -/
theorem outs_H2 : Hand.outs m 10 main_v53 c = dense (V9 m (Hand.outs m) c main_v50) (V9 m (Hand.outs m) c main_v52) := by
  rw [Hand.V9_eq m c]
  refine Eq.trans ?_ (Hand.value2 (atRefs (W9 m)) c)
  show W10 m c (main_v53 : DevRef τ sig) = _
  unfold W10
  exact Function.update_self (α := DevRef τ sig) (main_v53 : DevRef τ sig) _ _

/-- Region 3 leaves in its output the layer function of the arrays it reads. -/
theorem outs_H3 : Hand.outs m 12 main_v70 c = biasResRelu (V11 m (Hand.outs m) c main_v66) (V11 m (Hand.outs m) c main_v69) (V11 m (Hand.outs m) c main_v50) := by
  rw [Hand.V11_eq m c]
  refine Eq.trans ?_ (Hand.value3 (atRefs (W11 m)) c)
  show W12 m c (main_v70 : DevRef τ sig) = _
  unfold W12
  exact Function.update_self (α := DevRef τ sig) (main_v70 : DevRef τ sig) _ _

/-- Region 4 leaves in its output the layer function of the arrays it reads. -/
theorem outs_H4 : Hand.outs m 14 main_v73 c = dense (V13 m (Hand.outs m) c main_v70) (V13 m (Hand.outs m) c main_v72) := by
  rw [Hand.V13_eq m c]
  refine Eq.trans ?_ (Hand.value4 (atRefs (W13 m)) c)
  show W14 m c (main_v73 : DevRef τ sig) = _
  unfold W14
  exact Function.update_self (α := DevRef τ sig) (main_v73 : DevRef τ sig) _ _

/-- Region 5 leaves in its output the layer function of the arrays it reads. -/
theorem outs_H5 : Hand.outs m 16 main_v90 c = biasResRelu (V15 m (Hand.outs m) c main_v86) (V15 m (Hand.outs m) c main_v89) (V15 m (Hand.outs m) c main_v70) := by
  rw [Hand.V15_eq m c]
  refine Eq.trans ?_ (Hand.value5 (atRefs (W15 m)) c)
  show W16 m c (main_v90 : DevRef τ sig) = _
  unfold W16
  exact Function.update_self (α := DevRef τ sig) (main_v90 : DevRef τ sig) _ _

/-- Region 6 leaves in its output the layer function of the arrays it reads. -/
theorem outs_H6 : Hand.outs m 18 main_v93 c = dense (V17 m (Hand.outs m) c main_v90) (V17 m (Hand.outs m) c main_v92) := by
  rw [Hand.V17_eq m c]
  refine Eq.trans ?_ (Hand.value6 (atRefs (W17 m)) c)
  show W18 m c (main_v93 : DevRef τ sig) = _
  unfold W18
  exact Function.update_self (α := DevRef τ sig) (main_v93 : DevRef τ sig) _ _

/-- Region 7 leaves in its output the layer function of the arrays it reads. -/
theorem outs_H7 : Hand.outs m 20 main_v110 c = biasResRelu (V19 m (Hand.outs m) c main_v106) (V19 m (Hand.outs m) c main_v109) (V19 m (Hand.outs m) c main_v90) := by
  rw [Hand.V19_eq m c]
  refine Eq.trans ?_ (Hand.value7 (atRefs (W19 m)) c)
  show W20 m c (main_v110 : DevRef τ sig) = _
  unfold W20
  exact Function.update_self (α := DevRef τ sig) (main_v110 : DevRef τ sig) _ _

/-- Region 8 leaves in its output the layer function of the arrays it reads. -/
theorem outs_H8 : Hand.outs m 22 main_v113 c = dense (V21 m (Hand.outs m) c main_v110) (V21 m (Hand.outs m) c main_v112) := by
  rw [Hand.V21_eq m c]
  refine Eq.trans ?_ (Hand.value8 (atRefs (W21 m)) c)
  show W22 m c (main_v113 : DevRef τ sig) = _
  unfold W22
  exact Function.update_self (α := DevRef τ sig) (main_v113 : DevRef τ sig) _ _

/-- Region 9 leaves in its output the layer function of the arrays it reads. -/
theorem outs_H9 : Hand.outs m 24 main_v130 c = biasResRelu (V23 m (Hand.outs m) c main_v126) (V23 m (Hand.outs m) c main_v129) (V23 m (Hand.outs m) c main_v110) := by
  rw [Hand.V23_eq m c]
  refine Eq.trans ?_ (Hand.value9 (atRefs (W23 m)) c)
  show W24 m c (main_v130 : DevRef τ sig) = _
  unfold W24
  exact Function.update_self (α := DevRef τ sig) (main_v130 : DevRef τ sig) _ _

/-- The array the last region reads is the array the reference's final product reads. -/
theorem x_last : V25 m (Hand.outs m) c main_v130 = val_main_v144 (F := Ideal) (V0 m c main_arg0) (V0 m c main_arg1) (V0 m c main_arg2) (V0 m c main_arg3) (V0 m c main_arg4) (V0 m c main_arg5) (V0 m c main_arg6) :=
  chain m (Hand.outs m) c (outs_H0 m c) (outs_H1 m c) (outs_H2 m c) (outs_H3 m c) (outs_H4 m c) (outs_H5 m c) (outs_H6 m c) (outs_H7 m c) (outs_H8 m c) (outs_H9 m c)

end Cert.Bridge

end
-- ==== Proof.KI.FinalPayload.lean ====
import proofs.«180772_j89300960018653_1_alg».proof.Proof.Gen.KernelIdeal.Skeleton
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.Hand.FinalValue

open Cert.KernelIdeal Cert.KernelIdeal.Gen
open Idealize.ShloMosaic Idealize.ShloMosaic.ValueIdx

/-! # The last region's arithmetic on the extended reals, index by index

The accumulator is cleared to `0`; a point adds to entry `q` the sum over the point's 5000 rows `r` and the 128
contracted columns `k` of `x[r,k] · Wfc[k,q]` (the change of float format before the product is the identity on
exact values); the last point writes `accumulator · (1/50000) + bias`. -/

/-- The named scale is the real 1/50000. -/
theorem inv_50000 : Named.named (F := Ideal) Cert.KernelIdeal.κ "inv_50000" (φ := .f32) 0x37A7C5AC#32 = ((1 / 50000 : ℝ) : EReal) :=
  IdealRules.named_const.ideal_named_scalar _ _ _ _ rfl

/-- The cleared accumulator is zero. -/
theorem pay1_apply (j : S1x2.Idx) : k10_pay1 (F := Ideal) j = 0 := by
  unfold k10_pay1
  try dsimp only
  rw [shapeCast_self]
  exact Ideal.ofBits_zero_f32

/-- The last store: the accumulator scaled by 1/50000, plus the bias. -/
theorem pay3_apply (acc b : Vec Ideal S1x2 .f32) (j : S1x2.Idx) :
    k10_pay3 (F := Ideal) acc b j = acc j * ((1 / 50000 : ℝ) : EReal) + b j := by
  unfold k10_pay3
  try dsimp only
  rw [shapeCast_self]
  show acc j * Named.named (F := Ideal) Cert.KernelIdeal.κ "inv_50000" (φ := .f32) 0x37A7C5AC#32 + b j = _
  rw [inv_50000]

theorem lhs_0 (i : S5000x2.Idx) (q : dot_S5000x128_S128x2_S5000x2_1_0_0_1_n_n.contr.Idx) :
    (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
theorem lhs_1 (i : S5000x2.Idx) (q : dot_S5000x128_S128x2_S5000x2_1_0_0_1_n_n.contr.Idx) :
    (dot_S5000x128_S128x2_S5000x2_1_0_0_1_n_n.lhsIdx i q 1).val = (q ⟨0, by decide⟩).val :=
  dot_S5000x128_S128x2_S5000x2_1_0_0_1_n_n.lhsIdx_val_of_single rfl i q
theorem rhs_0 (i : S5000x2.Idx) (q : dot_S5000x128_S128x2_S5000x2_1_0_0_1_n_n.contr.Idx) :
    (dot_S5000x128_S128x2_S5000x2_1_0_0_1_n_n.rhsIdx i q 0).val = (q ⟨0, by decide⟩).val :=
  dot_S5000x128_S128x2_S5000x2_1_0_0_1_n_n.rhsIdx_val_of_single rfl i q
theorem rhs_1 (i : S5000x2.Idx) (q : dot_S5000x128_S128x2_S5000x2_1_0_0_1_n_n.contr.Idx) :
    (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- The block's product with `Wfc` at row `r`, column `q`: the sum over the 128 contracted columns. -/
theorem mm_apply (x : FVec Ideal S5000x128 .bf16) (w : FVec Ideal S128x2 .bf16) (r : Fin 5000) (q : Fin 2) :
    FloatOps.matmul dot_S5000x128_S128x2_S5000x2_1_0_0_1_n_n none x w (constant (F := Ideal) S5000x2 .f32 0x00000000#32) (ix2 r q)
      = ∑ k : Fin 128, x (ix2 r k) * w (ix2 k q) := by
  rw [Ideal.matmul_constant_zero_apply, ← Equiv.sum_comp (ValueIdx.contrEquiv1 dot_S5000x128_S128x2_S5000x2_1_0_0_1_n_n 128 rfl rfl).symm]
  refine Finset.sum_congr rfl fun k _ => ?_
  have hk := ValueIdx.contrEquiv1_symm_val dot_S5000x128_S128x2_S5000x2_1_0_0_1_n_n 128 rfl rfl k
  have el : dot_S5000x128_S128x2_S5000x2_1_0_0_1_n_n.lhsIdx (ix2 r q) ((ValueIdx.contrEquiv1 dot_S5000x128_S128x2_S5000x2_1_0_0_1_n_n 128 rfl rfl).symm k) = ix2 r k := funext fun a => Fin.ext (by
    match a with
    | ⟨0, _⟩ => exact lhs_0 _ _
    | ⟨1, _⟩ => exact (lhs_1 _ _).trans hk)
  have er : dot_S5000x128_S128x2_S5000x2_1_0_0_1_n_n.rhsIdx (ix2 r q) ((ValueIdx.contrEquiv1 dot_S5000x128_S128x2_S5000x2_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The column sums of a [5000,2] block: entry `q` is the sum over the 5000 rows. -/
theorem colsum_apply (v : FVec Ideal S5000x2 .f32) (hφ : FKind.Formats .f32) (hacc : (0x00000000#32 : BitVec 32) = 0x00000000#32) (q : Fin 2) :
    multiReduction (F := Ideal) .add [0] S2 v 0x00000000#32 reduces_S5000x2_S2 hφ hacc (ix1 q) = ∑ r : Fin 5000, v (ix2 r q) := by
  refine (Ideal.multiReduction_add_single v 0x00000000#32 reduces_S5000x2_S2 hφ hacc (ix1 q)).trans ?_
  refine Finset.sum_congr rfl fun r _ => congrArg v (funext fun a => Fin.ext ?_)
  match a with
  | ⟨0, _⟩ => rfl
  | ⟨1, _⟩ => rfl

/-- A point's store into the accumulator: entry `q` gains the block's contribution. -/
theorem pay2_apply (x : Vec Ideal S5000x128 .f32) (w : Vec Ideal S128x2 .f32) (acc : Vec Ideal S1x2 .f32) (q : Fin 2) :
    k10_pay2 (F := Ideal) x w acc (ix2 (0 : Fin 1) q)
      = acc (ix2 (0 : Fin 1) q) + ∑ r : Fin 5000, ∑ k : Fin 128, x (ix2 r k) * w (ix2 k q) := by
  unfold k10_pay2
  try dsimp only
  refine (congrFun (shapeCast_self _ _) _).trans ?_
  refine congrArg (acc (ix2 (0 : Fin 1) q) + ·) ?_
  refine (shapeCast_apply _ shapeCasts_S2_S1x2 (ix2 (0 : Fin 1) q) (ix1 q) ?_).trans ?_
  · rw [Shape.rowMajor_val_one, Shape.rowMajor_val_two]; simp
  refine (colsum_apply _ _ _ q).trans ?_
  refine Finset.sum_congr rfl fun r _ => ?_
  refine (mm_apply _ _ r q).trans ?_
  refine Finset.sum_congr rfl fun k _ => ?_
  rw [shapeCast_self]
  rfl

end Cert.KernelIdeal.Hand.FinalValue

end
-- ==== Proof.KI.FinalValue.lean ====
import proofs.«180772_j89300960018653_1_alg».proof.Proof.KI.Final
import proofs.«180772_j89300960018653_1_alg».proof.Proof.KI.FinalPayload

set_option maxRecDepth 16384

noncomputable section

namespace Cert.KernelIdeal.Hand.FinalValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

/-! # What the last region leaves in its output array, at the exact values

Ten blocks of 5000 rows are the 50000 rows: the accumulator after the last point is, entry by entry, the sum over all
rows `n` and the 128 contracted columns `k` of `x[n,k] · Wfc[k,q]`, and the one write-back, at the last point, writes
that sum scaled by 1/50000, plus the bias. -/

variable (V : (c : Dev nD) → (b : Ref sig .tc) → Buf (Elt Ideal) ((c : Thread nD τ).loc b))

/-! ## Sums over consecutive blocks -/

/-- A sum over `a` consecutive blocks of `b` naturals is the sum over the first `b · a` naturals. -/
theorem sum_blocks {M : Type} [AddCommMonoid M] (f : ℕ → M) (b : ℕ) :
    ∀ a : ℕ, ∑ p ∈ Finset.range a, ∑ r ∈ Finset.range b, f (b * p + r) = ∑ q ∈ Finset.range (b * a), f q
  | 0 => by rw [Finset.range_zero, Finset.sum_empty, Nat.mul_zero, Finset.range_zero, Finset.sum_empty]
  | a + 1 => by rw [Finset.sum_range_succ, sum_blocks f b a, Nat.mul_succ, Finset.sum_range_add]

/-- Row `q` of a [50000,128] array, total in `q` (zero past the last row). -/
def xrow (X : Vec Ideal S50000x128 .f32) (q : ℕ) (k : Fin 128) : EReal :=
  if h : q < 50000 then X (ix2 (⟨q, h⟩ : Fin 50000) k) else 0

theorem xrow_fin (X : Vec Ideal S50000x128 .f32) (n : Fin 50000) (k : Fin 128) : xrow X n.val k = X (ix2 n k) := by
  unfold xrow; rw [dif_pos n.isLt]

/-- Row `q`'s contribution to entry `j`: the contracted product with column `j` of the weights. -/
def rowTerm (X : Vec Ideal S50000x128 .f32) (W : Vec Ideal S128x2 .f32) (j : Fin 2) (q : ℕ) : EReal :=
  ∑ k : Fin 128, xrow X q k * W (ix2 k j)

/-- The region's three input arrays as it finds them, at their literal types. -/
abbrev Xa (c : Dev nD) : Vec Ideal S50000x128 .f32 := V c main_v130
abbrev Wa (c : Dev nD) : Vec Ideal S128x2 .f32 := V c main_arg7
abbrev Ba (c : Dev nD) : Vec Ideal S1x2 .f32 := V c main_v131

/-! ## The windows' blocks -/

theorem idx10_0 : ∀ t : Fin cfg10.N, win10_0.index t 0 = t.val ∧ win10_0.index t 1 = 0 :=
  (by decide +kernel : ∀ t : Fin grid10.N, win10_0.index t 0 = t.val ∧ win10_0.index t 1 = 0)
theorem idx10_1 : ∀ (t : Fin cfg10.N) (a : Fin 2), win10_1.index t a = 0 :=
  (by decide +kernel : ∀ (t : Fin grid10.N) (a : Fin 2), win10_1.index t a = 0)
theorem idx10_2 : ∀ (t : Fin cfg10.N) (a : Fin 2), win10_2.index t a = 0 :=
  (by decide +kernel : ∀ (t : Fin grid10.N) (a : Fin 2), win10_2.index t a = 0)
theorem idx10_3 : ∀ (t : Fin cfg10.N) (a : Fin 2), win10_3.index t a = 0 :=
  (by decide +kernel : ∀ (t : Fin grid10.N) (a : Fin 2), win10_3.index t a = 0)

/-- Block `t` of `x`, entry (r, k), is row `5000 t + r` of the array. -/
theorem iblk10_0_apply (c : Dev nD) (t : Fin cfg10.N) (r : Fin 5000) (k : Fin 128) :
    (iblk10 V c 0 t : Vec Ideal S5000x128 .f32) (ix2 r k) = xrow (V c main_v130) (5000 * t.val + r.val) k := by
  have hN : t.val < 10 := lt_of_lt_of_eq t.isLt (show cfg10.N = 10 from N_10)
  have hq : 5000 * t.val + r.val < 50000 := by have := r.isLt; omega
  unfold xrow; rw [dif_pos hq]
  unfold iblk10
  rw [View.read_apply]
  show V c main_v130 _ = V c main_v130 _
  refine congrArg (V c main_v130) (funext fun a => Fin.ext ?_)
  match a with
  | ⟨0, _⟩ =>
    show win10_0.index t 0 * 5000 + 1 * r.val = 5000 * t.val + r.val
    rw [(idx10_0 t).1]; omega
  | ⟨1, _⟩ =>
    show win10_0.index t 1 * 128 + 1 * k.val = k.val
    rw [(idx10_0 t).2]; omega

/-- The weights' block is the whole array, at every point. -/
theorem iblk10_1_eq (c : Dev nD) (t : Fin cfg10.N) : (iblk10 V c 1 t : Vec Ideal S128x2 .f32) = V c main_arg7 := by
  have hz : (fun a => win10_1.index t a * main_arg7.ty.shape.size a) = fun _ => 0 := funext fun a => by rw [idx10_1 t a, Nat.zero_mul]
  unfold iblk10
  exact Memref.read_access_unit_zero (Elt Ideal) main_arg7 hz (fun a => by rw [congrFun hz a]; simp) (V c main_arg7)

/-- The bias block is the whole [1,2] array, at every point. -/
theorem iblk10_2_eq (c : Dev nD) (t : Fin cfg10.N) : (iblk10 V c 2 t : Vec Ideal S1x2 .f32) = V c main_v131 := by
  have hz : (fun a => win10_2.index t a * main_v131.ty.shape.size a) = fun _ => 0 := funext fun a => by rw [idx10_2 t a, Nat.zero_mul]
  unfold iblk10
  exact Memref.read_access_unit_zero (Elt Ideal) main_v131 hz (fun a => by rw [congrFun hz a]; simp) (V c main_v131)

/-! ## The accumulator, in closed form -/

/-- One point's step over variables: a block whose rows are rows `base + r` of `X`, against the whole weights. -/
theorem step_apply (x : Vec Ideal S5000x128 .f32) (w : Vec Ideal S128x2 .f32) (acc : Vec Ideal S1x2 .f32)
    (X : Vec Ideal S50000x128 .f32) (W : Vec Ideal S128x2 .f32) (base : ℕ)
    (hx : ∀ (r : Fin 5000) (k : Fin 128), x (ix2 r k) = xrow X (base + r.val) k) (hw : w = W) (j : Fin 2) :
    k10_pay2 (F := Ideal) x w acc (ix2 (0 : Fin 1) j)
      = acc (ix2 (0 : Fin 1) j) + ∑ r ∈ Finset.range 5000, rowTerm X W j (base + r) := by
  subst hw
  rw [pay2_apply, ← Fin.sum_univ_eq_sum_range (fun r => rowTerm X w j (base + r)) 5000]
  refine congrArg (acc (ix2 (0 : Fin 1) j) + ·) (Finset.sum_congr rfl fun r _ => ?_)
  unfold rowTerm
  exact Finset.sum_congr rfl fun k _ => by rw [hx r k]

/-- After point `n` the accumulator's entry `j` is the sum of the contributions of the rows of blocks `0 … n`. -/
theorem accAfter_apply (c : Dev nD) (j : Fin 2) : ∀ n : ℕ, n < 10 →
    accAfter V c n (ix2 (0 : Fin 1) j)
      = ∑ p ∈ Finset.range (n + 1), ∑ r ∈ Finset.range 5000, rowTerm (V c main_v130) (V c main_arg7) j (5000 * p + r)
  | 0, _ => by
    rw [accAfter_zero]
    refine (step_apply (iblk10 V c 0 (pt10 0)) (iblk10 V c 1 (pt10 0)) (k10_pay1 (F := Ideal)) (V c main_v130) (V c main_arg7) (5000 * 0)
      (fun r k => iblk10_0_apply V c (pt10 0) r k) (iblk10_1_eq V c (pt10 0)) j).trans ?_
    rw [pay1_apply, zero_add, Finset.sum_range_one]
  | n + 1, hn => by
    rw [accAfter_succ]
    have hp : (pt10 (n + 1)).val = n + 1 := Nat.mod_eq_of_lt hn
    refine (step_apply (iblk10 V c 0 (pt10 (n + 1))) (iblk10 V c 1 (pt10 (n + 1))) (accAfter V c n) (V c main_v130) (V c main_arg7) (5000 * (n + 1))
      (fun r k => by rw [iblk10_0_apply V c (pt10 (n + 1)) r k, hp]) (iblk10_1_eq V c (pt10 (n + 1))) j).trans ?_
    rw [accAfter_apply c j n (by omega), Finset.sum_range_succ _ (n + 1)]

/-- After the last point: the sum over all 50000 rows. -/
theorem accAfter_last (c : Dev nD) (j : Fin 2) :
    accAfter V c 9 (ix2 (0 : Fin 1) j) = ∑ n : Fin 50000, ∑ k : Fin 128, Xa V c (ix2 n k) * Wa V c (ix2 k j) := by
  rw [accAfter_apply V c j 9 (by decide), sum_blocks (rowTerm (V c main_v130) (V c main_arg7) j) 5000 10,
    ← Fin.sum_univ_eq_sum_range (rowTerm (V c main_v130) (V c main_arg7) j) 50000]
  refine Finset.sum_congr rfl fun n _ => ?_
  unfold rowTerm
  exact Finset.sum_congr rfl fun k _ => by rw [xrow_fin]

/-! ## The output array -/

/-- What the region leaves in its output array: the mean's numerator scaled, plus the bias. -/
def G10 (c : Dev nD) : Buf (Elt Ideal) ((c : Thread nD τ).loc main_v132) :=
  fun i : S1x2.Idx => (∑ n : Fin 50000, ∑ k : Fin 128, Xa V c (ix2 n k) * Wa V c (ix2 k (i 1))) * ((1 / 50000 : ℝ) : EReal) + Ba V c i

/-- The last point's store is `G10`. -/
theorem out_last (c : Dev nD) (t : Fin cfg10.N) (h9 : t.val = 9) :
    out10_3 (accAfter V c t.val) (iblk10 V c 2 t) = G10 V c := by
  funext i
  obtain ⟨p, j, rfl⟩ : ∃ (p : Fin 1) (j : Fin 2), i = ix2 p j := ⟨i 0, i 1, eq_ix2 i⟩
  obtain rfl : p = 0 := Subsingleton.elim _ _
  unfold out10_3 G10
  rw [pay3_apply, h9, accAfter_last, iblk10_2_eq]

/-- The one write-back, at the last point, writes `G10`: the output's block is the whole [1,2] array. -/
theorem flushed_eq (c : Dev nD) (t : Fin cfg10.N) (hf : (cfg10.win 3).flush t = true) :
    (dat10 V c).flushed 3 t = ((cfg10.win 3).blk t).view.read (Elt Ideal) (G10 V c) := by
  have hN : cfg10.N = 10 := N_10
  have h9 : t.val = 9 := by have := (flush10_3 t).mp hf; have := t.isLt; omega
  show (cfg10.win 3).cut (grid10.coords t) ((dat10 V c).after 3 t) = _
  rw [after10_3, out_last V c t h9]
  have hz : (fun a => win10_3.index t a * main_v132.ty.shape.size a) = fun _ => 0 := funext fun a => by rw [idx10_3 t a, Nat.zero_mul]
  exact (Memref.read_access_unit_zero (Elt Ideal) main_v132 hz (fun a => by rw [congrFun hz a]; simp) (G10 V c)).symm

/-- THE VALUE: after the region its output array holds, entry by entry, the sum over all 50000 rows and the 128
    contracted columns of `x[n,k] · Wfc[k,q]`, scaled by 1/50000, plus the bias (the double sum is arranged rows
    outermost, contracted columns innermost). -/
theorem final_value (c : Dev nD) : (dat10 (F := Ideal) V c).arrAt 3 cfg10.N = G10 V c :=
  (dat10 V c).arrAt_eq_of_cover 3 (G10 V c) (flushed_eq V c) fun i =>
    ⟨t10_9, (flush10_3 t10_9).mpr rfl, by
      show i ∈ ((View.whole main_v132).slice (win10_3.rect t10_9)).set
      rw [View.set_slice_whole, Rect.mem_set_unit]
      intro a
      have h0 : (i 0 : Nat) < 1 := (i 0).isLt
      have h1 : (i 1 : Nat) < 2 := (i 1).isLt
      match a with
      | ⟨0, _⟩ =>
        show win10_3.index t10_9 0 * win10_3.size 0 ≤ (i 0 : Nat) ∧ (i 0 : Nat) < win10_3.index t10_9 0 * win10_3.size 0 + win10_3.xsize (grid10.coords t10_9) 0
        rw [show win10_3.index t10_9 0 * win10_3.size 0 = 0 from by decide +kernel, show win10_3.xsize (grid10.coords t10_9) 0 = 1 from by decide +kernel]; omega
      | ⟨1, _⟩ =>
        show win10_3.index t10_9 1 * win10_3.size 1 ≤ (i 1 : Nat) ∧ (i 1 : Nat) < win10_3.index t10_9 1 * win10_3.size 1 + win10_3.xsize (grid10.coords t10_9) 1
        rw [show win10_3.index t10_9 1 * win10_3.size 1 = 0 from by decide +kernel, show win10_3.xsize (grid10.coords t10_9) 1 = 2 from by decide +kernel]; omega⟩

/-- The same with the right-hand side written out. -/
theorem final_value' (c : Dev nD) : (dat10 (F := Ideal) V c).arrAt 3 cfg10.N
    = fun i : S1x2.Idx => (∑ n : Fin 50000, ∑ k : Fin 128, Xa V c (ix2 n k) * Wa V c (ix2 k (i 1))) * ((1 / 50000 : ℝ) : EReal) + Ba V c i :=
  final_value V c

end Cert.KernelIdeal.Hand.FinalValue

end
-- ==== Proof.Bridge.MeanAlgebra.lean ====
import Idealize.ShloMosaic.PureOps.Ideal
import Idealize.ShloMosaic.PureOps.Ideal.Laws

noncomputable section

namespace Cert.Bridge

open Idealize.ShloMosaic

/-! # The one law the last stage needs

The kernel ends with `(∑ₙ aₙ) · (1/50000) + b`, the reference with `(0 + ∑ₙ (aₙ + b)) / 50000`. On the extended reals
addition is commutative and associative whatever the `aₙ` are, so the sum of the `aₙ + b` is the sum of the `aₙ`
plus 50000 copies of `b`; division by the real 50000 is multiplication by the real 1/50000; a nonnegative REAL factor
distributes over any sum; and the 50000 copies of a REAL `b`, scaled by 1/50000, are `b`. Only `b` must be finite. -/

/-- The divisor's bit pattern denotes the real 50000. -/
theorem ofBits_50000 : Ideal.ofBits .f32 0x47435000#32 = ((50000 : ℝ) : EReal) := by
  simp [Ideal.ofBits, Ideal.ieee, -EReal.coe_mul]; norm_num

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The mean of the `aₙ + b` over 50000 rows is the scaled sum of the `aₙ`, plus `b`, for a REAL `b`. -/
theorem mean_shift (S : Fin 50000 → EReal) (r : ℝ) :
    Ideal.div (0 + ∑ n, (S n + (r : EReal))) ((50000 : ℝ) : EReal)
      = (∑ n, S n) * ((1 / 50000 : ℝ) : EReal) + (r : EReal) := by
  have hc : ∑ _n : Fin 50000, (r : EReal) = ((50000 * r : ℝ) : EReal) := by
    rw [Finset.sum_const, Finset.card_univ, Fintype.card_fin, ← EReal.coe_nsmul, nsmul_eq_mul, Nat.cast_ofNat]
  have h0 : (0 : EReal) ≤ ((1 / 50000 : ℝ) : EReal) := by exact_mod_cast (by norm_num : (0 : ℝ) ≤ 1 / 50000)
  rw [zero_add, Ideal.div_coe (by norm_num), Finset.sum_add_distrib, hc,
    EReal.right_distrib_of_nonneg_of_ne_top h0 (EReal.coe_ne_top _), ← EReal.coe_mul]
  rw [show (50000 * r * (1 / 50000) : ℝ) = r from by ring]

end Cert.Bridge

end
-- ==== Proof.Bridge.FinalStage.lean ====
import proofs.«180772_j89300960018653_1_alg».proof.Proof.Gen.ReferenceIdeal.Read
import proofs.«180772_j89300960018653_1_alg».proof.Proof.Bridge.MeanAlgebra
import Idealize.ShloMosaic.Lib.ValueIdx

noncomputable section

namespace Cert.Bridge

open Idealize.ShloMosaic Idealize.ShloMosaic.ValueIdx
open Cert.ReferenceIdeal Cert.ReferenceIdeal.Read

/-! # The reference's last operations

With `X` the activations after the last residual layer, the reference computes `X · Wfc`, adds the bias to every row,
sums the 50000 rows from zero and divides by 50000. By the one law of the last stage (the mean of the `aₙ + b` is the
scaled sum of the `aₙ`, plus `b`, for a finite `b`) this is the scaled sum of the rows of `X · Wfc`, plus the bias. -/

theorem final_stage (a0 : (⟨Cert.ReferenceIdeal.S50000x128, .f32⟩ : BufTy).Contents (Elt Ideal)) (a1 : (⟨Cert.ReferenceIdeal.S2x600000, .i32⟩ : BufTy).Contents (Elt Ideal)) (a2 : (⟨Cert.ReferenceIdeal.S600000, .f32⟩ : BufTy).Contents (Elt Ideal)) (a3 : (⟨Cert.ReferenceIdeal.S128x128, .f32⟩ : BufTy).Contents (Elt Ideal)) (a4 : (⟨Cert.ReferenceIdeal.S128, .f32⟩ : BufTy).Contents (Elt Ideal)) (a5 : (⟨Cert.ReferenceIdeal.S4x128x128, .f32⟩ : BufTy).Contents (Elt Ideal)) (a6 : (⟨Cert.ReferenceIdeal.S4x128, .f32⟩ : BufTy).Contents (Elt Ideal)) (a7 : (⟨Cert.ReferenceIdeal.S128x2, .f32⟩ : BufTy).Contents (Elt Ideal)) (a8 : (⟨Cert.ReferenceIdeal.S2, .f32⟩ : BufTy).Contents (Elt Ideal))
    (X : (⟨Cert.ReferenceIdeal.S50000x128, .f32⟩ : BufTy).Contents (Elt Ideal))
    (hX : X = Cert.ReferenceIdeal.Read.val_main_v144 (F := Ideal) a0 a1 a2 a3 a4 a5 a6)
    (hb : ∀ j, ∃ r : ℝ, a8 j = (r : EReal)) :
    (fun i : Cert.ReferenceIdeal.S1x2.Idx => (∑ n : Fin 50000, ∑ k : Fin 128, X (ix2 n k) * a7 (ix2 k (i 1))) * ((1 / 50000 : ℝ) : EReal) + a8 (ix1 (i 1)))
      = Cert.ReferenceIdeal.Read.val_main_v152 (F := Ideal) a0 a1 a2 a3 a4 a5 a6 a7 a8 := by
  funext i
  obtain ⟨p, j, rfl⟩ : ∃ (p : Fin 1) (j : Fin 2), i = ix2 p j := ⟨i 0, i 1, eq_ix2 i⟩
  show (∑ n : Fin 50000, ∑ k : Fin 128, X (ix2 n k) * a7 (ix2 k j)) * ((1 / 50000 : ℝ) : EReal) + a8 (ix1 j) = _
  obtain ⟨r, hr⟩ := hb (ix1 j)
  have hs : ∀ n : Fin 50000, val_main_v148 (F := Ideal) a0 a1 a2 a3 a4 a5 a6 a7 a8 (idx_main_v149 (idx_main_v150 (ix2 p j)) n)
      = (∑ k : Fin 128, X (ix2 n k) * a7 (ix2 k j)) + (r : EReal) := by
    intro n
    have eb : idx_main_v146 (idx_main_v147 (idx_main_v149 (idx_main_v150 (ix2 p j)) n)) = ix1 j :=
      funext fun a => Fin.ext (by match a with | ⟨0, _⟩ => rfl)
    rw [val_main_v148_apply, val_main_v145_apply, val_main_v147_apply, val_main_v146_apply, eb, hr, ← hX]
    refine congrArg (· + (r : EReal)) (Finset.sum_congr rfl fun k _ => ?_)
    have el : lidx_main_v145 (idx_main_v149 (idx_main_v150 (ix2 p j)) n) k = ix2 n k :=
      funext fun a => Fin.ext (by match a with | ⟨0, _⟩ => rfl | ⟨1, _⟩ => rfl)
    have er : ridx_main_v145 (idx_main_v149 (idx_main_v150 (ix2 p j)) n) k = ix2 k j :=
      funext fun a => Fin.ext (by match a with | ⟨0, _⟩ => rfl | ⟨1, _⟩ => rfl)
    rw [el, er]
  rw [hr, val_main_v152_apply, val_main_v150_apply, val_main_v149_apply, val_main_v151_apply, val_main_cst_23_apply, val_main_cst_24_apply,
    Finset.sum_congr rfl fun n _ => hs n]
  exact (mean_shift (fun n => ∑ k : Fin 128, X (ix2 n k) * a7 (ix2 k j)) r).symm.trans
    (by rw [← ofBits_50000, ← Ideal.ofBits_zero_f32]; rfl)

end Cert.Bridge

end
-- ==== Proof.Bridge.BiasReal.lean ====
import proofs.«180772_j89300960018653_1_alg».proof.Defs
import Idealize.ShloMosaic.Lib.ReduceAll
import Idealize.ShloMosaic.Lib.ValueIdx

noncomputable section

namespace Cert.Bridge

open Idealize.ShloMosaic

/-! # The bias is finite

The precondition says of every float input that the absolute value of each entry is below `+∞`; for the bias this
makes each entry a real number, which is what the last stage's law needs. -/

instance : Subsingleton Cert.Pre_finite_inputs.S_.Idx := ⟨fun a b => funext fun d => d.elim0⟩

/-- An extended real whose absolute value is below `+∞` is a real. -/
theorem real_of_abs_lt_top (x : EReal) (h : x < ⊤ ∧ -x < ⊤) : ∃ r : ℝ, x = (r : EReal) := by
  induction x using EReal.rec with
  | bot => exact absurd h.2 (by rw [EReal.neg_bot]; exact lt_irrefl _)
  | coe r => exact ⟨r, rfl⟩
  | top => exact absurd h.1 (lt_irrefl _)

/-- The precondition's last conjunct: every entry of the bias has absolute value below `+∞`. -/
theorem finite_last [Cert.Pre_finite_inputs.Facts]
    (x0 : FVec Ideal Cert.Pre_finite_inputs.S50000x128 .f32) (x1 : IVec Cert.Pre_finite_inputs.S2x600000 32) (x2 : FVec Ideal Cert.Pre_finite_inputs.S600000 .f32)
    (x3 : FVec Ideal Cert.Pre_finite_inputs.S128x128 .f32) (x4 : FVec Ideal Cert.Pre_finite_inputs.S128 .f32) (x5 : FVec Ideal Cert.Pre_finite_inputs.S4x128x128 .f32)
    (x6 : FVec Ideal Cert.Pre_finite_inputs.S4x128 .f32) (x7 : FVec Ideal Cert.Pre_finite_inputs.S128x2 .f32) (x8 : FVec Ideal Cert.Pre_finite_inputs.S2 .f32)
    (h : Cert.Pre_finite_inputs.fn (F := Ideal) x0 x1 x2 x3 x4 x5 x6 x7 x8 = fun _ => 1#1) (j : Cert.Pre_finite_inputs.S2.Idx) :
    ∃ r : ℝ, x8 j = (r : EReal) := by
  have h1 := congrFun h ValueIdx.ix0
  unfold Cert.Pre_finite_inputs.fn at h1
  dsimp only at h1
  unfold Cert.Pre_finite_inputs.fn_part1 at h1
  dsimp only at h1
  unfold Cert.Pre_finite_inputs.fn_part2 at h1
  dsimp only at h1
  have h2 := (IntOp.andi_eq_one.mp h1).2
  have h3 := Host.reduce_andi_all _ _ _ _ _ h2 j
  apply real_of_abs_lt_top
  have h4 : Ideal.cmp .olt (max (x8 j) (-(x8 j))) (Ideal.ofBits .f32 0x7F800000#32) = 1#1 := h3
  have h5 : BitVec.ofBool (decide (x8 j < ⊤) && decide (-x8 j < ⊤)) = 1#1 := by
    simpa [Ideal.cmp, Ideal.ofBits, Ideal.ieee] using h4
  have h6 : (decide (x8 j < ⊤) && decide (-x8 j < ⊤)) = true := by
    cases hb : (decide (x8 j < ⊤) && decide (-x8 j < ⊤)) with
    | true => rfl
    | false => rw [hb] at h5; exact absurd h5 (by decide)
  rw [Bool.and_eq_true, decide_eq_true_eq, decide_eq_true_eq] at h6
  exact h6

/-- Under the kernel program's precondition every entry of the bias argument is a real number. -/
theorem bias_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (j : Cert.Pre_finite_inputs.S2.Idx) :
    ∃ r : ℝ, (m ((c.tc : Thread Cert.KernelIdeal.nD Cert.KernelIdeal.τ).loc Cert.KernelIdeal.main_arg8) : FVec Ideal Cert.Pre_finite_inputs.S2 .f32) j = (r : EReal) :=
  finite_last _ _ _ _ _ _ _ _ _ (h c) j

end Cert.Bridge

end
-- ==== Proof.Bridge.Result.lean ====
/- The kernel's result is the reference's: the last region leaves the scaled sum of the rows of the last activation
   times the final weights, plus the bias row; the last activation is the reference's (the layer chain), the weights
   and the bias are the argument arrays, and for a bias of real numbers the reference's mean of the biased rows is
   that scaled sum plus the bias. -/
import proofs.«180772_j89300960018653_1_alg».proof.Proof.Bridge.Assemble
import proofs.«180772_j89300960018653_1_alg».proof.Proof.KI.FinalValue
import proofs.«180772_j89300960018653_1_alg».proof.Proof.Bridge.FinalStage
import proofs.«180772_j89300960018653_1_alg».proof.Proof.Bridge.BiasReal

noncomputable section

namespace Cert.Bridge

open Idealize.ShloMosaic Idealize.ShloMosaic.TcCoe Idealize.SL.Sem Idealize.ShloMosaic.StableHlo
open Cert.KernelIdeal Cert.KernelIdeal.Gen Cert.ReferenceIdeal.Read Idealize.ShloMosaic.ValueIdx
open Cert.KernelIdeal.Hand (atRefs W25 W26)
open Cert.KernelIdeal.Hand.FinalValue (G10 final_value)

/-- The last region's value depends on its three arrays only through the features, the weights and the bias row's
    entries. -/
theorem final_congr (A A' : S50000x128.Idx → EReal) (B B' : S128x2.Idx → EReal) (C : S1x2.Idx → EReal) (C' : S2.Idx → EReal)
    (hA : A = A') (hB : B = B') (hC : ∀ j : Fin 2, C (ix2 (0 : Fin 1) j) = C' (ix1 j)) :
    (fun i : S1x2.Idx => (∑ n : Fin 50000, ∑ k : Fin 128, A (ix2 n k) * B (ix2 k (i 1))) * ((1 / 50000 : ℝ) : EReal) + C i)
      = fun i : S1x2.Idx => (∑ n : Fin 50000, ∑ k : Fin 128, A' (ix2 n k) * B' (ix2 k (i 1))) * ((1 / 50000 : ℝ) : EReal) + C' (ix1 (i 1)) := by
  subst hA hB
  funext i
  obtain ⟨p, j, rfl⟩ : ∃ (p : Fin 1) (j : Fin 2), i = ix2 p j := ⟨i 0, i 1, eq_ix2 i⟩
  obtain rfl : p = 0 := Subsingleton.elim _ _
  rw [hC j]

variable (m : (ℓ : Loc nD τ sig) → Buf (Elt Ideal) ℓ) (c : Dev nD)

/-- With a bias of real numbers, the last region leaves the reference's result. -/
theorem kernel_result_of (hb : ∀ j : S2.Idx, ∃ r : ℝ, (V0 m c main_arg8 : S2.Idx → EReal) j = (r : EReal)) :
    Hand.outs m 26 main_v132 c = val_main_v152 (F := Ideal) (V0 m c main_arg0) (V0 m c main_arg1) (V0 m c main_arg2) (V0 m c main_arg3) (V0 m c main_arg4) (V0 m c main_arg5) (V0 m c main_arg6) (V0 m c main_arg7) (V0 m c main_arg8) := by
  have hX : W25 m c (main_v130 : DevRef τ sig) = val_main_v144 (F := Ideal) (V0 m c main_arg0) (V0 m c main_arg1) (V0 m c main_arg2) (V0 m c main_arg3) (V0 m c main_arg4) (V0 m c main_arg5) (V0 m c main_arg6) := by
    rw [← Hand.V25_eq m c]; exact x_last m c
  have h7 : W25 m c (main_arg7 : DevRef τ sig) = V0 m c main_arg7 := by
    rw [← Hand.V25_eq m c]; exact arg7_at25 m (Hand.outs m) c
  have h8 : ∀ j : Fin 2, (W25 m c (main_v131 : DevRef τ sig) : S1x2.Idx → EReal) (ix2 (0 : Fin 1) j)
      = (V0 m c main_arg8 : S2.Idx → EReal) (ix1 j) := fun j => by
    rw [← Hand.V25_eq m c]; exact lay25_v131 m (Hand.outs m) c j
  have e : Hand.outs m 26 main_v132 c = G10 (atRefs (W25 m)) c := by
    refine Eq.trans ?_ (final_value (atRefs (W25 m)) c)
    show W26 m c (main_v132 : DevRef τ sig) = _
    unfold W26
    exact Function.update_self (α := DevRef τ sig) (main_v132 : DevRef τ sig) _ _
  exact e.trans ((final_congr _ _ _ _ _ _ hX h7 h8).trans
    (final_stage (V0 m c main_arg0) (V0 m c main_arg1) (V0 m c main_arg2) (V0 m c main_arg3) (V0 m c main_arg4) (V0 m c main_arg5) (V0 m c main_arg6) (V0 m c main_arg7) (V0 m c main_arg8) _ rfl hb))

/-- Under the precondition (every float input finite) the last region leaves the reference's result. -/
theorem kernel_result [Cert.Pre_finite_inputs.Facts] (hpre : Cert.Pre_KernelIdeal m) :
    Hand.outs m 26 main_v132 c = val_main_v152 (F := Ideal) (V0 m c main_arg0) (V0 m c main_arg1) (V0 m c main_arg2) (V0 m c main_arg3) (V0 m c main_arg4) (V0 m c main_arg5) (V0 m c main_arg6) (V0 m c main_arg7) (V0 m c main_arg8) :=
  kernel_result_of m c (fun j => bias_real m hpre c j)

end Cert.Bridge

end
-- ==== Proof.lean ====
/-
  The certificate of a graph-convolution network's forward pass. The kernel's program computes the symmetric
  normalisation of the edge list on the host, then five times a dense product of the node activations (a kernel
  region over ten blocks of 5000 rows), a gather of the product's rows at the source nodes scaled by the edge norms
  and a scatter-add at the target nodes (host operations), and a bias, for the four later layers a skip connection,
  and a rectifier (a kernel region); a last region multiplies the activations by the read-out weight, sums the
  50000 rows block by block in a scratch accumulator, and at the last block scales the sum by 1/50000 and adds the
  read-out bias. The reference computes the same network with host operations only and ends in the mean over the
  rows of (activations · weight + bias).

  The three frames: each kernel program runs as a chain of host stretches and regions, every region entered from
  known buffer contents and left at known ones, so it terminates without a fault with its arguments unchanged; the
  reference is a straight-line host program. The ideal pass named one constant, 1/50000. On the extended reals the
  two programs agree layer by layer: the host stretches are the same operations on equal operands, a region's
  product is the reference's contraction, a region's bias / skip / rectifier block is the reference's pointwise
  operations, and at the end (Σ a) · (1/50000) + b = (Σ (a + b)) / 50000 because the bias is a finite real.
-/
import proofs.«180772_j89300960018653_1_alg».proof.Defs
import proofs.«180772_j89300960018653_1_alg».proof.Proof.Gen.Kernel
import proofs.«180772_j89300960018653_1_alg».proof.Proof.Gen.KernelIdeal
import proofs.«180772_j89300960018653_1_alg».proof.Proof.Gen.ReferenceIdeal
import proofs.«180772_j89300960018653_1_alg».proof.Proof.Gen.Pre_finite_inputs
import proofs.«180772_j89300960018653_1_alg».proof.Proof.Gen.ReferenceIdeal.Read
import proofs.«180772_j89300960018653_1_alg».proof.Proof.K.Run
import proofs.«180772_j89300960018653_1_alg».proof.Proof.KI.Run
import proofs.«180772_j89300960018653_1_alg».proof.Proof.Bridge.Result
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

/-- The reference has no kernel: its frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The one rewrite of the ideal pass: the scale of the final mean is the real 1/50000. -/
theorem preserves : Cert.preserves_Kernel_KernelIdeal :=
  IdealRules.named_const.statement Cert.KernelIdeal.κ "inv_50000" .f32 0x37A7C5AC#32 ((1 / 50000 : ℝ) : EReal) rfl

/-- Both programs run; the kernel's result array ends at what its last region leaves, which layer by layer is the
    reference's last stage of the (agreeing) arguments; the reference's run ends at that stage. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Hand.outs m 26 Cert.KernelIdeal.main_v132 c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v152_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1, (hagree c).2.2.2.2.2.2.2.2]
  haveI : Cert.Pre_finite_inputs.Facts := Cert.Pre_finite_inputs.Gen.facts
  exact (Cert.Bridge.kernel_result m c hpre).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
